-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v164)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v316) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x35 : Shape := ⟨2, ![100000, 35]⟩
abbrev S2x1600000 : Shape := ⟨2, ![2, 1600000]⟩
abbrev S1600000 : Shape := ⟨1, ![1600000]⟩
abbrev S35x100 : Shape := ⟨2, ![35, 100]⟩
abbrev S100 : Shape := ⟨1, ![100]⟩
abbrev S100x5 : Shape := ⟨2, ![100, 5]⟩
abbrev S5 : Shape := ⟨1, ![5]⟩
abbrev S2x3x40x5 : Shape := ⟨4, ![2, 3, 40, 5]⟩
abbrev S5x1 : Shape := ⟨2, ![5, 1]⟩
abbrev S1 : Shape := ⟨1, ![1]⟩
abbrev S_ : Shape := ⟨0, ![]⟩

class Facts : Prop where
  bcast_S_S100000x35 : S_.BroadcastsInDim S100000x35 (![] : Fin 0 → Fin S100000x35.rank)
  reducesTo_S100000x35_S_d0_1 : S100000x35.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S35x100 : S_.BroadcastsInDim S35x100 (![] : Fin 0 → Fin S35x100.rank)
  reducesTo_S35x100_S_d0_1 : S35x100.ReducesTo [0, 1] S_
  bcast_S_S100 : S_.BroadcastsInDim S100 (![] : Fin 0 → Fin S100.rank)
  reducesTo_S100_S_d0 : S100.ReducesTo [0] S_
  bcast_S_S100x5 : S_.BroadcastsInDim S100x5 (![] : Fin 0 → Fin S100x5.rank)
  reducesTo_S100x5_S_d0_1 : S100x5.ReducesTo [0, 1] S_
  bcast_S_S5 : S_.BroadcastsInDim S5 (![] : Fin 0 → Fin S5.rank)
  reducesTo_S5_S_d0 : S5.ReducesTo [0] S_
  bcast_S_S2x3x40x5 : S_.BroadcastsInDim S2x3x40x5 (![] : Fin 0 → Fin S2x3x40x5.rank)
  reducesTo_S2x3x40x5_S_d0_1_2_3 : S2x3x40x5.ReducesTo [0, 1, 2, 3] S_
  bcast_S_S5x1 : S_.BroadcastsInDim S5x1 (![] : Fin 0 → Fin S5x1.rank)
  reducesTo_S5x1_S_d0_1 : S5x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S5 .f32) (main_arg13 : FVec F S5x1 .f32) (main_arg14 : FVec F S1 .f32) (main_v48 : IVec S_ 1) (main_v49 : FVec F S2x3x40x5 .f32) (main_v50 : FVec F S2x3x40x5 .f32) : IVec S_ 1 :=
  let main_v51 : IVec S2x3x40x5 1 := cmpf .olt main_v49 main_v50
  let main_c_19 : IVec S_ 1 := constantI S_ 1 1#1
  let main_v52 : IVec S_ 1 := (fun x v => Host.reduce IntOp.andi x v reducesTo_S2x3x40x5_S_d0_1_2_3 h_S_) main_v51 main_c_19
  let main_v53 : IVec S_ 1 := andi main_v48 main_v52
  let main_v54 : FVec F S5 .f32 := Host.absf main_arg12
  let main_cst_20 : FVec F S_ .f32 := constant S_ .f32 0x7F800000#32
  let main_v55 : FVec F S5 .f32 := broadcastInDim S5 ![] bcast_S_S5 main_cst_20
  let main_v56 : IVec S5 1 := cmpf .olt main_v54 main_v55
  let main_c_21 : IVec S_ 1 := constantI S_ 1 1#1
  let main_v57 : IVec S_ 1 := (fun x v => Host.reduce IntOp.andi x v reducesTo_S5_S_d0 h_S_) main_v56 main_c_21
  let main_v58 : IVec S_ 1 := andi main_v53 main_v57
  let main_v59 : FVec F S5x1 .f32 := Host.absf main_arg13
  let main_cst_22 : FVec F S_ .f32 := constant S_ .f32 0x7F800000#32
  let main_v60 : FVec F S5x1 .f32 := broadcastInDim S5x1 ![] bcast_S_S5x1 main_cst_22
  let main_v61 : IVec S5x1 1 := cmpf .olt main_v59 main_v60
  let main_c_23 : IVec S_ 1 := constantI S_ 1 1#1
  let main_v62 : IVec S_ 1 := (fun x v => Host.reduce IntOp.andi x v reducesTo_S5x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S5 .f32) (main_arg9 : FVec F S2x3x40x5 .f32) (main_arg10 : FVec F S5 .f32) (main_arg11 : FVec F S2x3x40x5 .f32) (main_arg12 : FVec F S5 .f32) (main_arg13 : FVec F S5x1 .f32) (main_arg14 : FVec F S1 .f32) (main_v33 : IVec S_ 1) : IVec S_ 1 :=
  let main_v34 : FVec F S5 .f32 := Host.absf main_arg8
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  let main_v39 : FVec F S2x3x40x5 .f32 := Host.absf main_arg9
  let main_cst_14 : FVec F S_ .f32 := constant S_ .f32 0x7F800000#32
  let main_v40 : FVec F S2x3x40x5 .f32 := broadcastInDim S2x3x40x5 ![] bcast_S_S2x3x40x5 main_cst_14
  let main_v41 : IVec S2x3x40x5 1 := cmpf .olt main_v39 main_v40
  let main_c_15 : IVec S_ 1 := constantI S_ 1 1#1
  let main_v42 : IVec S_ 1 := (fun x v => Host.reduce IntOp.andi x v reducesTo_S2x3x40x5_S_d0_1_2_3 h_S_) main_v41 main_c_15
  let main_v43 : IVec S_ 1 := andi main_v38 main_v42
  let main_v44 : FVec F S5 .f32 := Host.absf main_arg10
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  let main_v49 : FVec F S2x3x40x5 .f32 := Host.absf main_arg11
  let main_cst_18 : FVec F S_ .f32 := constant S_ .f32 0x7F800000#32
  let main_v50 : FVec F S2x3x40x5 .f32 := broadcastInDim S2x3x40x5 ![] bcast_S_S2x3x40x5 main_cst_18
  fn_part3 (F := F) main_arg12 main_arg13 main_arg14 main_v48 main_v49 main_v50

def fn_part1 {F : FTy → Type} [FloatOps F] (main_arg5 : FVec F S100x5 .f32) (main_arg6 : FVec F S5 .f32) (main_arg7 : FVec F S2x3x40x5 .f32) (main_arg8 : FVec F S5 .f32) (main_arg9 : FVec F S2x3x40x5 .f32) (main_arg10 : FVec F S5 .f32) (main_arg11 : FVec F S2x3x40x5 .f32) (main_arg12 : FVec F S5 .f32) (main_arg13 : FVec F S5x1 .f32) (main_arg14 : FVec F S1 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100x5 .f32 := Host.absf main_arg5
  let main_cst_6 : FVec F S_ .f32 := constant S_ .f32 0x7F800000#32
  let main_v20 : FVec F S100x5 .f32 := broadcastInDim S100x5 ![] bcast_S_S100x5 main_cst_6
  let main_v21 : IVec S100x5 1 := cmpf .olt main_v19 main_v20
  let main_c_7 : IVec S_ 1 := constantI S_ 1 1#1
  let main_v22 : IVec S_ 1 := (fun x v => Host.reduce IntOp.andi x v reducesTo_S100x5_S_d0_1 h_S_) main_v21 main_c_7
  let main_v23 : IVec S_ 1 := andi main_v18 main_v22
  let main_v24 : FVec F S5 .f32 := Host.absf main_arg6
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  let main_v29 : FVec F S2x3x40x5 .f32 := Host.absf main_arg7
  let main_cst_10 : FVec F S_ .f32 := constant S_ .f32 0x7F800000#32
  let main_v30 : FVec F S2x3x40x5 .f32 := broadcastInDim S2x3x40x5 ![] bcast_S_S2x3x40x5 main_cst_10
  let main_v31 : IVec S2x3x40x5 1 := cmpf .olt main_v29 main_v30
  let main_c_11 : IVec S_ 1 := constantI S_ 1 1#1
  let main_v32 : IVec S_ 1 := (fun x v => Host.reduce IntOp.andi x v reducesTo_S2x3x40x5_S_d0_1_2_3 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x35 .f32) (main_arg1 : IVec S2x1600000 32) (main_arg2 : FVec F S1600000 .f32) (main_arg3 : FVec F S35x100 .f32) (main_arg4 : FVec F S100 .f32) (main_arg5 : FVec F S100x5 .f32) (main_arg6 : FVec F S5 .f32) (main_arg7 : FVec F S2x3x40x5 .f32) (main_arg8 : FVec F S5 .f32) (main_arg9 : FVec F S2x3x40x5 .f32) (main_arg10 : FVec F S5 .f32) (main_arg11 : FVec F S2x3x40x5 .f32) (main_arg12 : FVec F S5 .f32) (main_arg13 : FVec F S5x1 .f32) (main_arg14 : FVec F S1 .f32) : IVec S_ 1 :=
  let main_v0 : FVec F S100000x35 .f32 := Host.absf main_arg0
  let main_cst : FVec F S_ .f32 := constant S_ .f32 0x7F800000#32
  let main_v1 : FVec F S100000x35 .f32 := broadcastInDim S100000x35 ![] bcast_S_S100000x35 main_cst
  let main_v2 : IVec S100000x35 1 := cmpf .olt main_v0 main_v1
  let main_c : IVec S_ 1 := constantI S_ 1 1#1
  let main_v3 : IVec S_ 1 := (fun x v => Host.reduce IntOp.andi x v reducesTo_S100000x35_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S35x100 .f32 := Host.absf main_arg3
  let main_cst_2 : FVec F S_ .f32 := constant S_ .f32 0x7F800000#32
  let main_v10 : FVec F S35x100 .f32 := broadcastInDim S35x100 ![] bcast_S_S35x100 main_cst_2
  let main_v11 : IVec S35x100 1 := cmpf .olt main_v9 main_v10
  let main_c_3 : IVec S_ 1 := constantI S_ 1 1#1
  let main_v12 : IVec S_ 1 := (fun x v => Host.reduce IntOp.andi x v reducesTo_S35x100_S_d0_1 h_S_) main_v11 main_c_3
  let main_v13 : IVec S_ 1 := andi main_v8 main_v12
  let main_v14 : FVec F S100 .f32 := Host.absf main_arg4
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x35 : Shape := ⟨2, ![100000, 35]⟩
abbrev S2x1600000 : Shape := ⟨2, ![2, 1600000]⟩
abbrev S1600000 : Shape := ⟨1, ![1600000]⟩
abbrev S35x100 : Shape := ⟨2, ![35, 100]⟩
abbrev S100 : Shape := ⟨1, ![100]⟩
abbrev S100x5 : Shape := ⟨2, ![100, 5]⟩
abbrev S5 : Shape := ⟨1, ![5]⟩
abbrev S2x3x40x5 : Shape := ⟨4, ![2, 3, 40, 5]⟩
abbrev S5x1 : Shape := ⟨2, ![5, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1x100 : Shape := ⟨2, ![1, 100]⟩
abbrev S1x5 : Shape := ⟨2, ![1, 5]⟩
abbrev S100000x5 : Shape := ⟨2, ![100000, 5]⟩
abbrev S10000x35 : Shape := ⟨2, ![10000, 35]⟩
abbrev S10000x5 : Shape := ⟨2, ![10000, 5]⟩
abbrev S10000x100 : Shape := ⟨2, ![10000, 100]⟩
abbrev S100000x40 : Shape := ⟨2, ![100000, 40]⟩
abbrev S1600000x40 : Shape := ⟨2, ![1600000, 40]⟩
abbrev S100000x240 : Shape := ⟨2, ![100000, 240]⟩
abbrev S240x5 : Shape := ⟨2, ![240, 5]⟩
abbrev S5000x240 : Shape := ⟨2, ![5000, 240]⟩
abbrev S5000x5 : Shape := ⟨2, ![5000, 5]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 217
  | .vmem => 30
  | .smem => 0
  | _ => 0

abbrev hbmTy0_0 (i : Nat) : BufTy := match i % 128 with
  | 0 => ⟨S100000x35, .f32⟩
  | 1 => ⟨S2x1600000, .i32⟩
  | 2 => ⟨S1600000, .f32⟩
  | 3 => ⟨S35x100, .f32⟩
  | 4 => ⟨S100, .f32⟩
  | 5 => ⟨S100x5, .f32⟩
  | 6 => ⟨S5, .f32⟩
  | 7 => ⟨S2x3x40x5, .f32⟩
  | 8 => ⟨S5, .f32⟩
  | 9 => ⟨S2x3x40x5, .f32⟩
  | 10 => ⟨S5, .f32⟩
  | 11 => ⟨S2x3x40x5, .f32⟩
  | 12 => ⟨S5, .f32⟩
  | 13 => ⟨S5x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .f32⟩
  | 37 => ⟨S1600000, .f32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S_, .f32⟩
  | 50 => ⟨S1600000, .f32⟩
  | 51 => ⟨S1600000, .f32⟩
  | 52 => ⟨S1600000, .f32⟩
  | 53 => ⟨S1x100, .f32⟩
  | 54 => ⟨S1x5, .f32⟩
  | 55 => ⟨S100000x5, .f32⟩
  | 56 => ⟨S100000x40, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x40, .f32⟩
  | 66 => ⟨S1600000x1, .f32⟩
  | 67 => ⟨S1600000x40, .f32⟩
  | 68 => ⟨S1600000x40, .f32⟩
  | 69 => ⟨S_, .f32⟩
  | 70 => ⟨S100000x40, .f32⟩
  | 71 => ⟨S1600000x1, .i32⟩
  | 72 => ⟨S100000x40, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x40, .f32⟩
  | 82 => ⟨S1600000x1, .f32⟩
  | 83 => ⟨S1600000x40, .f32⟩
  | 84 => ⟨S1600000x40, .f32⟩
  | 85 => ⟨S_, .f32⟩
  | 86 => ⟨S100000x40, .f32⟩
  | 87 => ⟨S1600000x1, .i32⟩
  | 88 => ⟨S100000x40, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x40, .f32⟩
  | 98 => ⟨S1600000x1, .f32⟩
  | 99 => ⟨S1600000x40, .f32⟩
  | 100 => ⟨S1600000x40, .f32⟩
  | 101 => ⟨S_, .f32⟩
  | 102 => ⟨S100000x40, .f32⟩
  | 103 => ⟨S1600000x1, .i32⟩
  | 104 => ⟨S100000x40, .f32⟩
  | 105 => ⟨S_, .f32⟩
  | 106 => ⟨S100000x40, .f32⟩
  | 107 => ⟨S100000x40, .f32⟩
  | 108 => ⟨S100000x40, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x40, .f32⟩
  | 118 => ⟨S1600000x1, .f32⟩
  | 119 => ⟨S1600000x40, .f32⟩
  | 120 => ⟨S1600000x40, .f32⟩
  | 121 => ⟨S_, .f32⟩
  | 122 => ⟨S100000x40, .f32⟩
  | 123 => ⟨S1600000x1, .i32⟩
  | 124 => ⟨S100000x40, .f32⟩
  | 125 => ⟨S_, .f32⟩
  | 126 => ⟨S100000x40, .f32⟩
  | 127 => ⟨S100000x40, .f32⟩
  | _ => ⟨S100000x35, .f32⟩

abbrev hbmTy0_1 (i : Nat) : BufTy := match i % 128 with
  | 0 => ⟨S100000x40, .f32⟩
  | 1 => ⟨S100000x240, .f32⟩
  | 2 => ⟨S100000x240, .bf16⟩
  | 3 => ⟨S240x5, .f32⟩
  | 4 => ⟨S240x5, .f32⟩
  | 5 => ⟨S1x5, .f32⟩
  | 6 => ⟨S1x5, .f32⟩
  | 7 => ⟨S100000x5, .f32⟩
  | 8 => ⟨S100000x5, .f32⟩
  | 9 => ⟨S100000x5, .f32⟩
  | 10 => ⟨S100000x40, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x40, .f32⟩
  | 20 => ⟨S1600000x1, .f32⟩
  | 21 => ⟨S1600000x40, .f32⟩
  | 22 => ⟨S1600000x40, .f32⟩
  | 23 => ⟨S_, .f32⟩
  | 24 => ⟨S100000x40, .f32⟩
  | 25 => ⟨S1600000x1, .i32⟩
  | 26 => ⟨S100000x40, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x40, .f32⟩
  | 36 => ⟨S1600000x1, .f32⟩
  | 37 => ⟨S1600000x40, .f32⟩
  | 38 => ⟨S1600000x40, .f32⟩
  | 39 => ⟨S_, .f32⟩
  | 40 => ⟨S100000x40, .f32⟩
  | 41 => ⟨S1600000x1, .i32⟩
  | 42 => ⟨S100000x40, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x40, .f32⟩
  | 52 => ⟨S1600000x1, .f32⟩
  | 53 => ⟨S1600000x40, .f32⟩
  | 54 => ⟨S1600000x40, .f32⟩
  | 55 => ⟨S_, .f32⟩
  | 56 => ⟨S100000x40, .f32⟩
  | 57 => ⟨S1600000x1, .i32⟩
  | 58 => ⟨S100000x40, .f32⟩
  | 59 => ⟨S_, .f32⟩
  | 60 => ⟨S100000x40, .f32⟩
  | 61 => ⟨S100000x40, .f32⟩
  | 62 => ⟨S100000x40, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x40, .f32⟩
  | 72 => ⟨S1600000x1, .f32⟩
  | 73 => ⟨S1600000x40, .f32⟩
  | 74 => ⟨S1600000x40, .f32⟩
  | 75 => ⟨S_, .f32⟩
  | 76 => ⟨S100000x40, .f32⟩
  | 77 => ⟨S1600000x1, .i32⟩
  | 78 => ⟨S100000x40, .f32⟩
  | 79 => ⟨S_, .f32⟩
  | 80 => ⟨S100000x40, .f32⟩
  | 81 => ⟨S100000x40, .f32⟩
  | 82 => ⟨S100000x40, .f32⟩
  | 83 => ⟨S100000x240, .f32⟩
  | 84 => ⟨S100000x240, .bf16⟩
  | 85 => ⟨S240x5, .f32⟩
  | 86 => ⟨S1x5, .f32⟩
  | 87 => ⟨S1x1, .f32⟩
  | 88 => ⟨S100000x1, .f32⟩
  | _ => ⟨S100000x35, .f32⟩

abbrev hbmTy (i : Nat) : BufTy := match i / 128 with
  | 0 => hbmTy0_0 i
  | 1 => hbmTy0_1 i
  | _ => ⟨S100000x35, .f32⟩

abbrev bufTy : (tb : Table) → Fin (tcTables nBuf tb) → BufTy
  | .hbm, ⟨i, _⟩ => hbmTy i
  | .local _ .vmem, ⟨0, _⟩ => ⟨S10000x35, .f32⟩
  | .local _ .vmem, ⟨1, _⟩ => ⟨S10000x35, .f32⟩
  | .local _ .vmem, ⟨2, _⟩ => ⟨S35x100, .f32⟩
  | .local _ .vmem, ⟨3, _⟩ => ⟨S1x100, .f32⟩
  | .local _ .vmem, ⟨4, _⟩ => ⟨S100x5, .f32⟩
  | .local _ .vmem, ⟨5, _⟩ => ⟨S1x5, .f32⟩
  | .local _ .vmem, ⟨6, _⟩ => ⟨S10000x5, .f32⟩
  | .local _ .vmem, ⟨7, _⟩ => ⟨S10000x5, .f32⟩
  | .local _ .vmem, ⟨8, _⟩ => ⟨S5000x240, .bf16⟩
  | .local _ .vmem, ⟨9, _⟩ => ⟨S5000x240, .bf16⟩
  | .local _ .vmem, ⟨10, _⟩ => ⟨S240x5, .f32⟩
  | .local _ .vmem, ⟨11, _⟩ => ⟨S1x5, .f32⟩
  | .local _ .vmem, ⟨12, _⟩ => ⟨S240x5, .f32⟩
  | .local _ .vmem, ⟨13, _⟩ => ⟨S1x5, .f32⟩
  | .local _ .vmem, ⟨14, _⟩ => ⟨S5000x5, .f32⟩
  | .local _ .vmem, ⟨15, _⟩ => ⟨S5000x5, .f32⟩
  | .local _ .vmem, ⟨16, _⟩ => ⟨S5000x5, .f32⟩
  | .local _ .vmem, ⟨17, _⟩ => ⟨S5000x5, .f32⟩
  | .local _ .vmem, ⟨18, _⟩ => ⟨S5000x240, .bf16⟩
  | .local _ .vmem, ⟨19, _⟩ => ⟨S5000x240, .bf16⟩
  | .local _ .vmem, ⟨20, _⟩ => ⟨S240x5, .f32⟩
  | .local _ .vmem, ⟨21, _⟩ => ⟨S1x5, .f32⟩
  | .local _ .vmem, ⟨22, _⟩ => ⟨S5000x5, .f32⟩
  | .local _ .vmem, ⟨23, _⟩ => ⟨S5000x5, .f32⟩
  | .local _ .vmem, ⟨24, _⟩ => ⟨S5000x5, .f32⟩
  | .local _ .vmem, ⟨25, _⟩ => ⟨S5000x5, .f32⟩
  | .local _ .vmem, ⟨26, _⟩ => ⟨S5x1, .f32⟩
  | .local _ .vmem, ⟨27, _⟩ => ⟨S1x1, .f32⟩
  | .local _ .vmem, ⟨28, _⟩ => ⟨S5000x1, .f32⟩
  | .local _ .vmem, ⟨29, _⟩ => ⟨S5000x1, .f32⟩
  | _, _ => ⟨S100000x35, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_16 : Ref sig .tc := ⟨.hbm, 109, rfl⟩
abbrev main_v76 : Ref sig .tc := ⟨.hbm, 110, rfl⟩
abbrev main_v77 : Ref sig .tc := ⟨.hbm, 111, rfl⟩
abbrev main_c_17 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_18 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98_0 : Ref sig .tc := ⟨.hbm, 135, rfl⟩
abbrev main_v98_1 : Ref sig .tc := ⟨.hbm, 136, rfl⟩
abbrev main_v99 : Ref sig .tc := ⟨.hbm, 137, rfl⟩
abbrev main_v100 : Ref sig .tc := ⟨.hbm, 138, rfl⟩
abbrev main_c_20 : Ref sig .tc := ⟨.hbm, 139, rfl⟩
abbrev main_v101 : Ref sig .tc := ⟨.hbm, 140, rfl⟩
abbrev main_v102 : Ref sig .tc := ⟨.hbm, 141, rfl⟩
abbrev main_c_21 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_22 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_c_23 : Ref sig .tc := ⟨.hbm, 155, rfl⟩
abbrev main_v114 : Ref sig .tc := ⟨.hbm, 156, rfl⟩
abbrev main_v115 : Ref sig .tc := ⟨.hbm, 157, rfl⟩
abbrev main_c_24 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_25 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_c_26 : Ref sig .tc := ⟨.hbm, 171, rfl⟩
abbrev main_v127 : Ref sig .tc := ⟨.hbm, 172, rfl⟩
abbrev main_v128 : Ref sig .tc := ⟨.hbm, 173, rfl⟩
abbrev main_c_27 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_28 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_29 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_c_30 : Ref sig .tc := ⟨.hbm, 191, rfl⟩
abbrev main_v143 : Ref sig .tc := ⟨.hbm, 192, rfl⟩
abbrev main_v144 : Ref sig .tc := ⟨.hbm, 193, rfl⟩
abbrev main_c_31 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_32 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_33 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x35 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S35x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S240x5 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S240x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x5 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x5 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x240 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S240x5 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x5 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x5 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x5 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S5x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S100_S1x100 : S100.ShapeCasts S1x100
  shapeCasts_S5_S1x5 : S5.ShapeCasts S1x5
  inb_S10000x35_S10000x35_0_0 : ∀ a, (![0, 0] : Fin 2 → Nat) a + S10000x35.size a ≤ S10000x35.size a
  h_S10000x35 : 0 < S10000x35.numel
  bitsLt_bf16_f32 : FTy.bits .bf16 < FTy.bits .f32
  inb_S35x100_S35x100_0_0 : ∀ a, (![0, 0] : Fin 2 → Nat) a + S35x100.size a ≤ S35x100.size a
  h_S35x100 : 0 < S35x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S10000x100 : S1x100.Broadcasts S10000x100
  inb_S100x5_S100x5_0_0 : ∀ a, (![0, 0] : Fin 2 → Nat) a + S100x5.size a ≤ S100x5.size a
  h_S100x5 : 0 < S100x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  inb_S10000x5_S10000x5_0_0 : ∀ a, (![0, 0] : Fin 2 → Nat) a + S10000x5.size a ≤ S10000x5.size a
  h_S10000x5 : 0 < S10000x5.numel
  concatenates_S100000x35_S100000x5_S100000x40_d1 : Shape.Concatenates [S100000x35, S100000x5] S100000x40 1
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  concatenates_S100000x40_S100000x40_S100000x40_S100000x40_S100000x40_S100000x40_S100000x240_d1 : Shape.Concatenates [S100000x40, S100000x40, S100000x40, S100000x40, S100000x40, S100000x40] S100000x240 1
  shapeCasts_S2x3x40x5_S240x5 : S2x3x40x5.ShapeCasts S240x5
  inb_S5000x240_S5000x240_0_0 : ∀ a, (![0, 0] : Fin 2 → Nat) a + S5000x240.size a ≤ S5000x240.size a
  h_S5000x240 : 0 < S5000x240.numel
  shapeCasts_S5000x240_S5000x240 : S5000x240.ShapeCasts S5000x240
  inb_S240x5_S240x5_0_0 : ∀ a, (![0, 0] : Fin 2 → Nat) a + S240x5.size a ≤ S240x5.size a
  h_S240x5 : 0 < S240x5.numel
  shapeCasts_S240x5_S240x5 : S240x5.ShapeCasts S240x5
  broadcasts_S1x5_S5000x5 : S1x5.Broadcasts S5000x5
  inb_S5000x5_S5000x5_0_0 : ∀ a, (![0, 0] : Fin 2 → Nat) a + S5000x5.size a ≤ S5000x5.size a
  h_S5000x5 : 0 < S5000x5.numel
  shapeCasts_S1_S1x1 : S1.ShapeCasts S1x1
  shapeCasts_S5000x5_S5000x5 : S5000x5.ShapeCasts S5000x5
  inb_S5x1_S5x1_0_0 : ∀ a, (![0, 0] : Fin 2 → Nat) a + S5x1.size a ≤ S5x1.size a
  h_S5x1 : 0 < S5x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x35_S35x100_S10000x100_1_0_0_1_n_n_wf : DotDims.WF S10000x35 S35x100 S10000x100 [1] [0] [0] [1] [] []
  dot_S10000x100_S100x5_S10000x5_1_0_0_1_n_n_wf : DotDims.WF S10000x100 S100x5 S10000x5 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  dot_S5000x240_S240x5_S5000x5_1_0_0_1_n_n_wf : DotDims.WF S5000x240 S240x5 S5000x5 [1] [0] [0] [1] [] []
  dot_S5000x5_S5x1_S5000x1_1_0_0_1_n_n_wf : DotDims.WF S5000x5 S5x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x35.size a ≤ S100000x35.size a
  hwx0_0 : ∀ i : grid0.Coords, EltTy.bits .f32 = 32 ∨ (Rect.block (s := S100000x35) S10000x35.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S35x100.size a ≤ S35x100.size a
  hwx0_1 : ∀ i : grid0.Coords, EltTy.bits .f32 = 32 ∨ (Rect.block (s := S35x100) S35x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x5.size a ≤ S100x5.size a
  hwx0_3 : ∀ i : grid0.Coords, EltTy.bits .f32 = 32 ∨ (Rect.block (s := S100x5) S100x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5.size a ≤ S1x5.size a
  hwx0_4 : ∀ i : grid0.Coords, EltTy.bits .f32 = 32 ∨ (Rect.block (s := S1x5) S1x5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x5.size a ≤ S100000x5.size a
  hwx0_5 : ∀ i : grid0.Coords, EltTy.bits .f32 = 32 ∨ (Rect.block (s := S100000x5) S10000x5.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x240.size a ≤ S100000x240.size a
  hwx1_0 : ∀ i : grid1.Coords, EltTy.bits .bf16 = 32 ∨ (Rect.block (s := S100000x240) S5000x240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S240x5.size a ≤ S240x5.size a
  hwx1_1 : ∀ i : grid1.Coords, EltTy.bits .f32 = 32 ∨ (Rect.block (s := S240x5) S240x5.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x5.size a ≤ S1x5.size a
  hwx1_2 : ∀ i : grid1.Coords, EltTy.bits .f32 = 32 ∨ (Rect.block (s := S1x5) S1x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S240x5.size a ≤ S240x5.size a
  hwx1_3 : ∀ i : grid1.Coords, EltTy.bits .f32 = 32 ∨ (Rect.block (s := S240x5) S240x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5.size a ≤ S1x5.size a
  hwx1_4 : ∀ i : grid1.Coords, EltTy.bits .f32 = 32 ∨ (Rect.block (s := S1x5) S1x5.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x5.size a ≤ S100000x5.size a
  hwx1_5 : ∀ i : grid1.Coords, EltTy.bits .f32 = 32 ∨ (Rect.block (s := S100000x5) S5000x5.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x5.size a ≤ S100000x5.size a
  hwx1_6 : ∀ i : grid1.Coords, EltTy.bits .f32 = 32 ∨ (Rect.block (s := S100000x5) S5000x5.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x240.size a ≤ S100000x240.size a
  hwx2_0 : ∀ i : grid2.Coords, EltTy.bits .bf16 = 32 ∨ (Rect.block (s := S100000x240) S5000x240.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S240x5.size a ≤ S240x5.size a
  hwx2_1 : ∀ i : grid2.Coords, EltTy.bits .f32 = 32 ∨ (Rect.block (s := S240x5) S240x5.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x5.size a ≤ S1x5.size a
  hwx2_2 : ∀ i : grid2.Coords, EltTy.bits .f32 = 32 ∨ (Rect.block (s := S1x5) S1x5.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x5.size a ≤ S100000x5.size a
  hwx2_3 : ∀ i : grid2.Coords, EltTy.bits .f32 = 32 ∨ (Rect.block (s := S100000x5) S5000x5.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x5.size a ≤ S100000x5.size a
  hwx2_4 : ∀ i : grid2.Coords, EltTy.bits .f32 = 32 ∨ (Rect.block (s := S100000x5) S5000x5.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S5x1.size a ≤ S5x1.size a
  hwx2_5 : ∀ i : grid2.Coords, EltTy.bits .f32 = 32 ∨ (Rect.block (s := S5x1) S5x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S100000x1.size a
  hwx2_7 : ∀ i : grid2.Coords, EltTy.bits .f32 = 32 ∨ (Rect.block (s := S100000x1) S5000x1.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x35_S35x100_S10000x100_1_0_0_1_n_n : DotDims S10000x35 S35x100 S10000x100 where
  lhsContracting := [1]
  rhsContracting := [0]
  lhsNonContracting := [0]
  rhsNonContracting := [1]
  lhsBatch := []
  rhsBatch := []
  wf := dot_S10000x35_S35x100_S10000x100_1_0_0_1_n_n_wf
def dot_S10000x100_S100x5_S10000x5_1_0_0_1_n_n : DotDims S10000x100 S100x5 S10000x5 where
  lhsContracting := [1]
  rhsContracting := [0]
  lhsNonContracting := [0]
  rhsNonContracting := [1]
  lhsBatch := []
  rhsBatch := []
  wf := dot_S10000x100_S100x5_S10000x5_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf
def dot_S5000x240_S240x5_S5000x5_1_0_0_1_n_n : DotDims S5000x240 S240x5 S5000x5 where
  lhsContracting := [1]
  rhsContracting := [0]
  lhsNonContracting := [0]
  rhsNonContracting := [1]
  lhsBatch := []
  rhsBatch := []
  wf := dot_S5000x240_S240x5_S5000x5_1_0_0_1_n_n_wf
def dot_S5000x5_S5x1_S5000x1_1_0_0_1_n_n : DotDims S5000x5 S5x1 S5000x1 where
  lhsContracting := [1]
  rhsContracting := [0]
  lhsNonContracting := [0]
  rhsNonContracting := [1]
  lhsBatch := []
  rhsBatch := []
  wf := dot_S5000x5_S5x1_S5000x1_1_0_0_1_n_n_wf

abbrev win0_0 : Pipeline.Window sig grid0 :=
  Pipeline.Window.ofSpec (Memref.whole main_arg0) S10000x35.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S35x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S100x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S10000x5.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v93) S5000x240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v94) S240x5.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v96) S1x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v95) S240x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v97) S1x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v98_0) S5000x5.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v98_1) S5000x5.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v160) S5000x240.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v161) S240x5.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v162) S1x5.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v98_0) S5000x5.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32) S5000x5.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S5x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v163) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v164) S5000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x35 : Shape := ⟨2, ![100000, 35]⟩
abbrev S2x1600000 : Shape := ⟨2, ![2, 1600000]⟩
abbrev S1600000 : Shape := ⟨1, ![1600000]⟩
abbrev S35x100 : Shape := ⟨2, ![35, 100]⟩
abbrev S100 : Shape := ⟨1, ![100]⟩
abbrev S100x5 : Shape := ⟨2, ![100, 5]⟩
abbrev S5 : Shape := ⟨1, ![5]⟩
abbrev S2x3x40x5 : Shape := ⟨4, ![2, 3, 40, 5]⟩
abbrev S5x1 : Shape := ⟨2, ![5, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x100 : Shape := ⟨2, ![100000, 100]⟩
abbrev S1x100 : Shape := ⟨2, ![1, 100]⟩
abbrev S100000x5 : Shape := ⟨2, ![100000, 5]⟩
abbrev S1x5 : Shape := ⟨2, ![1, 5]⟩
abbrev S100000x40 : Shape := ⟨2, ![100000, 40]⟩
abbrev S1x1x40x5 : Shape := ⟨4, ![1, 1, 40, 5]⟩
abbrev S40x5 : Shape := ⟨2, ![40, 5]⟩
abbrev S1600000x40 : Shape := ⟨2, ![1600000, 40]⟩
abbrev S100000x1 : Shape := ⟨2, ![100000, 1]⟩
abbrev S1x1 : Shape := ⟨2, ![1, 1]⟩

abbrev nBuf : Space → Nat
  | .hbm => 391
  | .vmem => 0
  | .smem => 0
  | _ => 0

abbrev hbmTy0_0 (i : Nat) : BufTy := match i % 128 with
  | 0 => ⟨S100000x35, .f32⟩
  | 1 => ⟨S2x1600000, .i32⟩
  | 2 => ⟨S1600000, .f32⟩
  | 3 => ⟨S35x100, .f32⟩
  | 4 => ⟨S100, .f32⟩
  | 5 => ⟨S100x5, .f32⟩
  | 6 => ⟨S5, .f32⟩
  | 7 => ⟨S2x3x40x5, .f32⟩
  | 8 => ⟨S5, .f32⟩
  | 9 => ⟨S2x3x40x5, .f32⟩
  | 10 => ⟨S5, .f32⟩
  | 11 => ⟨S2x3x40x5, .f32⟩
  | 12 => ⟨S5, .f32⟩
  | 13 => ⟨S5x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .f32⟩
  | 37 => ⟨S1600000, .f32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S_, .f32⟩
  | 50 => ⟨S1600000, .f32⟩
  | 51 => ⟨S1600000, .f32⟩
  | 52 => ⟨S1600000, .f32⟩
  | 53 => ⟨S100000x100, .f32⟩
  | 54 => ⟨S1x100, .f32⟩
  | 55 => ⟨S100000x100, .f32⟩
  | 56 => ⟨S100000x100, .f32⟩
  | 57 => ⟨S_, .f32⟩
  | 58 => ⟨S100000x100, .f32⟩
  | 59 => ⟨S100000x100, .f32⟩
  | 60 => ⟨S100000x5, .f32⟩
  | 61 => ⟨S1x5, .f32⟩
  | 62 => ⟨S100000x5, .f32⟩
  | 63 => ⟨S100000x5, .f32⟩
  | 64 => ⟨S100000x40, .f32⟩
  | 65 => ⟨S1x1x40x5, .f32⟩
  | 66 => ⟨S40x5, .f32⟩
  | 67 => ⟨S100000x5, .f32⟩
  | 68 => ⟨S1x1x40x5, .f32⟩
  | 69 => ⟨S40x5, .f32⟩
  | 70 => ⟨S100000x5, .f32⟩
  | 71 => ⟨S100000x5, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x40, .f32⟩
  | 81 => ⟨S1600000x1, .f32⟩
  | 82 => ⟨S1600000x40, .f32⟩
  | 83 => ⟨S1600000x40, .f32⟩
  | 84 => ⟨S_, .f32⟩
  | 85 => ⟨S100000x40, .f32⟩
  | 86 => ⟨S1600000x1, .i32⟩
  | 87 => ⟨S100000x40, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x40, .f32⟩
  | 97 => ⟨S1600000x1, .f32⟩
  | 98 => ⟨S1600000x40, .f32⟩
  | 99 => ⟨S1600000x40, .f32⟩
  | 100 => ⟨S_, .f32⟩
  | 101 => ⟨S100000x40, .f32⟩
  | 102 => ⟨S1600000x1, .i32⟩
  | 103 => ⟨S100000x40, .f32⟩
  | 104 => ⟨S1x1x40x5, .f32⟩
  | 105 => ⟨S40x5, .f32⟩
  | 106 => ⟨S100000x5, .f32⟩
  | 107 => ⟨S100000x5, .f32⟩
  | 108 => ⟨S1x1x40x5, .f32⟩
  | 109 => ⟨S40x5, .f32⟩
  | 110 => ⟨S100000x5, .f32⟩
  | 111 => ⟨S100000x5, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x40, .f32⟩
  | 121 => ⟨S1600000x1, .f32⟩
  | 122 => ⟨S1600000x40, .f32⟩
  | 123 => ⟨S1600000x40, .f32⟩
  | 124 => ⟨S_, .f32⟩
  | 125 => ⟨S100000x40, .f32⟩
  | 126 => ⟨S1600000x1, .i32⟩
  | 127 => ⟨S100000x40, .f32⟩
  | _ => ⟨S100000x35, .f32⟩

abbrev hbmTy0_1 (i : Nat) : BufTy := match i % 128 with
  | 0 => ⟨S_, .f32⟩
  | 1 => ⟨S100000x40, .f32⟩
  | 2 => ⟨S100000x40, .f32⟩
  | 3 => ⟨S100000x40, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x40, .f32⟩
  | 13 => ⟨S1600000x1, .f32⟩
  | 14 => ⟨S1600000x40, .f32⟩
  | 15 => ⟨S1600000x40, .f32⟩
  | 16 => ⟨S_, .f32⟩
  | 17 => ⟨S100000x40, .f32⟩
  | 18 => ⟨S1600000x1, .i32⟩
  | 19 => ⟨S100000x40, .f32⟩
  | 20 => ⟨S_, .f32⟩
  | 21 => ⟨S100000x40, .f32⟩
  | 22 => ⟨S100000x40, .f32⟩
  | 23 => ⟨S100000x40, .f32⟩
  | 24 => ⟨S1x1x40x5, .f32⟩
  | 25 => ⟨S40x5, .f32⟩
  | 26 => ⟨S100000x5, .f32⟩
  | 27 => ⟨S100000x5, .f32⟩
  | 28 => ⟨S1x1x40x5, .f32⟩
  | 29 => ⟨S40x5, .f32⟩
  | 30 => ⟨S100000x5, .f32⟩
  | 31 => ⟨S100000x5, .f32⟩
  | 32 => ⟨S1x5, .f32⟩
  | 33 => ⟨S100000x5, .f32⟩
  | 34 => ⟨S100000x5, .f32⟩
  | 35 => ⟨S100000x5, .f32⟩
  | 36 => ⟨S100000x5, .f32⟩
  | 37 => ⟨S_, .f32⟩
  | 38 => ⟨S100000x5, .f32⟩
  | 39 => ⟨S100000x5, .f32⟩
  | 40 => ⟨S_, .f32⟩
  | 41 => ⟨S100000x5, .f32⟩
  | 42 => ⟨S100000x5, .f32⟩
  | 43 => ⟨S1x1x40x5, .f32⟩
  | 44 => ⟨S40x5, .f32⟩
  | 45 => ⟨S100000x5, .f32⟩
  | 46 => ⟨S1x1x40x5, .f32⟩
  | 47 => ⟨S40x5, .f32⟩
  | 48 => ⟨S100000x5, .f32⟩
  | 49 => ⟨S100000x5, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x40, .f32⟩
  | 59 => ⟨S1600000x1, .f32⟩
  | 60 => ⟨S1600000x40, .f32⟩
  | 61 => ⟨S1600000x40, .f32⟩
  | 62 => ⟨S_, .f32⟩
  | 63 => ⟨S100000x40, .f32⟩
  | 64 => ⟨S1600000x1, .i32⟩
  | 65 => ⟨S100000x40, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x40, .f32⟩
  | 75 => ⟨S1600000x1, .f32⟩
  | 76 => ⟨S1600000x40, .f32⟩
  | 77 => ⟨S1600000x40, .f32⟩
  | 78 => ⟨S_, .f32⟩
  | 79 => ⟨S100000x40, .f32⟩
  | 80 => ⟨S1600000x1, .i32⟩
  | 81 => ⟨S100000x40, .f32⟩
  | 82 => ⟨S1x1x40x5, .f32⟩
  | 83 => ⟨S40x5, .f32⟩
  | 84 => ⟨S100000x5, .f32⟩
  | 85 => ⟨S100000x5, .f32⟩
  | 86 => ⟨S1x1x40x5, .f32⟩
  | 87 => ⟨S40x5, .f32⟩
  | 88 => ⟨S100000x5, .f32⟩
  | 89 => ⟨S100000x5, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x40, .f32⟩
  | 99 => ⟨S1600000x1, .f32⟩
  | 100 => ⟨S1600000x40, .f32⟩
  | 101 => ⟨S1600000x40, .f32⟩
  | 102 => ⟨S_, .f32⟩
  | 103 => ⟨S100000x40, .f32⟩
  | 104 => ⟨S1600000x1, .i32⟩
  | 105 => ⟨S100000x40, .f32⟩
  | 106 => ⟨S_, .f32⟩
  | 107 => ⟨S100000x40, .f32⟩
  | 108 => ⟨S100000x40, .f32⟩
  | 109 => ⟨S100000x40, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x40, .f32⟩
  | 119 => ⟨S1600000x1, .f32⟩
  | 120 => ⟨S1600000x40, .f32⟩
  | 121 => ⟨S1600000x40, .f32⟩
  | 122 => ⟨S_, .f32⟩
  | 123 => ⟨S100000x40, .f32⟩
  | 124 => ⟨S1600000x1, .i32⟩
  | 125 => ⟨S100000x40, .f32⟩
  | 126 => ⟨S_, .f32⟩
  | 127 => ⟨S100000x40, .f32⟩
  | _ => ⟨S100000x35, .f32⟩

abbrev hbmTy0_2 (i : Nat) : BufTy := match i % 128 with
  | 0 => ⟨S100000x40, .f32⟩
  | 1 => ⟨S100000x40, .f32⟩
  | 2 => ⟨S1x1x40x5, .f32⟩
  | 3 => ⟨S40x5, .f32⟩
  | 4 => ⟨S100000x5, .f32⟩
  | 5 => ⟨S100000x5, .f32⟩
  | 6 => ⟨S1x1x40x5, .f32⟩
  | 7 => ⟨S40x5, .f32⟩
  | 8 => ⟨S100000x5, .f32⟩
  | 9 => ⟨S100000x5, .f32⟩
  | 10 => ⟨S1x5, .f32⟩
  | 11 => ⟨S100000x5, .f32⟩
  | 12 => ⟨S100000x5, .f32⟩
  | 13 => ⟨S100000x5, .f32⟩
  | 14 => ⟨S100000x5, .f32⟩
  | 15 => ⟨S_, .f32⟩
  | 16 => ⟨S100000x5, .f32⟩
  | 17 => ⟨S100000x5, .f32⟩
  | 18 => ⟨S_, .f32⟩
  | 19 => ⟨S100000x5, .f32⟩
  | 20 => ⟨S100000x5, .f32⟩
  | 21 => ⟨S100000x5, .f32⟩
  | 22 => ⟨S100000x40, .f32⟩
  | 23 => ⟨S1x1x40x5, .f32⟩
  | 24 => ⟨S40x5, .f32⟩
  | 25 => ⟨S100000x5, .f32⟩
  | 26 => ⟨S1x1x40x5, .f32⟩
  | 27 => ⟨S40x5, .f32⟩
  | 28 => ⟨S100000x5, .f32⟩
  | 29 => ⟨S100000x5, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x40, .f32⟩
  | 39 => ⟨S1600000x1, .f32⟩
  | 40 => ⟨S1600000x40, .f32⟩
  | 41 => ⟨S1600000x40, .f32⟩
  | 42 => ⟨S_, .f32⟩
  | 43 => ⟨S100000x40, .f32⟩
  | 44 => ⟨S1600000x1, .i32⟩
  | 45 => ⟨S100000x40, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x40, .f32⟩
  | 55 => ⟨S1600000x1, .f32⟩
  | 56 => ⟨S1600000x40, .f32⟩
  | 57 => ⟨S1600000x40, .f32⟩
  | 58 => ⟨S_, .f32⟩
  | 59 => ⟨S100000x40, .f32⟩
  | 60 => ⟨S1600000x1, .i32⟩
  | 61 => ⟨S100000x40, .f32⟩
  | 62 => ⟨S1x1x40x5, .f32⟩
  | 63 => ⟨S40x5, .f32⟩
  | 64 => ⟨S100000x5, .f32⟩
  | 65 => ⟨S100000x5, .f32⟩
  | 66 => ⟨S1x1x40x5, .f32⟩
  | 67 => ⟨S40x5, .f32⟩
  | 68 => ⟨S100000x5, .f32⟩
  | 69 => ⟨S100000x5, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x40, .f32⟩
  | 79 => ⟨S1600000x1, .f32⟩
  | 80 => ⟨S1600000x40, .f32⟩
  | 81 => ⟨S1600000x40, .f32⟩
  | 82 => ⟨S_, .f32⟩
  | 83 => ⟨S100000x40, .f32⟩
  | 84 => ⟨S1600000x1, .i32⟩
  | 85 => ⟨S100000x40, .f32⟩
  | 86 => ⟨S_, .f32⟩
  | 87 => ⟨S100000x40, .f32⟩
  | 88 => ⟨S100000x40, .f32⟩
  | 89 => ⟨S100000x40, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x40, .f32⟩
  | 99 => ⟨S1600000x1, .f32⟩
  | 100 => ⟨S1600000x40, .f32⟩
  | 101 => ⟨S1600000x40, .f32⟩
  | 102 => ⟨S_, .f32⟩
  | 103 => ⟨S100000x40, .f32⟩
  | 104 => ⟨S1600000x1, .i32⟩
  | 105 => ⟨S100000x40, .f32⟩
  | 106 => ⟨S_, .f32⟩
  | 107 => ⟨S100000x40, .f32⟩
  | 108 => ⟨S100000x40, .f32⟩
  | 109 => ⟨S100000x40, .f32⟩
  | 110 => ⟨S1x1x40x5, .f32⟩
  | 111 => ⟨S40x5, .f32⟩
  | 112 => ⟨S100000x5, .f32⟩
  | 113 => ⟨S100000x5, .f32⟩
  | 114 => ⟨S1x1x40x5, .f32⟩
  | 115 => ⟨S40x5, .f32⟩
  | 116 => ⟨S100000x5, .f32⟩
  | 117 => ⟨S100000x5, .f32⟩
  | 118 => ⟨S1x5, .f32⟩
  | 119 => ⟨S100000x5, .f32⟩
  | 120 => ⟨S100000x5, .f32⟩
  | 121 => ⟨S100000x5, .f32⟩
  | 122 => ⟨S100000x5, .f32⟩
  | 123 => ⟨S_, .f32⟩
  | 124 => ⟨S100000x5, .f32⟩
  | 125 => ⟨S100000x5, .f32⟩
  | 126 => ⟨S100000x5, .f32⟩
  | 127 => ⟨S100000x5, .f32⟩
  | _ => ⟨S100000x35, .f32⟩

abbrev hbmTy0_3 (i : Nat) : BufTy := match i % 128 with
  | 0 => ⟨S_, .f32⟩
  | 1 => ⟨S100000x5, .f32⟩
  | 2 => ⟨S100000x5, .f32⟩
  | 3 => ⟨S100000x1, .f32⟩
  | 4 => ⟨S1x1, .f32⟩
  | 5 => ⟨S100000x1, .f32⟩
  | 6 => ⟨S100000x1, .f32⟩
  | _ => ⟨S100000x35, .f32⟩

abbrev hbmTy (i : Nat) : BufTy := match i / 128 with
  | 0 => hbmTy0_0 i
  | 1 => hbmTy0_1 i
  | 2 => hbmTy0_2 i
  | 3 => hbmTy0_3 i
  | _ => ⟨S100000x35, .f32⟩

abbrev bufTy : (tb : Table) → Fin (tcTables nBuf tb) → BufTy
  | .hbm, ⟨i, _⟩ => hbmTy i
  | _, _ => ⟨S100000x35, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call0_cst : Ref sig .tc := ⟨.hbm, 57, rfl⟩
abbrev main_call0_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_6 : Ref sig .tc := ⟨.hbm, 72, rfl⟩
abbrev main_v47 : Ref sig .tc := ⟨.hbm, 73, rfl⟩
abbrev main_v48 : Ref sig .tc := ⟨.hbm, 74, rfl⟩
abbrev main_c_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_8 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_9 : Ref sig .tc := ⟨.hbm, 88, rfl⟩
abbrev main_v60 : Ref sig .tc := ⟨.hbm, 89, rfl⟩
abbrev main_v61 : Ref sig .tc := ⟨.hbm, 90, rfl⟩
abbrev main_c_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_11 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_12 : Ref sig .tc := ⟨.hbm, 112, rfl⟩
abbrev main_v81 : Ref sig .tc := ⟨.hbm, 113, rfl⟩
abbrev main_v82 : Ref sig .tc := ⟨.hbm, 114, rfl⟩
abbrev main_c_13 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_14 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_15 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_16 : Ref sig .tc := ⟨.hbm, 132, rfl⟩
abbrev main_v97 : Ref sig .tc := ⟨.hbm, 133, rfl⟩
abbrev main_v98 : Ref sig .tc := ⟨.hbm, 134, rfl⟩
abbrev main_c_17 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_18 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_19 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_20 : Ref sig .tc := ⟨.hbm, 165, rfl⟩
abbrev main_v126 : Ref sig .tc := ⟨.hbm, 166, rfl⟩
abbrev main_v127 : Ref sig .tc := ⟨.hbm, 167, rfl⟩
abbrev main_cst_21 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_c_22 : Ref sig .tc := ⟨.hbm, 178, rfl⟩
abbrev main_v137 : Ref sig .tc := ⟨.hbm, 179, rfl⟩
abbrev main_v138 : Ref sig .tc := ⟨.hbm, 180, rfl⟩
abbrev main_c_23 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_24 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_c_25 : Ref sig .tc := ⟨.hbm, 194, rfl⟩
abbrev main_v150 : Ref sig .tc := ⟨.hbm, 195, rfl⟩
abbrev main_v151 : Ref sig .tc := ⟨.hbm, 196, rfl⟩
abbrev main_c_26 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_cst_27 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_c_28 : Ref sig .tc := ⟨.hbm, 218, rfl⟩
abbrev main_v171 : Ref sig .tc := ⟨.hbm, 219, rfl⟩
abbrev main_v172 : Ref sig .tc := ⟨.hbm, 220, rfl⟩
abbrev main_c_29 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_cst_30 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_31 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_c_32 : Ref sig .tc := ⟨.hbm, 238, rfl⟩
abbrev main_v187 : Ref sig .tc := ⟨.hbm, 239, rfl⟩
abbrev main_v188 : Ref sig .tc := ⟨.hbm, 240, rfl⟩
abbrev main_c_33 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_cst_34 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_cst_35 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_cst_36 : Ref sig .tc := ⟨.hbm, 271, rfl⟩
abbrev main_v216 : Ref sig .tc := ⟨.hbm, 272, rfl⟩
abbrev main_v217 : Ref sig .tc := ⟨.hbm, 273, rfl⟩
abbrev main_cst_37 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_c_38 : Ref sig .tc := ⟨.hbm, 286, rfl⟩
abbrev main_v229 : Ref sig .tc := ⟨.hbm, 287, rfl⟩
abbrev main_v230 : Ref sig .tc := ⟨.hbm, 288, rfl⟩
abbrev main_c_39 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_cst_40 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_c_41 : Ref sig .tc := ⟨.hbm, 302, rfl⟩
abbrev main_v242 : Ref sig .tc := ⟨.hbm, 303, rfl⟩
abbrev main_v243 : Ref sig .tc := ⟨.hbm, 304, rfl⟩
abbrev main_c_42 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_cst_43 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_c_44 : Ref sig .tc := ⟨.hbm, 326, rfl⟩
abbrev main_v263 : Ref sig .tc := ⟨.hbm, 327, rfl⟩
abbrev main_v264 : Ref sig .tc := ⟨.hbm, 328, rfl⟩
abbrev main_c_45 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_cst_46 : Ref sig .tc := ⟨.hbm, 338, rfl⟩
abbrev main_v273 : Ref sig .tc := ⟨.hbm, 339, rfl⟩
abbrev main_v274 : Ref sig .tc := ⟨.hbm, 340, rfl⟩
abbrev main_v275 : Ref sig .tc := ⟨.hbm, 341, rfl⟩
abbrev main_cst_47 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_c_48 : Ref sig .tc := ⟨.hbm, 346, rfl⟩
abbrev main_v279 : Ref sig .tc := ⟨.hbm, 347, rfl⟩
abbrev main_v280 : Ref sig .tc := ⟨.hbm, 348, rfl⟩
abbrev main_c_49 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_cst_50 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_cst_51 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_v307 : Ref sig .tc := ⟨.hbm, 378, rfl⟩
abbrev main_cst_52 : Ref sig .tc := ⟨.hbm, 379, rfl⟩
abbrev main_v308 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_call1_cst : Ref sig .tc := ⟨.hbm, 384, rfl⟩
abbrev main_call1_v0 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  bcast_S_S100000x100 : S_.BroadcastsInDim S100000x100 (![] : Fin 0 → Fin S100000x100.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  concatenates_S100000x35_S100000x5_S100000x40_d1 : Shape.Concatenates [S100000x35, S100000x5] S100000x40 1
  slices_S2x3x40x5_S1x1x40x5_0_0_0_0 : S2x3x40x5.Slices ![0, 0, 0, 0] S1x1x40x5
  shapeCasts_S1x1x40x5_S40x5 : S1x1x40x5.ShapeCasts S40x5
  slices_S2x3x40x5_S1x1x40x5_1_0_0_0 : S2x3x40x5.Slices ![1, 0, 0, 0] S1x1x40x5
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  slices_S2x3x40x5_S1x1x40x5_0_1_0_0 : S2x3x40x5.Slices ![0, 1, 0, 0] S1x1x40x5
  slices_S2x3x40x5_S1x1x40x5_1_1_0_0 : S2x3x40x5.Slices ![1, 1, 0, 0] S1x1x40x5
  slices_S2x3x40x5_S1x1x40x5_0_2_0_0 : S2x3x40x5.Slices ![0, 2, 0, 0] S1x1x40x5
  slices_S2x3x40x5_S1x1x40x5_1_2_0_0 : S2x3x40x5.Slices ![1, 2, 0, 0] S1x1x40x5
  bcast_S_S100000x5 : S_.BroadcastsInDim S100000x5 (![] : Fin 0 → Fin S100000x5.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x35_S35x100_S100000x100_1_0_0_1_n_n_wf : DotDims.WF S100000x35 S35x100 S100000x100 [1] [0] [0] [1] [] []
  dot_S100000x100_S100x5_S100000x5_1_0_0_1_n_n_wf : DotDims.WF S100000x100 S100x5 S100000x5 [1] [0] [0] [1] [] []
  dot_S100000x40_S40x5_S100000x5_1_0_0_1_n_n_wf : DotDims.WF S100000x40 S40x5 S100000x5 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  dot_S100000x5_S5x1_S100000x1_1_0_0_1_n_n_wf : DotDims.WF S100000x5 S5x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x35_S35x100_S100000x100_1_0_0_1_n_n : DotDims S100000x35 S35x100 S100000x100 where
  lhsContracting := [1]
  rhsContracting := [0]
  lhsNonContracting := [0]
  rhsNonContracting := [1]
  lhsBatch := []
  rhsBatch := []
  wf := dot_S100000x35_S35x100_S100000x100_1_0_0_1_n_n_wf
def dot_S100000x100_S100x5_S100000x5_1_0_0_1_n_n : DotDims S100000x100 S100x5 S100000x5 where
  lhsContracting := [1]
  rhsContracting := [0]
  lhsNonContracting := [0]
  rhsNonContracting := [1]
  lhsBatch := []
  rhsBatch := []
  wf := dot_S100000x100_S100x5_S100000x5_1_0_0_1_n_n_wf
def dot_S100000x40_S40x5_S100000x5_1_0_0_1_n_n : DotDims S100000x40 S40x5 S100000x5 where
  lhsContracting := [1]
  rhsContracting := [0]
  lhsNonContracting := [0]
  rhsNonContracting := [1]
  lhsBatch := []
  rhsBatch := []
  wf := dot_S100000x40_S40x5_S100000x5_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf
def dot_S100000x5_S5x1_S100000x1_1_0_0_1_n_n : DotDims S100000x5 S5x1 S100000x1 where
  lhsContracting := [1]
  rhsContracting := [0]
  lhsNonContracting := [0]
  rhsNonContracting := [1]
  lhsBatch := []
  rhsBatch := []
  wf := dot_S100000x5_S5x1_S100000x1_1_0_0_1_n_n_wf

class Facts : Prop extends Facts₀ where

variable [Facts]
-- ==== Proof.KBody0.lean ====
/- Region 0 of @main — the first pallas_call (the two-layer perceptron), `cc0__mlp_kernel`, pipeline 0: 6 windows over a grid of 10 points — at
   arbitrary contents `V` of the TensorCore's buffers when the region is entered and at any float instance.
   Here: each window's block at a point, read off its array; the contents the body leaves in each output window's
   staging buffer, as a function of the input blocks; the body's triple on whole staging memrefs; the pipeline's proof
   data; and the body obligation at every point of the grid. Every input window of this region is read whole and
   left untouched, every output window is overwritten whole by one store, so what the body leaves in an output
   buffer depends on the input blocks alone. -/
import proofs.«114446_j62852551409688_2_alg».proof.Proof.Gen.Kernel.Launch
import proofs.«114446_j62852551409688_2_alg».proof.Proof.Gen.Kernel.Skeleton
import proofs.«114446_j62852551409688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle whose long axis has thousands of coordinates is checked structurally, one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`: its array as the region finds it (`V`), read through the window's rectangle
    at that point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: one rectangle per window, the whole staging buffer -/

abbrev r0_0 : Rect S10000x35 := Rect.unit (s := S10000x35) ![0, 0] S10000x35.size inb_S10000x35_S10000x35_0_0
abbrev r0_1 : Rect S35x100 := Rect.unit (s := S35x100) ![0, 0] S35x100.size inb_S35x100_S35x100_0_0
abbrev r0_2 : Rect S1x100 := Rect.unit (s := S1x100) ![0, 0] S1x100.size inb_S1x100_S1x100_0_0
abbrev r0_3 : Rect S100x5 := Rect.unit (s := S100x5) ![0, 0] S100x5.size inb_S100x5_S100x5_0_0
abbrev r0_4 : Rect S1x5 := Rect.unit (s := S1x5) ![0, 0] S1x5.size inb_S1x5_S1x5_0_0
abbrev r0_5 : Rect S10000x5 := Rect.unit (s := S10000x5) ![0, 0] S10000x5.size inb_S10000x5_S10000x5_0_0

/-! ## What the body leaves in each output window's buffer -/

/-- Window 5's staging buffer after the body, from the input windows' blocks: its one store, of the payload
    `k0_pay1` of the inputs as loaded, written through the whole-buffer rectangle. -/
def out0_5 (x0 : Vec F S10000x35 .f32) (x1 : Vec F S35x100 .f32) (x2 : Vec F S1x100 .f32) (x3 : Vec F S100x5 .f32) (x4 : Vec F S1x5 .f32) : Vec F S10000x5 .f32 :=
  View.canon [⟨r0_5, k0_pay1 (View.ld x0 r0_0) (View.ld x1 r0_1) (View.ld x2 r0_2) (View.ld x3 r0_3) (View.ld x4 r0_4)⟩]

/-- The one store's rectangle is the whole buffer, so it covers every index. -/
theorem cover0_5 (p0 : Vec F S10000x5 .f32) (y : S10000x5.Idx) :
    ∃ pc ∈ ([⟨r0_5, p0⟩] : List (View.Piece (Elt F) S10000x5 .f32)), y ∈ pc.1.set :=
  View.cover_of_tiled [⟨r0_5, p0⟩] S10000x5.size (by rfl) y

/-! ## The body's triple -/

set_option maxHeartbeats 4000000 in
/-- The kernel body on whole staging memrefs, the inputs' reading `xW` and the outputs' holding anything, runs to the
    continuation with the inputs' as they were and each output's reading `out0_W` of the inputs: the body is its
    skeleton of loads and stores; each load reads the buffer's current contents through the whole-buffer rectangle
    (for an output buffer, contents nobody uses), and the store's write, covering the buffer, leaves its payload
    there whatever was there before. -/
theorem sound_kernel0 (c : Dev nD) (E : Set ℕ) (i : grid0.Coords) (a0 : Memref sig .tc .vmem S10000x35 .f32) (ha0 : a0.IsWhole) (a1 : Memref sig .tc .vmem S35x100 .f32) (ha1 : a1.IsWhole) (a2 : Memref sig .tc .vmem S1x100 .f32) (ha2 : a2.IsWhole) (a3 : Memref sig .tc .vmem S100x5 .f32) (ha3 : a3.IsWhole) (a4 : Memref sig .tc .vmem S1x5 .f32) (ha4 : a4.IsWhole) (a5 : Memref sig .tc .vmem S10000x5 .f32) (ha5 : a5.IsWhole)
    (x0 : Vec F S10000x35 .f32) (x1 : Vec F S35x100 .f32) (x2 : Vec F S1x100 .f32) (x3 : Vec F S100x5 .f32) (x4 : Vec F S1x5 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out0_5 x0 x1 x2 x3 x4)) -∗ K ⟨⟩))
      ⊢ wp frame (wpE (defs₀ (F := F)) Variants.none c none) E (cc0__mlp_kernel i a0 ha0 a1 ha1 a2 ha2 a3 ha3 a4 ha4 a5 ha5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at point
    `t` each input's buffer at its block and each output's at `out0_W` of the input blocks; the invariant that of a
    body touching nothing but its windows (the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's debts, and every window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same with every buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so the body's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- info: 'Cert.Kernel.Hand.body_obligation0' depends on axioms: [propext, Classical.choice, Quot.sound] -/
#guard_msgs in #print axioms body_obligation0

end Cert.Kernel.Hand

end
-- ==== Proof.KBody1.lean ====
/- Region 1 of @main — the second pallas_call (the two gates), `cc1__gate_kernel`, pipeline 1: 7 windows over a grid of 20 points — at
   arbitrary contents `V` of the TensorCore's buffers when the region is entered and at any float instance.
   Here: each window's block at a point, read off its array; the contents the body leaves in each output window's
   staging buffer, as a function of the input blocks; the body's triple on whole staging memrefs; the pipeline's proof
   data; and the body obligation at every point of the grid. Every input window of this region is read whole and
   left untouched, every output window is overwritten whole by one store, so what the body leaves in an output
   buffer depends on the input blocks alone. -/
import proofs.«114446_j62852551409688_2_alg».proof.Proof.Gen.Kernel.Launch
import proofs.«114446_j62852551409688_2_alg».proof.Proof.Gen.Kernel.Skeleton
import proofs.«114446_j62852551409688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle whose long axis has thousands of coordinates is checked structurally, one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`: its array as the region finds it (`V`), read through the window's rectangle
    at that point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one rectangle per window, the whole staging buffer -/

abbrev r1_0 : Rect S5000x240 := Rect.unit (s := S5000x240) ![0, 0] S5000x240.size inb_S5000x240_S5000x240_0_0
abbrev r1_1 : Rect S240x5 := Rect.unit (s := S240x5) ![0, 0] S240x5.size inb_S240x5_S240x5_0_0
abbrev r1_2 : Rect S1x5 := Rect.unit (s := S1x5) ![0, 0] S1x5.size inb_S1x5_S1x5_0_0
abbrev r1_3 : Rect S240x5 := Rect.unit (s := S240x5) ![0, 0] S240x5.size inb_S240x5_S240x5_0_0
abbrev r1_4 : Rect S1x5 := Rect.unit (s := S1x5) ![0, 0] S1x5.size inb_S1x5_S1x5_0_0
abbrev r1_5 : Rect S5000x5 := Rect.unit (s := S5000x5) ![0, 0] S5000x5.size inb_S5000x5_S5000x5_0_0
abbrev r1_6 : Rect S5000x5 := Rect.unit (s := S5000x5) ![0, 0] S5000x5.size inb_S5000x5_S5000x5_0_0

/-! ## What the body leaves in each output window's buffer -/

/-- Window 5's staging buffer after the body, from the input windows' blocks: its one store, of the payload
    `k1_pay2` of the inputs as loaded, written through the whole-buffer rectangle. -/
def out1_5 (x0 : Vec F S5000x240 .bf16) (x1 : Vec F S240x5 .f32) (x2 : Vec F S1x5 .f32) : Vec F S5000x5 .f32 :=
  View.canon [⟨r1_5, k1_pay2 (View.ld x0 r1_0) (View.ld x1 r1_1) (View.ld x2 r1_2)⟩]

/-- The one store's rectangle is the whole buffer, so it covers every index. -/
theorem cover1_5 (p0 : Vec F S5000x5 .f32) (y : S5000x5.Idx) :
    ∃ pc ∈ ([⟨r1_5, p0⟩] : List (View.Piece (Elt F) S5000x5 .f32)), y ∈ pc.1.set :=
  View.cover_of_tiled [⟨r1_5, p0⟩] S5000x5.size (by rfl) y

/-- Window 6's staging buffer after the body, from the input windows' blocks: its one store, of the payload
    `k1_pay3` of the inputs as loaded, written through the whole-buffer rectangle. -/
def out1_6 (x0 : Vec F S5000x240 .bf16) (x3 : Vec F S240x5 .f32) (x4 : Vec F S1x5 .f32) : Vec F S5000x5 .f32 :=
  View.canon [⟨r1_6, k1_pay3 (View.ld x0 r1_0) (View.ld x3 r1_3) (View.ld x4 r1_4)⟩]

/-- The one store's rectangle is the whole buffer, so it covers every index. -/
theorem cover1_6 (p0 : Vec F S5000x5 .f32) (y : S5000x5.Idx) :
    ∃ pc ∈ ([⟨r1_6, p0⟩] : List (View.Piece (Elt F) S5000x5 .f32)), y ∈ pc.1.set :=
  View.cover_of_tiled [⟨r1_6, p0⟩] S5000x5.size (by rfl) y

/-! ## The body's triple -/

set_option maxHeartbeats 4000000 in
/-- The kernel body on whole staging memrefs, the inputs' reading `xW` and the outputs' holding anything, runs to the
    continuation with the inputs' as they were and each output's reading `out1_W` of the inputs: the body is its
    skeleton of loads and stores; each load reads the buffer's current contents through the whole-buffer rectangle
    (for an output buffer, contents nobody uses), and the store's write, covering the buffer, leaves its payload
    there whatever was there before. -/
theorem sound_kernel1 (c : Dev nD) (E : Set ℕ) (i : grid1.Coords) (a0 : Memref sig .tc .vmem S5000x240 .bf16) (ha0 : a0.IsWhole) (a1 : Memref sig .tc .vmem S240x5 .f32) (ha1 : a1.IsWhole) (a2 : Memref sig .tc .vmem S1x5 .f32) (ha2 : a2.IsWhole) (a3 : Memref sig .tc .vmem S240x5 .f32) (ha3 : a3.IsWhole) (a4 : Memref sig .tc .vmem S1x5 .f32) (ha4 : a4.IsWhole) (a5 : Memref sig .tc .vmem S5000x5 .f32) (ha5 : a5.IsWhole) (a6 : Memref sig .tc .vmem S5000x5 .f32) (ha6 : a6.IsWhole)
    (x0 : Vec F S5000x240 .bf16) (x1 : Vec F S240x5 .f32) (x2 : Vec F S1x5 .f32) (x3 : Vec F S240x5 .f32) (x4 : Vec F S1x5 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out1_5 x0 x1 x2) ∗ owns (c : Thread nD τ) a6 fullShare (out1_6 x0 x3 x4)) -∗ K ⟨⟩))
      ⊢ wp frame (wpE (defs₀ (F := F)) Variants.none c none) E (cc1__gate_kernel i a0 ha0 a1 ha1 a2 ha2 a3 ha3 a4 ha4 a5 ha5 a6 ha6) K := by
  simp only [cc1__gate_kernel_eq_skeleton]; unfold cc1__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them (`V`); after the body at point
    `t` each input's buffer at its block and each output's at `out1_W` of the input blocks; the invariant that of a
    body touching nothing but its windows (the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t)
    | ⟨6, _⟩ => out1_6 (iblk1 V c 0 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) := by dsimp only [dat1]
theorem after1_6 (c : Dev nD) (t : Fin cfg1.N) : (dat1 V c).after 6 t = out1_6 (iblk1 V c 0 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and every window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: the same with every buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so the body's triple applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.Kernel.Hand.body_obligation1' depends on axioms: [propext, Classical.choice, Quot.sound] -/
#guard_msgs in #print axioms body_obligation1

end Cert.Kernel.Hand

end
-- ==== Proof.KBody2.lean ====
/- Region 2 of @main — the third pallas_call (the gated head), `cc2__head_kernel`, pipeline 2: 8 windows over a grid of 20 points — at
   arbitrary contents `V` of the TensorCore's buffers when the region is entered and at any float instance.
   Here: each window's block at a point, read off its array; the contents the body leaves in each output window's
   staging buffer, as a function of the input blocks; the body's triple on whole staging memrefs; the pipeline's proof
   data; and the body obligation at every point of the grid. Every input window of this region is read whole and
   left untouched, every output window is overwritten whole by one store, so what the body leaves in an output
   buffer depends on the input blocks alone. -/
import proofs.«114446_j62852551409688_2_alg».proof.Proof.Gen.Kernel.Launch
import proofs.«114446_j62852551409688_2_alg».proof.Proof.Gen.Kernel.Skeleton
import proofs.«114446_j62852551409688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle whose long axis has thousands of coordinates is checked structurally, one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`: its array as the region finds it (`V`), read through the window's rectangle
    at that point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: one rectangle per window, the whole staging buffer -/

abbrev r2_0 : Rect S5000x240 := Rect.unit (s := S5000x240) ![0, 0] S5000x240.size inb_S5000x240_S5000x240_0_0
abbrev r2_1 : Rect S240x5 := Rect.unit (s := S240x5) ![0, 0] S240x5.size inb_S240x5_S240x5_0_0
abbrev r2_2 : Rect S1x5 := Rect.unit (s := S1x5) ![0, 0] S1x5.size inb_S1x5_S1x5_0_0
abbrev r2_3 : Rect S5000x5 := Rect.unit (s := S5000x5) ![0, 0] S5000x5.size inb_S5000x5_S5000x5_0_0
abbrev r2_4 : Rect S5000x5 := Rect.unit (s := S5000x5) ![0, 0] S5000x5.size inb_S5000x5_S5000x5_0_0
abbrev r2_5 : Rect S5x1 := Rect.unit (s := S5x1) ![0, 0] S5x1.size inb_S5x1_S5x1_0_0
abbrev r2_6 : Rect S1x1 := Rect.unit (s := S1x1) ![0, 0] S1x1.size inb_S1x1_S1x1_0_0
abbrev r2_7 : Rect S5000x1 := Rect.unit (s := S5000x1) ![0, 0] S5000x1.size inb_S5000x1_S5000x1_0_0

/-! ## What the body leaves in each output window's buffer -/

/-- Window 7's staging buffer after the body, from the input windows' blocks: its one store, of the payload
    `k2_pay1` of the inputs as loaded, written through the whole-buffer rectangle. -/
def out2_7 (x0 : Vec F S5000x240 .bf16) (x1 : Vec F S240x5 .f32) (x2 : Vec F S1x5 .f32) (x3 : Vec F S5000x5 .f32) (x4 : Vec F S5000x5 .f32) (x5 : Vec F S5x1 .f32) (x6 : Vec F S1x1 .f32) : Vec F S5000x1 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store's rectangle is the whole buffer, so it covers every index. -/
theorem cover2_7 (p0 : Vec F S5000x1 .f32) (y : S5000x1.Idx) :
    ∃ pc ∈ ([⟨r2_7, p0⟩] : List (View.Piece (Elt F) S5000x1 .f32)), y ∈ pc.1.set :=
  View.cover_of_tiled [⟨r2_7, p0⟩] S5000x1.size (by rfl) y

/-! ## The body's triple -/

set_option maxHeartbeats 4000000 in
/-- The kernel body on whole staging memrefs, the inputs' reading `xW` and the outputs' holding anything, runs to the
    continuation with the inputs' as they were and each output's reading `out2_W` of the inputs: the body is its
    skeleton of loads and stores; each load reads the buffer's current contents through the whole-buffer rectangle
    (for an output buffer, contents nobody uses), and the store's write, covering the buffer, leaves its payload
    there whatever was there before. -/
theorem sound_kernel2 (c : Dev nD) (E : Set ℕ) (i : grid2.Coords) (a0 : Memref sig .tc .vmem S5000x240 .bf16) (ha0 : a0.IsWhole) (a1 : Memref sig .tc .vmem S240x5 .f32) (ha1 : a1.IsWhole) (a2 : Memref sig .tc .vmem S1x5 .f32) (ha2 : a2.IsWhole) (a3 : Memref sig .tc .vmem S5000x5 .f32) (ha3 : a3.IsWhole) (a4 : Memref sig .tc .vmem S5000x5 .f32) (ha4 : a4.IsWhole) (a5 : Memref sig .tc .vmem S5x1 .f32) (ha5 : a5.IsWhole) (a6 : Memref sig .tc .vmem S1x1 .f32) (ha6 : a6.IsWhole) (a7 : Memref sig .tc .vmem S5000x1 .f32) (ha7 : a7.IsWhole)
    (x0 : Vec F S5000x240 .bf16) (x1 : Vec F S240x5 .f32) (x2 : Vec F S1x5 .f32) (x3 : Vec F S5000x5 .f32) (x4 : Vec F S5000x5 .f32) (x5 : Vec F S5x1 .f32) (x6 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out2_7 x0 x1 x2 x3 x4 x5 x6)) -∗ K ⟨⟩))
      ⊢ wp frame (wpE (defs₀ (F := F)) Variants.none c none) E (cc2__head_kernel i a0 ha0 a1 ha1 a2 ha2 a3 ha3 a4 ha4 a5 ha5 a6 ha6 a7 ha7) K := by
  simp only [cc2__head_kernel_eq_skeleton]; unfold cc2__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them (`V`); after the body at point
    `t` each input's buffer at its block and each output's at `out2_W` of the input blocks; the invariant that of a
    body touching nothing but its windows (the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`: the invariant, the core's debts, and every window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the same with every buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_W`), so the body's triple applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- info: 'Cert.Kernel.Hand.body_obligation2' depends on axioms: [propext, Classical.choice, Quot.sound] -/
#guard_msgs in #print axioms body_obligation2

end Cert.Kernel.Hand

end
-- ==== Proof.KRun.lean ====
/-
  The host stretches of @main between its three kernel regions: which references each stretch writes.

  @main is in single-assignment form: every host operation writes one reference, its result, and no two
  operations write the same one. For each of the five stretches the list of written references is set down
  (`_W`), every operation's written set is shown to lie in it (`_writes`), and no operation allocates
  (`_fresh`). A reference outside a stretch's list keeps its contents across the stretch
  (`StableHlo.after_of_writes_sub`): this is how the fold of buffer contents through @main is read back
  at the argument arrays and at the results.

  The buffer contents of a core at each boundary between the segments of @main, as a fold from the launch memory.

  @main is eight segments: five stretches of host operations and three kernel regions,

      main_part0_ops0 · region 0 · main_part0_ops1 · main_part1_ops0 · region 1 · main_part2_ops0 · main_part3_ops0 · region 2.

  `W0` is the launch memory read at a core; a host stretch takes `W` to `StableHlo.after ops W`; a region takes the
  contents `W` it is entered from to `W` with the region's arrays replaced by what its pipeline leaves in them
  (an input array as entered, an output array with every point's write-back folded in: `Dat.arrAt … N`), every other
  buffer untouched (`Pipeline.withArrays`). `W8` is what the core holds when @main returns.

  Read back through the fold: an argument array is written by no host operation (every operation writes its own fresh
  result) and by no region (a region only reads an argument, through an input window, or does not touch it), so `W8`
  at an argument is the launch memory there (`W8_main_argK`). The first result `main_v164` is region 2's one output
  array (`W8_main_v164`); the second result `main_v19` is written in the first host stretch and by nothing after it
  (`W8_main_v19`).

  The run of @main: its eight segments over one thread state, and the launch.

  Between two segments a core holds every unscoped buffer, whole, at the boundary's contents (`W0` … `W8`: the fold),
  beside its generator register at some state and the record that it owes nothing. A host stretch is a segment that
  takes the buffers from `W` to `StableHlo.after ops W`. A kernel region is a segment that splits its arrays out of the
  unscoped buffers, runs its pipeline on them from the proof data's entry contents, and puts them back at what the
  pipeline leaves; the body's obligation at every point is the body modules'. The segments chain by name (each is
  entered from exactly what the one before it leaves), so the several-regions launch theorem gives: every weakly fair
  execution of @main from memory `m` with zero counters terminates, nothing faulting, and at the end every unscoped
  buffer of a core holds `W8` (`run_main`). Read at the argument arrays, where `W8` is the launch memory, this is the
  frame claim (`frame`).
-/
import proofs.«114446_j62852551409688_2_alg».proof.Proof.KBody0
import proofs.«114446_j62852551409688_2_alg».proof.Proof.KBody1
import proofs.«114446_j62852551409688_2_alg».proof.Proof.KBody2
import proofs.«114446_j62852551409688_2_alg».proof.Proof.Gen.Kernel.Launch
import proofs.«114446_j62852551409688_2_alg».proof.Proof.Gen.Kernel.Skeleton
import proofs.«114446_j62852551409688_2_alg».proof.Proof.Gen.Kernel.Points
import Idealize.ShloMosaic.Lib.Pipeline.Frame
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The host stretches -/

/-! ## `main_part0_ops0`: 40 operations -/

/-- No operation of `main_part0_ops0` allocates a buffer. -/
theorem main_part0_ops0_fresh : (main_part0_ops0 : List (HloOp τ sig (Elt F))).Forall fun op => op.fresh = ∅ := by
  simp only [List.Forall]; repeat' constructor
/-- The references `main_part0_ops0`'s operations write: one per operation, in order. -/
abbrev main_part0_ops0_W : List (Ref sig .tc) :=
  [ main_v0, main_v1, main_v2, main_v3, main_cst, main_v4, main_v5, main_v6, main_cst_0, main_v7,
    main_v8, main_v9, main_c, main_v10, main_v11, main_c_1, main_v12, main_v13, main_v14, main_v15,
    main_v16, main_cst_2, main_v17, main_v18, main_v19, main_c_3, main_v20, main_v21, main_c_4, main_v22,
    main_v23, main_v24, main_v25, main_v26, main_cst_5, main_v27, main_v28, main_v29, main_v30, main_v31 ]
/-- Each operation writes its result only, and that result is in the list. -/
theorem main_part0_ops0_writes : (main_part0_ops0 : List (HloOp τ sig (Elt F))).Forall fun op => op.writes ⊆ (main_part0_ops0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the stretch does not write holds after it what it held before. -/
theorem main_part0_ops0_keeps (V : Valuation τ sig (Elt F)) (r : Ref sig .tc) (h : r ∉ main_part0_ops0_W) :
    StableHlo.after (main_part0_ops0 : List (HloOp τ sig (Elt F))) V (Proc.devRef .tc r) = V (Proc.devRef .tc r) :=
  StableHlo.after_of_writes_sub main_part0_ops0 V main_part0_ops0_writes h

/-! ## `main_part0_ops1`: 19 operations -/

/-- No operation of `main_part0_ops1` allocates a buffer. -/
theorem main_part0_ops1_fresh : (main_part0_ops1 : List (HloOp τ sig (Elt F))).Forall fun op => op.fresh = ∅ := by
  simp only [List.Forall]; repeat' constructor
/-- The references `main_part0_ops1`'s operations write: one per operation, in order. -/
abbrev main_part0_ops1_W : List (Ref sig .tc) :=
  [ main_v33, main_c_6, main_v34, main_v35, main_c_7, main_v36, main_v37, main_v38, main_v39, main_v40,
    main_v41, main_v42, main_v43, main_cst_8, main_v44, main_v45, main_v46, main_c_9, main_v47 ]
/-- Each operation writes its result only, and that result is in the list. -/
theorem main_part0_ops1_writes : (main_part0_ops1 : List (HloOp τ sig (Elt F))).Forall fun op => op.writes ⊆ (main_part0_ops1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the stretch does not write holds after it what it held before. -/
theorem main_part0_ops1_keeps (V : Valuation τ sig (Elt F)) (r : Ref sig .tc) (h : r ∉ main_part0_ops1_W) :
    StableHlo.after (main_part0_ops1 : List (HloOp τ sig (Elt F))) V (Proc.devRef .tc r) = V (Proc.devRef .tc r) :=
  StableHlo.after_of_writes_sub main_part0_ops1 V main_part0_ops1_writes h

/-! ## `main_part1_ops0`: 60 operations -/

/-- No operation of `main_part1_ops0` allocates a buffer. -/
theorem main_part1_ops0_fresh : (main_part1_ops0 : List (HloOp τ sig (Elt F))).Forall fun op => op.fresh = ∅ := by
  simp only [List.Forall]; repeat' constructor
/-- The references `main_part1_ops0`'s operations write: one per operation, in order. -/
abbrev main_part1_ops0_W : List (Ref sig .tc) :=
  [ main_v48, main_c_10, main_v49, main_v50, main_v51, main_v52, main_v53, main_v54, main_v55, main_v56,
    main_cst_11, main_v57, main_v58, main_v59, main_c_12, main_v60, main_v61, main_c_13, main_v62, main_v63,
    main_v64, main_v65, main_v66, main_v67, main_v68, main_v69, main_cst_14, main_v70, main_v71, main_v72,
    main_cst_15, main_v73, main_v74, main_v75, main_c_16, main_v76, main_v77, main_c_17, main_v78, main_v79,
    main_v80, main_v81, main_v82, main_v83, main_v84, main_v85, main_cst_18, main_v86, main_v87, main_v88,
    main_cst_19, main_v89, main_v90, main_v91, main_v92, main_v93, main_v94, main_v95, main_v96, main_v97 ]
/-- Each operation writes its result only, and that result is in the list. -/
theorem main_part1_ops0_writes : (main_part1_ops0 : List (HloOp τ sig (Elt F))).Forall fun op => op.writes ⊆ (main_part1_ops0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the stretch does not write holds after it what it held before. -/
theorem main_part1_ops0_keeps (V : Valuation τ sig (Elt F)) (r : Ref sig .tc) (h : r ∉ main_part1_ops0_W) :
    StableHlo.after (main_part1_ops0 : List (HloOp τ sig (Elt F))) V (Proc.devRef .tc r) = V (Proc.devRef .tc r) :=
  StableHlo.after_of_writes_sub main_part1_ops0 V main_part1_ops0_writes h

/-! ## `main_part2_ops0`: 59 operations -/

/-- No operation of `main_part2_ops0` allocates a buffer. -/
theorem main_part2_ops0_fresh : (main_part2_ops0 : List (HloOp τ sig (Elt F))).Forall fun op => op.fresh = ∅ := by
  simp only [List.Forall]; repeat' constructor
/-- The references `main_part2_ops0`'s operations write: one per operation, in order. -/
abbrev main_part2_ops0_W : List (Ref sig .tc) :=
  [ main_v99, main_v100, main_c_20, main_v101, main_v102, main_c_21, main_v103, main_v104, main_v105, main_v106,
    main_v107, main_v108, main_v109, main_v110, main_cst_22, main_v111, main_v112, main_v113, main_c_23, main_v114,
    main_v115, main_c_24, main_v116, main_v117, main_v118, main_v119, main_v120, main_v121, main_v122, main_v123,
    main_cst_25, main_v124, main_v125, main_v126, main_c_26, main_v127, main_v128, main_c_27, main_v129, main_v130,
    main_v131, main_v132, main_v133, main_v134, main_v135, main_v136, main_cst_28, main_v137, main_v138, main_v139,
    main_cst_29, main_v140, main_v141, main_v142, main_c_30, main_v143, main_v144, main_c_31, main_v145 ]
/-- Each operation writes its result only, and that result is in the list. -/
theorem main_part2_ops0_writes : (main_part2_ops0 : List (HloOp τ sig (Elt F))).Forall fun op => op.writes ⊆ (main_part2_ops0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the stretch does not write holds after it what it held before. -/
theorem main_part2_ops0_keeps (V : Valuation τ sig (Elt F)) (r : Ref sig .tc) (h : r ∉ main_part2_ops0_W) :
    StableHlo.after (main_part2_ops0 : List (HloOp τ sig (Elt F))) V (Proc.devRef .tc r) = V (Proc.devRef .tc r) :=
  StableHlo.after_of_writes_sub main_part2_ops0 V main_part2_ops0_writes h

/-! ## `main_part3_ops0`: 20 operations -/

/-- No operation of `main_part3_ops0` allocates a buffer. -/
theorem main_part3_ops0_fresh : (main_part3_ops0 : List (HloOp τ sig (Elt F))).Forall fun op => op.fresh = ∅ := by
  simp only [List.Forall]; repeat' constructor
/-- The references `main_part3_ops0`'s operations write: one per operation, in order. -/
abbrev main_part3_ops0_W : List (Ref sig .tc) :=
  [ main_v146, main_v147, main_v148, main_v149, main_v150, main_v151, main_v152, main_cst_32, main_v153, main_v154,
    main_v155, main_cst_33, main_v156, main_v157, main_v158, main_v159, main_v160, main_v161, main_v162, main_v163 ]
/-- Each operation writes its result only, and that result is in the list. -/
theorem main_part3_ops0_writes : (main_part3_ops0 : List (HloOp τ sig (Elt F))).Forall fun op => op.writes ⊆ (main_part3_ops0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the stretch does not write holds after it what it held before. -/
theorem main_part3_ops0_keeps (V : Valuation τ sig (Elt F)) (r : Ref sig .tc) (h : r ∉ main_part3_ops0_W) :
    StableHlo.after (main_part3_ops0 : List (HloOp τ sig (Elt F))) V (Proc.devRef .tc r) = V (Proc.devRef .tc r) :=
  StableHlo.after_of_writes_sub main_part3_ops0 V main_part3_ops0_writes h

/-! # The fold -/

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)
/-- After `main_part0_ops0`: what region 0 is entered from. -/
abbrev W1 : Dev nD → Valuation τ sig (Elt F) := fun c => StableHlo.after main_part0_ops0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents read at the TensorCore's references. -/
abbrev V2 : (c : Dev nD) → (b : Ref sig .tc) → Buf (Elt F) ((c : Thread nD τ).loc b) := fun c b => W2 m ρ c b
/-- At region 0's exit each of its arrays holds what the pipeline leaves (`hF0`) and every other buffer what it held at
    entry (`hrest0`): what putting the arrays back among the core's unscoped buffers asks. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `main_part0_ops1`. -/
abbrev W3 : Dev nD → Valuation τ sig (Elt F) := fun c => StableHlo.after main_part0_ops1 (W2 m ρ c)
/-- After `main_part1_ops0`: what region 1 is entered from. -/
abbrev W4 : Dev nD → Valuation τ sig (Elt F) := fun c => StableHlo.after main_part1_ops0 (W3 m ρ c)
/-- The same read at the TensorCore's references (what region 1's proof data take). -/
abbrev V4 : (c : Dev nD) → (b : Ref sig .tc) → Buf (Elt F) ((c : Thread nD τ).loc b) := fun c b => W4 m ρ c b
/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- Region 1's exit contents read at the TensorCore's references. -/
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `main_part2_ops0`. -/
abbrev W6 : Dev nD → Valuation τ sig (Elt F) := fun c => StableHlo.after main_part2_ops0 (W5 m ρ c)
/-- After `main_part3_ops0`: what region 2 is entered from. -/
abbrev W7 : Dev nD → Valuation τ sig (Elt F) := fun c => StableHlo.after main_part3_ops0 (W6 m ρ c)
/-- The same read at the TensorCore's references (what region 2's proof data take). -/
abbrev V7 : (c : Dev nD) → (b : Ref sig .tc) → Buf (Elt F) ((c : Thread nD τ).loc b) := fun c b => W7 m ρ c b
/-- At region 2's exit, which is @main's return: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- Region 2's exit contents read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ## Across a host stretch: a reference the stretch does not write keeps its contents -/

theorem W1_of (c : Dev nD) (r : Ref sig .tc) (h : r ∉ main_part0_ops0_W) :
    W1 m ρ c (Proc.devRef .tc r) = W0 m ρ c (Proc.devRef .tc r) := main_part0_ops0_keeps _ r h
theorem W3_of (c : Dev nD) (r : Ref sig .tc) (h : r ∉ main_part0_ops1_W) :
    W3 m ρ c (Proc.devRef .tc r) = W2 m ρ c (Proc.devRef .tc r) := main_part0_ops1_keeps _ r h
theorem W4_of (c : Dev nD) (r : Ref sig .tc) (h : r ∉ main_part1_ops0_W) :
    W4 m ρ c (Proc.devRef .tc r) = W3 m ρ c (Proc.devRef .tc r) := main_part1_ops0_keeps _ r h
theorem W6_of (c : Dev nD) (r : Ref sig .tc) (h : r ∉ main_part2_ops0_W) :
    W6 m ρ c (Proc.devRef .tc r) = W5 m ρ c (Proc.devRef .tc r) := main_part2_ops0_keeps _ r h
theorem W7_of (c : Dev nD) (r : Ref sig .tc) (h : r ∉ main_part3_ops0_W) :
    W7 m ρ c (Proc.devRef .tc r) = W6 m ρ c (Proc.devRef .tc r) := main_part3_ops0_keeps _ r h

/-! ## The walk back -/

/-- A reference that none of the last four host stretches writes, and that each region leaves as it found it
    (`k0`, `k1`, `k2`: it is none of the region's arrays, or it is an input array), holds at the return what it held
    when region 0 was entered. -/
theorem W8_to_W1 (c : Dev nD) (r : Ref sig .tc)
    (h1 : r ∉ main_part0_ops1_W) (h2 : r ∉ main_part1_ops0_W) (h3 : r ∉ main_part2_ops0_W) (h4 : r ∉ main_part3_ops0_W)
    (k0 : W2 m ρ c (Proc.devRef .tc r) = W1 m ρ c (Proc.devRef .tc r))
    (k1 : W5 m ρ c (Proc.devRef .tc r) = W4 m ρ c (Proc.devRef .tc r))
    (k2 : W8 m ρ c (Proc.devRef .tc r) = W7 m ρ c (Proc.devRef .tc r)) :
    W8 m ρ c (Proc.devRef .tc r) = W1 m ρ c (Proc.devRef .tc r) :=
  calc W8 m ρ c (Proc.devRef .tc r)
    _ = W7 m ρ c (Proc.devRef .tc r) := k2
    _ = W6 m ρ c (Proc.devRef .tc r) := W7_of m ρ c r h4
    _ = W5 m ρ c (Proc.devRef .tc r) := W6_of m ρ c r h3
    _ = W4 m ρ c (Proc.devRef .tc r) := k1
    _ = W3 m ρ c (Proc.devRef .tc r) := W4_of m ρ c r h2
    _ = W2 m ρ c (Proc.devRef .tc r) := W3_of m ρ c r h1
    _ = W1 m ρ c (Proc.devRef .tc r) := k0

/-- The same for a reference the first host stretch does not write either: it holds at the return what the launch
    memory holds there. -/
theorem W8_to_launch (c : Dev nD) (r : Ref sig .tc) (h0 : r ∉ main_part0_ops0_W)
    (h1 : r ∉ main_part0_ops1_W) (h2 : r ∉ main_part1_ops0_W) (h3 : r ∉ main_part2_ops0_W) (h4 : r ∉ main_part3_ops0_W)
    (k0 : W2 m ρ c (Proc.devRef .tc r) = W1 m ρ c (Proc.devRef .tc r))
    (k1 : W5 m ρ c (Proc.devRef .tc r) = W4 m ρ c (Proc.devRef .tc r))
    (k2 : W8 m ρ c (Proc.devRef .tc r) = W7 m ρ c (Proc.devRef .tc r)) :
    W8 m ρ c (Proc.devRef .tc r) = m ((c : Thread nD τ).loc r) :=
  (W8_to_W1 m ρ c r h1 h2 h3 h4 k0 k1 k2).trans ((W1_of m ρ c r h0).trans rfl)

/-! ### The arguments end as launched

No host operation writes an argument. Region 0 reads `main_arg0`, `main_arg3` and `main_arg5` through its input
windows 0, 1 and 3, region 2 reads `main_arg13` through its input window 5: an input array is left as entered. No
other argument is an array of any region. -/

theorem W8_main_arg0 (c : Dev nD) : W8 m ρ c (Proc.devRef .tc main_arg0) = m ((c : Thread nD τ).loc main_arg0) :=
  W8_to_launch m ρ c main_arg0 (by decide) (by decide) (by decide) (by decide) (by decide)
    ((W2_arr m ρ c 0).trans (((dat0 (V1 m ρ) c).arrAt_in 0 rfl _).trans (A_eq0 (V1 m ρ) c 0)))
    (W5_of_ne m ρ c main_arg0 (by decide))
    (W8_of_ne m ρ c main_arg0 (by decide))
theorem W8_main_arg1 (c : Dev nD) : W8 m ρ c (Proc.devRef .tc main_arg1) = m ((c : Thread nD τ).loc main_arg1) :=
  W8_to_launch m ρ c main_arg1 (by decide) (by decide) (by decide) (by decide) (by decide)
    (W2_of_ne m ρ c main_arg1 (by decide))
    (W5_of_ne m ρ c main_arg1 (by decide))
    (W8_of_ne m ρ c main_arg1 (by decide))
theorem W8_main_arg2 (c : Dev nD) : W8 m ρ c (Proc.devRef .tc main_arg2) = m ((c : Thread nD τ).loc main_arg2) :=
  W8_to_launch m ρ c main_arg2 (by decide) (by decide) (by decide) (by decide) (by decide)
    (W2_of_ne m ρ c main_arg2 (by decide))
    (W5_of_ne m ρ c main_arg2 (by decide))
    (W8_of_ne m ρ c main_arg2 (by decide))
theorem W8_main_arg3 (c : Dev nD) : W8 m ρ c (Proc.devRef .tc main_arg3) = m ((c : Thread nD τ).loc main_arg3) :=
  W8_to_launch m ρ c main_arg3 (by decide) (by decide) (by decide) (by decide) (by decide)
    ((W2_arr m ρ c 1).trans (((dat0 (V1 m ρ) c).arrAt_in 1 rfl _).trans (A_eq0 (V1 m ρ) c 1)))
    (W5_of_ne m ρ c main_arg3 (by decide))
    (W8_of_ne m ρ c main_arg3 (by decide))
theorem W8_main_arg4 (c : Dev nD) : W8 m ρ c (Proc.devRef .tc main_arg4) = m ((c : Thread nD τ).loc main_arg4) :=
  W8_to_launch m ρ c main_arg4 (by decide) (by decide) (by decide) (by decide) (by decide)
    (W2_of_ne m ρ c main_arg4 (by decide))
    (W5_of_ne m ρ c main_arg4 (by decide))
    (W8_of_ne m ρ c main_arg4 (by decide))
theorem W8_main_arg5 (c : Dev nD) : W8 m ρ c (Proc.devRef .tc main_arg5) = m ((c : Thread nD τ).loc main_arg5) :=
  W8_to_launch m ρ c main_arg5 (by decide) (by decide) (by decide) (by decide) (by decide)
    ((W2_arr m ρ c 3).trans (((dat0 (V1 m ρ) c).arrAt_in 3 rfl _).trans (A_eq0 (V1 m ρ) c 3)))
    (W5_of_ne m ρ c main_arg5 (by decide))
    (W8_of_ne m ρ c main_arg5 (by decide))
theorem W8_main_arg6 (c : Dev nD) : W8 m ρ c (Proc.devRef .tc main_arg6) = m ((c : Thread nD τ).loc main_arg6) :=
  W8_to_launch m ρ c main_arg6 (by decide) (by decide) (by decide) (by decide) (by decide)
    (W2_of_ne m ρ c main_arg6 (by decide))
    (W5_of_ne m ρ c main_arg6 (by decide))
    (W8_of_ne m ρ c main_arg6 (by decide))
theorem W8_main_arg7 (c : Dev nD) : W8 m ρ c (Proc.devRef .tc main_arg7) = m ((c : Thread nD τ).loc main_arg7) :=
  W8_to_launch m ρ c main_arg7 (by decide) (by decide) (by decide) (by decide) (by decide)
    (W2_of_ne m ρ c main_arg7 (by decide))
    (W5_of_ne m ρ c main_arg7 (by decide))
    (W8_of_ne m ρ c main_arg7 (by decide))
theorem W8_main_arg8 (c : Dev nD) : W8 m ρ c (Proc.devRef .tc main_arg8) = m ((c : Thread nD τ).loc main_arg8) :=
  W8_to_launch m ρ c main_arg8 (by decide) (by decide) (by decide) (by decide) (by decide)
    (W2_of_ne m ρ c main_arg8 (by decide))
    (W5_of_ne m ρ c main_arg8 (by decide))
    (W8_of_ne m ρ c main_arg8 (by decide))
theorem W8_main_arg9 (c : Dev nD) : W8 m ρ c (Proc.devRef .tc main_arg9) = m ((c : Thread nD τ).loc main_arg9) :=
  W8_to_launch m ρ c main_arg9 (by decide) (by decide) (by decide) (by decide) (by decide)
    (W2_of_ne m ρ c main_arg9 (by decide))
    (W5_of_ne m ρ c main_arg9 (by decide))
    (W8_of_ne m ρ c main_arg9 (by decide))
theorem W8_main_arg10 (c : Dev nD) : W8 m ρ c (Proc.devRef .tc main_arg10) = m ((c : Thread nD τ).loc main_arg10) :=
  W8_to_launch m ρ c main_arg10 (by decide) (by decide) (by decide) (by decide) (by decide)
    (W2_of_ne m ρ c main_arg10 (by decide))
    (W5_of_ne m ρ c main_arg10 (by decide))
    (W8_of_ne m ρ c main_arg10 (by decide))
theorem W8_main_arg11 (c : Dev nD) : W8 m ρ c (Proc.devRef .tc main_arg11) = m ((c : Thread nD τ).loc main_arg11) :=
  W8_to_launch m ρ c main_arg11 (by decide) (by decide) (by decide) (by decide) (by decide)
    (W2_of_ne m ρ c main_arg11 (by decide))
    (W5_of_ne m ρ c main_arg11 (by decide))
    (W8_of_ne m ρ c main_arg11 (by decide))
theorem W8_main_arg12 (c : Dev nD) : W8 m ρ c (Proc.devRef .tc main_arg12) = m ((c : Thread nD τ).loc main_arg12) :=
  W8_to_launch m ρ c main_arg12 (by decide) (by decide) (by decide) (by decide) (by decide)
    (W2_of_ne m ρ c main_arg12 (by decide))
    (W5_of_ne m ρ c main_arg12 (by decide))
    (W8_of_ne m ρ c main_arg12 (by decide))
theorem W8_main_arg13 (c : Dev nD) : W8 m ρ c (Proc.devRef .tc main_arg13) = m ((c : Thread nD τ).loc main_arg13) :=
  W8_to_launch m ρ c main_arg13 (by decide) (by decide) (by decide) (by decide) (by decide)
    (W2_of_ne m ρ c main_arg13 (by decide))
    (W5_of_ne m ρ c main_arg13 (by decide))
    ((W8_arr m ρ c 5).trans (((dat2 (V7 m ρ) c).arrAt_in 5 rfl _).trans (A_eq2 (V7 m ρ) c 5)))
theorem W8_main_arg14 (c : Dev nD) : W8 m ρ c (Proc.devRef .tc main_arg14) = m ((c : Thread nD τ).loc main_arg14) :=
  W8_to_launch m ρ c main_arg14 (by decide) (by decide) (by decide) (by decide) (by decide)
    (W2_of_ne m ρ c main_arg14 (by decide))
    (W5_of_ne m ρ c main_arg14 (by decide))
    (W8_of_ne m ρ c main_arg14 (by decide))

/-! ### The results -/

/-- The first result is region 2's output array, window 7: at the return it holds what the pipeline leaves there. -/
theorem W8_main_v164 (c : Dev nD) : W8 m ρ c (Proc.devRef .tc main_v164) = (dat2 (V7 m ρ) c).arrAt 7 cfg2.N :=
  W8_arr m ρ c 7

/-- The second result is written in the first host stretch and by nothing after it (no later host operation, and it is
    an array of no region): at the return it holds what it held when region 0 was entered. -/
theorem W8_main_v19 (c : Dev nD) : W8 m ρ c (Proc.devRef .tc main_v19) = W1 m ρ c (Proc.devRef .tc main_v19) :=
  W8_to_W1 m ρ c main_v19 (by decide) (by decide) (by decide) (by decide)
    (W2_of_ne m ρ c main_v19 (by decide)) (W5_of_ne m ρ c main_v19 (by decide)) (W8_of_ne m ρ c main_v19 (by decide))

/-! # The run -/

local notation "𝕄" => MT nD τ sig Unit (Elt F) ℕ (UR sig nD τ) ℕ

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. A literal `match` on the pipeline's index, so
    that the data of a pipeline given by a numeral reduce to that region's. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's class
    invariant takes it in and gives it back) and the record that the core owes nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing nothing (the launch theorem's chain ends at it BESIDE that
    record): every unscoped buffer at the last boundary's contents `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over `pin pcs a p` unifies with the pinned configuration only when unification may unfold plain
-- definitions in a metavariable's type
set_option backward.isDefEq.respectTransparency.types false in
/-- REGION 0 over the thread state: entered from every unscoped buffer at `W1`, left at `W2` (what the next segment is entered from).
    Its arrays are split out of the unscoped buffers at entry and put back at the exit contents; the generator register
    goes into the class invariant and comes out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- REGION 1 over the thread state: entered from every unscoped buffer at `W4`, left at `W5` (what the next segment is entered from).
    Its arrays are split out of the unscoped buffers at entry and put back at the exit contents; the generator register
    goes into the class invariant and comes out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- REGION 2 over the thread state: entered from every unscoped buffer at `W7`, left at `W8` (what the launch reads at the end).
    Its arrays are split out of the unscoped buffers at entry and put back at the exit contents; the generator register
    goes into the class invariant and comes out of it; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order: a host segment per stretch from its boundary's contents, a region per kernel call. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .host (hseg main_part1_ops0 main_part1_ops0_sub main_part1_ops0_fresh (W3 m ρ)),
    .region (reg1 m ρ),
    .host (hseg main_part2_ops0 main_part2_ops0_sub main_part2_ops0_fresh (W5 m ρ)),
    .host (hseg main_part3_ops0 main_part3_ops0_sub main_part3_ops0_fresh (W6 m ρ)),
    .region (reg2 m ρ) ]
/-- @main IS the run of the segments: it is the chain of its eight items, and the segments' run is the chain of the same
    items. -/
theorem main_run (c : Dev nD) : main (F := F) c = Pipeline.Seg.run (segs m ρ) := (main_chain_windows c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's unscoped buffers hold `W8`: the
    several-regions launch over the segments, the last thread state read against the final state. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME at any `F`: every weakly fair execution of @main terminates, nothing faulting, and every final state has
    the fifteen argument arrays as launched — `run_main` read at the arguments, where the fold is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨ (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c) ⟩) (run_main m ρ)

/-- info: 'Cert.Kernel.Hand.frame' depends on axioms: [propext, Classical.choice, Quot.sound] -/
#guard_msgs in #print axioms frame

end Cert.Kernel.Hand

end
-- ==== Proof.KIBody0.lean ====
/- Region 0 of @main — the first pallas_call (the two-layer perceptron), `cc0__mlp_kernel`, pipeline 0: 6 windows over a grid of 10 points — at
   arbitrary contents `V` of the TensorCore's buffers when the region is entered and at any float instance.
   Here: each window's block at a point, read off its array; the contents the body leaves in each output window's
   staging buffer, as a function of the input blocks; the body's triple on whole staging memrefs; the pipeline's proof
   data; and the body obligation at every point of the grid. Every input window of this region is read whole and
   left untouched, every output window is overwritten whole by one store, so what the body leaves in an output
   buffer depends on the input blocks alone. -/
import proofs.«114446_j62852551409688_2_alg».proof.Proof.Gen.KernelIdeal.Launch
import proofs.«114446_j62852551409688_2_alg».proof.Proof.Gen.KernelIdeal.Skeleton
import proofs.«114446_j62852551409688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle whose long axis has thousands of coordinates is checked structurally, one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`: its array as the region finds it (`V`), read through the window's rectangle
    at that point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: one rectangle per window, the whole staging buffer -/

abbrev r0_0 : Rect S10000x35 := Rect.unit (s := S10000x35) ![0, 0] S10000x35.size inb_S10000x35_S10000x35_0_0
abbrev r0_1 : Rect S35x100 := Rect.unit (s := S35x100) ![0, 0] S35x100.size inb_S35x100_S35x100_0_0
abbrev r0_2 : Rect S1x100 := Rect.unit (s := S1x100) ![0, 0] S1x100.size inb_S1x100_S1x100_0_0
abbrev r0_3 : Rect S100x5 := Rect.unit (s := S100x5) ![0, 0] S100x5.size inb_S100x5_S100x5_0_0
abbrev r0_4 : Rect S1x5 := Rect.unit (s := S1x5) ![0, 0] S1x5.size inb_S1x5_S1x5_0_0
abbrev r0_5 : Rect S10000x5 := Rect.unit (s := S10000x5) ![0, 0] S10000x5.size inb_S10000x5_S10000x5_0_0

/-! ## What the body leaves in each output window's buffer -/

/-- Window 5's staging buffer after the body, from the input windows' blocks: its one store, of the payload
    `k0_pay1` of the inputs as loaded, written through the whole-buffer rectangle. -/
def out0_5 (x0 : Vec F S10000x35 .f32) (x1 : Vec F S35x100 .f32) (x2 : Vec F S1x100 .f32) (x3 : Vec F S100x5 .f32) (x4 : Vec F S1x5 .f32) : Vec F S10000x5 .f32 :=
  View.canon [⟨r0_5, k0_pay1 (View.ld x0 r0_0) (View.ld x1 r0_1) (View.ld x2 r0_2) (View.ld x3 r0_3) (View.ld x4 r0_4)⟩]

/-- The one store's rectangle is the whole buffer, so it covers every index. -/
theorem cover0_5 (p0 : Vec F S10000x5 .f32) (y : S10000x5.Idx) :
    ∃ pc ∈ ([⟨r0_5, p0⟩] : List (View.Piece (Elt F) S10000x5 .f32)), y ∈ pc.1.set :=
  View.cover_of_tiled [⟨r0_5, p0⟩] S10000x5.size (by rfl) y

/-! ## The body's triple -/

set_option maxHeartbeats 4000000 in
/-- The kernel body on whole staging memrefs, the inputs' reading `xW` and the outputs' holding anything, runs to the
    continuation with the inputs' as they were and each output's reading `out0_W` of the inputs: the body is its
    skeleton of loads and stores; each load reads the buffer's current contents through the whole-buffer rectangle
    (for an output buffer, contents nobody uses), and the store's write, covering the buffer, leaves its payload
    there whatever was there before. -/
theorem sound_kernel0 (c : Dev nD) (E : Set ℕ) (i : grid0.Coords) (a0 : Memref sig .tc .vmem S10000x35 .f32) (ha0 : a0.IsWhole) (a1 : Memref sig .tc .vmem S35x100 .f32) (ha1 : a1.IsWhole) (a2 : Memref sig .tc .vmem S1x100 .f32) (ha2 : a2.IsWhole) (a3 : Memref sig .tc .vmem S100x5 .f32) (ha3 : a3.IsWhole) (a4 : Memref sig .tc .vmem S1x5 .f32) (ha4 : a4.IsWhole) (a5 : Memref sig .tc .vmem S10000x5 .f32) (ha5 : a5.IsWhole)
    (x0 : Vec F S10000x35 .f32) (x1 : Vec F S35x100 .f32) (x2 : Vec F S1x100 .f32) (x3 : Vec F S100x5 .f32) (x4 : Vec F S1x5 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out0_5 x0 x1 x2 x3 x4)) -∗ K ⟨⟩))
      ⊢ wp frame (wpE (defs₀ (F := F)) Variants.none c none) E (cc0__mlp_kernel i a0 ha0 a1 ha1 a2 ha2 a3 ha3 a4 ha4 a5 ha5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at point
    `t` each input's buffer at its block and each output's at `out0_W` of the input blocks; the invariant that of a
    body touching nothing but its windows (the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's debts, and every window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same with every buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so the body's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- info: 'Cert.KernelIdeal.Hand.body_obligation0' depends on axioms: [propext, Classical.choice, Quot.sound] -/
#guard_msgs in #print axioms body_obligation0

end Cert.KernelIdeal.Hand

end
-- ==== Proof.KIBody1.lean ====
/- Region 1 of @main — the second pallas_call (the two gates), `cc1__gate_kernel`, pipeline 1: 7 windows over a grid of 20 points — at
   arbitrary contents `V` of the TensorCore's buffers when the region is entered and at any float instance.
   Here: each window's block at a point, read off its array; the contents the body leaves in each output window's
   staging buffer, as a function of the input blocks; the body's triple on whole staging memrefs; the pipeline's proof
   data; and the body obligation at every point of the grid. Every input window of this region is read whole and
   left untouched, every output window is overwritten whole by one store, so what the body leaves in an output
   buffer depends on the input blocks alone. -/
import proofs.«114446_j62852551409688_2_alg».proof.Proof.Gen.KernelIdeal.Launch
import proofs.«114446_j62852551409688_2_alg».proof.Proof.Gen.KernelIdeal.Skeleton
import proofs.«114446_j62852551409688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle whose long axis has thousands of coordinates is checked structurally, one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`: its array as the region finds it (`V`), read through the window's rectangle
    at that point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one rectangle per window, the whole staging buffer -/

abbrev r1_0 : Rect S5000x240 := Rect.unit (s := S5000x240) ![0, 0] S5000x240.size inb_S5000x240_S5000x240_0_0
abbrev r1_1 : Rect S240x5 := Rect.unit (s := S240x5) ![0, 0] S240x5.size inb_S240x5_S240x5_0_0
abbrev r1_2 : Rect S1x5 := Rect.unit (s := S1x5) ![0, 0] S1x5.size inb_S1x5_S1x5_0_0
abbrev r1_3 : Rect S240x5 := Rect.unit (s := S240x5) ![0, 0] S240x5.size inb_S240x5_S240x5_0_0
abbrev r1_4 : Rect S1x5 := Rect.unit (s := S1x5) ![0, 0] S1x5.size inb_S1x5_S1x5_0_0
abbrev r1_5 : Rect S5000x5 := Rect.unit (s := S5000x5) ![0, 0] S5000x5.size inb_S5000x5_S5000x5_0_0
abbrev r1_6 : Rect S5000x5 := Rect.unit (s := S5000x5) ![0, 0] S5000x5.size inb_S5000x5_S5000x5_0_0

/-! ## What the body leaves in each output window's buffer -/

/-- Window 5's staging buffer after the body, from the input windows' blocks: its one store, of the payload
    `k1_pay2` of the inputs as loaded, written through the whole-buffer rectangle. -/
def out1_5 (x0 : Vec F S5000x240 .bf16) (x1 : Vec F S240x5 .f32) (x2 : Vec F S1x5 .f32) : Vec F S5000x5 .f32 :=
  View.canon [⟨r1_5, k1_pay2 (View.ld x0 r1_0) (View.ld x1 r1_1) (View.ld x2 r1_2)⟩]

/-- The one store's rectangle is the whole buffer, so it covers every index. -/
theorem cover1_5 (p0 : Vec F S5000x5 .f32) (y : S5000x5.Idx) :
    ∃ pc ∈ ([⟨r1_5, p0⟩] : List (View.Piece (Elt F) S5000x5 .f32)), y ∈ pc.1.set :=
  View.cover_of_tiled [⟨r1_5, p0⟩] S5000x5.size (by rfl) y

/-- Window 6's staging buffer after the body, from the input windows' blocks: its one store, of the payload
    `k1_pay3` of the inputs as loaded, written through the whole-buffer rectangle. -/
def out1_6 (x0 : Vec F S5000x240 .bf16) (x3 : Vec F S240x5 .f32) (x4 : Vec F S1x5 .f32) : Vec F S5000x5 .f32 :=
  View.canon [⟨r1_6, k1_pay3 (View.ld x0 r1_0) (View.ld x3 r1_3) (View.ld x4 r1_4)⟩]

/-- The one store's rectangle is the whole buffer, so it covers every index. -/
theorem cover1_6 (p0 : Vec F S5000x5 .f32) (y : S5000x5.Idx) :
    ∃ pc ∈ ([⟨r1_6, p0⟩] : List (View.Piece (Elt F) S5000x5 .f32)), y ∈ pc.1.set :=
  View.cover_of_tiled [⟨r1_6, p0⟩] S5000x5.size (by rfl) y

/-! ## The body's triple -/

set_option maxHeartbeats 4000000 in
/-- The kernel body on whole staging memrefs, the inputs' reading `xW` and the outputs' holding anything, runs to the
    continuation with the inputs' as they were and each output's reading `out1_W` of the inputs: the body is its
    skeleton of loads and stores; each load reads the buffer's current contents through the whole-buffer rectangle
    (for an output buffer, contents nobody uses), and the store's write, covering the buffer, leaves its payload
    there whatever was there before. -/
theorem sound_kernel1 (c : Dev nD) (E : Set ℕ) (i : grid1.Coords) (a0 : Memref sig .tc .vmem S5000x240 .bf16) (ha0 : a0.IsWhole) (a1 : Memref sig .tc .vmem S240x5 .f32) (ha1 : a1.IsWhole) (a2 : Memref sig .tc .vmem S1x5 .f32) (ha2 : a2.IsWhole) (a3 : Memref sig .tc .vmem S240x5 .f32) (ha3 : a3.IsWhole) (a4 : Memref sig .tc .vmem S1x5 .f32) (ha4 : a4.IsWhole) (a5 : Memref sig .tc .vmem S5000x5 .f32) (ha5 : a5.IsWhole) (a6 : Memref sig .tc .vmem S5000x5 .f32) (ha6 : a6.IsWhole)
    (x0 : Vec F S5000x240 .bf16) (x1 : Vec F S240x5 .f32) (x2 : Vec F S1x5 .f32) (x3 : Vec F S240x5 .f32) (x4 : Vec F S1x5 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out1_5 x0 x1 x2) ∗ owns (c : Thread nD τ) a6 fullShare (out1_6 x0 x3 x4)) -∗ K ⟨⟩))
      ⊢ wp frame (wpE (defs₀ (F := F)) Variants.none c none) E (cc1__gate_kernel i a0 ha0 a1 ha1 a2 ha2 a3 ha3 a4 ha4 a5 ha5 a6 ha6) K := by
  simp only [cc1__gate_kernel_eq_skeleton]; unfold cc1__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them (`V`); after the body at point
    `t` each input's buffer at its block and each output's at `out1_W` of the input blocks; the invariant that of a
    body touching nothing but its windows (the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t)
    | ⟨6, _⟩ => out1_6 (iblk1 V c 0 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) := by dsimp only [dat1]
theorem after1_6 (c : Dev nD) (t : Fin cfg1.N) : (dat1 V c).after 6 t = out1_6 (iblk1 V c 0 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and every window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: the same with every buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so the body's triple applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.KernelIdeal.Hand.body_obligation1' depends on axioms: [propext, Classical.choice, Quot.sound] -/
#guard_msgs in #print axioms body_obligation1

end Cert.KernelIdeal.Hand

end
-- ==== Proof.KIBody2.lean ====
/- Region 2 of @main — the third pallas_call (the gated head), `cc2__head_kernel`, pipeline 2: 8 windows over a grid of 20 points — at
   arbitrary contents `V` of the TensorCore's buffers when the region is entered and at any float instance.
   Here: each window's block at a point, read off its array; the contents the body leaves in each output window's
   staging buffer, as a function of the input blocks; the body's triple on whole staging memrefs; the pipeline's proof
   data; and the body obligation at every point of the grid. Every input window of this region is read whole and
   left untouched, every output window is overwritten whole by one store, so what the body leaves in an output
   buffer depends on the input blocks alone. -/
import proofs.«114446_j62852551409688_2_alg».proof.Proof.Gen.KernelIdeal.Launch
import proofs.«114446_j62852551409688_2_alg».proof.Proof.Gen.KernelIdeal.Skeleton
import proofs.«114446_j62852551409688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle whose long axis has thousands of coordinates is checked structurally, one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`: its array as the region finds it (`V`), read through the window's rectangle
    at that point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, whether the pipeline fetched it there or
    not, for any proof data whose array is `V`'s (`hA`) and whose body leaves the block in place (`hafter`): where the
    window is not fetched its block index has not moved, so the previous point's block, still in the buffer, is this
    point's. The window is never cut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: one rectangle per window, the whole staging buffer -/

abbrev r2_0 : Rect S5000x240 := Rect.unit (s := S5000x240) ![0, 0] S5000x240.size inb_S5000x240_S5000x240_0_0
abbrev r2_1 : Rect S240x5 := Rect.unit (s := S240x5) ![0, 0] S240x5.size inb_S240x5_S240x5_0_0
abbrev r2_2 : Rect S1x5 := Rect.unit (s := S1x5) ![0, 0] S1x5.size inb_S1x5_S1x5_0_0
abbrev r2_3 : Rect S5000x5 := Rect.unit (s := S5000x5) ![0, 0] S5000x5.size inb_S5000x5_S5000x5_0_0
abbrev r2_4 : Rect S5000x5 := Rect.unit (s := S5000x5) ![0, 0] S5000x5.size inb_S5000x5_S5000x5_0_0
abbrev r2_5 : Rect S5x1 := Rect.unit (s := S5x1) ![0, 0] S5x1.size inb_S5x1_S5x1_0_0
abbrev r2_6 : Rect S1x1 := Rect.unit (s := S1x1) ![0, 0] S1x1.size inb_S1x1_S1x1_0_0
abbrev r2_7 : Rect S5000x1 := Rect.unit (s := S5000x1) ![0, 0] S5000x1.size inb_S5000x1_S5000x1_0_0

/-! ## What the body leaves in each output window's buffer -/

/-- Window 7's staging buffer after the body, from the input windows' blocks: its one store, of the payload
    `k2_pay1` of the inputs as loaded, written through the whole-buffer rectangle. -/
def out2_7 (x0 : Vec F S5000x240 .bf16) (x1 : Vec F S240x5 .f32) (x2 : Vec F S1x5 .f32) (x3 : Vec F S5000x5 .f32) (x4 : Vec F S5000x5 .f32) (x5 : Vec F S5x1 .f32) (x6 : Vec F S1x1 .f32) : Vec F S5000x1 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store's rectangle is the whole buffer, so it covers every index. -/
theorem cover2_7 (p0 : Vec F S5000x1 .f32) (y : S5000x1.Idx) :
    ∃ pc ∈ ([⟨r2_7, p0⟩] : List (View.Piece (Elt F) S5000x1 .f32)), y ∈ pc.1.set :=
  View.cover_of_tiled [⟨r2_7, p0⟩] S5000x1.size (by rfl) y

/-! ## The body's triple -/

set_option maxHeartbeats 4000000 in
/-- The kernel body on whole staging memrefs, the inputs' reading `xW` and the outputs' holding anything, runs to the
    continuation with the inputs' as they were and each output's reading `out2_W` of the inputs: the body is its
    skeleton of loads and stores; each load reads the buffer's current contents through the whole-buffer rectangle
    (for an output buffer, contents nobody uses), and the store's write, covering the buffer, leaves its payload
    there whatever was there before. -/
theorem sound_kernel2 (c : Dev nD) (E : Set ℕ) (i : grid2.Coords) (a0 : Memref sig .tc .vmem S5000x240 .bf16) (ha0 : a0.IsWhole) (a1 : Memref sig .tc .vmem S240x5 .f32) (ha1 : a1.IsWhole) (a2 : Memref sig .tc .vmem S1x5 .f32) (ha2 : a2.IsWhole) (a3 : Memref sig .tc .vmem S5000x5 .f32) (ha3 : a3.IsWhole) (a4 : Memref sig .tc .vmem S5000x5 .f32) (ha4 : a4.IsWhole) (a5 : Memref sig .tc .vmem S5x1 .f32) (ha5 : a5.IsWhole) (a6 : Memref sig .tc .vmem S1x1 .f32) (ha6 : a6.IsWhole) (a7 : Memref sig .tc .vmem S5000x1 .f32) (ha7 : a7.IsWhole)
    (x0 : Vec F S5000x240 .bf16) (x1 : Vec F S240x5 .f32) (x2 : Vec F S1x5 .f32) (x3 : Vec F S5000x5 .f32) (x4 : Vec F S5000x5 .f32) (x5 : Vec F S5x1 .f32) (x6 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out2_7 x0 x1 x2 x3 x4 x5 x6)) -∗ K ⟨⟩))
      ⊢ wp frame (wpE (defs₀ (F := F)) Variants.none c none) E (cc2__head_kernel i a0 ha0 a1 ha1 a2 ha2 a3 ha3 a4 ha4 a5 ha5 a6 ha6 a7 ha7) K := by
  simp only [cc2__head_kernel_eq_skeleton]; unfold cc2__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them (`V`); after the body at point
    `t` each input's buffer at its block and each output's at `out2_W` of the input blocks; the invariant that of a
    body touching nothing but its windows (the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`: the invariant, the core's debts, and every window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the same with every buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_W`), so the body's triple applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- info: 'Cert.KernelIdeal.Hand.body_obligation2' depends on axioms: [propext, Classical.choice, Quot.sound] -/
#guard_msgs in #print axioms body_obligation2

end Cert.KernelIdeal.Hand

end
-- ==== Proof.KIRun.lean ====
/-
  The host stretches of @main between its three kernel regions: which references each stretch writes.

  @main is in single-assignment form: every host operation writes one reference, its result, and no two
  operations write the same one. For each of the five stretches the list of written references is set down
  (`_W`), every operation's written set is shown to lie in it (`_writes`), and no operation allocates
  (`_fresh`). A reference outside a stretch's list keeps its contents across the stretch
  (`StableHlo.after_of_writes_sub`): this is how the fold of buffer contents through @main is read back
  at the argument arrays and at the results.

  The buffer contents of a core at each boundary between the segments of @main, as a fold from the launch memory.

  @main is eight segments: five stretches of host operations and three kernel regions,

      main_part0_ops0 · region 0 · main_part0_ops1 · main_part1_ops0 · region 1 · main_part2_ops0 · main_part3_ops0 · region 2.

  `W0` is the launch memory read at a core; a host stretch takes `W` to `StableHlo.after ops W`; a region takes the
  contents `W` it is entered from to `W` with the region's arrays replaced by what its pipeline leaves in them
  (an input array as entered, an output array with every point's write-back folded in: `Dat.arrAt … N`), every other
  buffer untouched (`Pipeline.withArrays`). `W8` is what the core holds when @main returns.

  Read back through the fold: an argument array is written by no host operation (every operation writes its own fresh
  result) and by no region (a region only reads an argument, through an input window, or does not touch it), so `W8`
  at an argument is the launch memory there (`W8_main_argK`). The first result `main_v164` is region 2's one output
  array (`W8_main_v164`); the second result `main_v19` is written in the first host stretch and by nothing after it
  (`W8_main_v19`).

  The run of @main: its eight segments over one thread state, and the launch.

  Between two segments a core holds every unscoped buffer, whole, at the boundary's contents (`W0` … `W8`: the fold),
  beside its generator register at some state and the record that it owes nothing. A host stretch is a segment that
  takes the buffers from `W` to `StableHlo.after ops W`. A kernel region is a segment that splits its arrays out of the
  unscoped buffers, runs its pipeline on them from the proof data's entry contents, and puts them back at what the
  pipeline leaves; the body's obligation at every point is the body modules'. The segments chain by name (each is
  entered from exactly what the one before it leaves), so the several-regions launch theorem gives: every weakly fair
  execution of @main from memory `m` with zero counters terminates, nothing faulting, and at the end every unscoped
  buffer of a core holds `W8` (`run_main`). Read at the argument arrays, where `W8` is the launch memory, this is the
  frame claim (`frame`).
-/
import proofs.«114446_j62852551409688_2_alg».proof.Proof.KIBody0
import proofs.«114446_j62852551409688_2_alg».proof.Proof.KIBody1
import proofs.«114446_j62852551409688_2_alg».proof.Proof.KIBody2
import proofs.«114446_j62852551409688_2_alg».proof.Proof.Gen.KernelIdeal.Launch
import proofs.«114446_j62852551409688_2_alg».proof.Proof.Gen.KernelIdeal.Skeleton
import proofs.«114446_j62852551409688_2_alg».proof.Proof.Gen.KernelIdeal.Points
import Idealize.ShloMosaic.Lib.Pipeline.Frame
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The host stretches -/

/-! ## `main_part0_ops0`: 40 operations -/

/-- No operation of `main_part0_ops0` allocates a buffer. -/
theorem main_part0_ops0_fresh : (main_part0_ops0 : List (HloOp τ sig (Elt F))).Forall fun op => op.fresh = ∅ := by
  simp only [List.Forall]; repeat' constructor
/-- The references `main_part0_ops0`'s operations write: one per operation, in order. -/
abbrev main_part0_ops0_W : List (Ref sig .tc) :=
  [ main_v0, main_v1, main_v2, main_v3, main_cst, main_v4, main_v5, main_v6, main_cst_0, main_v7,
    main_v8, main_v9, main_c, main_v10, main_v11, main_c_1, main_v12, main_v13, main_v14, main_v15,
    main_v16, main_cst_2, main_v17, main_v18, main_v19, main_c_3, main_v20, main_v21, main_c_4, main_v22,
    main_v23, main_v24, main_v25, main_v26, main_cst_5, main_v27, main_v28, main_v29, main_v30, main_v31 ]
/-- Each operation writes its result only, and that result is in the list. -/
theorem main_part0_ops0_writes : (main_part0_ops0 : List (HloOp τ sig (Elt F))).Forall fun op => op.writes ⊆ (main_part0_ops0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the stretch does not write holds after it what it held before. -/
theorem main_part0_ops0_keeps (V : Valuation τ sig (Elt F)) (r : Ref sig .tc) (h : r ∉ main_part0_ops0_W) :
    StableHlo.after (main_part0_ops0 : List (HloOp τ sig (Elt F))) V (Proc.devRef .tc r) = V (Proc.devRef .tc r) :=
  StableHlo.after_of_writes_sub main_part0_ops0 V main_part0_ops0_writes h

/-! ## `main_part0_ops1`: 19 operations -/

/-- No operation of `main_part0_ops1` allocates a buffer. -/
theorem main_part0_ops1_fresh : (main_part0_ops1 : List (HloOp τ sig (Elt F))).Forall fun op => op.fresh = ∅ := by
  simp only [List.Forall]; repeat' constructor
/-- The references `main_part0_ops1`'s operations write: one per operation, in order. -/
abbrev main_part0_ops1_W : List (Ref sig .tc) :=
  [ main_v33, main_c_6, main_v34, main_v35, main_c_7, main_v36, main_v37, main_v38, main_v39, main_v40,
    main_v41, main_v42, main_v43, main_cst_8, main_v44, main_v45, main_v46, main_c_9, main_v47 ]
/-- Each operation writes its result only, and that result is in the list. -/
theorem main_part0_ops1_writes : (main_part0_ops1 : List (HloOp τ sig (Elt F))).Forall fun op => op.writes ⊆ (main_part0_ops1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the stretch does not write holds after it what it held before. -/
theorem main_part0_ops1_keeps (V : Valuation τ sig (Elt F)) (r : Ref sig .tc) (h : r ∉ main_part0_ops1_W) :
    StableHlo.after (main_part0_ops1 : List (HloOp τ sig (Elt F))) V (Proc.devRef .tc r) = V (Proc.devRef .tc r) :=
  StableHlo.after_of_writes_sub main_part0_ops1 V main_part0_ops1_writes h

/-! ## `main_part1_ops0`: 60 operations -/

/-- No operation of `main_part1_ops0` allocates a buffer. -/
theorem main_part1_ops0_fresh : (main_part1_ops0 : List (HloOp τ sig (Elt F))).Forall fun op => op.fresh = ∅ := by
  simp only [List.Forall]; repeat' constructor
/-- The references `main_part1_ops0`'s operations write: one per operation, in order. -/
abbrev main_part1_ops0_W : List (Ref sig .tc) :=
  [ main_v48, main_c_10, main_v49, main_v50, main_v51, main_v52, main_v53, main_v54, main_v55, main_v56,
    main_cst_11, main_v57, main_v58, main_v59, main_c_12, main_v60, main_v61, main_c_13, main_v62, main_v63,
    main_v64, main_v65, main_v66, main_v67, main_v68, main_v69, main_cst_14, main_v70, main_v71, main_v72,
    main_cst_15, main_v73, main_v74, main_v75, main_c_16, main_v76, main_v77, main_c_17, main_v78, main_v79,
    main_v80, main_v81, main_v82, main_v83, main_v84, main_v85, main_cst_18, main_v86, main_v87, main_v88,
    main_cst_19, main_v89, main_v90, main_v91, main_v92, main_v93, main_v94, main_v95, main_v96, main_v97 ]
/-- Each operation writes its result only, and that result is in the list. -/
theorem main_part1_ops0_writes : (main_part1_ops0 : List (HloOp τ sig (Elt F))).Forall fun op => op.writes ⊆ (main_part1_ops0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the stretch does not write holds after it what it held before. -/
theorem main_part1_ops0_keeps (V : Valuation τ sig (Elt F)) (r : Ref sig .tc) (h : r ∉ main_part1_ops0_W) :
    StableHlo.after (main_part1_ops0 : List (HloOp τ sig (Elt F))) V (Proc.devRef .tc r) = V (Proc.devRef .tc r) :=
  StableHlo.after_of_writes_sub main_part1_ops0 V main_part1_ops0_writes h

/-! ## `main_part2_ops0`: 59 operations -/

/-- No operation of `main_part2_ops0` allocates a buffer. -/
theorem main_part2_ops0_fresh : (main_part2_ops0 : List (HloOp τ sig (Elt F))).Forall fun op => op.fresh = ∅ := by
  simp only [List.Forall]; repeat' constructor
/-- The references `main_part2_ops0`'s operations write: one per operation, in order. -/
abbrev main_part2_ops0_W : List (Ref sig .tc) :=
  [ main_v99, main_v100, main_c_20, main_v101, main_v102, main_c_21, main_v103, main_v104, main_v105, main_v106,
    main_v107, main_v108, main_v109, main_v110, main_cst_22, main_v111, main_v112, main_v113, main_c_23, main_v114,
    main_v115, main_c_24, main_v116, main_v117, main_v118, main_v119, main_v120, main_v121, main_v122, main_v123,
    main_cst_25, main_v124, main_v125, main_v126, main_c_26, main_v127, main_v128, main_c_27, main_v129, main_v130,
    main_v131, main_v132, main_v133, main_v134, main_v135, main_v136, main_cst_28, main_v137, main_v138, main_v139,
    main_cst_29, main_v140, main_v141, main_v142, main_c_30, main_v143, main_v144, main_c_31, main_v145 ]
/-- Each operation writes its result only, and that result is in the list. -/
theorem main_part2_ops0_writes : (main_part2_ops0 : List (HloOp τ sig (Elt F))).Forall fun op => op.writes ⊆ (main_part2_ops0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the stretch does not write holds after it what it held before. -/
theorem main_part2_ops0_keeps (V : Valuation τ sig (Elt F)) (r : Ref sig .tc) (h : r ∉ main_part2_ops0_W) :
    StableHlo.after (main_part2_ops0 : List (HloOp τ sig (Elt F))) V (Proc.devRef .tc r) = V (Proc.devRef .tc r) :=
  StableHlo.after_of_writes_sub main_part2_ops0 V main_part2_ops0_writes h

/-! ## `main_part3_ops0`: 20 operations -/

/-- No operation of `main_part3_ops0` allocates a buffer. -/
theorem main_part3_ops0_fresh : (main_part3_ops0 : List (HloOp τ sig (Elt F))).Forall fun op => op.fresh = ∅ := by
  simp only [List.Forall]; repeat' constructor
/-- The references `main_part3_ops0`'s operations write: one per operation, in order. -/
abbrev main_part3_ops0_W : List (Ref sig .tc) :=
  [ main_v146, main_v147, main_v148, main_v149, main_v150, main_v151, main_v152, main_cst_32, main_v153, main_v154,
    main_v155, main_cst_33, main_v156, main_v157, main_v158, main_v159, main_v160, main_v161, main_v162, main_v163 ]
/-- Each operation writes its result only, and that result is in the list. -/
theorem main_part3_ops0_writes : (main_part3_ops0 : List (HloOp τ sig (Elt F))).Forall fun op => op.writes ⊆ (main_part3_ops0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the stretch does not write holds after it what it held before. -/
theorem main_part3_ops0_keeps (V : Valuation τ sig (Elt F)) (r : Ref sig .tc) (h : r ∉ main_part3_ops0_W) :
    StableHlo.after (main_part3_ops0 : List (HloOp τ sig (Elt F))) V (Proc.devRef .tc r) = V (Proc.devRef .tc r) :=
  StableHlo.after_of_writes_sub main_part3_ops0 V main_part3_ops0_writes h

/-! # The fold -/

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)
/-- After `main_part0_ops0`: what region 0 is entered from. -/
abbrev W1 : Dev nD → Valuation τ sig (Elt F) := fun c => StableHlo.after main_part0_ops0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents read at the TensorCore's references. -/
abbrev V2 : (c : Dev nD) → (b : Ref sig .tc) → Buf (Elt F) ((c : Thread nD τ).loc b) := fun c b => W2 m ρ c b
/-- At region 0's exit each of its arrays holds what the pipeline leaves (`hF0`) and every other buffer what it held at
    entry (`hrest0`): what putting the arrays back among the core's unscoped buffers asks. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `main_part0_ops1`. -/
abbrev W3 : Dev nD → Valuation τ sig (Elt F) := fun c => StableHlo.after main_part0_ops1 (W2 m ρ c)
/-- After `main_part1_ops0`: what region 1 is entered from. -/
abbrev W4 : Dev nD → Valuation τ sig (Elt F) := fun c => StableHlo.after main_part1_ops0 (W3 m ρ c)
/-- The same read at the TensorCore's references (what region 1's proof data take). -/
abbrev V4 : (c : Dev nD) → (b : Ref sig .tc) → Buf (Elt F) ((c : Thread nD τ).loc b) := fun c b => W4 m ρ c b
/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- Region 1's exit contents read at the TensorCore's references. -/
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `main_part2_ops0`. -/
abbrev W6 : Dev nD → Valuation τ sig (Elt F) := fun c => StableHlo.after main_part2_ops0 (W5 m ρ c)
/-- After `main_part3_ops0`: what region 2 is entered from. -/
abbrev W7 : Dev nD → Valuation τ sig (Elt F) := fun c => StableHlo.after main_part3_ops0 (W6 m ρ c)
/-- The same read at the TensorCore's references (what region 2's proof data take). -/
abbrev V7 : (c : Dev nD) → (b : Ref sig .tc) → Buf (Elt F) ((c : Thread nD τ).loc b) := fun c b => W7 m ρ c b
/-- At region 2's exit, which is @main's return: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- Region 2's exit contents read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ## Across a host stretch: a reference the stretch does not write keeps its contents -/

theorem W1_of (c : Dev nD) (r : Ref sig .tc) (h : r ∉ main_part0_ops0_W) :
    W1 m ρ c (Proc.devRef .tc r) = W0 m ρ c (Proc.devRef .tc r) := main_part0_ops0_keeps _ r h
theorem W3_of (c : Dev nD) (r : Ref sig .tc) (h : r ∉ main_part0_ops1_W) :
    W3 m ρ c (Proc.devRef .tc r) = W2 m ρ c (Proc.devRef .tc r) := main_part0_ops1_keeps _ r h
theorem W4_of (c : Dev nD) (r : Ref sig .tc) (h : r ∉ main_part1_ops0_W) :
    W4 m ρ c (Proc.devRef .tc r) = W3 m ρ c (Proc.devRef .tc r) := main_part1_ops0_keeps _ r h
theorem W6_of (c : Dev nD) (r : Ref sig .tc) (h : r ∉ main_part2_ops0_W) :
    W6 m ρ c (Proc.devRef .tc r) = W5 m ρ c (Proc.devRef .tc r) := main_part2_ops0_keeps _ r h
theorem W7_of (c : Dev nD) (r : Ref sig .tc) (h : r ∉ main_part3_ops0_W) :
    W7 m ρ c (Proc.devRef .tc r) = W6 m ρ c (Proc.devRef .tc r) := main_part3_ops0_keeps _ r h

/-! ## The walk back -/

/-- A reference that none of the last four host stretches writes, and that each region leaves as it found it
    (`k0`, `k1`, `k2`: it is none of the region's arrays, or it is an input array), holds at the return what it held
    when region 0 was entered. -/
theorem W8_to_W1 (c : Dev nD) (r : Ref sig .tc)
    (h1 : r ∉ main_part0_ops1_W) (h2 : r ∉ main_part1_ops0_W) (h3 : r ∉ main_part2_ops0_W) (h4 : r ∉ main_part3_ops0_W)
    (k0 : W2 m ρ c (Proc.devRef .tc r) = W1 m ρ c (Proc.devRef .tc r))
    (k1 : W5 m ρ c (Proc.devRef .tc r) = W4 m ρ c (Proc.devRef .tc r))
    (k2 : W8 m ρ c (Proc.devRef .tc r) = W7 m ρ c (Proc.devRef .tc r)) :
    W8 m ρ c (Proc.devRef .tc r) = W1 m ρ c (Proc.devRef .tc r) :=
  calc W8 m ρ c (Proc.devRef .tc r)
    _ = W7 m ρ c (Proc.devRef .tc r) := k2
    _ = W6 m ρ c (Proc.devRef .tc r) := W7_of m ρ c r h4
    _ = W5 m ρ c (Proc.devRef .tc r) := W6_of m ρ c r h3
    _ = W4 m ρ c (Proc.devRef .tc r) := k1
    _ = W3 m ρ c (Proc.devRef .tc r) := W4_of m ρ c r h2
    _ = W2 m ρ c (Proc.devRef .tc r) := W3_of m ρ c r h1
    _ = W1 m ρ c (Proc.devRef .tc r) := k0

/-- The same for a reference the first host stretch does not write either: it holds at the return what the launch
    memory holds there. -/
theorem W8_to_launch (c : Dev nD) (r : Ref sig .tc) (h0 : r ∉ main_part0_ops0_W)
    (h1 : r ∉ main_part0_ops1_W) (h2 : r ∉ main_part1_ops0_W) (h3 : r ∉ main_part2_ops0_W) (h4 : r ∉ main_part3_ops0_W)
    (k0 : W2 m ρ c (Proc.devRef .tc r) = W1 m ρ c (Proc.devRef .tc r))
    (k1 : W5 m ρ c (Proc.devRef .tc r) = W4 m ρ c (Proc.devRef .tc r))
    (k2 : W8 m ρ c (Proc.devRef .tc r) = W7 m ρ c (Proc.devRef .tc r)) :
    W8 m ρ c (Proc.devRef .tc r) = m ((c : Thread nD τ).loc r) :=
  (W8_to_W1 m ρ c r h1 h2 h3 h4 k0 k1 k2).trans ((W1_of m ρ c r h0).trans rfl)

/-! ### The arguments end as launched

No host operation writes an argument. Region 0 reads `main_arg0`, `main_arg3` and `main_arg5` through its input
windows 0, 1 and 3, region 2 reads `main_arg13` through its input window 5: an input array is left as entered. No
other argument is an array of any region. -/

theorem W8_main_arg0 (c : Dev nD) : W8 m ρ c (Proc.devRef .tc main_arg0) = m ((c : Thread nD τ).loc main_arg0) :=
  W8_to_launch m ρ c main_arg0 (by decide) (by decide) (by decide) (by decide) (by decide)
    ((W2_arr m ρ c 0).trans (((dat0 (V1 m ρ) c).arrAt_in 0 rfl _).trans (A_eq0 (V1 m ρ) c 0)))
    (W5_of_ne m ρ c main_arg0 (by decide))
    (W8_of_ne m ρ c main_arg0 (by decide))
theorem W8_main_arg1 (c : Dev nD) : W8 m ρ c (Proc.devRef .tc main_arg1) = m ((c : Thread nD τ).loc main_arg1) :=
  W8_to_launch m ρ c main_arg1 (by decide) (by decide) (by decide) (by decide) (by decide)
    (W2_of_ne m ρ c main_arg1 (by decide))
    (W5_of_ne m ρ c main_arg1 (by decide))
    (W8_of_ne m ρ c main_arg1 (by decide))
theorem W8_main_arg2 (c : Dev nD) : W8 m ρ c (Proc.devRef .tc main_arg2) = m ((c : Thread nD τ).loc main_arg2) :=
  W8_to_launch m ρ c main_arg2 (by decide) (by decide) (by decide) (by decide) (by decide)
    (W2_of_ne m ρ c main_arg2 (by decide))
    (W5_of_ne m ρ c main_arg2 (by decide))
    (W8_of_ne m ρ c main_arg2 (by decide))
theorem W8_main_arg3 (c : Dev nD) : W8 m ρ c (Proc.devRef .tc main_arg3) = m ((c : Thread nD τ).loc main_arg3) :=
  W8_to_launch m ρ c main_arg3 (by decide) (by decide) (by decide) (by decide) (by decide)
    ((W2_arr m ρ c 1).trans (((dat0 (V1 m ρ) c).arrAt_in 1 rfl _).trans (A_eq0 (V1 m ρ) c 1)))
    (W5_of_ne m ρ c main_arg3 (by decide))
    (W8_of_ne m ρ c main_arg3 (by decide))
theorem W8_main_arg4 (c : Dev nD) : W8 m ρ c (Proc.devRef .tc main_arg4) = m ((c : Thread nD τ).loc main_arg4) :=
  W8_to_launch m ρ c main_arg4 (by decide) (by decide) (by decide) (by decide) (by decide)
    (W2_of_ne m ρ c main_arg4 (by decide))
    (W5_of_ne m ρ c main_arg4 (by decide))
    (W8_of_ne m ρ c main_arg4 (by decide))
theorem W8_main_arg5 (c : Dev nD) : W8 m ρ c (Proc.devRef .tc main_arg5) = m ((c : Thread nD τ).loc main_arg5) :=
  W8_to_launch m ρ c main_arg5 (by decide) (by decide) (by decide) (by decide) (by decide)
    ((W2_arr m ρ c 3).trans (((dat0 (V1 m ρ) c).arrAt_in 3 rfl _).trans (A_eq0 (V1 m ρ) c 3)))
    (W5_of_ne m ρ c main_arg5 (by decide))
    (W8_of_ne m ρ c main_arg5 (by decide))
theorem W8_main_arg6 (c : Dev nD) : W8 m ρ c (Proc.devRef .tc main_arg6) = m ((c : Thread nD τ).loc main_arg6) :=
  W8_to_launch m ρ c main_arg6 (by decide) (by decide) (by decide) (by decide) (by decide)
    (W2_of_ne m ρ c main_arg6 (by decide))
    (W5_of_ne m ρ c main_arg6 (by decide))
    (W8_of_ne m ρ c main_arg6 (by decide))
theorem W8_main_arg7 (c : Dev nD) : W8 m ρ c (Proc.devRef .tc main_arg7) = m ((c : Thread nD τ).loc main_arg7) :=
  W8_to_launch m ρ c main_arg7 (by decide) (by decide) (by decide) (by decide) (by decide)
    (W2_of_ne m ρ c main_arg7 (by decide))
    (W5_of_ne m ρ c main_arg7 (by decide))
    (W8_of_ne m ρ c main_arg7 (by decide))
theorem W8_main_arg8 (c : Dev nD) : W8 m ρ c (Proc.devRef .tc main_arg8) = m ((c : Thread nD τ).loc main_arg8) :=
  W8_to_launch m ρ c main_arg8 (by decide) (by decide) (by decide) (by decide) (by decide)
    (W2_of_ne m ρ c main_arg8 (by decide))
    (W5_of_ne m ρ c main_arg8 (by decide))
    (W8_of_ne m ρ c main_arg8 (by decide))
theorem W8_main_arg9 (c : Dev nD) : W8 m ρ c (Proc.devRef .tc main_arg9) = m ((c : Thread nD τ).loc main_arg9) :=
  W8_to_launch m ρ c main_arg9 (by decide) (by decide) (by decide) (by decide) (by decide)
    (W2_of_ne m ρ c main_arg9 (by decide))
    (W5_of_ne m ρ c main_arg9 (by decide))
    (W8_of_ne m ρ c main_arg9 (by decide))
theorem W8_main_arg10 (c : Dev nD) : W8 m ρ c (Proc.devRef .tc main_arg10) = m ((c : Thread nD τ).loc main_arg10) :=
  W8_to_launch m ρ c main_arg10 (by decide) (by decide) (by decide) (by decide) (by decide)
    (W2_of_ne m ρ c main_arg10 (by decide))
    (W5_of_ne m ρ c main_arg10 (by decide))
    (W8_of_ne m ρ c main_arg10 (by decide))
theorem W8_main_arg11 (c : Dev nD) : W8 m ρ c (Proc.devRef .tc main_arg11) = m ((c : Thread nD τ).loc main_arg11) :=
  W8_to_launch m ρ c main_arg11 (by decide) (by decide) (by decide) (by decide) (by decide)
    (W2_of_ne m ρ c main_arg11 (by decide))
    (W5_of_ne m ρ c main_arg11 (by decide))
    (W8_of_ne m ρ c main_arg11 (by decide))
theorem W8_main_arg12 (c : Dev nD) : W8 m ρ c (Proc.devRef .tc main_arg12) = m ((c : Thread nD τ).loc main_arg12) :=
  W8_to_launch m ρ c main_arg12 (by decide) (by decide) (by decide) (by decide) (by decide)
    (W2_of_ne m ρ c main_arg12 (by decide))
    (W5_of_ne m ρ c main_arg12 (by decide))
    (W8_of_ne m ρ c main_arg12 (by decide))
theorem W8_main_arg13 (c : Dev nD) : W8 m ρ c (Proc.devRef .tc main_arg13) = m ((c : Thread nD τ).loc main_arg13) :=
  W8_to_launch m ρ c main_arg13 (by decide) (by decide) (by decide) (by decide) (by decide)
    (W2_of_ne m ρ c main_arg13 (by decide))
    (W5_of_ne m ρ c main_arg13 (by decide))
    ((W8_arr m ρ c 5).trans (((dat2 (V7 m ρ) c).arrAt_in 5 rfl _).trans (A_eq2 (V7 m ρ) c 5)))
theorem W8_main_arg14 (c : Dev nD) : W8 m ρ c (Proc.devRef .tc main_arg14) = m ((c : Thread nD τ).loc main_arg14) :=
  W8_to_launch m ρ c main_arg14 (by decide) (by decide) (by decide) (by decide) (by decide)
    (W2_of_ne m ρ c main_arg14 (by decide))
    (W5_of_ne m ρ c main_arg14 (by decide))
    (W8_of_ne m ρ c main_arg14 (by decide))

/-! ### The results -/

/-- The first result is region 2's output array, window 7: at the return it holds what the pipeline leaves there. -/
theorem W8_main_v164 (c : Dev nD) : W8 m ρ c (Proc.devRef .tc main_v164) = (dat2 (V7 m ρ) c).arrAt 7 cfg2.N :=
  W8_arr m ρ c 7

/-- The second result is written in the first host stretch and by nothing after it (no later host operation, and it is
    an array of no region): at the return it holds what it held when region 0 was entered. -/
theorem W8_main_v19 (c : Dev nD) : W8 m ρ c (Proc.devRef .tc main_v19) = W1 m ρ c (Proc.devRef .tc main_v19) :=
  W8_to_W1 m ρ c main_v19 (by decide) (by decide) (by decide) (by decide)
    (W2_of_ne m ρ c main_v19 (by decide)) (W5_of_ne m ρ c main_v19 (by decide)) (W8_of_ne m ρ c main_v19 (by decide))

/-! # The run -/

local notation "𝕄" => MT nD τ sig Unit (Elt F) ℕ (UR sig nD τ) ℕ

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. A literal `match` on the pipeline's index, so
    that the data of a pipeline given by a numeral reduce to that region's. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's class
    invariant takes it in and gives it back) and the record that the core owes nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing nothing (the launch theorem's chain ends at it BESIDE that
    record): every unscoped buffer at the last boundary's contents `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over `pin pcs a p` unifies with the pinned configuration only when unification may unfold plain
-- definitions in a metavariable's type
set_option backward.isDefEq.respectTransparency.types false in
/-- REGION 0 over the thread state: entered from every unscoped buffer at `W1`, left at `W2` (what the next segment is entered from).
    Its arrays are split out of the unscoped buffers at entry and put back at the exit contents; the generator register
    goes into the class invariant and comes out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- REGION 1 over the thread state: entered from every unscoped buffer at `W4`, left at `W5` (what the next segment is entered from).
    Its arrays are split out of the unscoped buffers at entry and put back at the exit contents; the generator register
    goes into the class invariant and comes out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- REGION 2 over the thread state: entered from every unscoped buffer at `W7`, left at `W8` (what the launch reads at the end).
    Its arrays are split out of the unscoped buffers at entry and put back at the exit contents; the generator register
    goes into the class invariant and comes out of it; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order: a host segment per stretch from its boundary's contents, a region per kernel call. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .host (hseg main_part1_ops0 main_part1_ops0_sub main_part1_ops0_fresh (W3 m ρ)),
    .region (reg1 m ρ),
    .host (hseg main_part2_ops0 main_part2_ops0_sub main_part2_ops0_fresh (W5 m ρ)),
    .host (hseg main_part3_ops0 main_part3_ops0_sub main_part3_ops0_fresh (W6 m ρ)),
    .region (reg2 m ρ) ]
/-- @main IS the run of the segments: it is the chain of its eight items, and the segments' run is the chain of the same
    items. -/
theorem main_run (c : Dev nD) : main (F := F) c = Pipeline.Seg.run (segs m ρ) := (main_chain_windows c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's unscoped buffers hold `W8`: the
    several-regions launch over the segments, the last thread state read against the final state. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME at any `F`: every weakly fair execution of @main terminates, nothing faulting, and every final state has
    the fifteen argument arrays as launched — `run_main` read at the arguments, where the fold is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨ (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c) ⟩) (run_main m ρ)

/-- info: 'Cert.KernelIdeal.Hand.frame' depends on axioms: [propext, Classical.choice, Quot.sound] -/
#guard_msgs in #print axioms frame

end Cert.KernelIdeal.Hand

end
-- ==== Proof.KIEntry.lean ====
/-
  What the fold of buffer contents through @main holds at the buffers the value of @main is read from.

  `W0` … `W8` are a core's buffer contents at the boundaries between the eight segments of @main (five host
  stretches, three kernel regions). Here the fold is read at single references, each fact an equation between two
  boundaries' contents or between a boundary's contents and the launch memory:
  a reference no operation of a host stretch writes (every operation writes its own fresh result) keeps its contents
  across the stretch; a reference that is no array of a region, or an input array of it, keeps its contents across
  the region; an output array of a region holds what the region's pipeline leaves there.
-/
import proofs.«114446_j62852551409688_2_alg».proof.Proof.KIRun

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg)

/-! ## After the first host stretch (region 0's entry), from the launch memory -/

theorem W1_main_arg0 (c : Dev nD) : W1 m ρ c (Proc.devRef .tc main_arg0) = m ((c : Thread nD τ).loc main_arg0) :=
  (W1_of m ρ c main_arg0 (by decide)).trans rfl
theorem W1_main_arg1 (c : Dev nD) : W1 m ρ c (Proc.devRef .tc main_arg1) = m ((c : Thread nD τ).loc main_arg1) :=
  (W1_of m ρ c main_arg1 (by decide)).trans rfl
theorem W1_main_arg2 (c : Dev nD) : W1 m ρ c (Proc.devRef .tc main_arg2) = m ((c : Thread nD τ).loc main_arg2) :=
  (W1_of m ρ c main_arg2 (by decide)).trans rfl
theorem W1_main_arg3 (c : Dev nD) : W1 m ρ c (Proc.devRef .tc main_arg3) = m ((c : Thread nD τ).loc main_arg3) :=
  (W1_of m ρ c main_arg3 (by decide)).trans rfl
theorem W1_main_arg4 (c : Dev nD) : W1 m ρ c (Proc.devRef .tc main_arg4) = m ((c : Thread nD τ).loc main_arg4) :=
  (W1_of m ρ c main_arg4 (by decide)).trans rfl
theorem W1_main_arg5 (c : Dev nD) : W1 m ρ c (Proc.devRef .tc main_arg5) = m ((c : Thread nD τ).loc main_arg5) :=
  (W1_of m ρ c main_arg5 (by decide)).trans rfl
theorem W1_main_arg6 (c : Dev nD) : W1 m ρ c (Proc.devRef .tc main_arg6) = m ((c : Thread nD τ).loc main_arg6) :=
  (W1_of m ρ c main_arg6 (by decide)).trans rfl
theorem W1_main_arg7 (c : Dev nD) : W1 m ρ c (Proc.devRef .tc main_arg7) = m ((c : Thread nD τ).loc main_arg7) :=
  (W1_of m ρ c main_arg7 (by decide)).trans rfl
theorem W1_main_arg8 (c : Dev nD) : W1 m ρ c (Proc.devRef .tc main_arg8) = m ((c : Thread nD τ).loc main_arg8) :=
  (W1_of m ρ c main_arg8 (by decide)).trans rfl
theorem W1_main_arg9 (c : Dev nD) : W1 m ρ c (Proc.devRef .tc main_arg9) = m ((c : Thread nD τ).loc main_arg9) :=
  (W1_of m ρ c main_arg9 (by decide)).trans rfl
theorem W1_main_arg10 (c : Dev nD) : W1 m ρ c (Proc.devRef .tc main_arg10) = m ((c : Thread nD τ).loc main_arg10) :=
  (W1_of m ρ c main_arg10 (by decide)).trans rfl
theorem W1_main_arg11 (c : Dev nD) : W1 m ρ c (Proc.devRef .tc main_arg11) = m ((c : Thread nD τ).loc main_arg11) :=
  (W1_of m ρ c main_arg11 (by decide)).trans rfl
theorem W1_main_arg12 (c : Dev nD) : W1 m ρ c (Proc.devRef .tc main_arg12) = m ((c : Thread nD τ).loc main_arg12) :=
  (W1_of m ρ c main_arg12 (by decide)).trans rfl
theorem W1_main_arg13 (c : Dev nD) : W1 m ρ c (Proc.devRef .tc main_arg13) = m ((c : Thread nD τ).loc main_arg13) :=
  (W1_of m ρ c main_arg13 (by decide)).trans rfl
theorem W1_main_arg14 (c : Dev nD) : W1 m ρ c (Proc.devRef .tc main_arg14) = m ((c : Thread nD τ).loc main_arg14) :=
  (W1_of m ρ c main_arg14 (by decide)).trans rfl

/-- The last two operations of the first stretch reshape the bias vectors `main_arg4` and `main_arg6` into one-row
    matrices; nothing after them in the stretch writes either result, and nothing in the stretch writes the arguments. -/
theorem W1_main_v30 (c : Dev nD) :
    W1 m ρ c (Proc.devRef .tc main_v30) = shapeCast S1x100 (m ((c : Thread nD τ).loc main_arg4)) shapeCasts_S100_S1x100 := by
  show StableHlo.after main_part0_ops0 (W0 m ρ c) (Proc.devRef .tc main_v30) = _
  simp only [main_part0_ops0]
  after_results
  rfl
theorem W1_main_v31 (c : Dev nD) :
    W1 m ρ c (Proc.devRef .tc main_v31) = shapeCast S1x5 (m ((c : Thread nD τ).loc main_arg6)) shapeCasts_S5_S1x5 := by
  show StableHlo.after main_part0_ops0 (W0 m ρ c) (Proc.devRef .tc main_v31) = _
  simp only [main_part0_ops0]
  after_results
  rfl

/-! ## After region 0

Region 0 reads `main_arg0`, `main_arg3` and `main_arg5` through input windows (an input array is left as entered);
the other references below are none of its arrays. -/

theorem W2_main_v1 (c : Dev nD) : W2 m ρ c (Proc.devRef .tc main_v1) = W1 m ρ c (Proc.devRef .tc main_v1) :=
  W2_of_ne m ρ c main_v1 (by decide)
theorem W2_main_v3 (c : Dev nD) : W2 m ρ c (Proc.devRef .tc main_v3) = W1 m ρ c (Proc.devRef .tc main_v3) :=
  W2_of_ne m ρ c main_v3 (by decide)
theorem W2_main_v19 (c : Dev nD) : W2 m ρ c (Proc.devRef .tc main_v19) = W1 m ρ c (Proc.devRef .tc main_v19) :=
  W2_of_ne m ρ c main_v19 (by decide)
theorem W2_main_v29 (c : Dev nD) : W2 m ρ c (Proc.devRef .tc main_v29) = W1 m ρ c (Proc.devRef .tc main_v29) :=
  W2_of_ne m ρ c main_v29 (by decide)
theorem W2_main_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W2_main_arg1 (c : Dev nD) : W2 m ρ c (Proc.devRef .tc main_arg1) = W1 m ρ c (Proc.devRef .tc main_arg1) :=
  W2_of_ne m ρ c main_arg1 (by decide)
theorem W2_main_arg2 (c : Dev nD) : W2 m ρ c (Proc.devRef .tc main_arg2) = W1 m ρ c (Proc.devRef .tc main_arg2) :=
  W2_of_ne m ρ c main_arg2 (by decide)
theorem W2_main_arg3 (c : Dev nD) : W2 m ρ c (Proc.devRef .tc main_arg3) = W1 m ρ c (Proc.devRef .tc main_arg3) :=
  (W2_arr m ρ c 1).trans (((dat0 (V1 m ρ) c).arrAt_in 1 rfl _).trans (A_eq0 (V1 m ρ) c 1))
theorem W2_main_arg4 (c : Dev nD) : W2 m ρ c (Proc.devRef .tc main_arg4) = W1 m ρ c (Proc.devRef .tc main_arg4) :=
  W2_of_ne m ρ c main_arg4 (by decide)
theorem W2_main_arg5 (c : Dev nD) : W2 m ρ c (Proc.devRef .tc main_arg5) = W1 m ρ c (Proc.devRef .tc main_arg5) :=
  (W2_arr m ρ c 3).trans (((dat0 (V1 m ρ) c).arrAt_in 3 rfl _).trans (A_eq0 (V1 m ρ) c 3))
theorem W2_main_arg6 (c : Dev nD) : W2 m ρ c (Proc.devRef .tc main_arg6) = W1 m ρ c (Proc.devRef .tc main_arg6) :=
  W2_of_ne m ρ c main_arg6 (by decide)
theorem W2_main_arg7 (c : Dev nD) : W2 m ρ c (Proc.devRef .tc main_arg7) = W1 m ρ c (Proc.devRef .tc main_arg7) :=
  W2_of_ne m ρ c main_arg7 (by decide)
theorem W2_main_arg8 (c : Dev nD) : W2 m ρ c (Proc.devRef .tc main_arg8) = W1 m ρ c (Proc.devRef .tc main_arg8) :=
  W2_of_ne m ρ c main_arg8 (by decide)
theorem W2_main_arg9 (c : Dev nD) : W2 m ρ c (Proc.devRef .tc main_arg9) = W1 m ρ c (Proc.devRef .tc main_arg9) :=
  W2_of_ne m ρ c main_arg9 (by decide)
theorem W2_main_arg10 (c : Dev nD) : W2 m ρ c (Proc.devRef .tc main_arg10) = W1 m ρ c (Proc.devRef .tc main_arg10) :=
  W2_of_ne m ρ c main_arg10 (by decide)
theorem W2_main_arg11 (c : Dev nD) : W2 m ρ c (Proc.devRef .tc main_arg11) = W1 m ρ c (Proc.devRef .tc main_arg11) :=
  W2_of_ne m ρ c main_arg11 (by decide)
theorem W2_main_arg12 (c : Dev nD) : W2 m ρ c (Proc.devRef .tc main_arg12) = W1 m ρ c (Proc.devRef .tc main_arg12) :=
  W2_of_ne m ρ c main_arg12 (by decide)
theorem W2_main_arg13 (c : Dev nD) : W2 m ρ c (Proc.devRef .tc main_arg13) = W1 m ρ c (Proc.devRef .tc main_arg13) :=
  W2_of_ne m ρ c main_arg13 (by decide)
theorem W2_main_arg14 (c : Dev nD) : W2 m ρ c (Proc.devRef .tc main_arg14) = W1 m ρ c (Proc.devRef .tc main_arg14) :=
  W2_of_ne m ρ c main_arg14 (by decide)
/-- Region 0's output array holds what its pipeline left there. -/
theorem W2_main_v32 (c : Dev nD) : W2 m ρ c (Proc.devRef .tc main_v32) = (dat0 (V1 m ρ) c).arrAt 5 cfg0.N :=
  W2_arr m ρ c 5

/-! ## After region 1

Neither of the two host stretches between region 0 and region 1 writes any of the references below, and none is an
array of region 1. -/

theorem W5_main_v1 (c : Dev nD) : W5 m ρ c (Proc.devRef .tc main_v1) = W2 m ρ c (Proc.devRef .tc main_v1) :=
  (W5_of_ne m ρ c main_v1 (by decide)).trans ((W4_of m ρ c main_v1 (by decide)).trans (W3_of m ρ c main_v1 (by decide)))
theorem W5_main_v3 (c : Dev nD) : W5 m ρ c (Proc.devRef .tc main_v3) = W2 m ρ c (Proc.devRef .tc main_v3) :=
  (W5_of_ne m ρ c main_v3 (by decide)).trans ((W4_of m ρ c main_v3 (by decide)).trans (W3_of m ρ c main_v3 (by decide)))
theorem W5_main_v19 (c : Dev nD) : W5 m ρ c (Proc.devRef .tc main_v19) = W2 m ρ c (Proc.devRef .tc main_v19) :=
  (W5_of_ne m ρ c main_v19 (by decide)).trans ((W4_of m ρ c main_v19 (by decide)).trans (W3_of m ρ c main_v19 (by decide)))
theorem W5_main_v29 (c : Dev nD) : W5 m ρ c (Proc.devRef .tc main_v29) = W2 m ρ c (Proc.devRef .tc main_v29) :=
  (W5_of_ne m ρ c main_v29 (by decide)).trans ((W4_of m ρ c main_v29 (by decide)).trans (W3_of m ρ c main_v29 (by decide)))
theorem W5_main_v32 (c : Dev nD) : W5 m ρ c (Proc.devRef .tc main_v32) = W2 m ρ c (Proc.devRef .tc main_v32) :=
  (W5_of_ne m ρ c main_v32 (by decide)).trans ((W4_of m ρ c main_v32 (by decide)).trans (W3_of m ρ c main_v32 (by decide)))
theorem W5_main_arg0 (c : Dev nD) : W5 m ρ c (Proc.devRef .tc main_arg0) = W2 m ρ c (Proc.devRef .tc main_arg0) :=
  (W5_of_ne m ρ c main_arg0 (by decide)).trans ((W4_of m ρ c main_arg0 (by decide)).trans (W3_of m ρ c main_arg0 (by decide)))
theorem W5_main_arg1 (c : Dev nD) : W5 m ρ c (Proc.devRef .tc main_arg1) = W2 m ρ c (Proc.devRef .tc main_arg1) :=
  (W5_of_ne m ρ c main_arg1 (by decide)).trans ((W4_of m ρ c main_arg1 (by decide)).trans (W3_of m ρ c main_arg1 (by decide)))
theorem W5_main_arg2 (c : Dev nD) : W5 m ρ c (Proc.devRef .tc main_arg2) = W2 m ρ c (Proc.devRef .tc main_arg2) :=
  (W5_of_ne m ρ c main_arg2 (by decide)).trans ((W4_of m ρ c main_arg2 (by decide)).trans (W3_of m ρ c main_arg2 (by decide)))
theorem W5_main_arg3 (c : Dev nD) : W5 m ρ c (Proc.devRef .tc main_arg3) = W2 m ρ c (Proc.devRef .tc main_arg3) :=
  (W5_of_ne m ρ c main_arg3 (by decide)).trans ((W4_of m ρ c main_arg3 (by decide)).trans (W3_of m ρ c main_arg3 (by decide)))
theorem W5_main_arg4 (c : Dev nD) : W5 m ρ c (Proc.devRef .tc main_arg4) = W2 m ρ c (Proc.devRef .tc main_arg4) :=
  (W5_of_ne m ρ c main_arg4 (by decide)).trans ((W4_of m ρ c main_arg4 (by decide)).trans (W3_of m ρ c main_arg4 (by decide)))
theorem W5_main_arg5 (c : Dev nD) : W5 m ρ c (Proc.devRef .tc main_arg5) = W2 m ρ c (Proc.devRef .tc main_arg5) :=
  (W5_of_ne m ρ c main_arg5 (by decide)).trans ((W4_of m ρ c main_arg5 (by decide)).trans (W3_of m ρ c main_arg5 (by decide)))
theorem W5_main_arg6 (c : Dev nD) : W5 m ρ c (Proc.devRef .tc main_arg6) = W2 m ρ c (Proc.devRef .tc main_arg6) :=
  (W5_of_ne m ρ c main_arg6 (by decide)).trans ((W4_of m ρ c main_arg6 (by decide)).trans (W3_of m ρ c main_arg6 (by decide)))
theorem W5_main_arg7 (c : Dev nD) : W5 m ρ c (Proc.devRef .tc main_arg7) = W2 m ρ c (Proc.devRef .tc main_arg7) :=
  (W5_of_ne m ρ c main_arg7 (by decide)).trans ((W4_of m ρ c main_arg7 (by decide)).trans (W3_of m ρ c main_arg7 (by decide)))
theorem W5_main_arg8 (c : Dev nD) : W5 m ρ c (Proc.devRef .tc main_arg8) = W2 m ρ c (Proc.devRef .tc main_arg8) :=
  (W5_of_ne m ρ c main_arg8 (by decide)).trans ((W4_of m ρ c main_arg8 (by decide)).trans (W3_of m ρ c main_arg8 (by decide)))
theorem W5_main_arg9 (c : Dev nD) : W5 m ρ c (Proc.devRef .tc main_arg9) = W2 m ρ c (Proc.devRef .tc main_arg9) :=
  (W5_of_ne m ρ c main_arg9 (by decide)).trans ((W4_of m ρ c main_arg9 (by decide)).trans (W3_of m ρ c main_arg9 (by decide)))
theorem W5_main_arg10 (c : Dev nD) : W5 m ρ c (Proc.devRef .tc main_arg10) = W2 m ρ c (Proc.devRef .tc main_arg10) :=
  (W5_of_ne m ρ c main_arg10 (by decide)).trans ((W4_of m ρ c main_arg10 (by decide)).trans (W3_of m ρ c main_arg10 (by decide)))
theorem W5_main_arg11 (c : Dev nD) : W5 m ρ c (Proc.devRef .tc main_arg11) = W2 m ρ c (Proc.devRef .tc main_arg11) :=
  (W5_of_ne m ρ c main_arg11 (by decide)).trans ((W4_of m ρ c main_arg11 (by decide)).trans (W3_of m ρ c main_arg11 (by decide)))
theorem W5_main_arg12 (c : Dev nD) : W5 m ρ c (Proc.devRef .tc main_arg12) = W2 m ρ c (Proc.devRef .tc main_arg12) :=
  (W5_of_ne m ρ c main_arg12 (by decide)).trans ((W4_of m ρ c main_arg12 (by decide)).trans (W3_of m ρ c main_arg12 (by decide)))
theorem W5_main_arg13 (c : Dev nD) : W5 m ρ c (Proc.devRef .tc main_arg13) = W2 m ρ c (Proc.devRef .tc main_arg13) :=
  (W5_of_ne m ρ c main_arg13 (by decide)).trans ((W4_of m ρ c main_arg13 (by decide)).trans (W3_of m ρ c main_arg13 (by decide)))
theorem W5_main_arg14 (c : Dev nD) : W5 m ρ c (Proc.devRef .tc main_arg14) = W2 m ρ c (Proc.devRef .tc main_arg14) :=
  (W5_of_ne m ρ c main_arg14 (by decide)).trans ((W4_of m ρ c main_arg14 (by decide)).trans (W3_of m ρ c main_arg14 (by decide)))
/-- Region 1's two output arrays hold what its pipeline left there. -/
theorem W5_main_v98_0 (c : Dev nD) : W5 m ρ c (Proc.devRef .tc main_v98_0) = (dat1 (V4 m ρ) c).arrAt 5 cfg1.N :=
  W5_arr m ρ c 5
theorem W5_main_v98_1 (c : Dev nD) : W5 m ρ c (Proc.devRef .tc main_v98_1) = (dat1 (V4 m ρ) c).arrAt 6 cfg1.N :=
  W5_arr m ρ c 6

/-! ## At region 2's entry

Neither of the two host stretches between region 1 and region 2 writes the arrays region 2 takes from the earlier
regions and from the launch. -/

theorem W7_main_v98_0 (c : Dev nD) : W7 m ρ c (Proc.devRef .tc main_v98_0) = W5 m ρ c (Proc.devRef .tc main_v98_0) :=
  (W7_of m ρ c main_v98_0 (by decide)).trans (W6_of m ρ c main_v98_0 (by decide))
theorem W7_main_v32 (c : Dev nD) : W7 m ρ c (Proc.devRef .tc main_v32) = W5 m ρ c (Proc.devRef .tc main_v32) :=
  (W7_of m ρ c main_v32 (by decide)).trans (W6_of m ρ c main_v32 (by decide))
theorem W7_main_arg13 (c : Dev nD) : W7 m ρ c (Proc.devRef .tc main_arg13) = W5 m ρ c (Proc.devRef .tc main_arg13) :=
  (W7_of m ρ c main_arg13 (by decide)).trans (W6_of m ρ c main_arg13 (by decide))

/-! ## The regions' entry contents as host stretches applied to the exit contents before them -/

theorem V4_eq (c : Dev nD) (b : Ref sig .tc) :
    V4 m ρ c b = StableHlo.after main_part1_ops0 (StableHlo.after main_part0_ops1 (W2 m ρ c)) (Proc.devRef .tc b) := rfl
theorem V7_eq (c : Dev nD) (b : Ref sig .tc) :
    V7 m ρ c b = StableHlo.after main_part3_ops0 (StableHlo.after main_part2_ops0 (W5 m ρ c)) (Proc.devRef .tc b) := rfl

end Cert.KernelIdeal.Hand

end
-- ==== Proof.Spec.lean ====
/-
  The dense formulas of the recurrent graph-convolution cell, entry by entry, on the extended reals.

  Three dense stages meet the graph diffusion. (1) The warm start: a two-layer perceptron, row n of the input against
  W1 [35,100], a bias row, a rectifier, then W2 [100,5] and a bias row. (2) A gate: row n of the stacked diffusion
  terms C [N,240] against a flattened weight [240,5], a bias row, then the logistic function. (3) The head: the
  candidate state is the hyperbolic tangent of such a product; the new state is z·h + (1 − z)·candidate, rectified, then
  a product with Wl [5,1] and a bias. Every formula is stated for any number N of rows, so that it serves a block of
  rows and the whole array alike; bias rows are [1, ·] arrays read at row 0.

  The stacked product has a second spelling: the sum of six products, one per diffusion term P_q [N,40] against the
  slab W(d,k,·,·) of a weight W [2,3,40,5], added in the order (d,k) = (0,0),(1,0),(0,1),(1,1),(0,2),(1,2).
-/
import Idealize.ShloMosaic.PureOps.Ideal
import Idealize.ShloMosaic.Lib.ValueIdx

noncomputable section

open scoped BigOperators

namespace Cert.Spec

open Idealize.ShloMosaic Idealize.ShloMosaic.ValueIdx

/-- A real-or-infinite matrix with a rows and b columns, entry by entry. -/
abbrev Mat (a b : Nat) : Type := (⟨2, ![a, b]⟩ : Shape).Idx → EReal

/-- The warm start at row n, column c: Σ_k max(Σ_j x(n,j)·W1(j,k) + b1(0,k), 0)·W2(k,c) + b2(0,c). -/
def mlpAt {N : Nat} (x : Mat N 35) (W1 : Mat 35 100) (b1 : Mat 1 100) (W2 : Mat 100 5) (b2 : Mat 1 5)
    (n : Fin N) (c : Fin 5) : EReal :=
  (∑ k : Fin 100, max ((∑ j : Fin 35, x (ix2 n j) * W1 (ix2 j k)) + b1 (ix2 0 k)) 0 * W2 (ix2 k c)) + b2 (ix2 0 c)

/-- The warm start as an array. -/
def mlpArr {N : Nat} (x : Mat N 35) (W1 : Mat 35 100) (b1 : Mat 1 100) (W2 : Mat 100 5) (b2 : Mat 1 5) : Mat N 5 :=
  fun i => mlpAt x W1 b1 W2 b2 (i 0) (i 1)

/-- The stacked product with its bias at row n, column c: Σ_j C(n,j)·W(j,c) + b(0,c). -/
def linAt {N : Nat} (C : Mat N 240) (W : Mat 240 5) (b : Mat 1 5) (n : Fin N) (c : Fin 5) : EReal :=
  (∑ j : Fin 240, C (ix2 n j) * W (ix2 j c)) + b (ix2 0 c)

/-- A gate at row n, column c: the logistic function of the stacked product. -/
def gateAt {N : Nat} (C : Mat N 240) (W : Mat 240 5) (b : Mat 1 5) (n : Fin N) (c : Fin 5) : EReal :=
  Ideal.logistic (linAt C W b n c)

/-- A gate as an array. -/
def gateArr {N : Nat} (C : Mat N 240) (W : Mat 240 5) (b : Mat 1 5) : Mat N 5 :=
  fun i => gateAt C W b (i 0) (i 1)

/-- The new hidden state, rectified, at row n, column c, from the update gate z, the old state h and the
    pre-activation a of the candidate: max(z·h + (1 − z)·tanh a, 0). The number one is kept as the word that
    denotes it, the same word in both programs. -/
def stateAt (z h a : EReal) : EReal :=
  max (z * h + (Ideal.ofBits .f32 0x3F800000#32 - z) * Ideal.tanh a) 0

/-- The head at row n: Σ_c state(n,c)·Wl(c,0) + bl(0,0), the state's pre-activation the stacked product. -/
def headAt {N : Nat} (C : Mat N 240) (Wh : Mat 240 5) (bh : Mat 1 5) (Z h1 : Mat N 5) (Wl : Mat 5 1) (bl : Mat 1 1)
    (n : Fin N) : EReal :=
  (∑ c : Fin 5, stateAt (Z (ix2 n c)) (h1 (ix2 n c)) (linAt C Wh bh n c) * Wl (ix2 c 0)) + bl (ix2 0 0)

/-- The head as an array [N,1]. -/
def headArr {N : Nat} (C : Mat N 240) (Wh : Mat 240 5) (bh : Mat 1 5) (Z h1 : Mat N 5) (Wl : Mat 5 1) (bl : Mat 1 1) :
    Mat N 1 :=
  fun i => headAt C Wh bh Z h1 Wl bl (i 0)

/-- One diffusion term against one slab of the weight: Σ_i P(n,i)·W(d,k,i,c). -/
def slabAt {N : Nat} (P : Mat N 40) (W : (⟨4, ![2, 3, 40, 5]⟩ : Shape).Idx → EReal) (d : Fin 2) (k : Fin 3)
    (n : Fin N) (c : Fin 5) : EReal :=
  ∑ i : Fin 40, P (ix2 n i) * W (ix4 d k i c)

/-- The six products added in the reference's order, then the bias row:
    ((((P0·W00 + P3·W10) + P1·W01) + P4·W11) + P2·W02) + P5·W12 + b, the pieces numbered as they are stacked
    (P0, P1, P2 the forward terms of order 0, 1, 2; P3, P4, P5 the backward ones). -/
def dconvAt {N : Nat} (P0 P1 P2 P3 P4 P5 : Mat N 40) (W : (⟨4, ![2, 3, 40, 5]⟩ : Shape).Idx → EReal) (b : Mat 1 5)
    (n : Fin N) (c : Fin 5) : EReal :=
  (((((slabAt P0 W 0 0 n c + slabAt P3 W 1 0 n c) + slabAt P1 W 0 1 n c) + slabAt P4 W 1 1 n c)
      + slabAt P2 W 0 2 n c) + slabAt P5 W 1 2 n c) + b (ix2 0 c)

theorem mlpArr_apply {N : Nat} (x : Mat N 35) (W1 : Mat 35 100) (b1 : Mat 1 100) (W2 : Mat 100 5) (b2 : Mat 1 5)
    (n : Fin N) (c : Fin 5) : mlpArr x W1 b1 W2 b2 (ix2 n c) = mlpAt x W1 b1 W2 b2 n c := rfl

theorem gateArr_apply {N : Nat} (C : Mat N 240) (W : Mat 240 5) (b : Mat 1 5) (n : Fin N) (c : Fin 5) :
    gateArr C W b (ix2 n c) = gateAt C W b n c := rfl

theorem headArr_apply {N : Nat} (C : Mat N 240) (Wh : Mat 240 5) (bh : Mat 1 5) (Z h1 : Mat N 5) (Wl : Mat 5 1)
    (bl : Mat 1 1) (n : Fin N) (u : Fin 1) : headArr C Wh bh Z h1 Wl bl (ix2 n u) = headAt C Wh bh Z h1 Wl bl n := rfl

end Cert.Spec

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.KPay.lean ====
/-
  The arithmetic of the three bodies, read at one entry, on the extended reals.

  Each body is a chain of dense layers: a plain matrix product into the zero accumulator, then one bias row added to
  every row. On the extended reals a change of format is the identity and a shape cast to the same shape is the
  identity, so a dense layer at entry (p, q) is the sum over k of lhs (p, k) · rhs (k, q) plus the bias row at (0, q).
  The warm start stacks two such layers with a rectifier between them; a gate is one layer under the logistic
  function; the head is one layer under the hyperbolic tangent, mixed with the old state through the update gate,
  rectified, and fed to a last layer with one column.
-/
import proofs.«114446_j62852551409688_2_alg».proof.Proof.Gen.KernelIdeal.Skeleton
import proofs.«114446_j62852551409688_2_alg».proof.Proof.Spec
import proofs.«114446_j62852551409688_2_alg».proof.Proof.LibPlainDot
import Idealize.ShloMosaic.Lib.ValueLayout
import Idealize.ShloMosaic.Lib.Pipeline.Value

noncomputable section

open scoped BigOperators

namespace Cert.KernelIdeal.KVal

open Idealize.ShloMosaic Idealize.ShloMosaic.ValueIdx Cert.KernelIdeal Cert.KernelIdeal.Gen

/-- A dense layer at entry (p, q): the plain product of lhs [M, K] and rhs [K, N] into the zero accumulator, plus a
    bias row [1, N] (cast to its own shape, then repeated on every row), is Σ_k lhs (p, k) · rhs (k, q) + b (0, q). -/
theorem dense_apply {M K N : Nat} {φ₁ φ₂ : FTy} (prec : Option ContractPrecision)
    (lhs : FVec Ideal ⟨2, ![M, K]⟩ φ₁) (rhs : FVec Ideal ⟨2, ![K, N]⟩ φ₂) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (p : Fin M) (q : Fin N) :
    addf (matmul (DotDims.plain M K N) prec lhs rhs (constant (F := Ideal) ⟨2, ![M, N]⟩ .f32 0x00000000#32))
        (broadcastTo ⟨2, ![M, N]⟩ (shapeCast ⟨2, ![1, N]⟩ b hc) hb) (ix2 p q)
      = (∑ k : Fin K, lhs (ix2 p k) * rhs (ix2 k q)) + b (ix2 0 q) := by
  rw [addf_apply, shapeCast_self, broadcastTo_1b_ab_apply]
  exact congrArg (· + b (ix2 0 q)) (Cert.LibPlainDot.matmul_zero_apply prec lhs rhs p q)

/-- The warm start's body at entry (p, q). -/
theorem k0_pay1_apply (x0 : Vec Ideal S10000x35 .f32) (x1 : Vec Ideal S35x100 .f32) (x2 : Vec Ideal S1x100 .f32)
    (x3 : Vec Ideal S100x5 .f32) (x4 : Vec Ideal S1x5 .f32) (p : Fin 10000) (q : Fin 5) :
    k0_pay1 (F := Ideal) x0 x1 x2 x3 x4 (ix2 p q) = Cert.Spec.mlpAt x0 x1 x2 x3 x4 p q := by
  unfold k0_pay1 Cert.Spec.mlpAt
  refine (dense_apply (M := 10000) (K := 100) (N := 5) none _ _ x4 _ _ p q).trans ?_
  refine congrArg (· + x4 (ix2 0 q)) (Finset.sum_congr rfl fun k _ => congrArg (· * x3 (ix2 k q)) ?_)
  exact congrArg₂ max (dense_apply (M := 10000) (K := 35) (N := 100) none _ _ x2 _ _ p k) Ideal.ofBits_zero_f32

/-- The stacked product with its bias row at entry (p, q): the diffusion terms and the weight each pass a shape cast
    to their own shape (and the weight a change of format) on the way into the product. -/
theorem lin_apply {M : Nat} (prec : Option ContractPrecision) (C : FVec Ideal ⟨2, ![M, 240]⟩ .bf16)
    (W : FVec Ideal ⟨2, ![240, 5]⟩ .f32) (b : FVec Ideal ⟨2, ![1, 5]⟩ .f32)
    (hC : (⟨2, ![M, 240]⟩ : Shape).ShapeCasts ⟨2, ![M, 240]⟩) (hW : (⟨2, ![240, 5]⟩ : Shape).ShapeCasts ⟨2, ![240, 5]⟩)
    (hbits : FTy.bits .bf16 < FTy.bits .f32)
    (hc : (⟨2, ![1, 5]⟩ : Shape).ShapeCasts ⟨2, ![1, 5]⟩) (hb : (⟨2, ![1, 5]⟩ : Shape).Broadcasts ⟨2, ![M, 5]⟩)
    (p : Fin M) (q : Fin 5) :
    addf (matmul (DotDims.plain M 240 5) prec (shapeCast ⟨2, ![M, 240]⟩ C hC)
          (truncf .bf16 (shapeCast ⟨2, ![240, 5]⟩ W hW) hbits) (constant (F := Ideal) ⟨2, ![M, 5]⟩ .f32 0x00000000#32))
        (broadcastTo ⟨2, ![M, 5]⟩ (shapeCast ⟨2, ![1, 5]⟩ b hc) hb) (ix2 p q)
      = Cert.Spec.linAt C W b p q := by
  rw [shapeCast_self, shapeCast_self]
  exact dense_apply prec C (truncf .bf16 W hbits) b hc hb p q

/-- The update gate's body at entry (p, q). -/
theorem k1_pay2_apply (x0 : Vec Ideal S5000x240 .bf16) (x1 : Vec Ideal S240x5 .f32) (x2 : Vec Ideal S1x5 .f32)
    (p : Fin 5000) (q : Fin 5) :
    k1_pay2 (F := Ideal) x0 x1 x2 (ix2 p q) = Cert.Spec.gateAt x0 x1 x2 p q := by
  unfold k1_pay2 k1_pay1 Cert.Spec.gateAt
  exact congrArg Ideal.logistic (lin_apply (M := 5000) none x0 x1 x2 _ _ _ _ _ p q)

/-- The reset gate's body at entry (p, q). -/
theorem k1_pay3_apply (x0 : Vec Ideal S5000x240 .bf16) (x1 : Vec Ideal S240x5 .f32) (x2 : Vec Ideal S1x5 .f32)
    (p : Fin 5000) (q : Fin 5) :
    k1_pay3 (F := Ideal) x0 x1 x2 (ix2 p q) = Cert.Spec.gateAt x0 x1 x2 p q := by
  unfold k1_pay3 k1_pay1 Cert.Spec.gateAt
  exact congrArg Ideal.logistic (lin_apply (M := 5000) none x0 x1 x2 _ _ _ _ _ p q)

/-- The new state, rectified, at one entry: z·h + (1 − z)·tanh a against the number zero, the gate and the old
    state each through a shape cast to their own shape, the result through a change of format. -/
theorem state_apply {s : Shape} (z h a : FVec Ideal s .f32) (hz hh : s.ShapeCasts s)
    (hbits : FTy.bits .bf16 < FTy.bits .f32) (i : s.Idx) :
    (truncf .bf16 (maximumf (addf (mulf (shapeCast s z hz) (shapeCast s h hh))
        (mulf (subf (broadcast s (Scalar.ofBits (F := Ideal) .f32 0x3F800000#32)) (shapeCast s z hz)) (tanh a)))
        (broadcast s (Scalar.ofBits (F := Ideal) .f32 0x00000000#32))) hbits : FVec Ideal s .bf16) i
      = Cert.Spec.stateAt (z i) (h i) (a i) := by
  rw [shapeCast_self, shapeCast_self]
  show max (z i * h i + (Ideal.ofBits .f32 0x3F800000#32 - z i) * Ideal.tanh (a i)) (Ideal.ofBits .f32 0x00000000#32) = _
  rw [Ideal.ofBits_zero_f32]
  rfl

/-- The head's body at row p. -/
theorem k2_pay1_apply (x0 : Vec Ideal S5000x240 .bf16) (x1 : Vec Ideal S240x5 .f32) (x2 : Vec Ideal S1x5 .f32)
    (x3 : Vec Ideal S5000x5 .f32) (x4 : Vec Ideal S5000x5 .f32) (x5 : Vec Ideal S5x1 .f32) (x6 : Vec Ideal S1x1 .f32)
    (p : Fin 5000) (u : Fin 1) :
    k2_pay1 (F := Ideal) x0 x1 x2 x3 x4 x5 x6 (ix2 p u) = Cert.Spec.headAt x0 x1 x2 x3 x4 x5 x6 p := by
  obtain rfl : u = 0 := Subsingleton.elim _ _
  unfold k2_pay1 Cert.Spec.headAt
  refine (dense_apply (M := 5000) (K := 5) (N := 1) none _ _ x6 _ _ p 0).trans ?_
  refine congrArg (· + x6 (ix2 0 0)) (Finset.sum_congr rfl fun c _ => congrArg (· * x5 (ix2 c 0)) ?_)
  refine (state_apply x3 x4 _ _ _ _ (ix2 p c)).trans ?_
  exact congrArg (Cert.Spec.stateAt (x3 (ix2 p c)) (x4 (ix2 p c))) (lin_apply (M := 5000) none x0 x1 x2 _ _ _ _ _ p c)

end Cert.KernelIdeal.KVal

end
-- ==== Proof.KVal0.lean ====
/-
  The warm start's array after its pipeline: from the blocks the grid's points write back to the whole array.

  The output [100000, 5] is tiled by ten blocks of 10000 rows; point t writes rows 10000·t … 10000·t + 9999. The body
  at point t is handed rows 10000·t … of the input x and the whole of each weight and bias, and a row of the warm start
  reads only its own row of x, so what point t writes is block t of the one array `mlpArr` of the arrays the region
  was entered with.
-/
import proofs.«114446_j62852551409688_2_alg».proof.Proof.KIBody0
import proofs.«114446_j62852551409688_2_alg».proof.Proof.KPay
import Idealize.ShloMosaic.Lib.Pipeline.Value

noncomputable section

open scoped BigOperators

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets of an access to a whole buffer, as a constant function. -/
theorem zero_offsets0 : (![0, 0] : Fin 2 → Nat) = fun _ => 0 := funext fun a => by fin_cases a <;> rfl

/-- The block indices over the grid: the input x and the output move one block of rows per point; the weights and
    bias rows stay at their one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The warm start at a row reads only that row of x. -/
theorem mlpAt_row {N N' : Nat} (x : Cert.Spec.Mat N 35) (x' : Cert.Spec.Mat N' 35) (W1 : Cert.Spec.Mat 35 100)
    (b1 : Cert.Spec.Mat 1 100) (W2 : Cert.Spec.Mat 100 5) (b2 : Cert.Spec.Mat 1 5) (n : Fin N) (n' : Fin N') (c : Fin 5)
    (h : ∀ j : Fin 35, x (ix2 n j) = x' (ix2 n' j)) :
    Cert.Spec.mlpAt x W1 b1 W2 b2 n c = Cert.Spec.mlpAt x' W1 b1 W2 b2 n' c := by
  unfold Cert.Spec.mlpAt
  simp only [h]

/-- The body's value at an entry of a block of rows, as the array's: the block holds rows 10000·r … of x (`h0`), the
    entry y of the block is the entry i of the array (`hi0`, `hi1`). -/
theorem point0 {A0 : Cert.Spec.Mat 100000 35} (x0 : Vec Ideal S10000x35 .f32) (x1 : Vec Ideal S35x100 .f32)
    (x2 : Vec Ideal S1x100 .f32) (x3 : Vec Ideal S100x5 .f32) (x4 : Vec Ideal S1x5 .f32) (r : Nat)
    (h0 : ∀ (p : Fin 10000) (k : Fin 35) (n : Fin 100000), n.val = r * 10000 + p.val → x0 (ix2 p k) = A0 (ix2 n k))
    (y : S10000x5.Idx) (i : S100000x5.Idx) (hi0 : (i 0).val = r * 10000 + (y 0).val) (hi1 : (i 1).val = (y 1).val) :
    k0_pay1 (F := Ideal) x0 x1 x2 x3 x4 y = Cert.Spec.mlpArr A0 x1 x2 x3 x4 i := by
  obtain ⟨p, q, rfl⟩ : ∃ (p : Fin 10000) (q : Fin 5), y = ix2 p q := ⟨y 0, y 1, eq_ix2 y⟩
  obtain ⟨n, q', rfl⟩ : ∃ (n : Fin 100000) (q' : Fin 5), i = ix2 n q' := ⟨i 0, i 1, eq_ix2 i⟩
  obtain rfl : q' = q := Fin.ext hi1
  rw [k0_pay1_apply, Cert.Spec.mlpArr_apply]
  exact mlpAt_row x0 A0 x1 x2 x3 x4 p n q' fun k => h0 p k n hi0

/-- WHAT POINT t WRITES BACK is block t of the dense formula of the arrays the region was entered with. -/
theorem flushed0_5_eq (c : Dev nD) (t : Fin cfg0.N) :
    (dat0 (F := Ideal) V c).flushed 5 t = ((cfg0.win 5).blk t).view.read (Elt Ideal)
      (Cert.Spec.mlpArr (V c main_arg0) (V c main_arg3) (V c main_v30) (V c main_arg5) (V c main_v31)) := by
  show (cfg0.win 5).cut (grid0.coords t) ((dat0 V c).after 5 t) = _
  rw [after0_5]
  unfold out0_5
  rw [View.canon_unit_zero zero_offsets0]
  simp only [View.ld_unit_zero (S := S10000x35) zero_offsets0, View.ld_unit_zero (S := S35x100) zero_offsets0,
    View.ld_unit_zero (S := S1x100) zero_offsets0, View.ld_unit_zero (S := S100x5) zero_offsets0,
    View.ld_unit_zero (S := S1x5) zero_offsets0]
  obtain ⟨e00, e01, e10, e11, e20, e21, e30, e31, e40, e41, e50, e51⟩ := idx0 t
  have h1 : (iblk0 V c 1 t : Vec Ideal S35x100 .f32) = V c main_arg3 := by
    funext x
    show V c main_arg3 (((cfg0.win 1).blk t).view.emb x) = V c main_arg3 x
    refine congrArg _ (funext fun a => Fin.ext ?_)
    match a with
    | ⟨0, _⟩ => show win0_1.index t (0 : Fin 2) * 35 + 1 * (x 0).val = (x 0).val; rw [e10]; omega
    | ⟨1, _⟩ => show win0_1.index t (1 : Fin 2) * 100 + 1 * (x 1).val = (x 1).val; rw [e11]; omega
  have h2 : (iblk0 V c 2 t : Vec Ideal S1x100 .f32) = V c main_v30 := by
    funext x
    show V c main_v30 (((cfg0.win 2).blk t).view.emb x) = V c main_v30 x
    refine congrArg _ (funext fun a => Fin.ext ?_)
    match a with
    | ⟨0, _⟩ => show win0_2.index t (0 : Fin 2) * 1 + 1 * (x 0).val = (x 0).val; rw [e20]; omega
    | ⟨1, _⟩ => show win0_2.index t (1 : Fin 2) * 100 + 1 * (x 1).val = (x 1).val; rw [e21]; omega
  have h3 : (iblk0 V c 3 t : Vec Ideal S100x5 .f32) = V c main_arg5 := by
    funext x
    show V c main_arg5 (((cfg0.win 3).blk t).view.emb x) = V c main_arg5 x
    refine congrArg _ (funext fun a => Fin.ext ?_)
    match a with
    | ⟨0, _⟩ => show win0_3.index t (0 : Fin 2) * 100 + 1 * (x 0).val = (x 0).val; rw [e30]; omega
    | ⟨1, _⟩ => show win0_3.index t (1 : Fin 2) * 5 + 1 * (x 1).val = (x 1).val; rw [e31]; omega
  have h4 : (iblk0 V c 4 t : Vec Ideal S1x5 .f32) = V c main_v31 := by
    funext x
    show V c main_v31 (((cfg0.win 4).blk t).view.emb x) = V c main_v31 x
    refine congrArg _ (funext fun a => Fin.ext ?_)
    match a with
    | ⟨0, _⟩ => show win0_4.index t (0 : Fin 2) * 1 + 1 * (x 0).val = (x 0).val; rw [e40]; omega
    | ⟨1, _⟩ => show win0_4.index t (1 : Fin 2) * 5 + 1 * (x 1).val = (x 1).val; rw [e41]; omega
  rw [h1, h2, h3, h4]
  funext j
  refine point0 (A0 := V c main_arg0) (iblk0 V c 0 t) _ _ _ _ t.val (fun p k n hn => ?_) ((cfg0.win 5).xinj _ j) (((cfg0.win 5).blk t).view.emb j) ?_ ?_
  · show V c main_arg0 (((cfg0.win 0).blk t).view.emb (ix2 p k)) = V c main_arg0 (ix2 n k)
    refine congrArg _ (funext fun a => Fin.ext ?_)
    match a with
    | ⟨0, _⟩ => show win0_0.index t (0 : Fin 2) * 10000 + 1 * p.val = n.val; rw [e00, hn]; omega
    | ⟨1, _⟩ => show win0_0.index t (1 : Fin 2) * 35 + 1 * k.val = k.val; rw [e01]; omega
  · show win0_5.index t (0 : Fin 2) * 10000 + 1 * (j 0).val = t.val * 10000 + (j 0).val; rw [e50]; omega
  · show win0_5.index t (1 : Fin 2) * 5 + 1 * (j 1).val = (j 1).val; rw [e51]; omega

/-- An index of the output array is in point t's block iff each coordinate is in the block's range on its axis. -/
theorem mem_blk0_5 (t : Fin cfg0.N) (i : S100000x5.Idx) :
    i ∈ ((cfg0.win 5).blk t).view.set ↔ ∀ a : Fin 2, win0_5.index t a * S10000x5.size a ≤ (i a).val
      ∧ (i a).val < win0_5.index t a * S10000x5.size a + S10000x5.size a := by
  show i ∈ ((View.whole main_v32).slice (win0_5.rect t)).set ↔ _
  rw [View.set_slice_whole, Rect.mem_set_unit]
  exact Iff.rfl

/-- THE WARM START'S ARRAY after the region: the dense formula of the arrays the region was entered with. Row r is
    in the block of point r / 10000. -/
theorem region0_value (c : Dev nD) :
    (dat0 (F := Ideal) V c).arrAt 5 cfg0.N
      = Cert.Spec.mlpArr (V c main_arg0) (V c main_arg3) (V c main_v30) (V c main_arg5) (V c main_v31) :=
  (dat0 V c).arrAt_eq_of_cover 5 _ (fun t _ => flushed0_5_eq V c t) fun i => by
    have hi0 : (i 0).val < 100000 := (i 0).isLt
    have hi1 : (i 1).val < 5 := (i 1).isLt
    have hN : cfg0.N = 10 := N_0
    let t : Fin cfg0.N := ⟨(i 0).val / 10000, by rw [hN]; omega⟩
    obtain ⟨-, -, -, -, -, -, -, -, -, -, e50, e51⟩ := idx0 t
    refine ⟨t, flush0_5 t, ?_⟩
    rw [mem_blk0_5]
    intro a
    match a with
    | ⟨0, _⟩ =>
      show win0_5.index t (0 : Fin 2) * 10000 ≤ (i 0).val ∧ (i 0).val < win0_5.index t (0 : Fin 2) * 10000 + 10000
      rw [e50]; show (i 0).val / 10000 * 10000 ≤ (i 0).val ∧ (i 0).val < (i 0).val / 10000 * 10000 + 10000; omega
    | ⟨1, _⟩ =>
      show win0_5.index t (1 : Fin 2) * 5 ≤ (i 1).val ∧ (i 1).val < win0_5.index t (1 : Fin 2) * 5 + 5
      rw [e51]; omega

end Cert.KernelIdeal.KVal

end
-- ==== Proof.KVal1.lean ====
/-
  The two gates' arrays after their pipeline: from the blocks the grid's points write back to the whole arrays.

  Each gate [100000, 5] is tiled by twenty blocks of 5000 rows; point t writes rows 5000·t … 5000·t + 4999 of both. The
  body at point t is handed rows 5000·t … of the stacked diffusion terms C and the whole of each weight and bias row,
  and a row of a gate reads only its own row of C, so what point t writes is block t of the one array `gateArr` of the
  arrays the region was entered with: the update gate from (Wz, bz), the reset gate from (Wr, br).
-/
import proofs.«114446_j62852551409688_2_alg».proof.Proof.KIBody1
import proofs.«114446_j62852551409688_2_alg».proof.Proof.KPay
import Idealize.ShloMosaic.Lib.Pipeline.Value

noncomputable section

open scoped BigOperators

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets of an access to a whole buffer, as a constant function. -/
theorem zero_offsets1 : (![0, 0] : Fin 2 → Nat) = fun _ => 0 := funext fun a => by fin_cases a <;> rfl

/-- The block indices over the grid: the stacked terms C and the two outputs move one block of rows per point; the
    weights and bias rows stay at their one block. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- A gate at a row reads only that row of C. -/
theorem gateAt_row {N N' : Nat} (C : Cert.Spec.Mat N 240) (C' : Cert.Spec.Mat N' 240) (W : Cert.Spec.Mat 240 5)
    (b : Cert.Spec.Mat 1 5) (n : Fin N) (n' : Fin N') (c : Fin 5)
    (h : ∀ j : Fin 240, C (ix2 n j) = C' (ix2 n' j)) :
    Cert.Spec.gateAt C W b n c = Cert.Spec.gateAt C' W b n' c := by
  unfold Cert.Spec.gateAt Cert.Spec.linAt
  simp only [h]

/-- The update gate's body at an entry of a block of rows, as the array's: the block holds rows 5000·r … of C (`h0`), the entry y of the block is the entry i of the array (`hi0`, `hi1`). -/
theorem point1_Z {A0 : Cert.Spec.Mat 100000 240} (x0 : Vec Ideal S5000x240 .bf16) (x1 : Vec Ideal S240x5 .f32)
    (x2 : Vec Ideal S1x5 .f32) (r : Nat)
    (h0 : ∀ (p : Fin 5000) (k : Fin 240) (n : Fin 100000), n.val = r * 5000 + p.val → x0 (ix2 p k) = A0 (ix2 n k))
    (y : S5000x5.Idx) (i : S100000x5.Idx) (hi0 : (i 0).val = r * 5000 + (y 0).val) (hi1 : (i 1).val = (y 1).val) :
    k1_pay2 (F := Ideal) x0 x1 x2 y = Cert.Spec.gateArr A0 x1 x2 i := by
  obtain ⟨p, q, rfl⟩ : ∃ (p : Fin 5000) (q : Fin 5), y = ix2 p q := ⟨y 0, y 1, eq_ix2 y⟩
  obtain ⟨n, q', rfl⟩ : ∃ (n : Fin 100000) (q' : Fin 5), i = ix2 n q' := ⟨i 0, i 1, eq_ix2 i⟩
  obtain rfl : q' = q := Fin.ext hi1
  rw [k1_pay2_apply, Cert.Spec.gateArr_apply]
  exact gateAt_row x0 A0 x1 x2 p n q' fun k => h0 p k n hi0

/-- The reset gate's body at an entry of a block of rows, as the array's. -/
theorem point1_R {A0 : Cert.Spec.Mat 100000 240} (x0 : Vec Ideal S5000x240 .bf16) (x1 : Vec Ideal S240x5 .f32)
    (x2 : Vec Ideal S1x5 .f32) (r : Nat)
    (h0 : ∀ (p : Fin 5000) (k : Fin 240) (n : Fin 100000), n.val = r * 5000 + p.val → x0 (ix2 p k) = A0 (ix2 n k))
    (y : S5000x5.Idx) (i : S100000x5.Idx) (hi0 : (i 0).val = r * 5000 + (y 0).val) (hi1 : (i 1).val = (y 1).val) :
    k1_pay3 (F := Ideal) x0 x1 x2 y = Cert.Spec.gateArr A0 x1 x2 i := by
  obtain ⟨p, q, rfl⟩ : ∃ (p : Fin 5000) (q : Fin 5), y = ix2 p q := ⟨y 0, y 1, eq_ix2 y⟩
  obtain ⟨n, q', rfl⟩ : ∃ (n : Fin 100000) (q' : Fin 5), i = ix2 n q' := ⟨i 0, i 1, eq_ix2 i⟩
  obtain rfl : q' = q := Fin.ext hi1
  rw [k1_pay3_apply, Cert.Spec.gateArr_apply]
  exact gateAt_row x0 A0 x1 x2 p n q' fun k => h0 p k n hi0

/-- WHAT POINT t WRITES BACK to the update gate is block t of the gate formula of C, Wz, bz as the region finds them. -/
theorem flushed1_5_eq (c : Dev nD) (t : Fin cfg1.N) :
    (dat1 (F := Ideal) V c).flushed 5 t = ((cfg1.win 5).blk t).view.read (Elt Ideal)
      (Cert.Spec.gateArr (V c main_v93) (V c main_v94) (V c main_v96)) := by
  show (cfg1.win 5).cut (grid1.coords t) ((dat1 V c).after 5 t) = _
  rw [after1_5]
  unfold out1_5
  rw [View.canon_unit_zero zero_offsets1]
  simp only [View.ld_unit_zero (S := S5000x240) zero_offsets1, View.ld_unit_zero (S := S240x5) zero_offsets1,
    View.ld_unit_zero (S := S1x5) zero_offsets1]
  obtain ⟨e00, e01, e10, e11, e20, e21, e30, e31, e40, e41, e50, e51, e60, e61⟩ := idx1 t
  have hW : (iblk1 V c 1 t : Vec Ideal S240x5 .f32) = V c main_v94 := by
    funext x
    show V c main_v94 (((cfg1.win 1).blk t).view.emb x) = V c main_v94 x
    refine congrArg _ (funext fun a => Fin.ext ?_)
    match a with
    | ⟨0, _⟩ => show win1_1.index t (0 : Fin 2) * 240 + 1 * (x 0).val = (x 0).val; rw [e10]; omega
    | ⟨1, _⟩ => show win1_1.index t (1 : Fin 2) * 5 + 1 * (x 1).val = (x 1).val; rw [e11]; omega
  have hB : (iblk1 V c 2 t : Vec Ideal S1x5 .f32) = V c main_v96 := by
    funext x
    show V c main_v96 (((cfg1.win 2).blk t).view.emb x) = V c main_v96 x
    refine congrArg _ (funext fun a => Fin.ext ?_)
    match a with
    | ⟨0, _⟩ => show win1_2.index t (0 : Fin 2) * 1 + 1 * (x 0).val = (x 0).val; rw [e20]; omega
    | ⟨1, _⟩ => show win1_2.index t (1 : Fin 2) * 5 + 1 * (x 1).val = (x 1).val; rw [e21]; omega
  rw [hW, hB]
  funext j
  refine point1_Z (A0 := V c main_v93) (iblk1 V c 0 t) _ _ t.val (fun p k n hn => ?_) ((cfg1.win 5).xinj _ j) (((cfg1.win 5).blk t).view.emb j) ?_ ?_
  · show V c main_v93 (((cfg1.win 0).blk t).view.emb (ix2 p k)) = V c main_v93 (ix2 n k)
    refine congrArg _ (funext fun a => Fin.ext ?_)
    match a with
    | ⟨0, _⟩ => show win1_0.index t (0 : Fin 2) * 5000 + 1 * p.val = n.val; rw [e00, hn]; omega
    | ⟨1, _⟩ => show win1_0.index t (1 : Fin 2) * 240 + 1 * k.val = k.val; rw [e01]; omega
  · show win1_5.index t (0 : Fin 2) * 5000 + 1 * (j 0).val = t.val * 5000 + (j 0).val; rw [e50]; omega
  · show win1_5.index t (1 : Fin 2) * 5 + 1 * (j 1).val = (j 1).val; rw [e51]; omega

/-- WHAT POINT t WRITES BACK to the reset gate is block t of the gate formula of C, Wr, br as the region finds them. -/
theorem flushed1_6_eq (c : Dev nD) (t : Fin cfg1.N) :
    (dat1 (F := Ideal) V c).flushed 6 t = ((cfg1.win 6).blk t).view.read (Elt Ideal)
      (Cert.Spec.gateArr (V c main_v93) (V c main_v95) (V c main_v97)) := by
  show (cfg1.win 6).cut (grid1.coords t) ((dat1 V c).after 6 t) = _
  rw [after1_6]
  unfold out1_6
  rw [View.canon_unit_zero zero_offsets1]
  simp only [View.ld_unit_zero (S := S5000x240) zero_offsets1, View.ld_unit_zero (S := S240x5) zero_offsets1,
    View.ld_unit_zero (S := S1x5) zero_offsets1]
  obtain ⟨e00, e01, e10, e11, e20, e21, e30, e31, e40, e41, e50, e51, e60, e61⟩ := idx1 t
  have hW : (iblk1 V c 3 t : Vec Ideal S240x5 .f32) = V c main_v95 := by
    funext x
    show V c main_v95 (((cfg1.win 3).blk t).view.emb x) = V c main_v95 x
    refine congrArg _ (funext fun a => Fin.ext ?_)
    match a with
    | ⟨0, _⟩ => show win1_3.index t (0 : Fin 2) * 240 + 1 * (x 0).val = (x 0).val; rw [e30]; omega
    | ⟨1, _⟩ => show win1_3.index t (1 : Fin 2) * 5 + 1 * (x 1).val = (x 1).val; rw [e31]; omega
  have hB : (iblk1 V c 4 t : Vec Ideal S1x5 .f32) = V c main_v97 := by
    funext x
    show V c main_v97 (((cfg1.win 4).blk t).view.emb x) = V c main_v97 x
    refine congrArg _ (funext fun a => Fin.ext ?_)
    match a with
    | ⟨0, _⟩ => show win1_4.index t (0 : Fin 2) * 1 + 1 * (x 0).val = (x 0).val; rw [e40]; omega
    | ⟨1, _⟩ => show win1_4.index t (1 : Fin 2) * 5 + 1 * (x 1).val = (x 1).val; rw [e41]; omega
  rw [hW, hB]
  funext j
  refine point1_R (A0 := V c main_v93) (iblk1 V c 0 t) _ _ t.val (fun p k n hn => ?_) ((cfg1.win 6).xinj _ j) (((cfg1.win 6).blk t).view.emb j) ?_ ?_
  · show V c main_v93 (((cfg1.win 0).blk t).view.emb (ix2 p k)) = V c main_v93 (ix2 n k)
    refine congrArg _ (funext fun a => Fin.ext ?_)
    match a with
    | ⟨0, _⟩ => show win1_0.index t (0 : Fin 2) * 5000 + 1 * p.val = n.val; rw [e00, hn]; omega
    | ⟨1, _⟩ => show win1_0.index t (1 : Fin 2) * 240 + 1 * k.val = k.val; rw [e01]; omega
  · show win1_6.index t (0 : Fin 2) * 5000 + 1 * (j 0).val = t.val * 5000 + (j 0).val; rw [e60]; omega
  · show win1_6.index t (1 : Fin 2) * 5 + 1 * (j 1).val = (j 1).val; rw [e61]; omega

/-- An index of the output array is in point t's block iff each coordinate is in the block's range on its axis. -/
theorem mem_blk1_5 (t : Fin cfg1.N) (i : S100000x5.Idx) :
    i ∈ ((cfg1.win 5).blk t).view.set ↔ ∀ a : Fin 2, win1_5.index t a * S5000x5.size a ≤ (i a).val
      ∧ (i a).val < win1_5.index t a * S5000x5.size a + S5000x5.size a := by
  show i ∈ ((View.whole main_v98_0).slice (win1_5.rect t)).set ↔ _
  rw [View.set_slice_whole, Rect.mem_set_unit]
  exact Iff.rfl

/-- An index of the output array is in point t's block iff each coordinate is in the block's range on its axis. -/
theorem mem_blk1_6 (t : Fin cfg1.N) (i : S100000x5.Idx) :
    i ∈ ((cfg1.win 6).blk t).view.set ↔ ∀ a : Fin 2, win1_6.index t a * S5000x5.size a ≤ (i a).val
      ∧ (i a).val < win1_6.index t a * S5000x5.size a + S5000x5.size a := by
  show i ∈ ((View.whole main_v98_1).slice (win1_6.rect t)).set ↔ _
  rw [View.set_slice_whole, Rect.mem_set_unit]
  exact Iff.rfl

/-- THE UPDATE GATE'S ARRAY after the region. Row r is in the block of point r / 5000. -/
theorem region1_value_Z (c : Dev nD) :
    (dat1 (F := Ideal) V c).arrAt 5 cfg1.N = Cert.Spec.gateArr (V c main_v93) (V c main_v94) (V c main_v96) :=
  (dat1 V c).arrAt_eq_of_cover 5 _ (fun t _ => flushed1_5_eq V c t) fun i => by
    have hi0 : (i 0).val < 100000 := (i 0).isLt
    have hi1 : (i 1).val < 5 := (i 1).isLt
    have hN : cfg1.N = 20 := N_1
    let t : Fin cfg1.N := ⟨(i 0).val / 5000, by rw [hN]; omega⟩
    obtain ⟨-, -, -, -, -, -, -, -, -, -, e50, e51, -, -⟩ := idx1 t
    refine ⟨t, flush1_5 t, ?_⟩
    rw [mem_blk1_5]
    intro a
    match a with
    | ⟨0, _⟩ =>
      show win1_5.index t (0 : Fin 2) * 5000 ≤ (i 0).val ∧ (i 0).val < win1_5.index t (0 : Fin 2) * 5000 + 5000
      rw [e50]; show (i 0).val / 5000 * 5000 ≤ (i 0).val ∧ (i 0).val < (i 0).val / 5000 * 5000 + 5000; omega
    | ⟨1, _⟩ =>
      show win1_5.index t (1 : Fin 2) * 5 ≤ (i 1).val ∧ (i 1).val < win1_5.index t (1 : Fin 2) * 5 + 5
      rw [e51]; omega

/-- THE RESET GATE'S ARRAY after the region. -/
theorem region1_value_R (c : Dev nD) :
    (dat1 (F := Ideal) V c).arrAt 6 cfg1.N = Cert.Spec.gateArr (V c main_v93) (V c main_v95) (V c main_v97) :=
  (dat1 V c).arrAt_eq_of_cover 6 _ (fun t _ => flushed1_6_eq V c t) fun i => by
    have hi0 : (i 0).val < 100000 := (i 0).isLt
    have hi1 : (i 1).val < 5 := (i 1).isLt
    have hN : cfg1.N = 20 := N_1
    let t : Fin cfg1.N := ⟨(i 0).val / 5000, by rw [hN]; omega⟩
    obtain ⟨-, -, -, -, -, -, -, -, -, -, -, -, e60, e61⟩ := idx1 t
    refine ⟨t, flush1_6 t, ?_⟩
    rw [mem_blk1_6]
    intro a
    match a with
    | ⟨0, _⟩ =>
      show win1_6.index t (0 : Fin 2) * 5000 ≤ (i 0).val ∧ (i 0).val < win1_6.index t (0 : Fin 2) * 5000 + 5000
      rw [e60]; show (i 0).val / 5000 * 5000 ≤ (i 0).val ∧ (i 0).val < (i 0).val / 5000 * 5000 + 5000; omega
    | ⟨1, _⟩ =>
      show win1_6.index t (1 : Fin 2) * 5 ≤ (i 1).val ∧ (i 1).val < win1_6.index t (1 : Fin 2) * 5 + 5
      rw [e61]; omega

end Cert.KernelIdeal.KVal

end
-- ==== Proof.KVal2.lean ====
/-
  The head's array after its pipeline: from the blocks the grid's points write back to the whole array.

  The output [100000, 1] is tiled by twenty blocks of 5000 rows; point t writes rows 5000·t … 5000·t + 4999. The body at
  point t is handed rows 5000·t … of the stacked diffusion terms C, of the update gate Z and of the old state h, and
  the whole of each weight and bias, and a row of the head reads only its own row of C, Z and h, so what point t writes
  is block t of the one array `headArr` of the arrays the region was entered with.
-/
import proofs.«114446_j62852551409688_2_alg».proof.Proof.KIBody2
import proofs.«114446_j62852551409688_2_alg».proof.Proof.KPay
import Idealize.ShloMosaic.Lib.Pipeline.Value

noncomputable section

open scoped BigOperators

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets of an access to a whole buffer, as a constant function. -/
theorem zero_offsets2 : (![0, 0] : Fin 2 → Nat) = fun _ => 0 := funext fun a => by fin_cases a <;> rfl

/-- The block indices over the grid: the stacked terms C, the gate Z, the old state h and the output move one block of
    rows per point; the weights and biases stay at their one block. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The head at a row reads only that row of C, of the gate and of the old state. -/
theorem headAt_row {N N' : Nat} (C : Cert.Spec.Mat N 240) (C' : Cert.Spec.Mat N' 240) (Wh : Cert.Spec.Mat 240 5)
    (bh : Cert.Spec.Mat 1 5) (Z H : Cert.Spec.Mat N 5) (Z' H' : Cert.Spec.Mat N' 5) (Wl : Cert.Spec.Mat 5 1)
    (bl : Cert.Spec.Mat 1 1) (n : Fin N) (n' : Fin N')
    (hC : ∀ j : Fin 240, C (ix2 n j) = C' (ix2 n' j)) (hZ : ∀ q : Fin 5, Z (ix2 n q) = Z' (ix2 n' q))
    (hH : ∀ q : Fin 5, H (ix2 n q) = H' (ix2 n' q)) :
    Cert.Spec.headAt C Wh bh Z H Wl bl n = Cert.Spec.headAt C' Wh bh Z' H' Wl bl n' := by
  unfold Cert.Spec.headAt Cert.Spec.linAt
  simp only [hC, hZ, hH]

/-- The head's body at an entry of a block of rows, as the array's: the blocks hold rows 5000·r … of C, Z and h
    (`h0`, `h3`, `h4`), the entry y of the block is the entry i of the array (`hi0`; both have one column). -/
theorem point2 {A0 : Cert.Spec.Mat 100000 240} {A3 A4 : Cert.Spec.Mat 100000 5} (x0 : Vec Ideal S5000x240 .bf16)
    (x1 : Vec Ideal S240x5 .f32) (x2 : Vec Ideal S1x5 .f32) (x3 : Vec Ideal S5000x5 .f32) (x4 : Vec Ideal S5000x5 .f32)
    (x5 : Vec Ideal S5x1 .f32) (x6 : Vec Ideal S1x1 .f32) (r : Nat)
    (h0 : ∀ (p : Fin 5000) (k : Fin 240) (n : Fin 100000), n.val = r * 5000 + p.val → x0 (ix2 p k) = A0 (ix2 n k))
    (h3 : ∀ (p : Fin 5000) (k : Fin 5) (n : Fin 100000), n.val = r * 5000 + p.val → x3 (ix2 p k) = A3 (ix2 n k))
    (h4 : ∀ (p : Fin 5000) (k : Fin 5) (n : Fin 100000), n.val = r * 5000 + p.val → x4 (ix2 p k) = A4 (ix2 n k))
    (y : S5000x1.Idx) (i : S100000x1.Idx) (hi0 : (i 0).val = r * 5000 + (y 0).val) :
    k2_pay1 (F := Ideal) x0 x1 x2 x3 x4 x5 x6 y = Cert.Spec.headArr A0 x1 x2 A3 A4 x5 x6 i := by
  obtain ⟨p, u, rfl⟩ : ∃ (p : Fin 5000) (u : Fin 1), y = ix2 p u := ⟨y 0, y 1, eq_ix2 y⟩
  obtain ⟨n, u', rfl⟩ : ∃ (n : Fin 100000) (u' : Fin 1), i = ix2 n u' := ⟨i 0, i 1, eq_ix2 i⟩
  rw [k2_pay1_apply, Cert.Spec.headArr_apply]
  exact headAt_row x0 A0 x1 x2 x3 x4 A3 A4 x5 x6 p n (fun k => h0 p k n hi0) (fun k => h3 p k n hi0) (fun k => h4 p k n hi0)

/-- WHAT POINT t WRITES BACK is block t of the head formula of the arrays the region was entered with. -/
theorem flushed2_7_eq (c : Dev nD) (t : Fin cfg2.N) :
    (dat2 (F := Ideal) V c).flushed 7 t = ((cfg2.win 7).blk t).view.read (Elt Ideal)
      (Cert.Spec.headArr (V c main_v160) (V c main_v161) (V c main_v162) (V c main_v98_0) (V c main_v32)
        (V c main_arg13) (V c main_v163)) := by
  show (cfg2.win 7).cut (grid2.coords t) ((dat2 V c).after 7 t) = _
  rw [after2_7]
  unfold out2_7
  rw [View.canon_unit_zero zero_offsets2]
  simp only [View.ld_unit_zero (S := S5000x240) zero_offsets2, View.ld_unit_zero (S := S240x5) zero_offsets2,
    View.ld_unit_zero (S := S1x5) zero_offsets2, View.ld_unit_zero (S := S5000x5) zero_offsets2,
    View.ld_unit_zero (S := S5x1) zero_offsets2, View.ld_unit_zero (S := S1x1) zero_offsets2]
  obtain ⟨e00, e01, e10, e11, e20, e21, e30, e31, e40, e41, e50, e51, e60, e61, e70, e71⟩ := idx2 t
  have h1 : (iblk2 V c 1 t : Vec Ideal S240x5 .f32) = V c main_v161 := by
    funext x
    show V c main_v161 (((cfg2.win 1).blk t).view.emb x) = V c main_v161 x
    refine congrArg _ (funext fun a => Fin.ext ?_)
    match a with
    | ⟨0, _⟩ => show win2_1.index t (0 : Fin 2) * 240 + 1 * (x 0).val = (x 0).val; rw [e10]; omega
    | ⟨1, _⟩ => show win2_1.index t (1 : Fin 2) * 5 + 1 * (x 1).val = (x 1).val; rw [e11]; omega
  have h2 : (iblk2 V c 2 t : Vec Ideal S1x5 .f32) = V c main_v162 := by
    funext x
    show V c main_v162 (((cfg2.win 2).blk t).view.emb x) = V c main_v162 x
    refine congrArg _ (funext fun a => Fin.ext ?_)
    match a with
    | ⟨0, _⟩ => show win2_2.index t (0 : Fin 2) * 1 + 1 * (x 0).val = (x 0).val; rw [e20]; omega
    | ⟨1, _⟩ => show win2_2.index t (1 : Fin 2) * 5 + 1 * (x 1).val = (x 1).val; rw [e21]; omega
  have h5 : (iblk2 V c 5 t : Vec Ideal S5x1 .f32) = V c main_arg13 := by
    funext x
    show V c main_arg13 (((cfg2.win 5).blk t).view.emb x) = V c main_arg13 x
    refine congrArg _ (funext fun a => Fin.ext ?_)
    match a with
    | ⟨0, _⟩ => show win2_5.index t (0 : Fin 2) * 5 + 1 * (x 0).val = (x 0).val; rw [e50]; omega
    | ⟨1, _⟩ => show win2_5.index t (1 : Fin 2) * 1 + 1 * (x 1).val = (x 1).val; rw [e51]; omega
  have h6 : (iblk2 V c 6 t : Vec Ideal S1x1 .f32) = V c main_v163 := by
    funext x
    show V c main_v163 (((cfg2.win 6).blk t).view.emb x) = V c main_v163 x
    refine congrArg _ (funext fun a => Fin.ext ?_)
    match a with
    | ⟨0, _⟩ => show win2_6.index t (0 : Fin 2) * 1 + 1 * (x 0).val = (x 0).val; rw [e60]; omega
    | ⟨1, _⟩ => show win2_6.index t (1 : Fin 2) * 1 + 1 * (x 1).val = (x 1).val; rw [e61]; omega
  rw [h1, h2, h5, h6]
  funext j
  refine point2 (A0 := V c main_v160) (A3 := V c main_v98_0) (A4 := V c main_v32) (iblk2 V c 0 t) _ _ (iblk2 V c 3 t) (iblk2 V c 4 t) _ _ t.val
    (fun p k n hn => ?_) (fun p k n hn => ?_) (fun p k n hn => ?_) ((cfg2.win 7).xinj _ j) (((cfg2.win 7).blk t).view.emb j) ?_
  · show V c main_v160 (((cfg2.win 0).blk t).view.emb (ix2 p k)) = V c main_v160 (ix2 n k)
    refine congrArg _ (funext fun a => Fin.ext ?_)
    match a with
    | ⟨0, _⟩ => show win2_0.index t (0 : Fin 2) * 5000 + 1 * p.val = n.val; rw [e00, hn]; omega
    | ⟨1, _⟩ => show win2_0.index t (1 : Fin 2) * 240 + 1 * k.val = k.val; rw [e01]; omega
  · show V c main_v98_0 (((cfg2.win 3).blk t).view.emb (ix2 p k)) = V c main_v98_0 (ix2 n k)
    refine congrArg _ (funext fun a => Fin.ext ?_)
    match a with
    | ⟨0, _⟩ => show win2_3.index t (0 : Fin 2) * 5000 + 1 * p.val = n.val; rw [e30, hn]; omega
    | ⟨1, _⟩ => show win2_3.index t (1 : Fin 2) * 5 + 1 * k.val = k.val; rw [e31]; omega
  · show V c main_v32 (((cfg2.win 4).blk t).view.emb (ix2 p k)) = V c main_v32 (ix2 n k)
    refine congrArg _ (funext fun a => Fin.ext ?_)
    match a with
    | ⟨0, _⟩ => show win2_4.index t (0 : Fin 2) * 5000 + 1 * p.val = n.val; rw [e40, hn]; omega
    | ⟨1, _⟩ => show win2_4.index t (1 : Fin 2) * 5 + 1 * k.val = k.val; rw [e41]; omega
  · show win2_7.index t (0 : Fin 2) * 5000 + 1 * (j 0).val = t.val * 5000 + (j 0).val; rw [e70]; omega

/-- An index of the output array is in point t's block iff each coordinate is in the block's range on its axis. -/
theorem mem_blk2_7 (t : Fin cfg2.N) (i : S100000x1.Idx) :
    i ∈ ((cfg2.win 7).blk t).view.set ↔ ∀ a : Fin 2, win2_7.index t a * S5000x1.size a ≤ (i a).val
      ∧ (i a).val < win2_7.index t a * S5000x1.size a + S5000x1.size a := by
  show i ∈ ((View.whole main_v164).slice (win2_7.rect t)).set ↔ _
  rw [View.set_slice_whole, Rect.mem_set_unit]
  exact Iff.rfl

/-- THE HEAD'S ARRAY after the region: the head formula of the arrays the region was entered with. Row r is in the
    block of point r / 5000. -/
theorem region2_value (c : Dev nD) :
    (dat2 (F := Ideal) V c).arrAt 7 cfg2.N
      = Cert.Spec.headArr (V c main_v160) (V c main_v161) (V c main_v162) (V c main_v98_0) (V c main_v32)
          (V c main_arg13) (V c main_v163) :=
  (dat2 V c).arrAt_eq_of_cover 7 _ (fun t _ => flushed2_7_eq V c t) fun i => by
    have hi0 : (i 0).val < 100000 := (i 0).isLt
    have hi1 : (i 1).val < 1 := (i 1).isLt
    have hN : cfg2.N = 20 := N_2
    let t : Fin cfg2.N := ⟨(i 0).val / 5000, by rw [hN]; omega⟩
    obtain ⟨-, -, -, -, -, -, -, -, -, -, -, -, -, -, e70, e71⟩ := idx2 t
    refine ⟨t, flush2_7 t, ?_⟩
    rw [mem_blk2_7]
    intro a
    match a with
    | ⟨0, _⟩ =>
      show win2_7.index t (0 : Fin 2) * 5000 ≤ (i 0).val ∧ (i 0).val < win2_7.index t (0 : Fin 2) * 5000 + 5000
      rw [e70]; show (i 0).val / 5000 * 5000 ≤ (i 0).val ∧ (i 0).val < (i 0).val / 5000 * 5000 + 5000; omega
    | ⟨1, _⟩ =>
      show win2_7.index t (1 : Fin 2) * 1 ≤ (i 1).val ∧ (i 1).val < win2_7.index t (1 : Fin 2) * 1 + 1
      rw [e71]; omega

end Cert.KernelIdeal.KVal

end
-- ==== Proof.KChain.lean ====
/-
  The host stretches between the regions, read back.

  Between the warm-start region and the gate region, and again between the gate region and the head region, the host
  builds the stacked diffusion terms of a node array X [100000,40]: X itself, its forward propagation P_f X (gather the
  rows at the edges' sources, scale each by the edge's forward weight, add them up at the edges' destinations), the
  second Chebyshev term 2·P_f(P_f X) − X, and the same three with the backward propagation P_b (sources and
  destinations exchanged, backward weights); the six are joined side by side into [100000,240] and the format changed.
  Here each stretch's result buffers are computed as these functions of the buffers the stretch starts from, for ANY
  starting contents `U`: the stretches differ only in how X is made (x joined with h, or x joined with h·r).
-/
import proofs.«114446_j62852551409688_2_alg».proof.Proof.Gen.KernelIdeal.Launch
import Idealize.ShloMosaic.Lib.StableHlo.Run

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo

variable {F : FTy → Type} [FloatOps F]

/-- The result of a six-operand operation whose operands are a literal family of references: each operand's contents
    read at its own reference. -/
theorem nary6_result {x0 x1 x2 x3 x4 x5 y : Ref sig .tc}
    (f : ((k : Fin 6) → ((![x0, x1, x2, x3, x4, x5] : Fin 6 → Ref sig .tc) k).ty.Contents (Elt F)) → y.ty.Contents (Elt F)) (hxs hy)
    (G : Valuation τ sig (Elt F)) :
    (nary (τ := τ) ![x0, x1, x2, x3, x4, x5] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5)) (fun i => i.elim0))))))) := by
  rw [nary_result]; congr 1; funext k; fin_cases k <;> rfl

theorem nary6_result' {x0 x1 x2 x3 x4 x5 y : Ref sig .tc}
    (f : ((k : Fin 6) → ((![x0, x1, x2, x3, x4, x5] : Fin 6 → Ref sig .tc) k).ty.Contents (Elt F)) → y.ty.Contents (Elt F)) (hxs hy)
    (G : Valuation τ sig (Elt F)) :
    (nary (τ := τ) ![x0, x1, x2, x3, x4, x5] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5)) (fun i => i.elim0))))))) :=
  nary6_result f hxs hy G

/-- Reads a buffer after a literal line of operations, in one pass: the fold is opened, each operation's result is
    rewritten at its own result buffer to its function's value and at any other reference to what was there before it
    (the references told apart by evaluation), the six-operand joining read operand by operand. -/
macro "read_line" : tactic =>
  `(tactic| (simp (disch := decide) only [after_cons, after_nil,
      nullary_result', unary_result', binary_result', ternary_result', reshape_result', nary6_result',
      nullary_result_ne', unary_result_ne', binary_result_ne', ternary_result_ne', reshape_result_ne', nary_result_ne']))

/-- A gather index made non-negative the way jnp does it: v + 100000 where v < 0, else v. -/
def wrap (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- One propagation step: the rows of X at the edges' ends `g`, each scaled by its edge's weight `w`, added up at the
    edges' other ends `s`. -/
def prop (g s : (⟨S1600000, .i32⟩ : BufTy).Contents (Elt F)) (w : (⟨S1600000, .f32⟩ : BufTy).Contents (Elt F))
    (X : (⟨S100000x40, .f32⟩ : BufTy).Contents (Elt F)) : (⟨S100000x40, .f32⟩ : BufTy).Contents (Elt F) :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 s)
    (mulf (Host.gather gather_S100000x40_S1600000x1_S1600000x40_1_0_n_n_0_1_140 X
        (broadcastInDim S1600000x1 ![0] bcast_S1600000_S1600000x1_0 (wrap g)))
      (broadcastInDim S1600000x40 ![0, 1] bcast_S1600000x1_S1600000x40_0_1 (broadcastInDim S1600000x1 ![0] bcast_S1600000_S1600000x1_0 w)))

/-- The second Chebyshev term from the twice-propagated array Q and X: 2·Q − X. -/
def cheb (Q X : (⟨S100000x40, .f32⟩ : BufTy).Contents (Elt F)) : (⟨S100000x40, .f32⟩ : BufTy).Contents (Elt F) :=
  subf (mulf (broadcastInDim S100000x40 ![] bcast_S_S100000x40 (constant S_ .f32 0x40000000#32)) Q) X

/-- The six diffusion terms of X joined side by side, in the format the regions read. -/
def stack (src dst : (⟨S1600000, .i32⟩ : BufTy).Contents (Elt F)) (wf wb : (⟨S1600000, .f32⟩ : BufTy).Contents (Elt F))
    (X : (⟨S100000x40, .f32⟩ : BufTy).Contents (Elt F)) : (⟨S100000x240, .bf16⟩ : BufTy).Contents (Elt F) :=
  truncf .bf16 (concatenate S100000x240 1
    [⟨S100000x40, X⟩, ⟨S100000x40, prop src dst wf X⟩, ⟨S100000x40, cheb (prop src dst wf (prop src dst wf X)) X⟩,
     ⟨S100000x40, X⟩, ⟨S100000x40, prop dst src wb X⟩, ⟨S100000x40, cheb (prop dst src wb (prop dst src wb X)) X⟩]
    concatenates_S100000x40_S100000x40_S100000x40_S100000x40_S100000x40_S100000x40_S100000x240_d1) bitsLt_bf16_f32

/-- x and a five-column array joined side by side. -/
def join (x : (⟨S100000x35, .f32⟩ : BufTy).Contents (Elt F)) (h : (⟨S100000x5, .f32⟩ : BufTy).Contents (Elt F)) :
    (⟨S100000x40, .f32⟩ : BufTy).Contents (Elt F) :=
  concatenate S100000x40 1 [⟨S100000x35, x⟩, ⟨S100000x5, h⟩] concatenates_S100000x35_S100000x5_S100000x40_d1

variable (U : Valuation τ sig (Elt F))

/-- The two host stretches between the first and the second region, from contents `U`. -/
abbrev mid1 : Valuation τ sig (Elt F) := StableHlo.after main_part1_ops0 (StableHlo.after main_part0_ops1 U)

/-- The two host stretches between the second and the third region, from contents `U`. -/
abbrev mid2 : Valuation τ sig (Elt F) := StableHlo.after main_part3_ops0 (StableHlo.after main_part2_ops0 U)

set_option maxHeartbeats 4000000 in
/-- The gate region's stacked input: the six diffusion terms of x joined with h. -/
theorem mid1_v93 : mid1 U (Proc.devRef .tc main_v93)
    = stack (U (Proc.devRef .tc main_v1)) (U (Proc.devRef .tc main_v3)) (U (Proc.devRef .tc main_v19)) (U (Proc.devRef .tc main_v29))
        (join (U (Proc.devRef .tc main_arg0)) (U (Proc.devRef .tc main_v32))) := by
  unfold mid1
  simp only [main_part1_ops0, main_part0_ops1]
  read_line
  rfl

/-- The gate region's flattened weights and bias rows are the arguments re-laid. -/
theorem mid1_v94 : mid1 U (Proc.devRef .tc main_v94) = shapeCast S240x5 (U (Proc.devRef .tc main_arg7)) shapeCasts_S2x3x40x5_S240x5 := by
  unfold mid1
  simp only [main_part1_ops0, main_part0_ops1]
  read_line
  rfl
theorem mid1_v95 : mid1 U (Proc.devRef .tc main_v95) = shapeCast S240x5 (U (Proc.devRef .tc main_arg9)) shapeCasts_S2x3x40x5_S240x5 := by
  unfold mid1
  simp only [main_part1_ops0, main_part0_ops1]
  read_line
  rfl
theorem mid1_v96 : mid1 U (Proc.devRef .tc main_v96) = shapeCast S1x5 (U (Proc.devRef .tc main_arg8)) shapeCasts_S5_S1x5 := by
  unfold mid1
  simp only [main_part1_ops0, main_part0_ops1]
  read_line
  rfl
theorem mid1_v97 : mid1 U (Proc.devRef .tc main_v97) = shapeCast S1x5 (U (Proc.devRef .tc main_arg10)) shapeCasts_S5_S1x5 := by
  unfold mid1
  simp only [main_part1_ops0, main_part0_ops1]
  read_line
  rfl

set_option maxHeartbeats 4000000 in
/-- The head region's stacked input: the six diffusion terms of x joined with h·r. -/
theorem mid2_v160 : mid2 U (Proc.devRef .tc main_v160)
    = stack (U (Proc.devRef .tc main_v1)) (U (Proc.devRef .tc main_v3)) (U (Proc.devRef .tc main_v19)) (U (Proc.devRef .tc main_v29))
        (join (U (Proc.devRef .tc main_arg0)) (mulf (U (Proc.devRef .tc main_v32)) (U (Proc.devRef .tc main_v98_1)))) := by
  unfold mid2
  simp only [main_part3_ops0, main_part2_ops0]
  read_line
  rfl

/-- The head region's flattened weight, bias row and bias scalar are the arguments re-laid. -/
theorem mid2_v161 : mid2 U (Proc.devRef .tc main_v161) = shapeCast S240x5 (U (Proc.devRef .tc main_arg11)) shapeCasts_S2x3x40x5_S240x5 := by
  unfold mid2
  simp only [main_part3_ops0, main_part2_ops0]
  read_line
  rfl
theorem mid2_v162 : mid2 U (Proc.devRef .tc main_v162) = shapeCast S1x5 (U (Proc.devRef .tc main_arg12)) shapeCasts_S5_S1x5 := by
  unfold mid2
  simp only [main_part3_ops0, main_part2_ops0]
  read_line
  rfl
theorem mid2_v163 : mid2 U (Proc.devRef .tc main_v163) = shapeCast S1x1 (U (Proc.devRef .tc main_arg14)) shapeCasts_S1_S1x1 := by
  unfold mid2
  simp only [main_part3_ops0, main_part2_ops0]
  read_line
  rfl

end Cert.KernelIdeal.KChain

end
-- ==== Proof.Stack.lean ====
/-
  The stacked product is the sum of six products.

  Six matrices P_0 … P_5 [N,40] joined side by side give C [N,240]; column 40·q + i of C is column i of P_q. A weight
  W [2,3,40,5] flattened row-major to [240,5] has row 120·d + 40·k + i equal to W(d,k,i,·), that is row 40·q + i with
  q = 3·d + k. A sum over the 240 columns is a sum over the six pieces of a sum over 40, so row n of C against the
  flattened weight is the sum over q of P_q(n,·) against the slab W(q / 3, q mod 3,·,·). Addition of extended reals
  is commutative and associative (no distributive law is used), so the six terms may be taken in the order in which the
  reference adds them.
-/
import proofs.«114446_j62852551409688_2_alg».proof.Proof.Spec
import Idealize.ShloMosaic.Lib.Pipeline.Value
import Idealize.ShloMosaic.Lib.ValueIdx

noncomputable section

open scoped BigOperators

namespace Cert.Stack

open Idealize.ShloMosaic Idealize.ShloMosaic.ValueIdx Cert.Spec

variable {N : Nat}

/-- Column 40·q + i of the 240. -/
def col (q : Fin 6) (i : Fin 40) : Fin 240 := ⟨40 * q.val + i.val, by have := q.isLt; have := i.isLt; omega⟩

/-- A sum over 240 columns is a sum over six pieces of a sum over the 40 columns of a piece. -/
theorem sum_240 {M : Type} [AddCommMonoid M] (f : Fin 240 → M) :
    ∑ j : Fin 240, f j = ∑ q : Fin 6, ∑ i : Fin 40, f (col q i) := by
  rw [← (finProdFinEquiv : Fin 6 × Fin 40 ≃ Fin 240).sum_comp f, Fintype.sum_prod_type]
  refine Finset.sum_congr rfl fun q _ => Finset.sum_congr rfl fun i _ => congrArg f (Fin.ext ?_)
  show i.val + 40 * q.val = 40 * q.val + i.val
  omega

/-- The six pieces as a list, in stacking order. -/
abbrev pieces (P0 P1 P2 P3 P4 P5 : Mat N 40) : List ((s : Shape) × (s.Idx → EReal)) :=
  [⟨⟨2, ![N, 40]⟩, P0⟩, ⟨⟨2, ![N, 40]⟩, P1⟩, ⟨⟨2, ![N, 40]⟩, P2⟩, ⟨⟨2, ![N, 40]⟩, P3⟩, ⟨⟨2, ![N, 40]⟩, P4⟩, ⟨⟨2, ![N, 40]⟩, P5⟩]

/-- Entry (n, 40·q + i) of the stack is entry (n, i) of piece q: the pieces before it take up 40·q columns. -/
theorem stack_apply (P0 P1 P2 P3 P4 P5 : Mat N 40)
    (h : Shape.Concatenates ((pieces P0 P1 P2 P3 P4 P5).map (·.1)) ⟨2, ![N, 240]⟩ 1) (n : Fin N) (q : Fin 6) (i : Fin 40) :
    concatenate ⟨2, ![N, 240]⟩ 1 (pieces P0 P1 P2 P3 P4 P5) h (ix2 n (col q i)) = (![P0, P1, P2, P3, P4, P5] q) (ix2 n i) := by
  have hi : ∀ b : Fin 2, b.cast (rfl : (2 : Nat) = 2) ≠ (1 : Fin 2) → ((ix2 n i : (⟨2, ![N, 40]⟩ : Shape).Idx) b).val = ((ix2 n (col q i) : (⟨2, ![N, 240]⟩ : Shape).Idx) (b.cast rfl)).val := by
    intro b hb
    match b with
    | ⟨0, _⟩ => rfl
    | ⟨1, _⟩ => exact absurd rfl hb
  match q with
  | ⟨0, _⟩ => exact concatenate_apply_piece 1 _ h _ 0 (by show 0 < 6; omega) _ P0 rfl rfl 0 rfl (ix2 n i) hi (by show 0 + i.val = 40 * 0 + i.val; omega)
  | ⟨1, _⟩ => exact concatenate_apply_piece 1 _ h _ 1 (by show 1 < 6; omega) _ P1 rfl rfl 40 rfl (ix2 n i) hi (by show 40 + i.val = 40 * 1 + i.val; omega)
  | ⟨2, _⟩ => exact concatenate_apply_piece 1 _ h _ 2 (by show 2 < 6; omega) _ P2 rfl rfl 80 rfl (ix2 n i) hi (by show 80 + i.val = 40 * 2 + i.val; omega)
  | ⟨3, _⟩ => exact concatenate_apply_piece 1 _ h _ 3 (by show 3 < 6; omega) _ P3 rfl rfl 120 rfl (ix2 n i) hi (by show 120 + i.val = 40 * 3 + i.val; omega)
  | ⟨4, _⟩ => exact concatenate_apply_piece 1 _ h _ 4 (by show 4 < 6; omega) _ P4 rfl rfl 160 rfl (ix2 n i) hi (by show 160 + i.val = 40 * 4 + i.val; omega)
  | ⟨5, _⟩ => exact concatenate_apply_piece 1 _ h _ 5 (by show 5 < 6; omega) _ P5 rfl rfl 200 rfl (ix2 n i) hi (by show 200 + i.val = 40 * 5 + i.val; omega)

/-- Row 40·(3·d + k) + i of the flattened weight is W(d,k,i,·): both sit at row-major position ((3·d + k)·40 + i)·5 + c. -/
theorem flat_apply (W : (⟨4, ![2, 3, 40, 5]⟩ : Shape).Idx → EReal)
    (h : (⟨4, ![2, 3, 40, 5]⟩ : Shape).ShapeCasts ⟨2, ![240, 5]⟩) (d : Fin 2) (k : Fin 3) (i : Fin 40) (c : Fin 5)
    (q : Fin 6) (hq : q.val = 3 * d.val + k.val) :
    shapeCast ⟨2, ![240, 5]⟩ W h (ix2 (col q i) c) = W (ix4 d k i c) :=
  shapeCast_apply W h _ _ (by
    rw [Shape.rowMajor_val_two, Shape.rowMajor_val_four]
    show ((d.val * 3 + k.val) * 40 + i.val) * 5 + c.val = (40 * q.val + i.val) * 5 + c.val
    rw [hq]; ring)

/-- One piece's share of the stacked product is that piece against its slab. -/
theorem share (P0 P1 P2 P3 P4 P5 : Mat N 40)
    (hc : Shape.Concatenates ((pieces P0 P1 P2 P3 P4 P5).map (·.1)) ⟨2, ![N, 240]⟩ 1)
    (W : (⟨4, ![2, 3, 40, 5]⟩ : Shape).Idx → EReal) (hs : (⟨4, ![2, 3, 40, 5]⟩ : Shape).ShapeCasts ⟨2, ![240, 5]⟩)
    (n : Fin N) (c : Fin 5) (d : Fin 2) (k : Fin 3) (q : Fin 6) (hq : q.val = 3 * d.val + k.val) :
    (∑ i : Fin 40, concatenate ⟨2, ![N, 240]⟩ 1 (pieces P0 P1 P2 P3 P4 P5) hc (ix2 n (col q i))
        * shapeCast ⟨2, ![240, 5]⟩ W hs (ix2 (col q i) c))
      = slabAt (![P0, P1, P2, P3, P4, P5] q) W d k n c :=
  Finset.sum_congr rfl fun i _ => by rw [stack_apply, flat_apply W hs d k i c q hq]

/-- Row n of the stack against the flattened weight, plus the bias row, is the reference's sum of six products. -/
theorem lin_stack (P0 P1 P2 P3 P4 P5 : Mat N 40)
    (hc : Shape.Concatenates ((pieces P0 P1 P2 P3 P4 P5).map (·.1)) ⟨2, ![N, 240]⟩ 1)
    (W : (⟨4, ![2, 3, 40, 5]⟩ : Shape).Idx → EReal) (hs : (⟨4, ![2, 3, 40, 5]⟩ : Shape).ShapeCasts ⟨2, ![240, 5]⟩)
    (b : Mat 1 5) (n : Fin N) (c : Fin 5) :
    linAt (concatenate ⟨2, ![N, 240]⟩ 1 (pieces P0 P1 P2 P3 P4 P5) hc) (shapeCast ⟨2, ![240, 5]⟩ W hs) b n c
      = dconvAt P0 P1 P2 P3 P4 P5 W b n c := by
  unfold linAt dconvAt
  rw [sum_240, Fin.sum_univ_six,
    share P0 P1 P2 P3 P4 P5 hc W hs n c 0 0 0 rfl, share P0 P1 P2 P3 P4 P5 hc W hs n c 0 1 1 rfl,
    share P0 P1 P2 P3 P4 P5 hc W hs n c 0 2 2 rfl, share P0 P1 P2 P3 P4 P5 hc W hs n c 1 0 3 rfl,
    share P0 P1 P2 P3 P4 P5 hc W hs n c 1 1 4 rfl, share P0 P1 P2 P3 P4 P5 hc W hs n c 1 2 5 rfl]
  show slabAt P0 W 0 0 n c + slabAt P1 W 0 1 n c + slabAt P2 W 0 2 n c + slabAt P3 W 1 0 n c + slabAt P4 W 1 1 n c
      + slabAt P5 W 1 2 n c + b (ix2 0 c) = _
  abel

end Cert.Stack

end
-- ==== Proof.Ident.lean ====
/-
  The reference's diffusion stages are the kernel program's host functions of the same arrays.

  Both programs spell the graph diffusion with the same host operations: a propagation step gathers the rows of a node
  array at one end of every edge, scales each by the edge's normalised weight and adds them up at the other end; the
  second Chebyshev term is twice the twice-propagated array less the array. The reference repeats the whole chain for
  each gate; the kernel program computes it once per node array. Each equation below says that a stage of the reference
  (named by its position in the reference's program) is such a function of earlier stages; each holds by unfolding the
  definitions, the two programs' records of the gather and scatter dimensions being equal field by field.
-/
import proofs.«114446_j62852551409688_2_alg».proof.Proof.KChain
import proofs.«114446_j62852551409688_2_alg».proof.Proof.RefRead

set_option maxRecDepth 16384

noncomputable section

namespace Cert.Ident

open Idealize.ShloMosaic Idealize.ShloMosaic.TcCoe Idealize.SL.Sem
open Cert.KernelIdeal.KChain Cert.ReferenceIdeal.Read

variable {F : FTy → Type} [FloatOps F]
variable (x0 : (⟨Cert.ReferenceIdeal.S100000x35, .f32⟩ : BufTy).Contents (Elt F)) (x1 : (⟨Cert.ReferenceIdeal.S2x1600000, .i32⟩ : BufTy).Contents (Elt F)) (x2 : (⟨Cert.ReferenceIdeal.S1600000, .f32⟩ : BufTy).Contents (Elt F))
  (x3 : (⟨Cert.ReferenceIdeal.S35x100, .f32⟩ : BufTy).Contents (Elt F)) (x4 : (⟨Cert.ReferenceIdeal.S100, .f32⟩ : BufTy).Contents (Elt F)) (x5 : (⟨Cert.ReferenceIdeal.S100x5, .f32⟩ : BufTy).Contents (Elt F)) (x6 : (⟨Cert.ReferenceIdeal.S5, .f32⟩ : BufTy).Contents (Elt F))
  (x9 : (⟨Cert.ReferenceIdeal.S2x3x40x5, .f32⟩ : BufTy).Contents (Elt F)) (x10 : (⟨Cert.ReferenceIdeal.S5, .f32⟩ : BufTy).Contents (Elt F))

/-- The reference's node array: x joined with the warm-start state. -/
theorem id39 : join x0 (val_main_v38 (F := F) x0 x3 x4 x5 x6) = val_main_v39 (F := F) x0 x3 x4 x5 x6 := rfl

/-- The first forward propagation of the node array (the update gate's copy). -/
theorem id59 : prop (val_main_v1 (F := F) x1) (val_main_v3 (F := F) x1) (val_main_v19 (F := F) x1 x2) (val_main_v39 (F := F) x0 x3 x4 x5 x6) = val_main_v59 (F := F) x0 x1 x2 x3 x4 x5 x6 := rfl

/-- The first backward propagation (the update gate's copy). -/
theorem id72 : prop (val_main_v3 (F := F) x1) (val_main_v1 (F := F) x1) (val_main_v29 (F := F) x1 x2) (val_main_v39 (F := F) x0 x3 x4 x5 x6) = val_main_v72 (F := F) x0 x1 x2 x3 x4 x5 x6 := rfl

/-- The second forward Chebyshev term (the update gate's copy). -/
theorem id96 : cheb (prop (val_main_v1 (F := F) x1) (val_main_v3 (F := F) x1) (val_main_v19 (F := F) x1 x2) (val_main_v59 (F := F) x0 x1 x2 x3 x4 x5 x6)) (val_main_v39 (F := F) x0 x3 x4 x5 x6) = val_main_v96 (F := F) x0 x1 x2 x3 x4 x5 x6 := rfl

/-- The second backward Chebyshev term (the update gate's copy). -/
theorem id112 : cheb (prop (val_main_v3 (F := F) x1) (val_main_v1 (F := F) x1) (val_main_v29 (F := F) x1 x2) (val_main_v72 (F := F) x0 x1 x2 x3 x4 x5 x6)) (val_main_v39 (F := F) x0 x3 x4 x5 x6) = val_main_v112 (F := F) x0 x1 x2 x3 x4 x5 x6 := rfl

/-- The first forward propagation (the reset gate's copy: the reference computes it again). -/
theorem id149 : prop (val_main_v1 (F := F) x1) (val_main_v3 (F := F) x1) (val_main_v19 (F := F) x1 x2) (val_main_v39 (F := F) x0 x3 x4 x5 x6) = val_main_v149 (F := F) x0 x1 x2 x3 x4 x5 x6 := rfl

/-- The first backward propagation (the reset gate's copy). -/
theorem id162 : prop (val_main_v3 (F := F) x1) (val_main_v1 (F := F) x1) (val_main_v29 (F := F) x1 x2) (val_main_v39 (F := F) x0 x3 x4 x5 x6) = val_main_v162 (F := F) x0 x1 x2 x3 x4 x5 x6 := rfl

/-- The second forward Chebyshev term (the reset gate's copy). -/
theorem id186 : cheb (prop (val_main_v1 (F := F) x1) (val_main_v3 (F := F) x1) (val_main_v19 (F := F) x1 x2) (val_main_v149 (F := F) x0 x1 x2 x3 x4 x5 x6)) (val_main_v39 (F := F) x0 x3 x4 x5 x6) = val_main_v186 (F := F) x0 x1 x2 x3 x4 x5 x6 := rfl

/-- The second backward Chebyshev term (the reset gate's copy). -/
theorem id202 : cheb (prop (val_main_v3 (F := F) x1) (val_main_v1 (F := F) x1) (val_main_v29 (F := F) x1 x2) (val_main_v162 (F := F) x0 x1 x2 x3 x4 x5 x6)) (val_main_v39 (F := F) x0 x3 x4 x5 x6) = val_main_v202 (F := F) x0 x1 x2 x3 x4 x5 x6 := rfl

/-- The candidate's node array: x joined with the reset state h·r. -/
theorem id221 : join x0 (mulf (val_main_v38 (F := F) x0 x3 x4 x5 x6) (val_main_v219 (F := F) x0 x1 x2 x3 x4 x5 x6 x9 x10)) = val_main_v221 (F := F) x0 x1 x2 x3 x4 x5 x6 x9 x10 := rfl

/-- The first forward propagation of the candidate's node array. -/
theorem id241 : prop (val_main_v1 (F := F) x1) (val_main_v3 (F := F) x1) (val_main_v19 (F := F) x1 x2) (val_main_v221 (F := F) x0 x1 x2 x3 x4 x5 x6 x9 x10) = val_main_v241 (F := F) x0 x1 x2 x3 x4 x5 x6 x9 x10 := rfl

/-- The first backward propagation of the candidate's node array. -/
theorem id254 : prop (val_main_v3 (F := F) x1) (val_main_v1 (F := F) x1) (val_main_v29 (F := F) x1 x2) (val_main_v221 (F := F) x0 x1 x2 x3 x4 x5 x6 x9 x10) = val_main_v254 (F := F) x0 x1 x2 x3 x4 x5 x6 x9 x10 := rfl

/-- The second forward Chebyshev term of the candidate's node array. -/
theorem id278 : cheb (prop (val_main_v1 (F := F) x1) (val_main_v3 (F := F) x1) (val_main_v19 (F := F) x1 x2) (val_main_v241 (F := F) x0 x1 x2 x3 x4 x5 x6 x9 x10)) (val_main_v221 (F := F) x0 x1 x2 x3 x4 x5 x6 x9 x10) = val_main_v278 (F := F) x0 x1 x2 x3 x4 x5 x6 x9 x10 := rfl

/-- The second backward Chebyshev term of the candidate's node array. -/
theorem id294 : cheb (prop (val_main_v3 (F := F) x1) (val_main_v1 (F := F) x1) (val_main_v29 (F := F) x1 x2) (val_main_v254 (F := F) x0 x1 x2 x3 x4 x5 x6 x9 x10)) (val_main_v221 (F := F) x0 x1 x2 x3 x4 x5 x6 x9 x10) = val_main_v294 (F := F) x0 x1 x2 x3 x4 x5 x6 x9 x10 := rfl

end Cert.Ident

end
-- ==== Proof.LibBiasRow.lean ====
/-
  One row added to every row of a matrix, read entry by entry, in the two spellings the host program uses:
  `broadcast_in_dim` of a row [1, b] along both axes of [a, b] reads, at (v, q), the row's entry (0, q); and
  `broadcast_in_dim` of a scalar (no axes) reads the scalar at every entry. With these, "add the row, then take the
  maximum with the scalar 0" is a formula per entry.
-/
import Idealize.ShloMosaic.Lib.ValueLayout
import Idealize.ShloMosaic.PureOps.Ideal.Laws

noncomputable section

namespace Cert.LibBiasRow

open Idealize.ShloMosaic Idealize.ShloMosaic.ValueIdx

/-- The two zero offsets of an access to a whole block, as a constant function. -/
theorem zero_offsets : (![0, 0] : Fin 2 → Nat) = fun _ => 0 := funext fun a => by fin_cases a <;> rfl

/-- A row [1, b] sent to [a, b] with its axes kept in place reads, at (v, q), the row at (0, q): the row's first axis
    has extent 1, so its coordinate is 0; its second axis carries q (and if b = 1 then q = 0 anyway). -/
theorem broadcastInDim_1b_ab_apply {α : Type} {a b : ℕ} (r : (⟨2, ![1, b]⟩ : Shape).Idx → α)
    (h : (⟨2, ![1, b]⟩ : Shape).BroadcastsInDim ⟨2, ![a, b]⟩ ![0, 1]) (v : Fin a) (q : Fin b) :
    broadcastInDim ⟨2, ![a, b]⟩ ![0, 1] h r (ix2 v q) = r (ix2 (0 : Fin 1) q) := by
  refine broadcastInDim_apply _ h r (ix2 v q) (ix2 (0 : Fin 1) q) fun ax => ?_
  match ax with
  | ⟨0, _⟩ => rfl
  | ⟨1, _⟩ =>
    show q.val = if b = 1 then 0 else q.val
    split
    · have := q.isLt; omega
    · rfl

/-- A scalar sent to any shape reads the scalar at every entry. -/
theorem broadcastInDim_scalar_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The scalar zero of the host program, sent to any shape, is the number 0 at every entry. -/
theorem broadcastInDim_zero_apply {t : Shape} (h : (⟨0, ![]⟩ : Shape).BroadcastsInDim t ![]) (j : t.Idx) :
    broadcastInDim t ![] h (constant (F := Ideal) ⟨0, ![]⟩ .f32 0x00000000#32) j = (0 : EReal) := by
  rw [broadcastInDim_scalar_apply, constant_apply]
  exact Ideal.ofBits_zero_f32

end Cert.LibBiasRow

end
-- ==== Proof.RVal1.lean ====
/-
  The warm start of the reference, as an array, on the extended reals.

  The reference computes h1 = max(x·W1 + b1, 0)·W2 + b2 in nine operations: a plain product [100000,35]×[35,100], the
  bias b1 made a row [1,100] and sent to every row, a sum, the maximum with the scalar 0 sent to every entry, a plain
  product [100000,100]×[100,5], the bias b2 made a row [1,5] and sent to every row, and a sum. Read at (n,c): the outer
  sum is the product's entry plus the row's entry (0,c); the product's entry is the sum over k of the rectified
  entry (n,k) times W2 (k,c); the rectified entry is the maximum with 0 of the first product's entry plus b1's (0,k).
  That is the formula `Cert.Spec.mlpAt`, the bias rows left as the reference's own [1,·] stages.
-/
import proofs.«114446_j62852551409688_2_alg».proof.Proof.RefRead
import proofs.«114446_j62852551409688_2_alg».proof.Proof.Spec
import proofs.«114446_j62852551409688_2_alg».proof.Proof.LibPlainDot
import proofs.«114446_j62852551409688_2_alg».proof.Proof.LibBiasRow

noncomputable section

open scoped BigOperators

namespace Cert.ReferenceIdeal.RVal

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S100000x35, .f32⟩ : BufTy).Contents (Elt Ideal))
  (x1 : (⟨S2x1600000, .i32⟩ : BufTy).Contents (Elt Ideal))
  (x2 : (⟨S1600000, .f32⟩ : BufTy).Contents (Elt Ideal))
  (x3 : (⟨S35x100, .f32⟩ : BufTy).Contents (Elt Ideal))
  (x4 : (⟨S100, .f32⟩ : BufTy).Contents (Elt Ideal))
  (x5 : (⟨S100x5, .f32⟩ : BufTy).Contents (Elt Ideal))
  (x6 : (⟨S5, .f32⟩ : BufTy).Contents (Elt Ideal))
  (x7 : (⟨S2x3x40x5, .f32⟩ : BufTy).Contents (Elt Ideal))
  (x8 : (⟨S5, .f32⟩ : BufTy).Contents (Elt Ideal))
  (x9 : (⟨S2x3x40x5, .f32⟩ : BufTy).Contents (Elt Ideal))
  (x10 : (⟨S5, .f32⟩ : BufTy).Contents (Elt Ideal))
  (x11 : (⟨S2x3x40x5, .f32⟩ : BufTy).Contents (Elt Ideal))
  (x12 : (⟨S5, .f32⟩ : BufTy).Contents (Elt Ideal))
  (x13 : (⟨S5x1, .f32⟩ : BufTy).Contents (Elt Ideal))
  (x14 : (⟨S1, .f32⟩ : BufTy).Contents (Elt Ideal))

/-- The reference's warm start is the two-layer perceptron of the specification, entry by entry. -/
theorem h1_eq :
    val_main_v38 (F := Ideal) x0 x3 x4 x5 x6
      = Cert.Spec.mlpArr x0 x3 (val_main_v31 (F := Ideal) x4) x5 (val_main_v36 (F := Ideal) x6) := by
  funext i
  obtain ⟨n, c, rfl⟩ : ∃ n c, i = ix2 n c := ⟨i 0, i 1, eq_ix2 i⟩
  rw [Cert.Spec.mlpArr_apply]
  unfold Cert.Spec.mlpAt val_main_v38 val_main_v37 val_main_v35
  -- the outer sum, and the second bias row read at row 0
  rw [addf_apply, Cert.LibBiasRow.broadcastInDim_1b_ab_apply (val_main_v36 (F := Ideal) x6) bcast_S1x5_S100000x5_0_1 n c]
  refine congrArg (· + val_main_v36 (F := Ideal) x6 (ix2 0 c)) ?_
  -- the second product, entry (n,c), summand by summand
  refine (Cert.LibPlainDot.dotGeneral_apply none .single (val_main_v34 (F := Ideal) x0 x3 x4) x5 n c).trans
    (Finset.sum_congr rfl fun k _ => congrArg (· * x5 (ix2 k c)) ?_)
  -- the rectified entry (n,k): the maximum with the scalar 0 of the first product's entry plus the first bias row's
  unfold val_main_v34 val_main_v33 val_main_v32 val_main_v30 val_main_call0_v0 val_main_call0_cst
  rw [maximumf_apply, addf_apply, Cert.LibBiasRow.broadcastInDim_zero_apply,
    Cert.LibBiasRow.broadcastInDim_1b_ab_apply (val_main_v31 (F := Ideal) x4) bcast_S1x100_S100000x100_0_1 n k]
  exact congrArg (fun t => max (t + val_main_v31 (F := Ideal) x4 (ix2 0 k)) 0)
    (Cert.LibPlainDot.dotGeneral_apply none .single x0 x3 n k)

end Cert.ReferenceIdeal.RVal

end
-- ==== Proof.RDconv.lean ====
/-
  The product-sum of a diffusion convolution, read at one entry of its result, on the extended reals.

  A weight W [2,3,40,5] is cut into six slabs: the slab (d,k) is the block W[d:d+1, k:k+1, 0:40, 0:5] with its two
  leading unit axes dropped, a matrix [40,5] whose entry (i,c) is W (d,k,i,c) (the row-major position of (0,0,i,c)
  in [1,1,40,5] is i·5 + c, the position of (i,c) in [40,5]). Six matrices P [100000,40] meet the six slabs in plain
  products, entry (n,c) of each the sum over i of P (n,i)·W (d,k,i,c); the products are added in the order
  (0,0), (1,0), (0,1), (1,1), (0,2), (1,2), and a bias row [1,5] sent to every row is added last. Read at (n,c), the
  whole expression is the formula `Cert.Spec.dconvAt`.
-/
import proofs.«114446_j62852551409688_2_alg».proof.Proof.Gen.ReferenceIdeal
import proofs.«114446_j62852551409688_2_alg».proof.Proof.Spec
import proofs.«114446_j62852551409688_2_alg».proof.Proof.LibPlainDot
import proofs.«114446_j62852551409688_2_alg».proof.Proof.LibBiasRow
import Idealize.ShloMosaic.Lib.Pipeline.Value
import Idealize.ShloMosaic.Lib.ValueIdx
import Idealize.ShloMosaic.PureOps.Ideal.Laws

noncomputable section

open scoped BigOperators

namespace Cert.ReferenceIdeal.RVal

open Cert.ReferenceIdeal Cert.ReferenceIdeal.Gen Idealize.ShloMosaic Idealize.ShloMosaic.TcCoe Idealize.SL.Sem Idealize.ShloMosaic.StableHlo Idealize.ShloMosaic.ValueIdx

/-- Entry (i,c) of the slab (d,k) of a weight [2,3,40,5] is the weight's entry (d,k,i,c): the reshape reads the
    block at (0,0,i,c), whose row-major position is that of (i,c), and the block starts at (d,k,0,0). -/
theorem slab_apply {α : Type} (d k : Nat) (hd : d < 2) (hk : k < 3) (W : S2x3x40x5.Idx → α)
    (hs : S2x3x40x5.Slices ![d, k, 0, 0] S1x1x40x5) (hc : S1x1x40x5.ShapeCasts S40x5) (i : Fin 40) (c : Fin 5) :
    shapeCast S40x5 (extractStridedSlice S1x1x40x5 ![d, k, 0, 0] W hs) hc (ix2 i c)
      = W (ix4 (⟨d, hd⟩ : Fin 2) (⟨k, hk⟩ : Fin 3) i c) := by
  rw [shapeCast_apply _ hc (ix2 i c) (ix4 (0 : Fin 1) (0 : Fin 1) i c)
    (by rewrite [Shape.rowMajor_val_four, Shape.rowMajor_val_two]
        show ((0 * 1 + 0) * 40 + i.val) * 5 + c.val = i.val * 5 + c.val
        omega)]
  exact extractStridedSlice_apply ![d, k, 0, 0] W hs (ix4 (0 : Fin 1) (0 : Fin 1) i c)
    (ix4 (⟨d, hd⟩ : Fin 2) (⟨k, hk⟩ : Fin 3) i c) (fun a => match a with
    | ⟨0, _⟩ => by show d = d + 0; omega
    | ⟨1, _⟩ => by show k = k + 0; omega
    | ⟨2, _⟩ => by show i.val = 0 + i.val; omega
    | ⟨3, _⟩ => by show c.val = 0 + c.val; omega)

/-- Entry (n,c) of the host's product of a matrix [100000,40] with a matrix [40,5]: the printed record of
    dimension numbers lists the axes of the plain product. -/
theorem dot_apply (P : FVec Ideal S100000x40 .f32) (M : FVec Ideal S40x5 .f32) (n : Fin 100000) (c : Fin 5) :
    Host.dotGeneral dot_S100000x40_S40x5_S100000x5_1_0_0_1_n_n none P M (ix2 n c)
      = ∑ i : Fin 40, P (ix2 n i) * M (ix2 i c) :=
  Cert.LibPlainDot.dotGeneral_apply none .single P M n c

/-- One matrix against the slab (d,k), at entry (n,c). -/
theorem dot_slab_apply (d k : Nat) (hd : d < 2) (hk : k < 3) (P : FVec Ideal S100000x40 .f32)
    (W : FVec Ideal S2x3x40x5 .f32) (hs : S2x3x40x5.Slices ![d, k, 0, 0] S1x1x40x5)
    (hc : S1x1x40x5.ShapeCasts S40x5) (n : Fin 100000) (c : Fin 5) :
    Host.dotGeneral dot_S100000x40_S40x5_S100000x5_1_0_0_1_n_n none P
        (shapeCast S40x5 (extractStridedSlice S1x1x40x5 ![d, k, 0, 0] W hs) hc) (ix2 n c)
      = Cert.Spec.slabAt P W (⟨d, hd⟩ : Fin 2) (⟨k, hk⟩ : Fin 3) n c := by
  rw [dot_apply]
  exact Finset.sum_congr rfl fun i _ => by rw [slab_apply d k hd hk W hs hc i c]

/-- The six products added in the order (0,0), (1,0), (0,1), (1,1), (0,2), (1,2), then the bias row, at entry (n,c). -/
theorem dconv_apply (P0 P1 P2 P3 P4 P5 : FVec Ideal S100000x40 .f32) (W : FVec Ideal S2x3x40x5 .f32)
    (brow : FVec Ideal S1x5 .f32)
    (h00 : S2x3x40x5.Slices ![0, 0, 0, 0] S1x1x40x5) (h10 : S2x3x40x5.Slices ![1, 0, 0, 0] S1x1x40x5)
    (h01 : S2x3x40x5.Slices ![0, 1, 0, 0] S1x1x40x5) (h11 : S2x3x40x5.Slices ![1, 1, 0, 0] S1x1x40x5)
    (h02 : S2x3x40x5.Slices ![0, 2, 0, 0] S1x1x40x5) (h12 : S2x3x40x5.Slices ![1, 2, 0, 0] S1x1x40x5)
    (hc : S1x1x40x5.ShapeCasts S40x5) (hb : S1x5.BroadcastsInDim S100000x5 (![0, 1] : Fin 2 → Fin S100000x5.rank))
    (n : Fin 100000) (c : Fin 5) :
    addf (addf (addf (addf (addf (addf
        (Host.dotGeneral dot_S100000x40_S40x5_S100000x5_1_0_0_1_n_n none P0
          (shapeCast S40x5 (extractStridedSlice S1x1x40x5 ![0, 0, 0, 0] W h00) hc))
        (Host.dotGeneral dot_S100000x40_S40x5_S100000x5_1_0_0_1_n_n none P3
          (shapeCast S40x5 (extractStridedSlice S1x1x40x5 ![1, 0, 0, 0] W h10) hc)))
        (Host.dotGeneral dot_S100000x40_S40x5_S100000x5_1_0_0_1_n_n none P1
          (shapeCast S40x5 (extractStridedSlice S1x1x40x5 ![0, 1, 0, 0] W h01) hc)))
        (Host.dotGeneral dot_S100000x40_S40x5_S100000x5_1_0_0_1_n_n none P4
          (shapeCast S40x5 (extractStridedSlice S1x1x40x5 ![1, 1, 0, 0] W h11) hc)))
        (Host.dotGeneral dot_S100000x40_S40x5_S100000x5_1_0_0_1_n_n none P2
          (shapeCast S40x5 (extractStridedSlice S1x1x40x5 ![0, 2, 0, 0] W h02) hc)))
        (Host.dotGeneral dot_S100000x40_S40x5_S100000x5_1_0_0_1_n_n none P5
          (shapeCast S40x5 (extractStridedSlice S1x1x40x5 ![1, 2, 0, 0] W h12) hc)))
        (broadcastInDim S100000x5 ![0, 1] hb brow) (ix2 n c)
      = Cert.Spec.dconvAt P0 P1 P2 P3 P4 P5 W brow n c := by
  rw [addf_apply, addf_apply, addf_apply, addf_apply, addf_apply, addf_apply,
    dot_slab_apply 0 0 (by decide) (by decide) P0 W h00 hc n c,
    dot_slab_apply 1 0 (by decide) (by decide) P3 W h10 hc n c,
    dot_slab_apply 0 1 (by decide) (by decide) P1 W h01 hc n c,
    dot_slab_apply 1 1 (by decide) (by decide) P4 W h11 hc n c,
    dot_slab_apply 0 2 (by decide) (by decide) P2 W h02 hc n c,
    dot_slab_apply 1 2 (by decide) (by decide) P5 W h12 hc n c,
    Cert.LibBiasRow.broadcastInDim_1b_ab_apply brow hb n c]
  rfl

end Cert.ReferenceIdeal.RVal

end
-- ==== Proof.RVal2.lean ====
/-
  The three diffusion convolutions of the reference and its two gates, read at one entry, on the extended reals.

  Each pre-activation of the reference (of the update gate, of the reset gate, of the candidate state) is six plain
  products, of the stacked input and its four diffused copies against the six slabs of a weight [2,3,40,5], added in
  the order (0,0), (1,0), (0,1), (1,1), (0,2), (1,2), plus a bias made a row [1,5] and sent to every row: unfolding
  the twenty-five operations between the pre-activation and its operands leaves exactly the expression whose entry
  (n,c) is `Cert.Spec.dconvAt`. A gate is 1 / (1 + exp (−a)) of its pre-activation a, the number one printed as the
  word that denotes it and sent to every entry: that is the logistic function. The reset gate multiplies the warm
  start entry by entry.
-/
import proofs.«114446_j62852551409688_2_alg».proof.Proof.RefRead
import proofs.«114446_j62852551409688_2_alg».proof.Proof.Spec
import proofs.«114446_j62852551409688_2_alg».proof.Proof.LibBiasRow
import proofs.«114446_j62852551409688_2_alg».proof.Proof.RDconv

noncomputable section

open scoped BigOperators

namespace Cert.ReferenceIdeal.RVal

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S100000x35, .f32⟩ : BufTy).Contents (Elt Ideal))
  (x1 : (⟨S2x1600000, .i32⟩ : BufTy).Contents (Elt Ideal))
  (x2 : (⟨S1600000, .f32⟩ : BufTy).Contents (Elt Ideal))
  (x3 : (⟨S35x100, .f32⟩ : BufTy).Contents (Elt Ideal))
  (x4 : (⟨S100, .f32⟩ : BufTy).Contents (Elt Ideal))
  (x5 : (⟨S100x5, .f32⟩ : BufTy).Contents (Elt Ideal))
  (x6 : (⟨S5, .f32⟩ : BufTy).Contents (Elt Ideal))
  (x7 : (⟨S2x3x40x5, .f32⟩ : BufTy).Contents (Elt Ideal))
  (x8 : (⟨S5, .f32⟩ : BufTy).Contents (Elt Ideal))
  (x9 : (⟨S2x3x40x5, .f32⟩ : BufTy).Contents (Elt Ideal))
  (x10 : (⟨S5, .f32⟩ : BufTy).Contents (Elt Ideal))
  (x11 : (⟨S2x3x40x5, .f32⟩ : BufTy).Contents (Elt Ideal))
  (x12 : (⟨S5, .f32⟩ : BufTy).Contents (Elt Ideal))
  (x13 : (⟨S5x1, .f32⟩ : BufTy).Contents (Elt Ideal))
  (x14 : (⟨S1, .f32⟩ : BufTy).Contents (Elt Ideal))

/-- The update gate's pre-activation: the stacked input, its first and second forward diffusions, the stacked input again and
    its first and second backward diffusions, against the six slabs of the weight, plus the bias row. -/
theorem v123_eq_dconv (n : Fin 100000) (c : Fin 5) :
    val_main_v123 (F := Ideal) x0 x1 x2 x3 x4 x5 x6 x7 x8 (ix2 n c)
      = Cert.Spec.dconvAt (val_main_v39 (F := Ideal) x0 x3 x4 x5 x6) (val_main_v59 (F := Ideal) x0 x1 x2 x3 x4 x5 x6)
          (val_main_v96 (F := Ideal) x0 x1 x2 x3 x4 x5 x6) (val_main_v39 (F := Ideal) x0 x3 x4 x5 x6)
          (val_main_v72 (F := Ideal) x0 x1 x2 x3 x4 x5 x6) (val_main_v112 (F := Ideal) x0 x1 x2 x3 x4 x5 x6)
          x7 (val_main_v121 (F := Ideal) x8) n c := by
  unfold val_main_v123 val_main_v120 val_main_v122 val_main_v116 val_main_v119 val_main_v80 val_main_v115 val_main_v118 val_main_v76 val_main_v79 val_main_v114 val_main_v117 val_main_v46 val_main_v75 val_main_v78 val_main_v113 val_main_v42 val_main_v45 val_main_v74 val_main_v77 val_main_v41 val_main_v44 val_main_v73 val_main_v40 val_main_v43
  exact dconv_apply _ _ _ _ _ _ x7 _ _ _ _ _ _ _ _ _ n c

/-- The reset gate's pre-activation, the same pattern over its own weight and bias. -/
theorem v213_eq_dconv (n : Fin 100000) (c : Fin 5) :
    val_main_v213 (F := Ideal) x0 x1 x2 x3 x4 x5 x6 x9 x10 (ix2 n c)
      = Cert.Spec.dconvAt (val_main_v39 (F := Ideal) x0 x3 x4 x5 x6) (val_main_v149 (F := Ideal) x0 x1 x2 x3 x4 x5 x6)
          (val_main_v186 (F := Ideal) x0 x1 x2 x3 x4 x5 x6) (val_main_v39 (F := Ideal) x0 x3 x4 x5 x6)
          (val_main_v162 (F := Ideal) x0 x1 x2 x3 x4 x5 x6) (val_main_v202 (F := Ideal) x0 x1 x2 x3 x4 x5 x6)
          x9 (val_main_v211 (F := Ideal) x10) n c := by
  unfold val_main_v213 val_main_v210 val_main_v212 val_main_v206 val_main_v209 val_main_v170 val_main_v205 val_main_v208 val_main_v166 val_main_v169 val_main_v204 val_main_v207 val_main_v136 val_main_v165 val_main_v168 val_main_v203 val_main_v132 val_main_v135 val_main_v164 val_main_v167 val_main_v131 val_main_v134 val_main_v163 val_main_v130 val_main_v133
  exact dconv_apply _ _ _ _ _ _ x9 _ _ _ _ _ _ _ _ _ n c

/-- The candidate state's pre-activation: the input stacked with the reset warm start, and its diffusions. -/
theorem v305_eq_dconv (n : Fin 100000) (c : Fin 5) :
    val_main_v305 (F := Ideal) x0 x1 x2 x3 x4 x5 x6 x9 x10 x11 x12 (ix2 n c)
      = Cert.Spec.dconvAt (val_main_v221 (F := Ideal) x0 x1 x2 x3 x4 x5 x6 x9 x10) (val_main_v241 (F := Ideal) x0 x1 x2 x3 x4 x5 x6 x9 x10)
          (val_main_v278 (F := Ideal) x0 x1 x2 x3 x4 x5 x6 x9 x10) (val_main_v221 (F := Ideal) x0 x1 x2 x3 x4 x5 x6 x9 x10)
          (val_main_v254 (F := Ideal) x0 x1 x2 x3 x4 x5 x6 x9 x10) (val_main_v294 (F := Ideal) x0 x1 x2 x3 x4 x5 x6 x9 x10)
          x11 (val_main_v303 (F := Ideal) x12) n c := by
  unfold val_main_v305 val_main_v302 val_main_v304 val_main_v298 val_main_v301 val_main_v262 val_main_v297 val_main_v300 val_main_v258 val_main_v261 val_main_v296 val_main_v299 val_main_v228 val_main_v257 val_main_v260 val_main_v295 val_main_v224 val_main_v227 val_main_v256 val_main_v259 val_main_v223 val_main_v226 val_main_v255 val_main_v222 val_main_v225
  exact dconv_apply _ _ _ _ _ _ x11 _ _ _ _ _ _ _ _ _ n c

/-- The word 0x3F800000 denotes the number one. -/
theorem one_word : Ideal.ofBits .f32 0x3F800000#32 = 1 := IdealRules.sign_bit.ideal_onePat .f32

/-- One, sent to every entry, divided by one plus the exponential of the negation, is the logistic function entry by
    entry: the quotient, the sum, the exponential and the negation act entry by entry, and the scalar is read at every
    entry. -/
theorem logistic_pattern (h : S_.BroadcastsInDim S100000x5 (![] : Fin 0 → Fin S100000x5.rank))
    (a : FVec Ideal S100000x5 .f32) (j : S100000x5.Idx) :
    Host.divf (broadcastInDim S100000x5 ![] h (constant (F := Ideal) S_ .f32 0x3F800000#32))
        (addf (broadcastInDim S100000x5 ![] h (constant (F := Ideal) S_ .f32 0x3F800000#32)) (Host.exp (Host.negf a))) j
      = Ideal.logistic (a j) := by
  show Ideal.div (broadcastInDim S100000x5 ![] h (constant (F := Ideal) S_ .f32 0x3F800000#32) j)
      (broadcastInDim S100000x5 ![] h (constant (F := Ideal) S_ .f32 0x3F800000#32) j + Ideal.exp (-(a j))) = _
  rw [Cert.LibBiasRow.broadcastInDim_scalar_apply, constant_apply, one_word]
  rfl

/-- The update gate is the logistic function of its pre-activation. -/
theorem v129_eq_logistic (n : Fin 100000) (c : Fin 5) :
    val_main_v129 (F := Ideal) x0 x1 x2 x3 x4 x5 x6 x7 x8 (ix2 n c) = Ideal.logistic (val_main_v123 (F := Ideal) x0 x1 x2 x3 x4 x5 x6 x7 x8 (ix2 n c)) := by
  unfold val_main_v129 val_main_v128 val_main_v127 val_main_cst_21 val_main_v126 val_main_v125 val_main_cst_20 val_main_v124
  exact logistic_pattern _ _ _

/-- The reset gate is the logistic function of its pre-activation. -/
theorem v219_eq_logistic (n : Fin 100000) (c : Fin 5) :
    val_main_v219 (F := Ideal) x0 x1 x2 x3 x4 x5 x6 x9 x10 (ix2 n c) = Ideal.logistic (val_main_v213 (F := Ideal) x0 x1 x2 x3 x4 x5 x6 x9 x10 (ix2 n c)) := by
  unfold val_main_v219 val_main_v218 val_main_v217 val_main_cst_37 val_main_v216 val_main_v215 val_main_cst_36 val_main_v214
  exact logistic_pattern _ _ _

/-- The reset warm start is the warm start times the reset gate, entry by entry. -/
theorem v220_apply (n : Fin 100000) (c : Fin 5) :
    val_main_v220 (F := Ideal) x0 x1 x2 x3 x4 x5 x6 x9 x10 (ix2 n c)
      = val_main_v38 (F := Ideal) x0 x3 x4 x5 x6 (ix2 n c) * val_main_v219 (F := Ideal) x0 x1 x2 x3 x4 x5 x6 x9 x10 (ix2 n c) := rfl

end Cert.ReferenceIdeal.RVal

end
-- ==== Proof.RVal3.lean ====
/-
  The head of the reference, read at one entry, on the extended reals.

  The new state is z·h1 + (1 − z)·tanh a, z the update gate, h1 the warm start, a the candidate's pre-activation, the
  number one printed as the word that denotes it and sent to every entry; it is rectified by the maximum with the
  scalar 0 sent to every entry; the result [100000,5] meets Wl [5,1] in a plain product and the bias, made a row [1,1]
  and sent to every row, is added. Read at (n,u), u the one column: the sum over c of the rectified state (n,c) times
  Wl (c,0), plus the bias row's entry (0,0).
-/
import proofs.«114446_j62852551409688_2_alg».proof.Proof.RefRead
import proofs.«114446_j62852551409688_2_alg».proof.Proof.Spec
import proofs.«114446_j62852551409688_2_alg».proof.Proof.LibPlainDot
import proofs.«114446_j62852551409688_2_alg».proof.Proof.LibBiasRow

noncomputable section

open scoped BigOperators

namespace Cert.ReferenceIdeal.RVal

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S100000x35, .f32⟩ : BufTy).Contents (Elt Ideal))
  (x1 : (⟨S2x1600000, .i32⟩ : BufTy).Contents (Elt Ideal))
  (x2 : (⟨S1600000, .f32⟩ : BufTy).Contents (Elt Ideal))
  (x3 : (⟨S35x100, .f32⟩ : BufTy).Contents (Elt Ideal))
  (x4 : (⟨S100, .f32⟩ : BufTy).Contents (Elt Ideal))
  (x5 : (⟨S100x5, .f32⟩ : BufTy).Contents (Elt Ideal))
  (x6 : (⟨S5, .f32⟩ : BufTy).Contents (Elt Ideal))
  (x7 : (⟨S2x3x40x5, .f32⟩ : BufTy).Contents (Elt Ideal))
  (x8 : (⟨S5, .f32⟩ : BufTy).Contents (Elt Ideal))
  (x9 : (⟨S2x3x40x5, .f32⟩ : BufTy).Contents (Elt Ideal))
  (x10 : (⟨S5, .f32⟩ : BufTy).Contents (Elt Ideal))
  (x11 : (⟨S2x3x40x5, .f32⟩ : BufTy).Contents (Elt Ideal))
  (x12 : (⟨S5, .f32⟩ : BufTy).Contents (Elt Ideal))
  (x13 : (⟨S5x1, .f32⟩ : BufTy).Contents (Elt Ideal))
  (x14 : (⟨S1, .f32⟩ : BufTy).Contents (Elt Ideal))

/-- The rectified new state at (n,c), from the update gate, the warm start and the candidate's pre-activation there. -/
theorem v312_apply (n : Fin 100000) (c : Fin 5) :
    val_main_v312 (F := Ideal) x0 x1 x2 x3 x4 x5 x6 x7 x8 x9 x10 x11 x12 (ix2 n c)
      = Cert.Spec.stateAt (val_main_v129 (F := Ideal) x0 x1 x2 x3 x4 x5 x6 x7 x8 (ix2 n c)) (val_main_v38 (F := Ideal) x0 x3 x4 x5 x6 (ix2 n c))
          (val_main_v305 (F := Ideal) x0 x1 x2 x3 x4 x5 x6 x9 x10 x11 x12 (ix2 n c)) := by
  unfold val_main_v312 val_main_v311 val_main_call1_v0 val_main_v307 val_main_v310 val_main_call1_cst val_main_v309
    val_main_v306 val_main_v308 val_main_cst_52 Cert.Spec.stateAt
  rw [maximumf_apply, Cert.LibBiasRow.broadcastInDim_zero_apply, addf_apply, mulf_apply, mulf_apply, subf_apply,
    Cert.LibBiasRow.broadcastInDim_scalar_apply, constant_apply]
  rfl

/-- The reference's result at (n,u): the rectified state's row n against Wl, plus the bias. -/
theorem v316_apply (n : Fin 100000) (u : Fin 1) :
    val_main_v316 (F := Ideal) x0 x1 x2 x3 x4 x5 x6 x7 x8 x9 x10 x11 x12 x13 x14 (ix2 n u)
      = (∑ c : Fin 5, Cert.Spec.stateAt (val_main_v129 (F := Ideal) x0 x1 x2 x3 x4 x5 x6 x7 x8 (ix2 n c)) (val_main_v38 (F := Ideal) x0 x3 x4 x5 x6 (ix2 n c))
            (val_main_v305 (F := Ideal) x0 x1 x2 x3 x4 x5 x6 x9 x10 x11 x12 (ix2 n c)) * x13 (ix2 c 0))
        + val_main_v314 (F := Ideal) x14 (ix2 0 0) := by
  obtain rfl : u = 0 := Subsingleton.elim u 0
  unfold val_main_v316 val_main_v315 val_main_v313
  rw [addf_apply, Cert.LibBiasRow.broadcastInDim_1b_ab_apply (val_main_v314 (F := Ideal) x14) bcast_S1x1_S100000x1_0_1 n 0]
  refine congrArg (· + val_main_v314 (F := Ideal) x14 (ix2 0 0)) ?_
  refine (Cert.LibPlainDot.dotGeneral_apply none .single (val_main_v312 (F := Ideal) x0 x1 x2 x3 x4 x5 x6 x7 x8 x9 x10 x11 x12) x13 n 0).trans
    (Finset.sum_congr rfl fun c _ => congrArg (· * x13 (ix2 c 0)) ?_)
  exact v312_apply x0 x1 x2 x3 x4 x5 x6 x7 x8 x9 x10 x11 x12 n c

end Cert.ReferenceIdeal.RVal

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.LibVecColumn.lean ====
/-
  A vector as a column, two spellings, and a vector as a row. A vector v of length a becomes the column [a, 1] either by a reshape (a cast
  that keeps the row-major order) or by a broadcast that sends the vector's axis to the first axis of the column.
  Both read v(p) at the entry (p, 0), so they are the same array. This is the step between a per-row count reshaped to
  a column and the same count indexed with a new trailing axis. A vector of length b reshaped to the row [1, b] reads
  v(j) at (0, j): this is how a bias vector is handed to a kernel that adds it to every row of a block.
-/
import proofs.«114446_j62852551409688_2_alg».proof.Proof.LibColumn

noncomputable section

namespace Cert.LibVecColumn

open Idealize.ShloMosaic Idealize.ShloMosaic.ValueIdx

/-- The broadcast of a vector [a] along a new trailing unit axis reads, at (p, u), the vector at p: the vector's
    one axis is sent to the column's first axis, whose coordinate is p (and if a = 1 then p = 0 anyway). -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The reshape of a vector to a column and its broadcast along a new trailing axis are the same array. -/
theorem shapeCast_eq_broadcastInDim {α : Type} {a : ℕ} (x : (⟨1, ![a]⟩ : Shape).Idx → α)
    (h₁ : (⟨1, ![a]⟩ : Shape).ShapeCasts ⟨2, ![a, 1]⟩)
    (h₂ : (⟨1, ![a]⟩ : Shape).BroadcastsInDim ⟨2, ![a, 1]⟩ ![0]) :
    shapeCast ⟨2, ![a, 1]⟩ x h₁ = broadcastInDim ⟨2, ![a, 1]⟩ ![0] h₂ x := by
  funext i
  obtain ⟨p, u, rfl⟩ : ∃ (p : Fin a) (u : Fin 1), i = ix2 p u := ⟨i 0, i 1, eq_ix2 i⟩
  rw [Cert.LibColumn.shapeCast_a_a1_apply, broadcastInDim_a_a1_apply]

/-- A vector [b] cast to a row [1, b] reads, at (u, j), the vector at j: the row-major position of (u, j) in [1, b]
    is u · b + j with u = 0, the position j of the vector's entry. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibVecColumn

end
-- ==== Proof.LibRowVector.lean ====
/-
  A vector as a row, two spellings. A vector v of length b becomes the row [1, b] either by a reshape (a cast that
  keeps the row-major order) or by a broadcast that sends the vector's axis to the second axis of the row. Both
  read v(j) at the entry (0, j), so they are the same array. This is the step between a bias vector reshaped to a
  row for a kernel that adds it to every row of a block, and the same vector indexed with a new leading axis.
-/
import proofs.«114446_j62852551409688_2_alg».proof.Proof.LibVecColumn

noncomputable section

namespace Cert.LibRowVector

open Idealize.ShloMosaic Idealize.ShloMosaic.ValueIdx

/-- The broadcast of a vector [b] along a new leading unit axis reads, at (u, j), the vector at j: the vector's one
    axis is sent to the row's second axis, whose coordinate is j (and if b = 1 then j = 0 anyway). -/
theorem broadcastInDim_b_1b_apply {α : Type} {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The reshape of a vector to a row and its broadcast along a new leading axis are the same array. -/
theorem shapeCast_eq_broadcastInDim {α : Type} {b : ℕ} (x : (⟨1, ![b]⟩ : Shape).Idx → α)
    (h₁ : (⟨1, ![b]⟩ : Shape).ShapeCasts ⟨2, ![1, b]⟩)
    (h₂ : (⟨1, ![b]⟩ : Shape).BroadcastsInDim ⟨2, ![1, b]⟩ ![1]) :
    shapeCast ⟨2, ![1, b]⟩ x h₁ = broadcastInDim ⟨2, ![1, b]⟩ ![1] h₂ x := by
  funext i
  obtain ⟨u, j, rfl⟩ : ∃ (u : Fin 1) (j : Fin b), i = ix2 u j := ⟨i 0, i 1, eq_ix2 i⟩
  rw [Cert.LibVecColumn.shapeCast_b_1b_apply, broadcastInDim_b_1b_apply]

end Cert.LibRowVector

end
-- ==== Proof.KValue.lean ====
/-
  The kernel program's two results, at the ideal instance, are the reference's stages of the same arguments.

  The run of the kernel program leaves, on every core, each buffer at a fold through the program: the first host
  stretch from the launch memory, the warm-start region's output, two host stretches, the gate region's two outputs,
  two host stretches, the head region's output. Region by region the output array is the specification's dense
  formula of the arrays the region is entered with; stretch by stretch those arrays are the diffusion functions of
  what the previous region left. Walking the fold from the launch: the warm start is the reference's warm start; the
  stacked array the gate region reads is the six diffusion terms of the reference's node array, so each gate is the
  logistic function of the reference's sum of six products (the stacked product IS that sum, the six terms taken in
  the reference's order) — the reference's gate; the same for the candidate state with the reset node array; and the
  head's formula is then the reference's last stage entry by entry. The second result, the forward edge weights, is
  computed by the first host stretch alone, by the reference's own operations.
-/
import proofs.«114446_j62852551409688_2_alg».proof.Proof.KIEntry
import proofs.«114446_j62852551409688_2_alg».proof.Proof.KVal0
import proofs.«114446_j62852551409688_2_alg».proof.Proof.KVal1
import proofs.«114446_j62852551409688_2_alg».proof.Proof.KVal2
import proofs.«114446_j62852551409688_2_alg».proof.Proof.KChain
import proofs.«114446_j62852551409688_2_alg».proof.Proof.Stack
import proofs.«114446_j62852551409688_2_alg».proof.Proof.Ident
import proofs.«114446_j62852551409688_2_alg».proof.Proof.RVal1
import proofs.«114446_j62852551409688_2_alg».proof.Proof.RVal2
import proofs.«114446_j62852551409688_2_alg».proof.Proof.RVal3
import proofs.«114446_j62852551409688_2_alg».proof.Proof.LibRowVector

set_option maxRecDepth 16384

noncomputable section

open scoped BigOperators

namespace Cert.KernelIdeal.KValue

open Cert.KernelIdeal Cert.KernelIdeal.Gen Cert.KernelIdeal.Hand Cert.KernelIdeal.KChain Cert.KernelIdeal.KVal
open Cert.ReferenceIdeal.Read Cert.ReferenceIdeal.RVal Cert.Spec Cert.Ident
open Idealize.ShloMosaic Idealize.ShloMosaic.TcCoe Idealize.ShloMosaic.ValueIdx Idealize.SL.Sem Idealize.ShloMosaic.StableHlo

/-! ## A bias vector as a row: the reshape the kernel program uses and the broadcast the reference uses are one array -/

theorem row100 (x : (⟨Cert.ReferenceIdeal.S100, .f32⟩ : BufTy).Contents (Elt Ideal)) : shapeCast S1x100 x shapeCasts_S100_S1x100 = val_main_v31 (F := Ideal) x :=
  Cert.LibRowVector.shapeCast_eq_broadcastInDim x _ _
theorem row36 (x : (⟨Cert.ReferenceIdeal.S5, .f32⟩ : BufTy).Contents (Elt Ideal)) : shapeCast S1x5 x shapeCasts_S5_S1x5 = val_main_v36 (F := Ideal) x :=
  Cert.LibRowVector.shapeCast_eq_broadcastInDim x _ _
theorem row121 (x : (⟨Cert.ReferenceIdeal.S5, .f32⟩ : BufTy).Contents (Elt Ideal)) : shapeCast S1x5 x shapeCasts_S5_S1x5 = val_main_v121 (F := Ideal) x :=
  Cert.LibRowVector.shapeCast_eq_broadcastInDim x _ _
theorem row211 (x : (⟨Cert.ReferenceIdeal.S5, .f32⟩ : BufTy).Contents (Elt Ideal)) : shapeCast S1x5 x shapeCasts_S5_S1x5 = val_main_v211 (F := Ideal) x :=
  Cert.LibRowVector.shapeCast_eq_broadcastInDim x _ _
theorem row303 (x : (⟨Cert.ReferenceIdeal.S5, .f32⟩ : BufTy).Contents (Elt Ideal)) : shapeCast S1x5 x shapeCasts_S5_S1x5 = val_main_v303 (F := Ideal) x :=
  Cert.LibRowVector.shapeCast_eq_broadcastInDim x _ _
theorem row314 (x : (⟨Cert.ReferenceIdeal.S1, .f32⟩ : BufTy).Contents (Elt Ideal)) : shapeCast S1x1 x shapeCasts_S1_S1x1 = val_main_v314 (F := Ideal) x :=
  Cert.LibRowVector.shapeCast_eq_broadcastInDim x _ _

/-! ## The stacked product over the kernel program's stack -/

/-- Row n of the six stacked diffusion terms against the flattened weight, plus the bias row: the sum of six products.
    The change of format is the identity on extended reals. -/
theorem lin_stack_K (s d : (⟨S1600000, .i32⟩ : BufTy).Contents (Elt Ideal)) (wf wb : (⟨S1600000, .f32⟩ : BufTy).Contents (Elt Ideal))
    (X : (⟨S100000x40, .f32⟩ : BufTy).Contents (Elt Ideal)) (W : (⟨S2x3x40x5, .f32⟩ : BufTy).Contents (Elt Ideal))
    (b : (⟨S1x5, .f32⟩ : BufTy).Contents (Elt Ideal)) (n : Fin 100000) (q : Fin 5) :
    linAt (stack s d wf wb X) (shapeCast S240x5 W shapeCasts_S2x3x40x5_S240x5) b n q
      = dconvAt X (prop s d wf X) (cheb (prop s d wf (prop s d wf X)) X) X (prop d s wb X) (cheb (prop d s wb (prop d s wb X)) X) W b n q :=
  Cert.Stack.lin_stack X (prop s d wf X) (cheb (prop s d wf (prop s d wf X)) X) X (prop d s wb X) (cheb (prop d s wb (prop d s wb X)) X)
    concatenates_S100000x40_S100000x40_S100000x40_S100000x40_S100000x40_S100000x40_S100000x240_d1 W shapeCasts_S2x3x40x5_S240x5 b n q

variable (m : (ℓ : Loc nD τ sig) → Buf (Elt Ideal) ℓ) (ρ : Dev nD → PrngReg) (c : Dev nD)

/-! ## The first host stretch: the edges' ends and their normalised weights are the reference's -/

theorem src_eq : W2 m ρ c (Proc.devRef .tc main_v1) = val_main_v1 (F := Ideal) (m ((c : Thread nD τ).loc main_arg1)) := by
  rw [W2_main_v1]
  show StableHlo.after main_part0_ops0 (W0 m ρ c) (Proc.devRef .tc main_v1) = _
  simp only [main_part0_ops0]
  after_results
  rfl
theorem dst_eq : W2 m ρ c (Proc.devRef .tc main_v3) = val_main_v3 (F := Ideal) (m ((c : Thread nD τ).loc main_arg1)) := by
  rw [W2_main_v3]
  show StableHlo.after main_part0_ops0 (W0 m ρ c) (Proc.devRef .tc main_v3) = _
  simp only [main_part0_ops0]
  after_results
  rfl
set_option maxHeartbeats 2000000 in
theorem wf_eq : W2 m ρ c (Proc.devRef .tc main_v19) = val_main_v19 (F := Ideal) (m ((c : Thread nD τ).loc main_arg1)) (m ((c : Thread nD τ).loc main_arg2)) := by
  rw [W2_main_v19]
  show StableHlo.after main_part0_ops0 (W0 m ρ c) (Proc.devRef .tc main_v19) = _
  simp only [main_part0_ops0]
  after_results_simp
  rfl
set_option maxHeartbeats 2000000 in
theorem wb_eq : W2 m ρ c (Proc.devRef .tc main_v29) = val_main_v29 (F := Ideal) (m ((c : Thread nD τ).loc main_arg1)) (m ((c : Thread nD τ).loc main_arg2)) := by
  rw [W2_main_v29]
  show StableHlo.after main_part0_ops0 (W0 m ρ c) (Proc.devRef .tc main_v29) = _
  simp only [main_part0_ops0]
  after_results_simp
  rfl

/-- The second result: the forward weights, as the reference computes them. -/
theorem K_A : W8 m ρ c (Proc.devRef .tc main_v19) = val_main_v19 (F := Ideal) (m ((c : Thread nD τ).loc main_arg1)) (m ((c : Thread nD τ).loc main_arg2)) :=
  (W8_main_v19 m ρ c).trans ((W2_main_v19 m ρ c).symm.trans (wf_eq m ρ c))

/-! ## The warm start -/

/-- What the first region leaves is the reference's warm start. -/
theorem K_h1 : W2 m ρ c (Proc.devRef .tc main_v32) = val_main_v38 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  rw [W2_main_v32, region0_value, h1_eq]
  show mlpArr (W1 m ρ c (Proc.devRef .tc main_arg0)) (W1 m ρ c (Proc.devRef .tc main_arg3)) (W1 m ρ c (Proc.devRef .tc main_v30))
      (W1 m ρ c (Proc.devRef .tc main_arg5)) (W1 m ρ c (Proc.devRef .tc main_v31)) = _
  rw [W1_main_arg0, W1_main_arg3, W1_main_v30, W1_main_arg5, W1_main_v31, row100, row36]

/-! ## The gate region -/

/-- The gate region's stacked input is the stack of the reference's node array. -/
theorem entry1_C : V4 m ρ c main_v93 = stack (val_main_v1 (F := Ideal) (m ((c : Thread nD τ).loc main_arg1))) (val_main_v3 (F := Ideal) (m ((c : Thread nD τ).loc main_arg1))) (val_main_v19 (F := Ideal) (m ((c : Thread nD τ).loc main_arg1)) (m ((c : Thread nD τ).loc main_arg2))) (val_main_v29 (F := Ideal) (m ((c : Thread nD τ).loc main_arg1)) (m ((c : Thread nD τ).loc main_arg2))) (val_main_v39 (F := Ideal) (m ((c : Thread nD τ).loc main_arg0)) (m ((c : Thread nD τ).loc main_arg3)) (m ((c : Thread nD τ).loc main_arg4)) (m ((c : Thread nD τ).loc main_arg5)) (m ((c : Thread nD τ).loc main_arg6))) := by
  rw [V4_eq]
  show mid1 (W2 m ρ c) (Proc.devRef .tc main_v93) = _
  rw [mid1_v93, src_eq, dst_eq, wf_eq, wb_eq, W2_main_arg0, W1_main_arg0, K_h1, id39]
theorem entry1_Wz : V4 m ρ c main_v94 = shapeCast S240x5 (m ((c : Thread nD τ).loc main_arg7)) shapeCasts_S2x3x40x5_S240x5 := by
  rw [V4_eq]
  show mid1 (W2 m ρ c) (Proc.devRef .tc main_v94) = _
  rw [mid1_v94, W2_main_arg7, W1_main_arg7]
theorem entry1_Wr : V4 m ρ c main_v95 = shapeCast S240x5 (m ((c : Thread nD τ).loc main_arg9)) shapeCasts_S2x3x40x5_S240x5 := by
  rw [V4_eq]
  show mid1 (W2 m ρ c) (Proc.devRef .tc main_v95) = _
  rw [mid1_v95, W2_main_arg9, W1_main_arg9]
theorem entry1_bz : V4 m ρ c main_v96 = val_main_v121 (F := Ideal) (m ((c : Thread nD τ).loc main_arg8)) := by
  rw [V4_eq]
  show mid1 (W2 m ρ c) (Proc.devRef .tc main_v96) = _
  rw [mid1_v96, W2_main_arg8, W1_main_arg8, row121]
theorem entry1_br : V4 m ρ c main_v97 = val_main_v211 (F := Ideal) (m ((c : Thread nD τ).loc main_arg10)) := by
  rw [V4_eq]
  show mid1 (W2 m ρ c) (Proc.devRef .tc main_v97) = _
  rw [mid1_v97, W2_main_arg10, W1_main_arg10, row211]

/-- The update gate the second region leaves is the reference's. -/
theorem K_Z : W5 m ρ c (Proc.devRef .tc main_v98_0) = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W5_main_v98_0, region1_value_Z, entry1_C, entry1_Wz, entry1_bz]
  funext i
  obtain ⟨n, q, rfl⟩ : ∃ (n : Fin 100000) (q : Fin 5), i = ix2 n q := ⟨i 0, i 1, eq_ix2 i⟩
  rw [gateArr_apply, v129_eq_logistic, v123_eq_dconv]
  unfold gateAt
  rw [lin_stack_K, id59, id72, id96, id112]

/-- The reset gate the second region leaves is the reference's. -/
theorem K_R : W5 m ρ c (Proc.devRef .tc main_v98_1) = val_main_v219 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  rw [W5_main_v98_1, region1_value_R, entry1_C, entry1_Wr, entry1_br]
  funext i
  obtain ⟨n, q, rfl⟩ : ∃ (n : Fin 100000) (q : Fin 5), i = ix2 n q := ⟨i 0, i 1, eq_ix2 i⟩
  rw [gateArr_apply, v219_eq_logistic, v213_eq_dconv]
  unfold gateAt
  rw [lin_stack_K, id149, id162, id186, id202]

/-! ## The head region -/

/-- The head region's stacked input is the stack of the reference's reset node array. -/
theorem entry2_C : V7 m ρ c main_v160 = stack (val_main_v1 (F := Ideal) (m ((c : Thread nD τ).loc main_arg1))) (val_main_v3 (F := Ideal) (m ((c : Thread nD τ).loc main_arg1))) (val_main_v19 (F := Ideal) (m ((c : Thread nD τ).loc main_arg1)) (m ((c : Thread nD τ).loc main_arg2))) (val_main_v29 (F := Ideal) (m ((c : Thread nD τ).loc main_arg1)) (m ((c : Thread nD τ).loc main_arg2))) (val_main_v221 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := by
  rw [V7_eq]
  show mid2 (W5 m ρ c) (Proc.devRef .tc main_v160) = _
  rw [mid2_v160, W5_main_v1, W5_main_v3, W5_main_v19, W5_main_v29, src_eq, dst_eq, wf_eq, wb_eq, W5_main_arg0, W2_main_arg0,
    W1_main_arg0, W5_main_v32, K_h1, K_R, id221]
theorem entry2_Wh : V7 m ρ c main_v161 = shapeCast S240x5 (m ((c : Thread nD τ).loc main_arg11)) shapeCasts_S2x3x40x5_S240x5 := by
  rw [V7_eq]
  show mid2 (W5 m ρ c) (Proc.devRef .tc main_v161) = _
  rw [mid2_v161, W5_main_arg11, W2_main_arg11, W1_main_arg11]
theorem entry2_bh : V7 m ρ c main_v162 = val_main_v303 (F := Ideal) (m ((c : Thread nD τ).loc main_arg12)) := by
  rw [V7_eq]
  show mid2 (W5 m ρ c) (Proc.devRef .tc main_v162) = _
  rw [mid2_v162, W5_main_arg12, W2_main_arg12, W1_main_arg12, row303]
theorem entry2_bl : V7 m ρ c main_v163 = val_main_v314 (F := Ideal) (m ((c : Thread nD τ).loc main_arg14)) := by
  rw [V7_eq]
  show mid2 (W5 m ρ c) (Proc.devRef .tc main_v163) = _
  rw [mid2_v163, W5_main_arg14, W2_main_arg14, W1_main_arg14, row314]
theorem entry2_Z : V7 m ρ c main_v98_0 = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W7_main_v98_0 m ρ c).trans (K_Z m ρ c)
theorem entry2_h1 : V7 m ρ c main_v32 = val_main_v38 (F := Ideal) (m ((c : Thread nD τ).loc main_arg0)) (m ((c : Thread nD τ).loc main_arg3)) (m ((c : Thread nD τ).loc main_arg4)) (m ((c : Thread nD τ).loc main_arg5)) (m ((c : Thread nD τ).loc main_arg6)) :=
  (W7_main_v32 m ρ c).trans ((W5_main_v32 m ρ c).trans (K_h1 m ρ c))
theorem entry2_Wl : V7 m ρ c main_arg13 = (m ((c : Thread nD τ).loc main_arg13)) :=
  (W7_main_arg13 m ρ c).trans ((W5_main_arg13 m ρ c).trans ((W2_main_arg13 m ρ c).trans (W1_main_arg13 m ρ c)))

/-- The first result: what the third region leaves is the reference's last stage. -/
theorem K_y : W8 m ρ c (Proc.devRef .tc main_v164) = val_main_v316 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [W8_main_v164, region2_value, entry2_C, entry2_Wh, entry2_bh, entry2_Z, entry2_h1, entry2_Wl, entry2_bl]
  funext i
  obtain ⟨n, u, rfl⟩ : ∃ (n : Fin 100000) (u : Fin 1), i = ix2 n u := ⟨i 0, i 1, eq_ix2 i⟩
  rw [headArr_apply, v316_apply]
  unfold headAt
  refine congrArg (· + val_main_v314 (F := Ideal) (m ((c : Thread nD τ).loc main_arg14)) (ix2 0 0)) (Finset.sum_congr rfl fun q _ => ?_)
  rw [lin_stack_K, id241, id254, id278, id294, ← v305_eq_dconv]

end Cert.KernelIdeal.KValue

namespace Cert.KernelIdeal.KValue

open Cert.KernelIdeal Cert.KernelIdeal.Gen Cert.KernelIdeal.Hand Cert.ReferenceIdeal.Read
open Idealize.ShloMosaic Idealize.ShloMosaic.TcCoe Idealize.SL.Sem

variable (m : (ℓ : Loc nD τ sig) → Buf (Elt Ideal) ℓ) (ρ : Dev nD → PrngReg)

/-! ## The run, with both results named -/

/-- Every weakly fair execution of the kernel program at the ideal instance terminates with the first result at the
    reference's last stage of the launch arguments, the second at the reference's forward weights, and the fifteen
    arguments as launched. -/
theorem run_value : θ_run defs (onTc (τ := τ) (main (F := Ideal))) ⟨m, fun _ => 0, ρ⟩ (fun r => ∀ c : Dev nD,
      r.2.mem ((c.tc : Thread nD τ).loc main_v164) = val_main_v316 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v19) = val_main_v19 (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨ (h c _ (mem_uc main_v164 (by decide))).trans (K_y m ρ c),
      (h c _ (mem_uc main_v19 (by decide))).trans (K_A m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c) ⟩) (run_main m ρ)

end Cert.KernelIdeal.KValue

end
-- ==== Proof.RefChunks.lean ====
/-
  The reference program's run, read in four stretches.

  The reference's @main is a line of 376 host operations. Cut after the warm start, after the update gate and after the
  reset gate, it is four stretches, and what the line leaves in a buffer is what the last stretch leaves, started from
  what the third leaves, and so on back to the launch contents. Each stretch is read once for each value the later
  stretches need: the edges' ends and weights and the warm start (first stretch); the node array and the update gate
  (second); the reset gate (third); the result (fourth). A value is stated as the stage of the argument arrays that the
  stage-by-stage reading of the reference names; the hypotheses of a stretch's lemma say that the buffers it starts
  from hold the stages the earlier stretches left. A buffer a stretch does not write passes through it.
-/
import proofs.«114446_j62852551409688_2_alg».proof.Proof.RefOps
import proofs.«114446_j62852551409688_2_alg».proof.Proof.RefRead

set_option maxRecDepth 16384

noncomputable section

namespace Cert.ReferenceIdeal.RChunk

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- What a line of operations leaves is what its second part leaves, started from what its first part leaves. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- Operations 1 to 49 of the reference's line. -/
abbrev R1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x00000000#32),
    unary main_cst main_v4 (broadcastInDim S100000 ![] bcast_S_S100000 : (⟨S_, .f32⟩ : BufTy).Contents (Elt F) → (⟨S100000, .f32⟩ : BufTy).Contents (Elt F)),
    unary main_v1 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_arg2 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_0 (constant S_ .f32 0x00000000#32),
    unary main_cst_0 main_v7 (broadcastInDim S100000 ![] bcast_S_S100000 : (⟨S_, .f32⟩ : BufTy).Contents (Elt F) → (⟨S100000, .f32⟩ : BufTy).Contents (Elt F)),
    unary main_v3 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_arg2 main_v9 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_c (constantI S_ 32 0#32),
    unary main_c main_v10 (broadcastInDim S1600000 ![] bcast_S_S1600000 : (⟨S_, .i32⟩ : BufTy).Contents (Elt F) → (⟨S1600000, .i32⟩ : BufTy).Contents (Elt F)),
    binary main_v1 main_v10 main_v11 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 100000#32),
    unary main_c_1 main_v12 (broadcastInDim S1600000 ![] bcast_S_S1600000 : (⟨S_, .i32⟩ : BufTy).Contents (Elt F) → (⟨S1600000, .i32⟩ : BufTy).Contents (Elt F)),
    binary main_v1 main_v12 main_v13 (addi : (⟨S1600000, .i32⟩ : BufTy).Contents (Elt F) → (⟨S1600000, .i32⟩ : BufTy).Contents (Elt F) → (⟨S1600000, .i32⟩ : BufTy).Contents (Elt F)),
    ternary main_v11 main_v13 main_v1 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v14 main_v15 (broadcastInDim S1600000x1 ![0] bcast_S1600000_S1600000x1_0 : (⟨S1600000, .i32⟩ : BufTy).Contents (Elt F) → (⟨S1600000x1, .i32⟩ : BufTy).Contents (Elt F)),
    binary main_v6 main_v15 main_v16 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_cst_2 (constant S_ .f32 0x2B8CBCCC#32),
    unary main_cst_2 main_v17 (broadcastInDim S1600000 ![] bcast_S_S1600000 : (⟨S_, .f32⟩ : BufTy).Contents (Elt F) → (⟨S1600000, .f32⟩ : BufTy).Contents (Elt F)),
    binary main_v16 main_v17 main_v18 (maximumf : (⟨S1600000, .f32⟩ : BufTy).Contents (Elt F) → (⟨S1600000, .f32⟩ : BufTy).Contents (Elt F) → (⟨S1600000, .f32⟩ : BufTy).Contents (Elt F)),
    binary main_arg2 main_v18 main_v19 (Host.divf : (⟨S1600000, .f32⟩ : BufTy).Contents (Elt F) → (⟨S1600000, .f32⟩ : BufTy).Contents (Elt F) → (⟨S1600000, .f32⟩ : BufTy).Contents (Elt F)),
    nullary main_c_3 (constantI S_ 32 0#32),
    unary main_c_3 main_v20 (broadcastInDim S1600000 ![] bcast_S_S1600000 : (⟨S_, .i32⟩ : BufTy).Contents (Elt F) → (⟨S1600000, .i32⟩ : BufTy).Contents (Elt F)),
    binary main_v3 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v22 (broadcastInDim S1600000 ![] bcast_S_S1600000 : (⟨S_, .i32⟩ : BufTy).Contents (Elt F) → (⟨S1600000, .i32⟩ : BufTy).Contents (Elt F)),
    binary main_v3 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_v3 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v9 main_v25 main_v26 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_cst_5 (constant S_ .f32 0x2B8CBCCC#32),
    unary main_cst_5 main_v27 (broadcastInDim S1600000 ![] bcast_S_S1600000 : (⟨S_, .f32⟩ : BufTy).Contents (Elt F) → (⟨S1600000, .f32⟩ : BufTy).Contents (Elt F)),
    binary main_v26 main_v27 main_v28 (maximumf : (⟨S1600000, .f32⟩ : BufTy).Contents (Elt F) → (⟨S1600000, .f32⟩ : BufTy).Contents (Elt F) → (⟨S1600000, .f32⟩ : BufTy).Contents (Elt F)),
    binary main_arg2 main_v28 main_v29 (Host.divf : (⟨S1600000, .f32⟩ : BufTy).Contents (Elt F) → (⟨S1600000, .f32⟩ : BufTy).Contents (Elt F) → (⟨S1600000, .f32⟩ : BufTy).Contents (Elt F)),
    binary main_arg0 main_arg3 main_v30 ((fun l r => Host.dotGeneral dot_S100000x35_S35x100_S100000x100_1_0_0_1_n_n none l r) : (⟨S100000x35, .f32⟩ : BufTy).Contents (Elt F) → (⟨S35x100, .f32⟩ : BufTy).Contents (Elt F) → (⟨S100000x100, .f32⟩ : BufTy).Contents (Elt F)),
    unary main_arg4 main_v31 (broadcastInDim S1x100 ![1] bcast_S100_S1x100_1 : (⟨S100, .f32⟩ : BufTy).Contents (Elt F) → (⟨S1x100, .f32⟩ : BufTy).Contents (Elt F)),
    unary main_v31 main_v32 (broadcastInDim S100000x100 ![0, 1] bcast_S1x100_S100000x100_0_1 : (⟨S1x100, .f32⟩ : BufTy).Contents (Elt F) → (⟨S100000x100, .f32⟩ : BufTy).Contents (Elt F)),
    binary main_v30 main_v32 main_v33 (addf : (⟨S100000x100, .f32⟩ : BufTy).Contents (Elt F) → (⟨S100000x100, .f32⟩ : BufTy).Contents (Elt F) → (⟨S100000x100, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x100, .f32⟩) main_call0_v0) (broadcastInDim S100000x100 ![] bcast_S_S100000x100),
    TRef.binary (TRef.of (T := ⟨S100000x100, .f32⟩) main_v33) (TRef.of (T := ⟨S100000x100, .f32⟩) main_call0_v0) (TRef.of (T := ⟨S100000x100, .f32⟩) main_v34) maximumf,
    binary main_v34 main_arg5 main_v35 ((fun l r => Host.dotGeneral dot_S100000x100_S100x5_S100000x5_1_0_0_1_n_n none l r) : (⟨S100000x100, .f32⟩ : BufTy).Contents (Elt F) → (⟨S100x5, .f32⟩ : BufTy).Contents (Elt F) → (⟨S100000x5, .f32⟩ : BufTy).Contents (Elt F)),
    unary main_arg6 main_v36 (broadcastInDim S1x5 ![1] bcast_S5_S1x5_1 : (⟨S5, .f32⟩ : BufTy).Contents (Elt F) → (⟨S1x5, .f32⟩ : BufTy).Contents (Elt F)),
    unary main_v36 main_v37 (broadcastInDim S100000x5 ![0, 1] bcast_S1x5_S100000x5_0_1 : (⟨S1x5, .f32⟩ : BufTy).Contents (Elt F) → (⟨S100000x5, .f32⟩ : BufTy).Contents (Elt F)),
    binary main_v35 main_v37 main_v38 (addf : (⟨S100000x5, .f32⟩ : BufTy).Contents (Elt F) → (⟨S100000x5, .f32⟩ : BufTy).Contents (Elt F) → (⟨S100000x5, .f32⟩ : BufTy).Contents (Elt F)) ]

/-- The buffers they write, one per operation. -/
abbrev R1_W : List (Ref sig .tc) :=
  [ main_v0, main_v1, main_v2, main_v3, main_cst, main_v4, main_v5, main_v6, main_cst_0, main_v7, main_v8, main_v9, main_c, main_v10, main_v11, main_c_1, main_v12, main_v13, main_v14, main_v15, main_v16, main_cst_2, main_v17, main_v18, main_v19, main_c_3, main_v20, main_v21, main_c_4, main_v22, main_v23, main_v24, main_v25, main_v26, main_cst_5, main_v27, main_v28, main_v29, main_v30, main_v31, main_v32, main_v33, main_call0_cst, main_call0_v0, main_v34, main_v35, main_v36, main_v37, main_v38 ]

set_option maxRecDepth 16384 in
set_option maxHeartbeats 4000000 in
/-- Each of them writes its own result only. -/
theorem R1_writes : (R1 : List (HloOp τ sig (Elt F))).Forall fun op => op.writes ⊆ (R1_W.map (Proc.devRef (τ := τ) .tc)).toFinset := by
  simp only [List.Forall]
  repeat' apply And.intro
  all_goals
    simp only [TRef.nullary, TRef.unary, TRef.binary, StableHlo.nullary_writes, StableHlo.unary_writes, StableHlo.binary_writes, StableHlo.ternary_writes,
      StableHlo.reshape_writes, StableHlo.nary_writes, Finset.singleton_subset_iff, List.mem_toFinset]
    exact List.mem_map_of_mem (by decide)

/-- A buffer they do not write holds after them what it held before. -/
theorem R1_keeps (V : Valuation τ sig (Elt F)) (r : Ref sig .tc) (h : r ∉ R1_W) :
    StableHlo.after (R1 : List (HloOp τ sig (Elt F))) V (Proc.devRef .tc r) = V (Proc.devRef .tc r) :=
  StableHlo.after_of_writes_sub R1 V R1_writes h

/-- Operations 50 to 156 of the reference's line. -/
abbrev R2 : List (HloOp τ sig (Elt F)) :=
  [ binary main_arg0 main_v38 main_v39 ((fun a b => concatenate S100000x40 1 [⟨S100000x35, a⟩, ⟨S100000x5, b⟩] concatenates_S100000x35_S100000x5_S100000x40_d1) : (⟨S100000x35, .f32⟩ : BufTy).Contents (Elt F) → (⟨S100000x5, .f32⟩ : BufTy).Contents (Elt F) → (⟨S100000x40, .f32⟩ : BufTy).Contents (Elt F)),
    unary main_arg7 main_v40 ((extractStridedSlice S1x1x40x5 ![0, 0, 0, 0] · slices_S2x3x40x5_S1x1x40x5_0_0_0_0) : (⟨S2x3x40x5, .f32⟩ : BufTy).Contents (Elt F) → (⟨S1x1x40x5, .f32⟩ : BufTy).Contents (Elt F)),
    reshape main_v40 main_v41 rfl shapeCasts_S1x1x40x5_S40x5,
    binary main_v39 main_v41 main_v42 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    unary main_arg7 main_v43 ((extractStridedSlice S1x1x40x5 ![1, 0, 0, 0] · slices_S2x3x40x5_S1x1x40x5_1_0_0_0) : (⟨S2x3x40x5, .f32⟩ : BufTy).Contents (Elt F) → (⟨S1x1x40x5, .f32⟩ : BufTy).Contents (Elt F)),
    reshape main_v43 main_v44 rfl shapeCasts_S1x1x40x5_S40x5,
    binary main_v39 main_v44 main_v45 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v42 main_v45 main_v46 (addf : (⟨S100000x5, .f32⟩ : BufTy).Contents (Elt F) → (⟨S100000x5, .f32⟩ : BufTy).Contents (Elt F) → (⟨S100000x5, .f32⟩ : BufTy).Contents (Elt F)),
    nullary main_c_6 (constantI S_ 32 0#32),
    unary main_c_6 main_v47 (broadcastInDim S1600000 ![] bcast_S_S1600000 : (⟨S_, .i32⟩ : BufTy).Contents (Elt F) → (⟨S1600000, .i32⟩ : BufTy).Contents (Elt F)),
    binary main_v1 main_v47 main_v48 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v49 (broadcastInDim S1600000 ![] bcast_S_S1600000 : (⟨S_, .i32⟩ : BufTy).Contents (Elt F) → (⟨S1600000, .i32⟩ : BufTy).Contents (Elt F)),
    binary main_v1 main_v49 main_v50 (addi : (⟨S1600000, .i32⟩ : BufTy).Contents (Elt F) → (⟨S1600000, .i32⟩ : BufTy).Contents (Elt F) → (⟨S1600000, .i32⟩ : BufTy).Contents (Elt F)),
    ternary main_v48 main_v50 main_v1 main_v51 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v51 main_v52 (broadcastInDim S1600000x1 ![0] bcast_S1600000_S1600000x1_0 : (⟨S1600000, .i32⟩ : BufTy).Contents (Elt F) → (⟨S1600000x1, .i32⟩ : BufTy).Contents (Elt F)),
    binary main_v39 main_v52 main_v53 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v19 main_v54 (broadcastInDim S1600000x1 ![0] bcast_S1600000_S1600000x1_0 : (⟨S1600000, .f32⟩ : BufTy).Contents (Elt F) → (⟨S1600000x1, .f32⟩ : BufTy).Contents (Elt F)),
    unary main_v54 main_v55 (broadcastInDim S1600000x40 ![0, 1] bcast_S1600000x1_S1600000x40_0_1 : (⟨S1600000x1, .f32⟩ : BufTy).Contents (Elt F) → (⟨S1600000x40, .f32⟩ : BufTy).Contents (Elt F)),
    binary main_v53 main_v55 main_v56 (mulf : (⟨S1600000x40, .f32⟩ : BufTy).Contents (Elt F) → (⟨S1600000x40, .f32⟩ : BufTy).Contents (Elt F) → (⟨S1600000x40, .f32⟩ : BufTy).Contents (Elt F)),
    nullary main_cst_8 (constant S_ .f32 0x00000000#32),
    unary main_cst_8 main_v57 (broadcastInDim S100000x40 ![] bcast_S_S100000x40 : (⟨S_, .f32⟩ : BufTy).Contents (Elt F) → (⟨S100000x40, .f32⟩ : BufTy).Contents (Elt F)),
    unary main_v3 main_v58 (broadcastInDim S1600000x1 ![0] bcast_S1600000_S1600000x1_0 : (⟨S1600000, .i32⟩ : BufTy).Contents (Elt F) → (⟨S1600000x1, .i32⟩ : BufTy).Contents (Elt F)),
    ternary main_v57 main_v58 main_v56 main_v59 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_c_9 (constantI S_ 32 0#32),
    unary main_c_9 main_v60 (broadcastInDim S1600000 ![] bcast_S_S1600000 : (⟨S_, .i32⟩ : BufTy).Contents (Elt F) → (⟨S1600000, .i32⟩ : BufTy).Contents (Elt F)),
    binary main_v3 main_v60 main_v61 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v62 (broadcastInDim S1600000 ![] bcast_S_S1600000 : (⟨S_, .i32⟩ : BufTy).Contents (Elt F) → (⟨S1600000, .i32⟩ : BufTy).Contents (Elt F)),
    binary main_v3 main_v62 main_v63 (addi : (⟨S1600000, .i32⟩ : BufTy).Contents (Elt F) → (⟨S1600000, .i32⟩ : BufTy).Contents (Elt F) → (⟨S1600000, .i32⟩ : BufTy).Contents (Elt F)),
    ternary main_v61 main_v63 main_v3 main_v64 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v64 main_v65 (broadcastInDim S1600000x1 ![0] bcast_S1600000_S1600000x1_0 : (⟨S1600000, .i32⟩ : BufTy).Contents (Elt F) → (⟨S1600000x1, .i32⟩ : BufTy).Contents (Elt F)),
    binary main_v39 main_v65 main_v66 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v29 main_v67 (broadcastInDim S1600000x1 ![0] bcast_S1600000_S1600000x1_0 : (⟨S1600000, .f32⟩ : BufTy).Contents (Elt F) → (⟨S1600000x1, .f32⟩ : BufTy).Contents (Elt F)),
    unary main_v67 main_v68 (broadcastInDim S1600000x40 ![0, 1] bcast_S1600000x1_S1600000x40_0_1 : (⟨S1600000x1, .f32⟩ : BufTy).Contents (Elt F) → (⟨S1600000x40, .f32⟩ : BufTy).Contents (Elt F)),
    binary main_v66 main_v68 main_v69 (mulf : (⟨S1600000x40, .f32⟩ : BufTy).Contents (Elt F) → (⟨S1600000x40, .f32⟩ : BufTy).Contents (Elt F) → (⟨S1600000x40, .f32⟩ : BufTy).Contents (Elt F)),
    nullary main_cst_11 (constant S_ .f32 0x00000000#32),
    unary main_cst_11 main_v70 (broadcastInDim S100000x40 ![] bcast_S_S100000x40 : (⟨S_, .f32⟩ : BufTy).Contents (Elt F) → (⟨S100000x40, .f32⟩ : BufTy).Contents (Elt F)),
    unary main_v1 main_v71 (broadcastInDim S1600000x1 ![0] bcast_S1600000_S1600000x1_0 : (⟨S1600000, .i32⟩ : BufTy).Contents (Elt F) → (⟨S1600000x1, .i32⟩ : BufTy).Contents (Elt F)),
    ternary main_v70 main_v71 main_v69 main_v72 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    unary main_arg7 main_v73 ((extractStridedSlice S1x1x40x5 ![0, 1, 0, 0] · slices_S2x3x40x5_S1x1x40x5_0_1_0_0) : (⟨S2x3x40x5, .f32⟩ : BufTy).Contents (Elt F) → (⟨S1x1x40x5, .f32⟩ : BufTy).Contents (Elt F)),
    reshape main_v73 main_v74 rfl shapeCasts_S1x1x40x5_S40x5,
    binary main_v59 main_v74 main_v75 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v46 main_v75 main_v76 (addf : (⟨S100000x5, .f32⟩ : BufTy).Contents (Elt F) → (⟨S100000x5, .f32⟩ : BufTy).Contents (Elt F) → (⟨S100000x5, .f32⟩ : BufTy).Contents (Elt F)),
    unary main_arg7 main_v77 ((extractStridedSlice S1x1x40x5 ![1, 1, 0, 0] · slices_S2x3x40x5_S1x1x40x5_1_1_0_0) : (⟨S2x3x40x5, .f32⟩ : BufTy).Contents (Elt F) → (⟨S1x1x40x5, .f32⟩ : BufTy).Contents (Elt F)),
    reshape main_v77 main_v78 rfl shapeCasts_S1x1x40x5_S40x5,
    binary main_v72 main_v78 main_v79 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v76 main_v79 main_v80 (addf : (⟨S100000x5, .f32⟩ : BufTy).Contents (Elt F) → (⟨S100000x5, .f32⟩ : BufTy).Contents (Elt F) → (⟨S100000x5, .f32⟩ : BufTy).Contents (Elt F)),
    nullary main_c_12 (constantI S_ 32 0#32),
    unary main_c_12 main_v81 (broadcastInDim S1600000 ![] bcast_S_S1600000 : (⟨S_, .i32⟩ : BufTy).Contents (Elt F) → (⟨S1600000, .i32⟩ : BufTy).Contents (Elt F)),
    binary main_v1 main_v81 main_v82 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v83 (broadcastInDim S1600000 ![] bcast_S_S1600000 : (⟨S_, .i32⟩ : BufTy).Contents (Elt F) → (⟨S1600000, .i32⟩ : BufTy).Contents (Elt F)),
    binary main_v1 main_v83 main_v84 (addi : (⟨S1600000, .i32⟩ : BufTy).Contents (Elt F) → (⟨S1600000, .i32⟩ : BufTy).Contents (Elt F) → (⟨S1600000, .i32⟩ : BufTy).Contents (Elt F)),
    ternary main_v82 main_v84 main_v1 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v85 main_v86 (broadcastInDim S1600000x1 ![0] bcast_S1600000_S1600000x1_0 : (⟨S1600000, .i32⟩ : BufTy).Contents (Elt F) → (⟨S1600000x1, .i32⟩ : BufTy).Contents (Elt F)),
    binary main_v59 main_v86 main_v87 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v19 main_v88 (broadcastInDim S1600000x1 ![0] bcast_S1600000_S1600000x1_0 : (⟨S1600000, .f32⟩ : BufTy).Contents (Elt F) → (⟨S1600000x1, .f32⟩ : BufTy).Contents (Elt F)),
    unary main_v88 main_v89 (broadcastInDim S1600000x40 ![0, 1] bcast_S1600000x1_S1600000x40_0_1 : (⟨S1600000x1, .f32⟩ : BufTy).Contents (Elt F) → (⟨S1600000x40, .f32⟩ : BufTy).Contents (Elt F)),
    binary main_v87 main_v89 main_v90 (mulf : (⟨S1600000x40, .f32⟩ : BufTy).Contents (Elt F) → (⟨S1600000x40, .f32⟩ : BufTy).Contents (Elt F) → (⟨S1600000x40, .f32⟩ : BufTy).Contents (Elt F)),
    nullary main_cst_14 (constant S_ .f32 0x00000000#32),
    unary main_cst_14 main_v91 (broadcastInDim S100000x40 ![] bcast_S_S100000x40 : (⟨S_, .f32⟩ : BufTy).Contents (Elt F) → (⟨S100000x40, .f32⟩ : BufTy).Contents (Elt F)),
    unary main_v3 main_v92 (broadcastInDim S1600000x1 ![0] bcast_S1600000_S1600000x1_0 : (⟨S1600000, .i32⟩ : BufTy).Contents (Elt F) → (⟨S1600000x1, .i32⟩ : BufTy).Contents (Elt F)),
    ternary main_v91 main_v92 main_v90 main_v93 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_15 (constant S_ .f32 0x40000000#32),
    unary main_cst_15 main_v94 (broadcastInDim S100000x40 ![] bcast_S_S100000x40 : (⟨S_, .f32⟩ : BufTy).Contents (Elt F) → (⟨S100000x40, .f32⟩ : BufTy).Contents (Elt F)),
    binary main_v94 main_v93 main_v95 (mulf : (⟨S100000x40, .f32⟩ : BufTy).Contents (Elt F) → (⟨S100000x40, .f32⟩ : BufTy).Contents (Elt F) → (⟨S100000x40, .f32⟩ : BufTy).Contents (Elt F)),
    binary main_v95 main_v39 main_v96 (subf : (⟨S100000x40, .f32⟩ : BufTy).Contents (Elt F) → (⟨S100000x40, .f32⟩ : BufTy).Contents (Elt F) → (⟨S100000x40, .f32⟩ : BufTy).Contents (Elt F)),
    nullary main_c_16 (constantI S_ 32 0#32),
    unary main_c_16 main_v97 (broadcastInDim S1600000 ![] bcast_S_S1600000 : (⟨S_, .i32⟩ : BufTy).Contents (Elt F) → (⟨S1600000, .i32⟩ : BufTy).Contents (Elt F)),
    binary main_v3 main_v97 main_v98 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v99 (broadcastInDim S1600000 ![] bcast_S_S1600000 : (⟨S_, .i32⟩ : BufTy).Contents (Elt F) → (⟨S1600000, .i32⟩ : BufTy).Contents (Elt F)),
    binary main_v3 main_v99 main_v100 (addi : (⟨S1600000, .i32⟩ : BufTy).Contents (Elt F) → (⟨S1600000, .i32⟩ : BufTy).Contents (Elt F) → (⟨S1600000, .i32⟩ : BufTy).Contents (Elt F)),
    ternary main_v98 main_v100 main_v3 main_v101 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v101 main_v102 (broadcastInDim S1600000x1 ![0] bcast_S1600000_S1600000x1_0 : (⟨S1600000, .i32⟩ : BufTy).Contents (Elt F) → (⟨S1600000x1, .i32⟩ : BufTy).Contents (Elt F)),
    binary main_v72 main_v102 main_v103 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v29 main_v104 (broadcastInDim S1600000x1 ![0] bcast_S1600000_S1600000x1_0 : (⟨S1600000, .f32⟩ : BufTy).Contents (Elt F) → (⟨S1600000x1, .f32⟩ : BufTy).Contents (Elt F)),
    unary main_v104 main_v105 (broadcastInDim S1600000x40 ![0, 1] bcast_S1600000x1_S1600000x40_0_1 : (⟨S1600000x1, .f32⟩ : BufTy).Contents (Elt F) → (⟨S1600000x40, .f32⟩ : BufTy).Contents (Elt F)),
    binary main_v103 main_v105 main_v106 (mulf : (⟨S1600000x40, .f32⟩ : BufTy).Contents (Elt F) → (⟨S1600000x40, .f32⟩ : BufTy).Contents (Elt F) → (⟨S1600000x40, .f32⟩ : BufTy).Contents (Elt F)),
    nullary main_cst_18 (constant S_ .f32 0x00000000#32),
    unary main_cst_18 main_v107 (broadcastInDim S100000x40 ![] bcast_S_S100000x40 : (⟨S_, .f32⟩ : BufTy).Contents (Elt F) → (⟨S100000x40, .f32⟩ : BufTy).Contents (Elt F)),
    unary main_v1 main_v108 (broadcastInDim S1600000x1 ![0] bcast_S1600000_S1600000x1_0 : (⟨S1600000, .i32⟩ : BufTy).Contents (Elt F) → (⟨S1600000x1, .i32⟩ : BufTy).Contents (Elt F)),
    ternary main_v107 main_v108 main_v106 main_v109 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_19 (constant S_ .f32 0x40000000#32),
    unary main_cst_19 main_v110 (broadcastInDim S100000x40 ![] bcast_S_S100000x40 : (⟨S_, .f32⟩ : BufTy).Contents (Elt F) → (⟨S100000x40, .f32⟩ : BufTy).Contents (Elt F)),
    binary main_v110 main_v109 main_v111 (mulf : (⟨S100000x40, .f32⟩ : BufTy).Contents (Elt F) → (⟨S100000x40, .f32⟩ : BufTy).Contents (Elt F) → (⟨S100000x40, .f32⟩ : BufTy).Contents (Elt F)),
    binary main_v111 main_v39 main_v112 (subf : (⟨S100000x40, .f32⟩ : BufTy).Contents (Elt F) → (⟨S100000x40, .f32⟩ : BufTy).Contents (Elt F) → (⟨S100000x40, .f32⟩ : BufTy).Contents (Elt F)),
    unary main_arg7 main_v113 ((extractStridedSlice S1x1x40x5 ![0, 2, 0, 0] · slices_S2x3x40x5_S1x1x40x5_0_2_0_0) : (⟨S2x3x40x5, .f32⟩ : BufTy).Contents (Elt F) → (⟨S1x1x40x5, .f32⟩ : BufTy).Contents (Elt F)),
    reshape main_v113 main_v114 rfl shapeCasts_S1x1x40x5_S40x5,
    binary main_v96 main_v114 main_v115 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v80 main_v115 main_v116 (addf : (⟨S100000x5, .f32⟩ : BufTy).Contents (Elt F) → (⟨S100000x5, .f32⟩ : BufTy).Contents (Elt F) → (⟨S100000x5, .f32⟩ : BufTy).Contents (Elt F)),
    unary main_arg7 main_v117 ((extractStridedSlice S1x1x40x5 ![1, 2, 0, 0] · slices_S2x3x40x5_S1x1x40x5_1_2_0_0) : (⟨S2x3x40x5, .f32⟩ : BufTy).Contents (Elt F) → (⟨S1x1x40x5, .f32⟩ : BufTy).Contents (Elt F)),
    reshape main_v117 main_v118 rfl shapeCasts_S1x1x40x5_S40x5,
    binary main_v112 main_v118 main_v119 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v116 main_v119 main_v120 (addf : (⟨S100000x5, .f32⟩ : BufTy).Contents (Elt F) → (⟨S100000x5, .f32⟩ : BufTy).Contents (Elt F) → (⟨S100000x5, .f32⟩ : BufTy).Contents (Elt F)),
    unary main_arg8 main_v121 (broadcastInDim S1x5 ![1] bcast_S5_S1x5_1 : (⟨S5, .f32⟩ : BufTy).Contents (Elt F) → (⟨S1x5, .f32⟩ : BufTy).Contents (Elt F)),
    unary main_v121 main_v122 (broadcastInDim S100000x5 ![0, 1] bcast_S1x5_S100000x5_0_1 : (⟨S1x5, .f32⟩ : BufTy).Contents (Elt F) → (⟨S100000x5, .f32⟩ : BufTy).Contents (Elt F)),
    binary main_v120 main_v122 main_v123 (addf : (⟨S100000x5, .f32⟩ : BufTy).Contents (Elt F) → (⟨S100000x5, .f32⟩ : BufTy).Contents (Elt F) → (⟨S100000x5, .f32⟩ : BufTy).Contents (Elt F)),
    unary main_v123 main_v124 (Host.negf : (⟨S100000x5, .f32⟩ : BufTy).Contents (Elt F) → (⟨S100000x5, .f32⟩ : BufTy).Contents (Elt F)),
    unary main_v124 main_v125 (Host.exp : (⟨S100000x5, .f32⟩ : BufTy).Contents (Elt F) → (⟨S100000x5, .f32⟩ : BufTy).Contents (Elt F)),
    nullary main_cst_20 (constant S_ .f32 0x3F800000#32),
    unary main_cst_20 main_v126 (broadcastInDim S100000x5 ![] bcast_S_S100000x5 : (⟨S_, .f32⟩ : BufTy).Contents (Elt F) → (⟨S100000x5, .f32⟩ : BufTy).Contents (Elt F)),
    binary main_v126 main_v125 main_v127 (addf : (⟨S100000x5, .f32⟩ : BufTy).Contents (Elt F) → (⟨S100000x5, .f32⟩ : BufTy).Contents (Elt F) → (⟨S100000x5, .f32⟩ : BufTy).Contents (Elt F)),
    nullary main_cst_21 (constant S_ .f32 0x3F800000#32),
    unary main_cst_21 main_v128 (broadcastInDim S100000x5 ![] bcast_S_S100000x5 : (⟨S_, .f32⟩ : BufTy).Contents (Elt F) → (⟨S100000x5, .f32⟩ : BufTy).Contents (Elt F)),
    binary main_v128 main_v127 main_v129 (Host.divf : (⟨S100000x5, .f32⟩ : BufTy).Contents (Elt F) → (⟨S100000x5, .f32⟩ : BufTy).Contents (Elt F) → (⟨S100000x5, .f32⟩ : BufTy).Contents (Elt F)) ]

/-- The buffers they write, one per operation. -/
abbrev R2_W : List (Ref sig .tc) :=
  [ main_v39, main_v40, main_v41, main_v42, main_v43, main_v44, main_v45, main_v46, main_c_6, main_v47, main_v48, main_c_7, main_v49, main_v50, main_v51, main_v52, main_v53, main_v54, main_v55, main_v56, main_cst_8, main_v57, main_v58, main_v59, main_c_9, main_v60, main_v61, main_c_10, main_v62, main_v63, main_v64, main_v65, main_v66, main_v67, main_v68, main_v69, main_cst_11, main_v70, main_v71, main_v72, main_v73, main_v74, main_v75, main_v76, main_v77, main_v78, main_v79, main_v80, main_c_12, main_v81, main_v82, main_c_13, main_v83, main_v84, main_v85, main_v86, main_v87, main_v88, main_v89, main_v90, main_cst_14, main_v91, main_v92, main_v93, main_cst_15, main_v94, main_v95, main_v96, main_c_16, main_v97, main_v98, main_c_17, main_v99, main_v100, main_v101, main_v102, main_v103, main_v104, main_v105, main_v106, main_cst_18, main_v107, main_v108, main_v109, main_cst_19, main_v110, main_v111, main_v112, main_v113, main_v114, main_v115, main_v116, main_v117, main_v118, main_v119, main_v120, main_v121, main_v122, main_v123, main_v124, main_v125, main_cst_20, main_v126, main_v127, main_cst_21, main_v128, main_v129 ]

set_option maxRecDepth 16384 in
set_option maxHeartbeats 4000000 in
/-- Each of them writes its own result only. -/
theorem R2_writes : (R2 : List (HloOp τ sig (Elt F))).Forall fun op => op.writes ⊆ (R2_W.map (Proc.devRef (τ := τ) .tc)).toFinset := by
  simp only [List.Forall]
  repeat' apply And.intro
  all_goals
    simp only [TRef.nullary, TRef.unary, TRef.binary, StableHlo.nullary_writes, StableHlo.unary_writes, StableHlo.binary_writes, StableHlo.ternary_writes,
      StableHlo.reshape_writes, StableHlo.nary_writes, Finset.singleton_subset_iff, List.mem_toFinset]
    exact List.mem_map_of_mem (by decide)

/-- A buffer they do not write holds after them what it held before. -/
theorem R2_keeps (V : Valuation τ sig (Elt F)) (r : Ref sig .tc) (h : r ∉ R2_W) :
    StableHlo.after (R2 : List (HloOp τ sig (Elt F))) V (Proc.devRef .tc r) = V (Proc.devRef .tc r) :=
  StableHlo.after_of_writes_sub R2 V R2_writes h

/-- Operations 157 to 262 of the reference's line. -/
abbrev R3 : List (HloOp τ sig (Elt F)) :=
  [ unary main_arg9 main_v130 ((extractStridedSlice S1x1x40x5 ![0, 0, 0, 0] · slices_S2x3x40x5_S1x1x40x5_0_0_0_0) : (⟨S2x3x40x5, .f32⟩ : BufTy).Contents (Elt F) → (⟨S1x1x40x5, .f32⟩ : BufTy).Contents (Elt F)),
    reshape main_v130 main_v131 rfl shapeCasts_S1x1x40x5_S40x5,
    binary main_v39 main_v131 main_v132 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    unary main_arg9 main_v133 ((extractStridedSlice S1x1x40x5 ![1, 0, 0, 0] · slices_S2x3x40x5_S1x1x40x5_1_0_0_0) : (⟨S2x3x40x5, .f32⟩ : BufTy).Contents (Elt F) → (⟨S1x1x40x5, .f32⟩ : BufTy).Contents (Elt F)),
    reshape main_v133 main_v134 rfl shapeCasts_S1x1x40x5_S40x5,
    binary main_v39 main_v134 main_v135 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v132 main_v135 main_v136 (addf : (⟨S100000x5, .f32⟩ : BufTy).Contents (Elt F) → (⟨S100000x5, .f32⟩ : BufTy).Contents (Elt F) → (⟨S100000x5, .f32⟩ : BufTy).Contents (Elt F)),
    nullary main_c_22 (constantI S_ 32 0#32),
    unary main_c_22 main_v137 (broadcastInDim S1600000 ![] bcast_S_S1600000 : (⟨S_, .i32⟩ : BufTy).Contents (Elt F) → (⟨S1600000, .i32⟩ : BufTy).Contents (Elt F)),
    binary main_v1 main_v137 main_v138 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 100000#32),
    unary main_c_23 main_v139 (broadcastInDim S1600000 ![] bcast_S_S1600000 : (⟨S_, .i32⟩ : BufTy).Contents (Elt F) → (⟨S1600000, .i32⟩ : BufTy).Contents (Elt F)),
    binary main_v1 main_v139 main_v140 (addi : (⟨S1600000, .i32⟩ : BufTy).Contents (Elt F) → (⟨S1600000, .i32⟩ : BufTy).Contents (Elt F) → (⟨S1600000, .i32⟩ : BufTy).Contents (Elt F)),
    ternary main_v138 main_v140 main_v1 main_v141 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v141 main_v142 (broadcastInDim S1600000x1 ![0] bcast_S1600000_S1600000x1_0 : (⟨S1600000, .i32⟩ : BufTy).Contents (Elt F) → (⟨S1600000x1, .i32⟩ : BufTy).Contents (Elt F)),
    binary main_v39 main_v142 main_v143 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v19 main_v144 (broadcastInDim S1600000x1 ![0] bcast_S1600000_S1600000x1_0 : (⟨S1600000, .f32⟩ : BufTy).Contents (Elt F) → (⟨S1600000x1, .f32⟩ : BufTy).Contents (Elt F)),
    unary main_v144 main_v145 (broadcastInDim S1600000x40 ![0, 1] bcast_S1600000x1_S1600000x40_0_1 : (⟨S1600000x1, .f32⟩ : BufTy).Contents (Elt F) → (⟨S1600000x40, .f32⟩ : BufTy).Contents (Elt F)),
    binary main_v143 main_v145 main_v146 (mulf : (⟨S1600000x40, .f32⟩ : BufTy).Contents (Elt F) → (⟨S1600000x40, .f32⟩ : BufTy).Contents (Elt F) → (⟨S1600000x40, .f32⟩ : BufTy).Contents (Elt F)),
    nullary main_cst_24 (constant S_ .f32 0x00000000#32),
    unary main_cst_24 main_v147 (broadcastInDim S100000x40 ![] bcast_S_S100000x40 : (⟨S_, .f32⟩ : BufTy).Contents (Elt F) → (⟨S100000x40, .f32⟩ : BufTy).Contents (Elt F)),
    unary main_v3 main_v148 (broadcastInDim S1600000x1 ![0] bcast_S1600000_S1600000x1_0 : (⟨S1600000, .i32⟩ : BufTy).Contents (Elt F) → (⟨S1600000x1, .i32⟩ : BufTy).Contents (Elt F)),
    ternary main_v147 main_v148 main_v146 main_v149 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_c_25 (constantI S_ 32 0#32),
    unary main_c_25 main_v150 (broadcastInDim S1600000 ![] bcast_S_S1600000 : (⟨S_, .i32⟩ : BufTy).Contents (Elt F) → (⟨S1600000, .i32⟩ : BufTy).Contents (Elt F)),
    binary main_v3 main_v150 main_v151 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v152 (broadcastInDim S1600000 ![] bcast_S_S1600000 : (⟨S_, .i32⟩ : BufTy).Contents (Elt F) → (⟨S1600000, .i32⟩ : BufTy).Contents (Elt F)),
    binary main_v3 main_v152 main_v153 (addi : (⟨S1600000, .i32⟩ : BufTy).Contents (Elt F) → (⟨S1600000, .i32⟩ : BufTy).Contents (Elt F) → (⟨S1600000, .i32⟩ : BufTy).Contents (Elt F)),
    ternary main_v151 main_v153 main_v3 main_v154 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v154 main_v155 (broadcastInDim S1600000x1 ![0] bcast_S1600000_S1600000x1_0 : (⟨S1600000, .i32⟩ : BufTy).Contents (Elt F) → (⟨S1600000x1, .i32⟩ : BufTy).Contents (Elt F)),
    binary main_v39 main_v155 main_v156 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v29 main_v157 (broadcastInDim S1600000x1 ![0] bcast_S1600000_S1600000x1_0 : (⟨S1600000, .f32⟩ : BufTy).Contents (Elt F) → (⟨S1600000x1, .f32⟩ : BufTy).Contents (Elt F)),
    unary main_v157 main_v158 (broadcastInDim S1600000x40 ![0, 1] bcast_S1600000x1_S1600000x40_0_1 : (⟨S1600000x1, .f32⟩ : BufTy).Contents (Elt F) → (⟨S1600000x40, .f32⟩ : BufTy).Contents (Elt F)),
    binary main_v156 main_v158 main_v159 (mulf : (⟨S1600000x40, .f32⟩ : BufTy).Contents (Elt F) → (⟨S1600000x40, .f32⟩ : BufTy).Contents (Elt F) → (⟨S1600000x40, .f32⟩ : BufTy).Contents (Elt F)),
    nullary main_cst_27 (constant S_ .f32 0x00000000#32),
    unary main_cst_27 main_v160 (broadcastInDim S100000x40 ![] bcast_S_S100000x40 : (⟨S_, .f32⟩ : BufTy).Contents (Elt F) → (⟨S100000x40, .f32⟩ : BufTy).Contents (Elt F)),
    unary main_v1 main_v161 (broadcastInDim S1600000x1 ![0] bcast_S1600000_S1600000x1_0 : (⟨S1600000, .i32⟩ : BufTy).Contents (Elt F) → (⟨S1600000x1, .i32⟩ : BufTy).Contents (Elt F)),
    ternary main_v160 main_v161 main_v159 main_v162 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    unary main_arg9 main_v163 ((extractStridedSlice S1x1x40x5 ![0, 1, 0, 0] · slices_S2x3x40x5_S1x1x40x5_0_1_0_0) : (⟨S2x3x40x5, .f32⟩ : BufTy).Contents (Elt F) → (⟨S1x1x40x5, .f32⟩ : BufTy).Contents (Elt F)),
    reshape main_v163 main_v164 rfl shapeCasts_S1x1x40x5_S40x5,
    binary main_v149 main_v164 main_v165 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v136 main_v165 main_v166 (addf : (⟨S100000x5, .f32⟩ : BufTy).Contents (Elt F) → (⟨S100000x5, .f32⟩ : BufTy).Contents (Elt F) → (⟨S100000x5, .f32⟩ : BufTy).Contents (Elt F)),
    unary main_arg9 main_v167 ((extractStridedSlice S1x1x40x5 ![1, 1, 0, 0] · slices_S2x3x40x5_S1x1x40x5_1_1_0_0) : (⟨S2x3x40x5, .f32⟩ : BufTy).Contents (Elt F) → (⟨S1x1x40x5, .f32⟩ : BufTy).Contents (Elt F)),
    reshape main_v167 main_v168 rfl shapeCasts_S1x1x40x5_S40x5,
    binary main_v162 main_v168 main_v169 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v166 main_v169 main_v170 (addf : (⟨S100000x5, .f32⟩ : BufTy).Contents (Elt F) → (⟨S100000x5, .f32⟩ : BufTy).Contents (Elt F) → (⟨S100000x5, .f32⟩ : BufTy).Contents (Elt F)),
    nullary main_c_28 (constantI S_ 32 0#32),
    unary main_c_28 main_v171 (broadcastInDim S1600000 ![] bcast_S_S1600000 : (⟨S_, .i32⟩ : BufTy).Contents (Elt F) → (⟨S1600000, .i32⟩ : BufTy).Contents (Elt F)),
    binary main_v1 main_v171 main_v172 (cmpi .slt : (⟨S1600000, .i32⟩ : BufTy).Contents (Elt F) → (⟨S1600000, .i32⟩ : BufTy).Contents (Elt F) → (⟨S1600000, .i1⟩ : BufTy).Contents (Elt F)),
    nullary main_c_29 (constantI S_ 32 100000#32),
    unary main_c_29 main_v173 (broadcastInDim S1600000 ![] bcast_S_S1600000 : (⟨S_, .i32⟩ : BufTy).Contents (Elt F) → (⟨S1600000, .i32⟩ : BufTy).Contents (Elt F)),
    binary main_v1 main_v173 main_v174 (addi : (⟨S1600000, .i32⟩ : BufTy).Contents (Elt F) → (⟨S1600000, .i32⟩ : BufTy).Contents (Elt F) → (⟨S1600000, .i32⟩ : BufTy).Contents (Elt F)),
    ternary main_v172 main_v174 main_v1 main_v175 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v175 main_v176 (broadcastInDim S1600000x1 ![0] bcast_S1600000_S1600000x1_0 : (⟨S1600000, .i32⟩ : BufTy).Contents (Elt F) → (⟨S1600000x1, .i32⟩ : BufTy).Contents (Elt F)),
    binary main_v149 main_v176 main_v177 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v19 main_v178 (broadcastInDim S1600000x1 ![0] bcast_S1600000_S1600000x1_0 : (⟨S1600000, .f32⟩ : BufTy).Contents (Elt F) → (⟨S1600000x1, .f32⟩ : BufTy).Contents (Elt F)),
    unary main_v178 main_v179 (broadcastInDim S1600000x40 ![0, 1] bcast_S1600000x1_S1600000x40_0_1 : (⟨S1600000x1, .f32⟩ : BufTy).Contents (Elt F) → (⟨S1600000x40, .f32⟩ : BufTy).Contents (Elt F)),
    binary main_v177 main_v179 main_v180 (mulf : (⟨S1600000x40, .f32⟩ : BufTy).Contents (Elt F) → (⟨S1600000x40, .f32⟩ : BufTy).Contents (Elt F) → (⟨S1600000x40, .f32⟩ : BufTy).Contents (Elt F)),
    nullary main_cst_30 (constant S_ .f32 0x00000000#32),
    unary main_cst_30 main_v181 (broadcastInDim S100000x40 ![] bcast_S_S100000x40 : (⟨S_, .f32⟩ : BufTy).Contents (Elt F) → (⟨S100000x40, .f32⟩ : BufTy).Contents (Elt F)),
    unary main_v3 main_v182 (broadcastInDim S1600000x1 ![0] bcast_S1600000_S1600000x1_0 : (⟨S1600000, .i32⟩ : BufTy).Contents (Elt F) → (⟨S1600000x1, .i32⟩ : BufTy).Contents (Elt F)),
    ternary main_v181 main_v182 main_v180 main_v183 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_31 (constant S_ .f32 0x40000000#32),
    unary main_cst_31 main_v184 (broadcastInDim S100000x40 ![] bcast_S_S100000x40 : (⟨S_, .f32⟩ : BufTy).Contents (Elt F) → (⟨S100000x40, .f32⟩ : BufTy).Contents (Elt F)),
    binary main_v184 main_v183 main_v185 (mulf : (⟨S100000x40, .f32⟩ : BufTy).Contents (Elt F) → (⟨S100000x40, .f32⟩ : BufTy).Contents (Elt F) → (⟨S100000x40, .f32⟩ : BufTy).Contents (Elt F)),
    binary main_v185 main_v39 main_v186 (subf : (⟨S100000x40, .f32⟩ : BufTy).Contents (Elt F) → (⟨S100000x40, .f32⟩ : BufTy).Contents (Elt F) → (⟨S100000x40, .f32⟩ : BufTy).Contents (Elt F)),
    nullary main_c_32 (constantI S_ 32 0#32),
    unary main_c_32 main_v187 (broadcastInDim S1600000 ![] bcast_S_S1600000 : (⟨S_, .i32⟩ : BufTy).Contents (Elt F) → (⟨S1600000, .i32⟩ : BufTy).Contents (Elt F)),
    binary main_v3 main_v187 main_v188 (cmpi .slt : (⟨S1600000, .i32⟩ : BufTy).Contents (Elt F) → (⟨S1600000, .i32⟩ : BufTy).Contents (Elt F) → (⟨S1600000, .i1⟩ : BufTy).Contents (Elt F)),
    nullary main_c_33 (constantI S_ 32 100000#32),
    unary main_c_33 main_v189 (broadcastInDim S1600000 ![] bcast_S_S1600000 : (⟨S_, .i32⟩ : BufTy).Contents (Elt F) → (⟨S1600000, .i32⟩ : BufTy).Contents (Elt F)),
    binary main_v3 main_v189 main_v190 (addi : (⟨S1600000, .i32⟩ : BufTy).Contents (Elt F) → (⟨S1600000, .i32⟩ : BufTy).Contents (Elt F) → (⟨S1600000, .i32⟩ : BufTy).Contents (Elt F)),
    ternary main_v188 main_v190 main_v3 main_v191 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v191 main_v192 (broadcastInDim S1600000x1 ![0] bcast_S1600000_S1600000x1_0 : (⟨S1600000, .i32⟩ : BufTy).Contents (Elt F) → (⟨S1600000x1, .i32⟩ : BufTy).Contents (Elt F)),
    binary main_v162 main_v192 main_v193 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v29 main_v194 (broadcastInDim S1600000x1 ![0] bcast_S1600000_S1600000x1_0 : (⟨S1600000, .f32⟩ : BufTy).Contents (Elt F) → (⟨S1600000x1, .f32⟩ : BufTy).Contents (Elt F)),
    unary main_v194 main_v195 (broadcastInDim S1600000x40 ![0, 1] bcast_S1600000x1_S1600000x40_0_1 : (⟨S1600000x1, .f32⟩ : BufTy).Contents (Elt F) → (⟨S1600000x40, .f32⟩ : BufTy).Contents (Elt F)),
    binary main_v193 main_v195 main_v196 (mulf : (⟨S1600000x40, .f32⟩ : BufTy).Contents (Elt F) → (⟨S1600000x40, .f32⟩ : BufTy).Contents (Elt F) → (⟨S1600000x40, .f32⟩ : BufTy).Contents (Elt F)),
    nullary main_cst_34 (constant S_ .f32 0x00000000#32),
    unary main_cst_34 main_v197 (broadcastInDim S100000x40 ![] bcast_S_S100000x40 : (⟨S_, .f32⟩ : BufTy).Contents (Elt F) → (⟨S100000x40, .f32⟩ : BufTy).Contents (Elt F)),
    unary main_v1 main_v198 (broadcastInDim S1600000x1 ![0] bcast_S1600000_S1600000x1_0 : (⟨S1600000, .i32⟩ : BufTy).Contents (Elt F) → (⟨S1600000x1, .i32⟩ : BufTy).Contents (Elt F)),
    ternary main_v197 main_v198 main_v196 main_v199 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_35 (constant S_ .f32 0x40000000#32),
    unary main_cst_35 main_v200 (broadcastInDim S100000x40 ![] bcast_S_S100000x40 : (⟨S_, .f32⟩ : BufTy).Contents (Elt F) → (⟨S100000x40, .f32⟩ : BufTy).Contents (Elt F)),
    binary main_v200 main_v199 main_v201 (mulf : (⟨S100000x40, .f32⟩ : BufTy).Contents (Elt F) → (⟨S100000x40, .f32⟩ : BufTy).Contents (Elt F) → (⟨S100000x40, .f32⟩ : BufTy).Contents (Elt F)),
    binary main_v201 main_v39 main_v202 (subf : (⟨S100000x40, .f32⟩ : BufTy).Contents (Elt F) → (⟨S100000x40, .f32⟩ : BufTy).Contents (Elt F) → (⟨S100000x40, .f32⟩ : BufTy).Contents (Elt F)),
    unary main_arg9 main_v203 ((extractStridedSlice S1x1x40x5 ![0, 2, 0, 0] · slices_S2x3x40x5_S1x1x40x5_0_2_0_0) : (⟨S2x3x40x5, .f32⟩ : BufTy).Contents (Elt F) → (⟨S1x1x40x5, .f32⟩ : BufTy).Contents (Elt F)),
    reshape main_v203 main_v204 rfl shapeCasts_S1x1x40x5_S40x5,
    binary main_v186 main_v204 main_v205 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v170 main_v205 main_v206 (addf : (⟨S100000x5, .f32⟩ : BufTy).Contents (Elt F) → (⟨S100000x5, .f32⟩ : BufTy).Contents (Elt F) → (⟨S100000x5, .f32⟩ : BufTy).Contents (Elt F)),
    unary main_arg9 main_v207 ((extractStridedSlice S1x1x40x5 ![1, 2, 0, 0] · slices_S2x3x40x5_S1x1x40x5_1_2_0_0) : (⟨S2x3x40x5, .f32⟩ : BufTy).Contents (Elt F) → (⟨S1x1x40x5, .f32⟩ : BufTy).Contents (Elt F)),
    reshape main_v207 main_v208 rfl shapeCasts_S1x1x40x5_S40x5,
    binary main_v202 main_v208 main_v209 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v206 main_v209 main_v210 (addf : (⟨S100000x5, .f32⟩ : BufTy).Contents (Elt F) → (⟨S100000x5, .f32⟩ : BufTy).Contents (Elt F) → (⟨S100000x5, .f32⟩ : BufTy).Contents (Elt F)),
    unary main_arg10 main_v211 (broadcastInDim S1x5 ![1] bcast_S5_S1x5_1 : (⟨S5, .f32⟩ : BufTy).Contents (Elt F) → (⟨S1x5, .f32⟩ : BufTy).Contents (Elt F)),
    unary main_v211 main_v212 (broadcastInDim S100000x5 ![0, 1] bcast_S1x5_S100000x5_0_1 : (⟨S1x5, .f32⟩ : BufTy).Contents (Elt F) → (⟨S100000x5, .f32⟩ : BufTy).Contents (Elt F)),
    binary main_v210 main_v212 main_v213 (addf : (⟨S100000x5, .f32⟩ : BufTy).Contents (Elt F) → (⟨S100000x5, .f32⟩ : BufTy).Contents (Elt F) → (⟨S100000x5, .f32⟩ : BufTy).Contents (Elt F)),
    unary main_v213 main_v214 (Host.negf : (⟨S100000x5, .f32⟩ : BufTy).Contents (Elt F) → (⟨S100000x5, .f32⟩ : BufTy).Contents (Elt F)),
    unary main_v214 main_v215 (Host.exp : (⟨S100000x5, .f32⟩ : BufTy).Contents (Elt F) → (⟨S100000x5, .f32⟩ : BufTy).Contents (Elt F)),
    nullary main_cst_36 (constant S_ .f32 0x3F800000#32),
    unary main_cst_36 main_v216 (broadcastInDim S100000x5 ![] bcast_S_S100000x5 : (⟨S_, .f32⟩ : BufTy).Contents (Elt F) → (⟨S100000x5, .f32⟩ : BufTy).Contents (Elt F)),
    binary main_v216 main_v215 main_v217 (addf : (⟨S100000x5, .f32⟩ : BufTy).Contents (Elt F) → (⟨S100000x5, .f32⟩ : BufTy).Contents (Elt F) → (⟨S100000x5, .f32⟩ : BufTy).Contents (Elt F)),
    nullary main_cst_37 (constant S_ .f32 0x3F800000#32),
    unary main_cst_37 main_v218 (broadcastInDim S100000x5 ![] bcast_S_S100000x5 : (⟨S_, .f32⟩ : BufTy).Contents (Elt F) → (⟨S100000x5, .f32⟩ : BufTy).Contents (Elt F)),
    binary main_v218 main_v217 main_v219 (Host.divf : (⟨S100000x5, .f32⟩ : BufTy).Contents (Elt F) → (⟨S100000x5, .f32⟩ : BufTy).Contents (Elt F) → (⟨S100000x5, .f32⟩ : BufTy).Contents (Elt F)) ]

/-- The buffers they write, one per operation. -/
abbrev R3_W : List (Ref sig .tc) :=
  [ main_v130, main_v131, main_v132, main_v133, main_v134, main_v135, main_v136, main_c_22, main_v137, main_v138, main_c_23, main_v139, main_v140, main_v141, main_v142, main_v143, main_v144, main_v145, main_v146, main_cst_24, main_v147, main_v148, main_v149, main_c_25, main_v150, main_v151, main_c_26, main_v152, main_v153, main_v154, main_v155, main_v156, main_v157, main_v158, main_v159, main_cst_27, main_v160, main_v161, main_v162, main_v163, main_v164, main_v165, main_v166, main_v167, main_v168, main_v169, main_v170, main_c_28, main_v171, main_v172, main_c_29, main_v173, main_v174, main_v175, main_v176, main_v177, main_v178, main_v179, main_v180, main_cst_30, main_v181, main_v182, main_v183, main_cst_31, main_v184, main_v185, main_v186, main_c_32, main_v187, main_v188, main_c_33, main_v189, main_v190, main_v191, main_v192, main_v193, main_v194, main_v195, main_v196, main_cst_34, main_v197, main_v198, main_v199, main_cst_35, main_v200, main_v201, main_v202, main_v203, main_v204, main_v205, main_v206, main_v207, main_v208, main_v209, main_v210, main_v211, main_v212, main_v213, main_v214, main_v215, main_cst_36, main_v216, main_v217, main_cst_37, main_v218, main_v219 ]

set_option maxRecDepth 16384 in
set_option maxHeartbeats 4000000 in
/-- Each of them writes its own result only. -/
theorem R3_writes : (R3 : List (HloOp τ sig (Elt F))).Forall fun op => op.writes ⊆ (R3_W.map (Proc.devRef (τ := τ) .tc)).toFinset := by
  simp only [List.Forall]
  repeat' apply And.intro
  all_goals
    simp only [TRef.nullary, TRef.unary, TRef.binary, StableHlo.nullary_writes, StableHlo.unary_writes, StableHlo.binary_writes, StableHlo.ternary_writes,
      StableHlo.reshape_writes, StableHlo.nary_writes, Finset.singleton_subset_iff, List.mem_toFinset]
    exact List.mem_map_of_mem (by decide)

/-- A buffer they do not write holds after them what it held before. -/
theorem R3_keeps (V : Valuation τ sig (Elt F)) (r : Ref sig .tc) (h : r ∉ R3_W) :
    StableHlo.after (R3 : List (HloOp τ sig (Elt F))) V (Proc.devRef .tc r) = V (Proc.devRef .tc r) :=
  StableHlo.after_of_writes_sub R3 V R3_writes h

/-- Operations 263 to 376 of the reference's line. -/
abbrev R4 : List (HloOp τ sig (Elt F)) :=
  [ binary main_v38 main_v219 main_v220 (mulf : (⟨S100000x5, .f32⟩ : BufTy).Contents (Elt F) → (⟨S100000x5, .f32⟩ : BufTy).Contents (Elt F) → (⟨S100000x5, .f32⟩ : BufTy).Contents (Elt F)),
    binary main_arg0 main_v220 main_v221 ((fun a b => concatenate S100000x40 1 [⟨S100000x35, a⟩, ⟨S100000x5, b⟩] concatenates_S100000x35_S100000x5_S100000x40_d1) : (⟨S100000x35, .f32⟩ : BufTy).Contents (Elt F) → (⟨S100000x5, .f32⟩ : BufTy).Contents (Elt F) → (⟨S100000x40, .f32⟩ : BufTy).Contents (Elt F)),
    unary main_arg11 main_v222 ((extractStridedSlice S1x1x40x5 ![0, 0, 0, 0] · slices_S2x3x40x5_S1x1x40x5_0_0_0_0) : (⟨S2x3x40x5, .f32⟩ : BufTy).Contents (Elt F) → (⟨S1x1x40x5, .f32⟩ : BufTy).Contents (Elt F)),
    reshape main_v222 main_v223 rfl shapeCasts_S1x1x40x5_S40x5,
    binary main_v221 main_v223 main_v224 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    unary main_arg11 main_v225 ((extractStridedSlice S1x1x40x5 ![1, 0, 0, 0] · slices_S2x3x40x5_S1x1x40x5_1_0_0_0) : (⟨S2x3x40x5, .f32⟩ : BufTy).Contents (Elt F) → (⟨S1x1x40x5, .f32⟩ : BufTy).Contents (Elt F)),
    reshape main_v225 main_v226 rfl shapeCasts_S1x1x40x5_S40x5,
    binary main_v221 main_v226 main_v227 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v224 main_v227 main_v228 (addf : (⟨S100000x5, .f32⟩ : BufTy).Contents (Elt F) → (⟨S100000x5, .f32⟩ : BufTy).Contents (Elt F) → (⟨S100000x5, .f32⟩ : BufTy).Contents (Elt F)),
    nullary main_c_38 (constantI S_ 32 0#32),
    unary main_c_38 main_v229 (broadcastInDim S1600000 ![] bcast_S_S1600000 : (⟨S_, .i32⟩ : BufTy).Contents (Elt F) → (⟨S1600000, .i32⟩ : BufTy).Contents (Elt F)),
    binary main_v1 main_v229 main_v230 (cmpi .slt : (⟨S1600000, .i32⟩ : BufTy).Contents (Elt F) → (⟨S1600000, .i32⟩ : BufTy).Contents (Elt F) → (⟨S1600000, .i1⟩ : BufTy).Contents (Elt F)),
    nullary main_c_39 (constantI S_ 32 100000#32),
    unary main_c_39 main_v231 (broadcastInDim S1600000 ![] bcast_S_S1600000 : (⟨S_, .i32⟩ : BufTy).Contents (Elt F) → (⟨S1600000, .i32⟩ : BufTy).Contents (Elt F)),
    binary main_v1 main_v231 main_v232 (addi : (⟨S1600000, .i32⟩ : BufTy).Contents (Elt F) → (⟨S1600000, .i32⟩ : BufTy).Contents (Elt F) → (⟨S1600000, .i32⟩ : BufTy).Contents (Elt F)),
    ternary main_v230 main_v232 main_v1 main_v233 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v233 main_v234 (broadcastInDim S1600000x1 ![0] bcast_S1600000_S1600000x1_0 : (⟨S1600000, .i32⟩ : BufTy).Contents (Elt F) → (⟨S1600000x1, .i32⟩ : BufTy).Contents (Elt F)),
    binary main_v221 main_v234 main_v235 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v19 main_v236 (broadcastInDim S1600000x1 ![0] bcast_S1600000_S1600000x1_0 : (⟨S1600000, .f32⟩ : BufTy).Contents (Elt F) → (⟨S1600000x1, .f32⟩ : BufTy).Contents (Elt F)),
    unary main_v236 main_v237 (broadcastInDim S1600000x40 ![0, 1] bcast_S1600000x1_S1600000x40_0_1 : (⟨S1600000x1, .f32⟩ : BufTy).Contents (Elt F) → (⟨S1600000x40, .f32⟩ : BufTy).Contents (Elt F)),
    binary main_v235 main_v237 main_v238 (mulf : (⟨S1600000x40, .f32⟩ : BufTy).Contents (Elt F) → (⟨S1600000x40, .f32⟩ : BufTy).Contents (Elt F) → (⟨S1600000x40, .f32⟩ : BufTy).Contents (Elt F)),
    nullary main_cst_40 (constant S_ .f32 0x00000000#32),
    unary main_cst_40 main_v239 (broadcastInDim S100000x40 ![] bcast_S_S100000x40 : (⟨S_, .f32⟩ : BufTy).Contents (Elt F) → (⟨S100000x40, .f32⟩ : BufTy).Contents (Elt F)),
    unary main_v3 main_v240 (broadcastInDim S1600000x1 ![0] bcast_S1600000_S1600000x1_0 : (⟨S1600000, .i32⟩ : BufTy).Contents (Elt F) → (⟨S1600000x1, .i32⟩ : BufTy).Contents (Elt F)),
    ternary main_v239 main_v240 main_v238 main_v241 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_c_41 (constantI S_ 32 0#32),
    unary main_c_41 main_v242 (broadcastInDim S1600000 ![] bcast_S_S1600000 : (⟨S_, .i32⟩ : BufTy).Contents (Elt F) → (⟨S1600000, .i32⟩ : BufTy).Contents (Elt F)),
    binary main_v3 main_v242 main_v243 (cmpi .slt : (⟨S1600000, .i32⟩ : BufTy).Contents (Elt F) → (⟨S1600000, .i32⟩ : BufTy).Contents (Elt F) → (⟨S1600000, .i1⟩ : BufTy).Contents (Elt F)),
    nullary main_c_42 (constantI S_ 32 100000#32),
    unary main_c_42 main_v244 (broadcastInDim S1600000 ![] bcast_S_S1600000 : (⟨S_, .i32⟩ : BufTy).Contents (Elt F) → (⟨S1600000, .i32⟩ : BufTy).Contents (Elt F)),
    binary main_v3 main_v244 main_v245 (addi : (⟨S1600000, .i32⟩ : BufTy).Contents (Elt F) → (⟨S1600000, .i32⟩ : BufTy).Contents (Elt F) → (⟨S1600000, .i32⟩ : BufTy).Contents (Elt F)),
    ternary main_v243 main_v245 main_v3 main_v246 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v246 main_v247 (broadcastInDim S1600000x1 ![0] bcast_S1600000_S1600000x1_0 : (⟨S1600000, .i32⟩ : BufTy).Contents (Elt F) → (⟨S1600000x1, .i32⟩ : BufTy).Contents (Elt F)),
    binary main_v221 main_v247 main_v248 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v29 main_v249 (broadcastInDim S1600000x1 ![0] bcast_S1600000_S1600000x1_0 : (⟨S1600000, .f32⟩ : BufTy).Contents (Elt F) → (⟨S1600000x1, .f32⟩ : BufTy).Contents (Elt F)),
    unary main_v249 main_v250 (broadcastInDim S1600000x40 ![0, 1] bcast_S1600000x1_S1600000x40_0_1 : (⟨S1600000x1, .f32⟩ : BufTy).Contents (Elt F) → (⟨S1600000x40, .f32⟩ : BufTy).Contents (Elt F)),
    binary main_v248 main_v250 main_v251 (mulf : (⟨S1600000x40, .f32⟩ : BufTy).Contents (Elt F) → (⟨S1600000x40, .f32⟩ : BufTy).Contents (Elt F) → (⟨S1600000x40, .f32⟩ : BufTy).Contents (Elt F)),
    nullary main_cst_43 (constant S_ .f32 0x00000000#32),
    unary main_cst_43 main_v252 (broadcastInDim S100000x40 ![] bcast_S_S100000x40 : (⟨S_, .f32⟩ : BufTy).Contents (Elt F) → (⟨S100000x40, .f32⟩ : BufTy).Contents (Elt F)),
    unary main_v1 main_v253 (broadcastInDim S1600000x1 ![0] bcast_S1600000_S1600000x1_0 : (⟨S1600000, .i32⟩ : BufTy).Contents (Elt F) → (⟨S1600000x1, .i32⟩ : BufTy).Contents (Elt F)),
    ternary main_v252 main_v253 main_v251 main_v254 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    unary main_arg11 main_v255 ((extractStridedSlice S1x1x40x5 ![0, 1, 0, 0] · slices_S2x3x40x5_S1x1x40x5_0_1_0_0) : (⟨S2x3x40x5, .f32⟩ : BufTy).Contents (Elt F) → (⟨S1x1x40x5, .f32⟩ : BufTy).Contents (Elt F)),
    reshape main_v255 main_v256 rfl shapeCasts_S1x1x40x5_S40x5,
    binary main_v241 main_v256 main_v257 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v228 main_v257 main_v258 (addf : (⟨S100000x5, .f32⟩ : BufTy).Contents (Elt F) → (⟨S100000x5, .f32⟩ : BufTy).Contents (Elt F) → (⟨S100000x5, .f32⟩ : BufTy).Contents (Elt F)),
    unary main_arg11 main_v259 ((extractStridedSlice S1x1x40x5 ![1, 1, 0, 0] · slices_S2x3x40x5_S1x1x40x5_1_1_0_0) : (⟨S2x3x40x5, .f32⟩ : BufTy).Contents (Elt F) → (⟨S1x1x40x5, .f32⟩ : BufTy).Contents (Elt F)),
    reshape main_v259 main_v260 rfl shapeCasts_S1x1x40x5_S40x5,
    binary main_v254 main_v260 main_v261 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v258 main_v261 main_v262 (addf : (⟨S100000x5, .f32⟩ : BufTy).Contents (Elt F) → (⟨S100000x5, .f32⟩ : BufTy).Contents (Elt F) → (⟨S100000x5, .f32⟩ : BufTy).Contents (Elt F)),
    nullary main_c_44 (constantI S_ 32 0#32),
    unary main_c_44 main_v263 (broadcastInDim S1600000 ![] bcast_S_S1600000 : (⟨S_, .i32⟩ : BufTy).Contents (Elt F) → (⟨S1600000, .i32⟩ : BufTy).Contents (Elt F)),
    binary main_v1 main_v263 main_v264 (cmpi .slt : (⟨S1600000, .i32⟩ : BufTy).Contents (Elt F) → (⟨S1600000, .i32⟩ : BufTy).Contents (Elt F) → (⟨S1600000, .i1⟩ : BufTy).Contents (Elt F)),
    nullary main_c_45 (constantI S_ 32 100000#32),
    unary main_c_45 main_v265 (broadcastInDim S1600000 ![] bcast_S_S1600000 : (⟨S_, .i32⟩ : BufTy).Contents (Elt F) → (⟨S1600000, .i32⟩ : BufTy).Contents (Elt F)),
    binary main_v1 main_v265 main_v266 (addi : (⟨S1600000, .i32⟩ : BufTy).Contents (Elt F) → (⟨S1600000, .i32⟩ : BufTy).Contents (Elt F) → (⟨S1600000, .i32⟩ : BufTy).Contents (Elt F)),
    ternary main_v264 main_v266 main_v1 main_v267 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v267 main_v268 (broadcastInDim S1600000x1 ![0] bcast_S1600000_S1600000x1_0 : (⟨S1600000, .i32⟩ : BufTy).Contents (Elt F) → (⟨S1600000x1, .i32⟩ : BufTy).Contents (Elt F)),
    binary main_v241 main_v268 main_v269 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v19 main_v270 (broadcastInDim S1600000x1 ![0] bcast_S1600000_S1600000x1_0 : (⟨S1600000, .f32⟩ : BufTy).Contents (Elt F) → (⟨S1600000x1, .f32⟩ : BufTy).Contents (Elt F)),
    unary main_v270 main_v271 (broadcastInDim S1600000x40 ![0, 1] bcast_S1600000x1_S1600000x40_0_1 : (⟨S1600000x1, .f32⟩ : BufTy).Contents (Elt F) → (⟨S1600000x40, .f32⟩ : BufTy).Contents (Elt F)),
    binary main_v269 main_v271 main_v272 (mulf : (⟨S1600000x40, .f32⟩ : BufTy).Contents (Elt F) → (⟨S1600000x40, .f32⟩ : BufTy).Contents (Elt F) → (⟨S1600000x40, .f32⟩ : BufTy).Contents (Elt F)),
    nullary main_cst_46 (constant S_ .f32 0x00000000#32),
    unary main_cst_46 main_v273 (broadcastInDim S100000x40 ![] bcast_S_S100000x40 : (⟨S_, .f32⟩ : BufTy).Contents (Elt F) → (⟨S100000x40, .f32⟩ : BufTy).Contents (Elt F)),
    unary main_v3 main_v274 (broadcastInDim S1600000x1 ![0] bcast_S1600000_S1600000x1_0 : (⟨S1600000, .i32⟩ : BufTy).Contents (Elt F) → (⟨S1600000x1, .i32⟩ : BufTy).Contents (Elt F)),
    ternary main_v273 main_v274 main_v272 main_v275 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_47 (constant S_ .f32 0x40000000#32),
    unary main_cst_47 main_v276 (broadcastInDim S100000x40 ![] bcast_S_S100000x40 : (⟨S_, .f32⟩ : BufTy).Contents (Elt F) → (⟨S100000x40, .f32⟩ : BufTy).Contents (Elt F)),
    binary main_v276 main_v275 main_v277 (mulf : (⟨S100000x40, .f32⟩ : BufTy).Contents (Elt F) → (⟨S100000x40, .f32⟩ : BufTy).Contents (Elt F) → (⟨S100000x40, .f32⟩ : BufTy).Contents (Elt F)),
    binary main_v277 main_v221 main_v278 (subf : (⟨S100000x40, .f32⟩ : BufTy).Contents (Elt F) → (⟨S100000x40, .f32⟩ : BufTy).Contents (Elt F) → (⟨S100000x40, .f32⟩ : BufTy).Contents (Elt F)),
    nullary main_c_48 (constantI S_ 32 0#32),
    unary main_c_48 main_v279 (broadcastInDim S1600000 ![] bcast_S_S1600000 : (⟨S_, .i32⟩ : BufTy).Contents (Elt F) → (⟨S1600000, .i32⟩ : BufTy).Contents (Elt F)),
    binary main_v3 main_v279 main_v280 (cmpi .slt : (⟨S1600000, .i32⟩ : BufTy).Contents (Elt F) → (⟨S1600000, .i32⟩ : BufTy).Contents (Elt F) → (⟨S1600000, .i1⟩ : BufTy).Contents (Elt F)),
    nullary main_c_49 (constantI S_ 32 100000#32),
    unary main_c_49 main_v281 (broadcastInDim S1600000 ![] bcast_S_S1600000 : (⟨S_, .i32⟩ : BufTy).Contents (Elt F) → (⟨S1600000, .i32⟩ : BufTy).Contents (Elt F)),
    binary main_v3 main_v281 main_v282 (addi : (⟨S1600000, .i32⟩ : BufTy).Contents (Elt F) → (⟨S1600000, .i32⟩ : BufTy).Contents (Elt F) → (⟨S1600000, .i32⟩ : BufTy).Contents (Elt F)),
    ternary main_v280 main_v282 main_v3 main_v283 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v283 main_v284 (broadcastInDim S1600000x1 ![0] bcast_S1600000_S1600000x1_0 : (⟨S1600000, .i32⟩ : BufTy).Contents (Elt F) → (⟨S1600000x1, .i32⟩ : BufTy).Contents (Elt F)),
    binary main_v254 main_v284 main_v285 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v29 main_v286 (broadcastInDim S1600000x1 ![0] bcast_S1600000_S1600000x1_0 : (⟨S1600000, .f32⟩ : BufTy).Contents (Elt F) → (⟨S1600000x1, .f32⟩ : BufTy).Contents (Elt F)),
    unary main_v286 main_v287 (broadcastInDim S1600000x40 ![0, 1] bcast_S1600000x1_S1600000x40_0_1 : (⟨S1600000x1, .f32⟩ : BufTy).Contents (Elt F) → (⟨S1600000x40, .f32⟩ : BufTy).Contents (Elt F)),
    binary main_v285 main_v287 main_v288 (mulf : (⟨S1600000x40, .f32⟩ : BufTy).Contents (Elt F) → (⟨S1600000x40, .f32⟩ : BufTy).Contents (Elt F) → (⟨S1600000x40, .f32⟩ : BufTy).Contents (Elt F)),
    nullary main_cst_50 (constant S_ .f32 0x00000000#32),
    unary main_cst_50 main_v289 (broadcastInDim S100000x40 ![] bcast_S_S100000x40 : (⟨S_, .f32⟩ : BufTy).Contents (Elt F) → (⟨S100000x40, .f32⟩ : BufTy).Contents (Elt F)),
    unary main_v1 main_v290 (broadcastInDim S1600000x1 ![0] bcast_S1600000_S1600000x1_0 : (⟨S1600000, .i32⟩ : BufTy).Contents (Elt F) → (⟨S1600000x1, .i32⟩ : BufTy).Contents (Elt F)),
    ternary main_v289 main_v290 main_v288 main_v291 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    nullary main_cst_51 (constant S_ .f32 0x40000000#32),
    unary main_cst_51 main_v292 (broadcastInDim S100000x40 ![] bcast_S_S100000x40 : (⟨S_, .f32⟩ : BufTy).Contents (Elt F) → (⟨S100000x40, .f32⟩ : BufTy).Contents (Elt F)),
    binary main_v292 main_v291 main_v293 (mulf : (⟨S100000x40, .f32⟩ : BufTy).Contents (Elt F) → (⟨S100000x40, .f32⟩ : BufTy).Contents (Elt F) → (⟨S100000x40, .f32⟩ : BufTy).Contents (Elt F)),
    binary main_v293 main_v221 main_v294 (subf : (⟨S100000x40, .f32⟩ : BufTy).Contents (Elt F) → (⟨S100000x40, .f32⟩ : BufTy).Contents (Elt F) → (⟨S100000x40, .f32⟩ : BufTy).Contents (Elt F)),
    unary main_arg11 main_v295 ((extractStridedSlice S1x1x40x5 ![0, 2, 0, 0] · slices_S2x3x40x5_S1x1x40x5_0_2_0_0) : (⟨S2x3x40x5, .f32⟩ : BufTy).Contents (Elt F) → (⟨S1x1x40x5, .f32⟩ : BufTy).Contents (Elt F)),
    reshape main_v295 main_v296 rfl shapeCasts_S1x1x40x5_S40x5,
    binary main_v278 main_v296 main_v297 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v262 main_v297 main_v298 (addf : (⟨S100000x5, .f32⟩ : BufTy).Contents (Elt F) → (⟨S100000x5, .f32⟩ : BufTy).Contents (Elt F) → (⟨S100000x5, .f32⟩ : BufTy).Contents (Elt F)),
    unary main_arg11 main_v299 ((extractStridedSlice S1x1x40x5 ![1, 2, 0, 0] · slices_S2x3x40x5_S1x1x40x5_1_2_0_0) : (⟨S2x3x40x5, .f32⟩ : BufTy).Contents (Elt F) → (⟨S1x1x40x5, .f32⟩ : BufTy).Contents (Elt F)),
    reshape main_v299 main_v300 rfl shapeCasts_S1x1x40x5_S40x5,
    binary main_v294 main_v300 main_v301 ((fun l r => Host.dotGeneral dot_S100000x40_S40x5_S100000x5_1_0_0_1_n_n none l r) : (⟨S100000x40, .f32⟩ : BufTy).Contents (Elt F) → (⟨S40x5, .f32⟩ : BufTy).Contents (Elt F) → (⟨S100000x5, .f32⟩ : BufTy).Contents (Elt F)),
    binary main_v298 main_v301 main_v302 (addf : (⟨S100000x5, .f32⟩ : BufTy).Contents (Elt F) → (⟨S100000x5, .f32⟩ : BufTy).Contents (Elt F) → (⟨S100000x5, .f32⟩ : BufTy).Contents (Elt F)),
    unary main_arg12 main_v303 (broadcastInDim S1x5 ![1] bcast_S5_S1x5_1 : (⟨S5, .f32⟩ : BufTy).Contents (Elt F) → (⟨S1x5, .f32⟩ : BufTy).Contents (Elt F)),
    unary main_v303 main_v304 (broadcastInDim S100000x5 ![0, 1] bcast_S1x5_S100000x5_0_1 : (⟨S1x5, .f32⟩ : BufTy).Contents (Elt F) → (⟨S100000x5, .f32⟩ : BufTy).Contents (Elt F)),
    binary main_v302 main_v304 main_v305 (addf : (⟨S100000x5, .f32⟩ : BufTy).Contents (Elt F) → (⟨S100000x5, .f32⟩ : BufTy).Contents (Elt F) → (⟨S100000x5, .f32⟩ : BufTy).Contents (Elt F)),
    unary main_v305 main_v306 (Host.tanh : (⟨S100000x5, .f32⟩ : BufTy).Contents (Elt F) → (⟨S100000x5, .f32⟩ : BufTy).Contents (Elt F)),
    binary main_v129 main_v38 main_v307 (mulf : (⟨S100000x5, .f32⟩ : BufTy).Contents (Elt F) → (⟨S100000x5, .f32⟩ : BufTy).Contents (Elt F) → (⟨S100000x5, .f32⟩ : BufTy).Contents (Elt F)),
    nullary main_cst_52 (constant S_ .f32 0x3F800000#32),
    unary main_cst_52 main_v308 (broadcastInDim S100000x5 ![] bcast_S_S100000x5 : (⟨S_, .f32⟩ : BufTy).Contents (Elt F) → (⟨S100000x5, .f32⟩ : BufTy).Contents (Elt F)),
    binary main_v308 main_v129 main_v309 (subf : (⟨S100000x5, .f32⟩ : BufTy).Contents (Elt F) → (⟨S100000x5, .f32⟩ : BufTy).Contents (Elt F) → (⟨S100000x5, .f32⟩ : BufTy).Contents (Elt F)),
    binary main_v309 main_v306 main_v310 (mulf : (⟨S100000x5, .f32⟩ : BufTy).Contents (Elt F) → (⟨S100000x5, .f32⟩ : BufTy).Contents (Elt F) → (⟨S100000x5, .f32⟩ : BufTy).Contents (Elt F)),
    binary main_v307 main_v310 main_v311 (addf : (⟨S100000x5, .f32⟩ : BufTy).Contents (Elt F) → (⟨S100000x5, .f32⟩ : BufTy).Contents (Elt F) → (⟨S100000x5, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x5, .f32⟩) main_call1_v0) (broadcastInDim S100000x5 ![] bcast_S_S100000x5),
    TRef.binary (TRef.of (T := ⟨S100000x5, .f32⟩) main_v311) (TRef.of (T := ⟨S100000x5, .f32⟩) main_call1_v0) (TRef.of (T := ⟨S100000x5, .f32⟩) main_v312) maximumf,
    binary main_v312 main_arg13 main_v313 ((fun l r => Host.dotGeneral dot_S100000x5_S5x1_S100000x1_1_0_0_1_n_n none l r) : (⟨S100000x5, .f32⟩ : BufTy).Contents (Elt F) → (⟨S5x1, .f32⟩ : BufTy).Contents (Elt F) → (⟨S100000x1, .f32⟩ : BufTy).Contents (Elt F)),
    unary main_arg14 main_v314 (broadcastInDim S1x1 ![1] bcast_S1_S1x1_1 : (⟨S1, .f32⟩ : BufTy).Contents (Elt F) → (⟨S1x1, .f32⟩ : BufTy).Contents (Elt F)),
    unary main_v314 main_v315 (broadcastInDim S100000x1 ![0, 1] bcast_S1x1_S100000x1_0_1 : (⟨S1x1, .f32⟩ : BufTy).Contents (Elt F) → (⟨S100000x1, .f32⟩ : BufTy).Contents (Elt F)),
    binary main_v313 main_v315 main_v316 (addf : (⟨S100000x1, .f32⟩ : BufTy).Contents (Elt F) → (⟨S100000x1, .f32⟩ : BufTy).Contents (Elt F) → (⟨S100000x1, .f32⟩ : BufTy).Contents (Elt F)) ]

/-- The buffers they write, one per operation. -/
abbrev R4_W : List (Ref sig .tc) :=
  [ main_v220, main_v221, main_v222, main_v223, main_v224, main_v225, main_v226, main_v227, main_v228, main_c_38, main_v229, main_v230, main_c_39, main_v231, main_v232, main_v233, main_v234, main_v235, main_v236, main_v237, main_v238, main_cst_40, main_v239, main_v240, main_v241, main_c_41, main_v242, main_v243, main_c_42, main_v244, main_v245, main_v246, main_v247, main_v248, main_v249, main_v250, main_v251, main_cst_43, main_v252, main_v253, main_v254, main_v255, main_v256, main_v257, main_v258, main_v259, main_v260, main_v261, main_v262, main_c_44, main_v263, main_v264, main_c_45, main_v265, main_v266, main_v267, main_v268, main_v269, main_v270, main_v271, main_v272, main_cst_46, main_v273, main_v274, main_v275, main_cst_47, main_v276, main_v277, main_v278, main_c_48, main_v279, main_v280, main_c_49, main_v281, main_v282, main_v283, main_v284, main_v285, main_v286, main_v287, main_v288, main_cst_50, main_v289, main_v290, main_v291, main_cst_51, main_v292, main_v293, main_v294, main_v295, main_v296, main_v297, main_v298, main_v299, main_v300, main_v301, main_v302, main_v303, main_v304, main_v305, main_v306, main_v307, main_cst_52, main_v308, main_v309, main_v310, main_v311, main_call1_cst, main_call1_v0, main_v312, main_v313, main_v314, main_v315, main_v316 ]

set_option maxRecDepth 16384 in
set_option maxHeartbeats 4000000 in
/-- Each of them writes its own result only. -/
theorem R4_writes : (R4 : List (HloOp τ sig (Elt F))).Forall fun op => op.writes ⊆ (R4_W.map (Proc.devRef (τ := τ) .tc)).toFinset := by
  simp only [List.Forall]
  repeat' apply And.intro
  all_goals
    simp only [TRef.nullary, TRef.unary, TRef.binary, StableHlo.nullary_writes, StableHlo.unary_writes, StableHlo.binary_writes, StableHlo.ternary_writes,
      StableHlo.reshape_writes, StableHlo.nary_writes, Finset.singleton_subset_iff, List.mem_toFinset]
    exact List.mem_map_of_mem (by decide)

/-- A buffer they do not write holds after them what it held before. -/
theorem R4_keeps (V : Valuation τ sig (Elt F)) (r : Ref sig .tc) (h : r ∉ R4_W) :
    StableHlo.after (R4 : List (HloOp τ sig (Elt F))) V (Proc.devRef .tc r) = V (Proc.devRef .tc r) :=
  StableHlo.after_of_writes_sub R4 V R4_writes h

set_option maxHeartbeats 4000000 in
/-- The line is its four stretches in order. -/
theorem ops_eq : (ValueL.ops : List (HloOp τ sig (Elt F))) = R1 ++ (R2 ++ (R3 ++ R4)) := rfl

/-! ## The first stretch: the edges' ends, their normalised weights, the warm start -/

section First
variable (U : Valuation τ sig (Elt F))

set_option maxHeartbeats 4000000 in
theorem r1_v1 : StableHlo.after R1 U (Proc.devRef .tc main_v1) = val_main_v1 (F := F) (U (Proc.devRef .tc main_arg1)) := by
  simp only [R1]; after_results_simp; rfl
set_option maxHeartbeats 4000000 in
theorem r1_v3 : StableHlo.after R1 U (Proc.devRef .tc main_v3) = val_main_v3 (F := F) (U (Proc.devRef .tc main_arg1)) := by
  simp only [R1]; after_results_simp; rfl
set_option maxHeartbeats 4000000 in
theorem r1_v19 : StableHlo.after R1 U (Proc.devRef .tc main_v19) = val_main_v19 (F := F) (U (Proc.devRef .tc main_arg1)) (U (Proc.devRef .tc main_arg2)) := by
  simp only [R1]; after_results_simp; rfl
set_option maxHeartbeats 4000000 in
theorem r1_v29 : StableHlo.after R1 U (Proc.devRef .tc main_v29) = val_main_v29 (F := F) (U (Proc.devRef .tc main_arg1)) (U (Proc.devRef .tc main_arg2)) := by
  simp only [R1]; after_results_simp; rfl
set_option maxHeartbeats 4000000 in
theorem r1_v38 : StableHlo.after R1 U (Proc.devRef .tc main_v38) = val_main_v38 (F := F) (U (Proc.devRef .tc main_arg0)) (U (Proc.devRef .tc main_arg3)) (U (Proc.devRef .tc main_arg4)) (U (Proc.devRef .tc main_arg5)) (U (Proc.devRef .tc main_arg6)) := by
  simp only [R1]; after_results_simp; rfl

end First

/-! ## The second stretch: the node array and the update gate -/

set_option maxHeartbeats 8000000 in
theorem r2_v39 (V : Valuation τ sig (Elt F)) (x0 : (⟨S100000x35, .f32⟩ : BufTy).Contents (Elt F)) (x1 : (⟨S2x1600000, .i32⟩ : BufTy).Contents (Elt F)) (x2 : (⟨S1600000, .f32⟩ : BufTy).Contents (Elt F))
    (x3 : (⟨S35x100, .f32⟩ : BufTy).Contents (Elt F)) (x4 : (⟨S100, .f32⟩ : BufTy).Contents (Elt F)) (x5 : (⟨S100x5, .f32⟩ : BufTy).Contents (Elt F)) (x6 : (⟨S5, .f32⟩ : BufTy).Contents (Elt F))
    (h0 : V (Proc.devRef .tc main_arg0) = x0) (h38 : V (Proc.devRef .tc main_v38) = val_main_v38 (F := F) x0 x3 x4 x5 x6) :
    StableHlo.after R2 V (Proc.devRef .tc main_v39) = val_main_v39 (F := F) x0 x3 x4 x5 x6 := by
  simp only [R2]; after_results_simp; rw [h0, h38]; rfl

set_option maxHeartbeats 40000000 in
theorem r2_v129 (V : Valuation τ sig (Elt F)) (x0 : (⟨S100000x35, .f32⟩ : BufTy).Contents (Elt F)) (x1 : (⟨S2x1600000, .i32⟩ : BufTy).Contents (Elt F)) (x2 : (⟨S1600000, .f32⟩ : BufTy).Contents (Elt F))
    (x3 : (⟨S35x100, .f32⟩ : BufTy).Contents (Elt F)) (x4 : (⟨S100, .f32⟩ : BufTy).Contents (Elt F)) (x5 : (⟨S100x5, .f32⟩ : BufTy).Contents (Elt F)) (x6 : (⟨S5, .f32⟩ : BufTy).Contents (Elt F)) (x7 : (⟨S2x3x40x5, .f32⟩ : BufTy).Contents (Elt F)) (x8 : (⟨S5, .f32⟩ : BufTy).Contents (Elt F))
    (h0 : V (Proc.devRef .tc main_arg0) = x0) (h7 : V (Proc.devRef .tc main_arg7) = x7) (h8 : V (Proc.devRef .tc main_arg8) = x8)
    (h1 : V (Proc.devRef .tc main_v1) = val_main_v1 (F := F) x1) (h3 : V (Proc.devRef .tc main_v3) = val_main_v3 (F := F) x1)
    (h19 : V (Proc.devRef .tc main_v19) = val_main_v19 (F := F) x1 x2) (h29 : V (Proc.devRef .tc main_v29) = val_main_v29 (F := F) x1 x2)
    (h38 : V (Proc.devRef .tc main_v38) = val_main_v38 (F := F) x0 x3 x4 x5 x6) :
    StableHlo.after R2 V (Proc.devRef .tc main_v129) = val_main_v129 (F := F) x0 x1 x2 x3 x4 x5 x6 x7 x8 := by
  simp only [R2]; after_results_simp; rw [h0, h7, h8, h1, h3, h19, h29, h38]; rfl

/-! ## The third stretch: the reset gate -/

set_option maxHeartbeats 40000000 in
theorem r3_v219 (V : Valuation τ sig (Elt F)) (x0 : (⟨S100000x35, .f32⟩ : BufTy).Contents (Elt F)) (x1 : (⟨S2x1600000, .i32⟩ : BufTy).Contents (Elt F)) (x2 : (⟨S1600000, .f32⟩ : BufTy).Contents (Elt F))
    (x3 : (⟨S35x100, .f32⟩ : BufTy).Contents (Elt F)) (x4 : (⟨S100, .f32⟩ : BufTy).Contents (Elt F)) (x5 : (⟨S100x5, .f32⟩ : BufTy).Contents (Elt F)) (x6 : (⟨S5, .f32⟩ : BufTy).Contents (Elt F)) (x9 : (⟨S2x3x40x5, .f32⟩ : BufTy).Contents (Elt F)) (x10 : (⟨S5, .f32⟩ : BufTy).Contents (Elt F))
    (h9 : V (Proc.devRef .tc main_arg9) = x9) (h10 : V (Proc.devRef .tc main_arg10) = x10)
    (h1 : V (Proc.devRef .tc main_v1) = val_main_v1 (F := F) x1) (h3 : V (Proc.devRef .tc main_v3) = val_main_v3 (F := F) x1)
    (h19 : V (Proc.devRef .tc main_v19) = val_main_v19 (F := F) x1 x2) (h29 : V (Proc.devRef .tc main_v29) = val_main_v29 (F := F) x1 x2)
    (h39 : V (Proc.devRef .tc main_v39) = val_main_v39 (F := F) x0 x3 x4 x5 x6) :
    StableHlo.after R3 V (Proc.devRef .tc main_v219) = val_main_v219 (F := F) x0 x1 x2 x3 x4 x5 x6 x9 x10 := by
  simp only [R3]; after_results_simp; rw [h9, h10, h1, h3, h19, h29, h39]; rfl

/-! ## The fourth stretch: the candidate state, the new state, the result -/

set_option maxHeartbeats 40000000 in
theorem r4_v316 (V : Valuation τ sig (Elt F)) (x0 : (⟨S100000x35, .f32⟩ : BufTy).Contents (Elt F)) (x1 : (⟨S2x1600000, .i32⟩ : BufTy).Contents (Elt F)) (x2 : (⟨S1600000, .f32⟩ : BufTy).Contents (Elt F))
    (x3 : (⟨S35x100, .f32⟩ : BufTy).Contents (Elt F)) (x4 : (⟨S100, .f32⟩ : BufTy).Contents (Elt F)) (x5 : (⟨S100x5, .f32⟩ : BufTy).Contents (Elt F)) (x6 : (⟨S5, .f32⟩ : BufTy).Contents (Elt F)) (x7 : (⟨S2x3x40x5, .f32⟩ : BufTy).Contents (Elt F)) (x8 : (⟨S5, .f32⟩ : BufTy).Contents (Elt F))
    (x9 : (⟨S2x3x40x5, .f32⟩ : BufTy).Contents (Elt F)) (x10 : (⟨S5, .f32⟩ : BufTy).Contents (Elt F)) (x11 : (⟨S2x3x40x5, .f32⟩ : BufTy).Contents (Elt F)) (x12 : (⟨S5, .f32⟩ : BufTy).Contents (Elt F))
    (x13 : (⟨S5x1, .f32⟩ : BufTy).Contents (Elt F)) (x14 : (⟨S1, .f32⟩ : BufTy).Contents (Elt F))
    (h0 : V (Proc.devRef .tc main_arg0) = x0) (h11 : V (Proc.devRef .tc main_arg11) = x11) (h12 : V (Proc.devRef .tc main_arg12) = x12)
    (h13 : V (Proc.devRef .tc main_arg13) = x13) (h14 : V (Proc.devRef .tc main_arg14) = x14)
    (h1 : V (Proc.devRef .tc main_v1) = val_main_v1 (F := F) x1) (h3 : V (Proc.devRef .tc main_v3) = val_main_v3 (F := F) x1)
    (h19 : V (Proc.devRef .tc main_v19) = val_main_v19 (F := F) x1 x2) (h29 : V (Proc.devRef .tc main_v29) = val_main_v29 (F := F) x1 x2)
    (h38 : V (Proc.devRef .tc main_v38) = val_main_v38 (F := F) x0 x3 x4 x5 x6)
    (h129 : V (Proc.devRef .tc main_v129) = val_main_v129 (F := F) x0 x1 x2 x3 x4 x5 x6 x7 x8)
    (h219 : V (Proc.devRef .tc main_v219) = val_main_v219 (F := F) x0 x1 x2 x3 x4 x5 x6 x9 x10) :
    StableHlo.after R4 V (Proc.devRef .tc main_v316) = val_main_v316 (F := F) x0 x1 x2 x3 x4 x5 x6 x7 x8 x9 x10 x11 x12 x13 x14 := by
  simp only [R4]; after_results_simp
  -- the two operands of the joining of x with h·r sit under a pair with its shape: read them by rewriting
  repeat (first | rw [binary_result] | (rw [binary_result_ne]; rotate_left; decide))
  rw [h0, h11, h12, h13, h14, h1, h3, h19, h29, h38, h129, h219]; rfl

/-! ## The whole line -/

section Whole
variable (U : Valuation τ sig (Elt F))

/-- The node array after the second stretch. -/
theorem u2_v39 : (StableHlo.after R2 (StableHlo.after R1 U)) (Proc.devRef .tc main_v39) = val_main_v39 (F := F) (U (Proc.devRef .tc main_arg0)) (U (Proc.devRef .tc main_arg3)) (U (Proc.devRef .tc main_arg4)) (U (Proc.devRef .tc main_arg5)) (U (Proc.devRef .tc main_arg6)) :=
  r2_v39 (StableHlo.after R1 U) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (R1_keeps U main_arg0 (by decide)) (r1_v38 U)

/-- The update gate after the second stretch. -/
theorem u2_v129 : (StableHlo.after R2 (StableHlo.after R1 U)) (Proc.devRef .tc main_v129) = val_main_v129 (F := F) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) :=
  r2_v129 (StableHlo.after R1 U) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (R1_keeps U main_arg0 (by decide)) (R1_keeps U main_arg7 (by decide)) (R1_keeps U main_arg8 (by decide))
    (r1_v1 U) (r1_v3 U) (r1_v19 U) (r1_v29 U) (r1_v38 U)

/-- The reset gate after the third stretch. -/
theorem u3_v219 : (StableHlo.after R3 (StableHlo.after R2 (StableHlo.after R1 U))) (Proc.devRef .tc main_v219) = val_main_v219 (F := F) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg9)) (U (Proc.devRef .tc main_arg10)) :=
  r3_v219 (StableHlo.after R2 (StableHlo.after R1 U)) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg9)) (U (Proc.devRef .tc main_arg10)) ((R2_keeps (StableHlo.after R1 U) main_arg9 (by decide)).trans (R1_keeps U main_arg9 (by decide))) ((R2_keeps (StableHlo.after R1 U) main_arg10 (by decide)).trans (R1_keeps U main_arg10 (by decide)))
    ((R2_keeps (StableHlo.after R1 U) main_v1 (by decide)).trans (r1_v1 U)) ((R2_keeps (StableHlo.after R1 U) main_v3 (by decide)).trans (r1_v3 U)) ((R2_keeps (StableHlo.after R1 U) main_v19 (by decide)).trans (r1_v19 U)) ((R2_keeps (StableHlo.after R1 U) main_v29 (by decide)).trans (r1_v29 U)) (u2_v39 U)

/-- After the line the result buffer holds the last stage of the argument buffers' contents. -/
theorem ref_y : StableHlo.after (ValueL.ops : List (HloOp τ sig (Elt F))) U (Proc.devRef .tc main_v316) = val_main_v316 (F := F) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) := by
  rw [ops_eq, after_append, after_append, after_append]
  exact r4_v316 (StableHlo.after R3 (StableHlo.after R2 (StableHlo.after R1 U))) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) ((R3_keeps (StableHlo.after R2 (StableHlo.after R1 U)) main_arg0 (by decide)).trans ((R2_keeps (StableHlo.after R1 U) main_arg0 (by decide)).trans (R1_keeps U main_arg0 (by decide)))) ((R3_keeps (StableHlo.after R2 (StableHlo.after R1 U)) main_arg11 (by decide)).trans ((R2_keeps (StableHlo.after R1 U) main_arg11 (by decide)).trans (R1_keeps U main_arg11 (by decide)))) ((R3_keeps (StableHlo.after R2 (StableHlo.after R1 U)) main_arg12 (by decide)).trans ((R2_keeps (StableHlo.after R1 U) main_arg12 (by decide)).trans (R1_keeps U main_arg12 (by decide)))) ((R3_keeps (StableHlo.after R2 (StableHlo.after R1 U)) main_arg13 (by decide)).trans ((R2_keeps (StableHlo.after R1 U) main_arg13 (by decide)).trans (R1_keeps U main_arg13 (by decide)))) ((R3_keeps (StableHlo.after R2 (StableHlo.after R1 U)) main_arg14 (by decide)).trans ((R2_keeps (StableHlo.after R1 U) main_arg14 (by decide)).trans (R1_keeps U main_arg14 (by decide))))
    ((R3_keeps (StableHlo.after R2 (StableHlo.after R1 U)) main_v1 (by decide)).trans ((R2_keeps (StableHlo.after R1 U) main_v1 (by decide)).trans (r1_v1 U))) ((R3_keeps (StableHlo.after R2 (StableHlo.after R1 U)) main_v3 (by decide)).trans ((R2_keeps (StableHlo.after R1 U) main_v3 (by decide)).trans (r1_v3 U))) ((R3_keeps (StableHlo.after R2 (StableHlo.after R1 U)) main_v19 (by decide)).trans ((R2_keeps (StableHlo.after R1 U) main_v19 (by decide)).trans (r1_v19 U))) ((R3_keeps (StableHlo.after R2 (StableHlo.after R1 U)) main_v29 (by decide)).trans ((R2_keeps (StableHlo.after R1 U) main_v29 (by decide)).trans (r1_v29 U))) ((R3_keeps (StableHlo.after R2 (StableHlo.after R1 U)) main_v38 (by decide)).trans ((R2_keeps (StableHlo.after R1 U) main_v38 (by decide)).trans (r1_v38 U)))
    ((R3_keeps (StableHlo.after R2 (StableHlo.after R1 U)) main_v129 (by decide)).trans (u2_v129 U)) (u3_v219 U)

/-- After the line the forward weights' buffer holds its stage: only the first stretch writes it. -/
theorem ref_A : StableHlo.after (ValueL.ops : List (HloOp τ sig (Elt F))) U (Proc.devRef .tc main_v19) = val_main_v19 (F := F) (U (Proc.devRef .tc main_arg1)) (U (Proc.devRef .tc main_arg2)) := by
  rw [ops_eq, after_append, after_append, after_append]
  exact (R4_keeps (StableHlo.after R3 (StableHlo.after R2 (StableHlo.after R1 U))) main_v19 (by decide)).trans ((R3_keeps (StableHlo.after R2 (StableHlo.after R1 U)) main_v19 (by decide)).trans ((R2_keeps (StableHlo.after R1 U) main_v19 (by decide)).trans (r1_v19 U)))

/-- No stretch writes an argument buffer. -/
theorem ref_arg (r : Ref sig .tc) (h1 : r ∉ R1_W) (h2 : r ∉ R2_W) (h3 : r ∉ R3_W) (h4 : r ∉ R4_W) :
    StableHlo.after (ValueL.ops : List (HloOp τ sig (Elt F))) U (Proc.devRef .tc r) = U (Proc.devRef .tc r) := by
  rw [ops_eq, after_append, after_append, after_append]
  exact (R4_keeps _ r h4).trans ((R3_keeps _ r h3).trans ((R2_keeps _ r h2).trans (R1_keeps U r h1)))

end Whole

set_option maxRecDepth 16384 in
set_option maxHeartbeats 40000000 in
/-- No operation of the line allocates a buffer. -/
theorem ops_fresh : (ValueL.ops : List (HloOp τ sig (Elt F))).Forall fun op => op.fresh = ∅ := by
  simp only [List.Forall]; repeat' constructor

/-- On every device, from any memory with zero counters: every weakly fair execution of the reference's @main
    terminates with the result at the last stage of the launch arguments, the forward weights at their stage, and the
    arguments unchanged. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v316) = val_main_v316 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v19) = val_main_v19 (F := F) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨ (h c main_v316).trans (ref_y (launchContents m c)),
      (h c main_v19).trans (ref_A (launchContents m c)),
      (h c main_arg0).trans (ref_arg (launchContents m c) main_arg0 (by decide) (by decide) (by decide) (by decide)),
      (h c main_arg1).trans (ref_arg (launchContents m c) main_arg1 (by decide) (by decide) (by decide) (by decide)),
      (h c main_arg2).trans (ref_arg (launchContents m c) main_arg2 (by decide) (by decide) (by decide) (by decide)),
      (h c main_arg3).trans (ref_arg (launchContents m c) main_arg3 (by decide) (by decide) (by decide) (by decide)),
      (h c main_arg4).trans (ref_arg (launchContents m c) main_arg4 (by decide) (by decide) (by decide) (by decide)),
      (h c main_arg5).trans (ref_arg (launchContents m c) main_arg5 (by decide) (by decide) (by decide) (by decide)),
      (h c main_arg6).trans (ref_arg (launchContents m c) main_arg6 (by decide) (by decide) (by decide) (by decide)),
      (h c main_arg7).trans (ref_arg (launchContents m c) main_arg7 (by decide) (by decide) (by decide) (by decide)),
      (h c main_arg8).trans (ref_arg (launchContents m c) main_arg8 (by decide) (by decide) (by decide) (by decide)),
      (h c main_arg9).trans (ref_arg (launchContents m c) main_arg9 (by decide) (by decide) (by decide) (by decide)),
      (h c main_arg10).trans (ref_arg (launchContents m c) main_arg10 (by decide) (by decide) (by decide) (by decide)),
      (h c main_arg11).trans (ref_arg (launchContents m c) main_arg11 (by decide) (by decide) (by decide) (by decide)),
      (h c main_arg12).trans (ref_arg (launchContents m c) main_arg12 (by decide) (by decide) (by decide) (by decide)),
      (h c main_arg13).trans (ref_arg (launchContents m c) main_arg13 (by decide) (by decide) (by decide) (by decide)),
      (h c main_arg14).trans (ref_arg (launchContents m c) main_arg14 (by decide) (by decide) (by decide) (by decide)) ⟩)
    (run_seq ValueL.scopedRefs_eq ValueL.scopedSems_eq defs main (fun _ => ValueL.ops) ValueL.main_eq (fun _ => ValueL.ops_sub) m ρ
      (hfresh := fun _ op h => (List.forall_iff_forall_mem.mp ops_fresh) op h))

end Cert.ReferenceIdeal.RChunk

end
-- ==== Proof.lean ====
/-
  The certificate of the recurrent graph-convolution cell: a warm-start perceptron, two gates and a head as three
  pallas_call regions among host stretches that carry the graph diffusion, against the jnp reference.

  The three frames. The kernel program's frame — at the word-level instance and at the ideal one — is the launch of
  its three regions over the library's several-regions rule: each body loads its input blocks whole and stores each
  output block whole once, so its triple is one symbolic run; the buffer contents at each segment boundary are a fold
  from the launch memory, and no segment writes an argument. The reference has no kernel: its frame is its run with the
  results dropped.

  The value claim, at the ideal instance (floats are extended reals, every operation exact, a change of format the
  identity). Region by region the kernel program's output arrays are dense formulas of the arrays the region is
  entered with: the perceptron; the logistic function of a row of the six stacked diffusion terms against a flattened
  weight [240,5]; and the head. The reference computes each gate's pre-activation as a sum of six products, one
  per diffusion term and slab of the weight [2,3,40,5]. The two agree because a sum over the 240 stacked columns is the
  sum over the six pieces of the sums over their 40 columns, and addition of extended reals is commutative and
  associative: no distributive law, hence no finiteness of the inputs, is needed. Everything else — the edge
  normalisation, the propagation steps, the Chebyshev recurrence — is spelt by the same host operations in both
  programs, and the matrix unit's product into a zero accumulator is the host's dot_general of the same operands.

  The idealization rewrote no operation, so there is nothing to preserve.
-/
import proofs.«114446_j62852551409688_2_alg».proof.Defs
import proofs.«114446_j62852551409688_2_alg».proof.Proof.Gen.Kernel
import proofs.«114446_j62852551409688_2_alg».proof.Proof.Gen.KernelIdeal
import proofs.«114446_j62852551409688_2_alg».proof.Proof.Gen.ReferenceIdeal
import proofs.«114446_j62852551409688_2_alg».proof.Proof.Gen.Pre_finite_inputs
import proofs.«114446_j62852551409688_2_alg».proof.Proof.KRun
import proofs.«114446_j62852551409688_2_alg».proof.Proof.KIRun
import proofs.«114446_j62852551409688_2_alg».proof.Proof.KValue
import proofs.«114446_j62852551409688_2_alg».proof.Proof.RefChunks

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Hand.frame m ρ

/-- So does the kernel program read at the ideal instance. -/
theorem frame_ki : Cert.frame_KernelIdeal := fun m ρ _ => Cert.KernelIdeal.Hand.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RChunk.run_value (F := Ideal) m ρ)

/-- The ideal pass rewrote nothing. -/
theorem preserves : Cert.preserves_Kernel_KernelIdeal := trivial

/-- Both programs end with their first result at the reference's last stage of the arguments and their second at the
    reference's forward edge weights: the kernel program by the walk through its fold, the reference by its run;
    the arguments agree by hypothesis. -/
theorem algebraic : Cert.algebraic_KernelIdeal_ReferenceIdeal := by
  intro m ρ m' ρ' _ hagree
  refine ⟨_, _, Cert.KernelIdeal.KValue.run_value m ρ, ?_⟩
  refine (θ_run Cert.ReferenceIdeal.defs _ _).mono (fun _ h c => ⟨(h c).1.trans ?_, (h c).2.1.trans ?_, (h c).2.2⟩)
    (Cert.ReferenceIdeal.RChunk.run_value (F := Ideal) m' ρ')
  · rw [(hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2.1, (hagree c).2.2.2.2.2.2.2.2.2.2.2.2.1, (hagree c).2.2.2.2.2.2.2.2.2.2.2.2.2.1,
      (hagree c).2.2.2.2.2.2.2.2.2.2.2.2.2.2]
  · rw [(hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
